-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S1024x1 : Shape := ⟨2, ![1024, 1]⟩
abbrev S100000x64 : Shape := ⟨2, ![100000, 64]⟩
abbrev S2000x64 : Shape := ⟨2, ![2000, 64]⟩
abbrev S100000x1 : Shape := ⟨2, ![100000, 1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S2000x64 : S_.BroadcastsInDim S2000x64 (![] : Fin 0 → Fin S2000x64.rank)
  reducesTo_S2000x64_S_d0_1 : S2000x64.ReducesTo [0, 1] S_
  bcast_S_S100000x1 : S_.BroadcastsInDim S100000x1 (![] : Fin 0 → Fin S100000x1.rank)
  reducesTo_S100000x1_S_d0_1 : S100000x1.ReducesTo [0, 1] S_
  bcast_S_S1024x1 : S_.BroadcastsInDim S1024x1 (![] : Fin 0 → Fin S1024x1.rank)
  reducesTo_S1024x1_S_d0_1 : S1024x1.ReducesTo [0, 1] S_

variable [Facts]

def fn_part1 {F : FTy → Type} [FloatOps F] (main_arg0 : IVec S1024x1 32) (main_arg1 : IVec S1024x1 32) (main_v13 : IVec S_ 1) (main_v16 : IVec S100000x1 1) : IVec S_ 1 :=
  let main_c_5 : IVec S_ 1 := constantI S_ 1 1#1
  let main_v17 : IVec S_ 1 := (fun x v => Host.reduce IntOp.andi x v reducesTo_S100000x1_S_d0_1 h_S_) main_v16 main_c_5
  let main_v18 : IVec S_ 1 := andi main_v13 main_v17
  let main_c_6 : IVec S_ 32 := constantI S_ 32 0#32
  let main_v19 : IVec S1024x1 32 := broadcastInDim S1024x1 ![] bcast_S_S1024x1 main_c_6
  let main_v20 : IVec S1024x1 1 := cmpi .sge main_arg0 main_v19
  let main_c_7 : IVec S_ 32 := constantI S_ 32 99999#32
  let main_v21 : IVec S1024x1 32 := broadcastInDim S1024x1 ![] bcast_S_S1024x1 main_c_7
  let main_v22 : IVec S1024x1 1 := cmpi .sle main_arg0 main_v21
  let main_v23 : IVec S1024x1 1 := andi main_v20 main_v22
  let main_c_8 : IVec S_ 1 := constantI S_ 1 1#1
  let main_v24 : IVec S_ 1 := (fun x v => Host.reduce IntOp.andi x v reducesTo_S1024x1_S_d0_1 h_S_) main_v23 main_c_8
  let main_v25 : IVec S_ 1 := andi main_v18 main_v24
  let main_c_9 : IVec S_ 32 := constantI S_ 32 0#32
  let main_v26 : IVec S1024x1 32 := broadcastInDim S1024x1 ![] bcast_S_S1024x1 main_c_9
  let main_v27 : IVec S1024x1 1 := cmpi .sge main_arg1 main_v26
  let main_c_10 : IVec S_ 32 := constantI S_ 32 1999#32
  let main_v28 : IVec S1024x1 32 := broadcastInDim S1024x1 ![] bcast_S_S1024x1 main_c_10
  let main_v29 : IVec S1024x1 1 := cmpi .sle main_arg1 main_v28
  let main_v30 : IVec S1024x1 1 := andi main_v27 main_v29
  let main_c_11 : IVec S_ 1 := constantI S_ 1 1#1
  let main_v31 : IVec S_ 1 := (fun x v => Host.reduce IntOp.andi x v reducesTo_S1024x1_S_d0_1 h_S_) main_v30 main_c_11
  let main_v32 : IVec S_ 1 := andi main_v25 main_v31
  main_v32

def fn {F : FTy → Type} [FloatOps F] (main_arg0 : IVec S1024x1 32) (main_arg1 : IVec S1024x1 32) (main_arg2 : FVec F S100000x64 .f32) (main_arg3 : FVec F S2000x64 .f32) (main_arg4 : FVec F S100000x1 .f32) (main_arg5 : FVec F S100000x1 .f32) : IVec S_ 1 :=
  let main_v0 : FVec F S100000x64 .f32 := Host.absf main_arg2
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S2000x64 .f32 := Host.absf main_arg3
  let main_cst_0 : FVec F S_ .f32 := constant S_ .f32 0x7F800000#32
  let main_v5 : FVec F S2000x64 .f32 := broadcastInDim S2000x64 ![] bcast_S_S2000x64 main_cst_0
  let main_v6 : IVec S2000x64 1 := cmpf .olt main_v4 main_v5
  let main_c_1 : IVec S_ 1 := constantI S_ 1 1#1
  let main_v7 : IVec S_ 1 := (fun x v => Host.reduce IntOp.andi x v reducesTo_S2000x64_S_d0_1 h_S_) main_v6 main_c_1
  let main_v8 : IVec S_ 1 := andi main_v3 main_v7
  let main_v9 : FVec F S100000x1 .f32 := Host.absf main_arg4
  let main_cst_2 : FVec F S_ .f32 := constant S_ .f32 0x7F800000#32
  let main_v10 : FVec F S100000x1 .f32 := broadcastInDim S100000x1 ![] bcast_S_S100000x1 main_cst_2
  let main_v11 : IVec S100000x1 1 := cmpf .olt main_v9 main_v10
  let main_c_3 : IVec S_ 1 := constantI S_ 1 1#1
  let main_v12 : IVec S_ 1 := (fun x v => Host.reduce IntOp.andi x v reducesTo_S100000x1_S_d0_1 h_S_) main_v11 main_c_3
  let main_v13 : IVec S_ 1 := andi main_v8 main_v12
  let main_v14 : FVec F S100000x1 .f32 := Host.absf main_arg5
  let main_cst_4 : FVec F S_ .f32 := constant S_ .f32 0x7F800000#32
  let main_v15 : FVec F S100000x1 .f32 := broadcastInDim S100000x1 ![] bcast_S_S100000x1 main_cst_4
  let main_v16 : IVec S100000x1 1 := cmpf .olt main_v14 main_v15
  fn_part1 (F := F) main_arg0 main_arg1 main_v13 main_v16
-- ==== Kernel.lean ====
abbrev S1024x1 : Shape := ⟨2, ![1024, 1]⟩
abbrev S100000x64 : Shape := ⟨2, ![100000, 64]⟩
abbrev S2000x64 : Shape := ⟨2, ![2000, 64]⟩
abbrev S100000x1 : Shape := ⟨2, ![100000, 1]⟩
abbrev S1024 : Shape := ⟨1, ![1024]⟩
abbrev S64x100000 : Shape := ⟨2, ![64, 100000]⟩
abbrev S64x2000 : Shape := ⟨2, ![64, 2000]⟩
abbrev S100000 : Shape := ⟨1, ![100000]⟩
abbrev S64x1024 : Shape := ⟨2, ![64, 1024]⟩
abbrev S2000 : Shape := ⟨1, ![2000]⟩
abbrev S2x1024 : Shape := ⟨2, ![2, 1024]⟩
abbrev S32 : Shape := ⟨1, ![32]⟩
abbrev S_ : Shape := ⟨0, ![]⟩
abbrev S1x100000 : Shape := ⟨2, ![1, 100000]⟩
abbrev S1x2000 : Shape := ⟨2, ![1, 2000]⟩
abbrev S16 : Shape := ⟨1, ![16]⟩
abbrev S1x16 : Shape := ⟨2, ![1, 16]⟩
abbrev S1x1024 : Shape := ⟨2, ![1, 1024]⟩
abbrev S100000x1024 : Shape := ⟨2, ![100000, 1024]⟩
abbrev S64x4096 : Shape := ⟨2, ![64, 4096]⟩
abbrev S1x4096 : Shape := ⟨2, ![1, 4096]⟩
abbrev S4096x1024 : Shape := ⟨2, ![4096, 1024]⟩
abbrev S1024x100000 : Shape := ⟨2, ![1024, 100000]⟩

abbrev nBuf : Table → Nat
  | .hbm => 17
  | .local .tc .vmem => 8
  | .local .scVector .vmem => 6
  | _ => 0

abbrev bufTy : (tb : Table) → Fin (nBuf tb) → BufTy
  | .hbm, ⟨0, _⟩ => ⟨S1024x1, .i32⟩
  | .hbm, ⟨1, _⟩ => ⟨S1024x1, .i32⟩
  | .hbm, ⟨2, _⟩ => ⟨S100000x64, .f32⟩
  | .hbm, ⟨3, _⟩ => ⟨S2000x64, .f32⟩
  | .hbm, ⟨4, _⟩ => ⟨S100000x1, .f32⟩
  | .hbm, ⟨5, _⟩ => ⟨S100000x1, .f32⟩
  | .hbm, ⟨6, _⟩ => ⟨S1024, .i32⟩
  | .hbm, ⟨7, _⟩ => ⟨S1024, .i32⟩
  | .hbm, ⟨8, _⟩ => ⟨S64x100000, .f32⟩
  | .hbm, ⟨9, _⟩ => ⟨S64x2000, .f32⟩
  | .hbm, ⟨10, _⟩ => ⟨S100000, .f32⟩
  | .hbm, ⟨11, _⟩ => ⟨S64x1024, .f32⟩
  | .hbm, ⟨12, _⟩ => ⟨S1024, .f32⟩
  | .hbm, ⟨13, _⟩ => ⟨S1x1024, .f32⟩
  | .hbm, ⟨14, _⟩ => ⟨S1x100000, .f32⟩
  | .hbm, ⟨15, _⟩ => ⟨S100000x1024, .f32⟩
  | .hbm, ⟨16, _⟩ => ⟨S1024x100000, .f32⟩
  | .local .tc .vmem, ⟨0, _⟩ => ⟨S64x4096, .f32⟩
  | .local .tc .vmem, ⟨1, _⟩ => ⟨S64x4096, .f32⟩
  | .local .tc .vmem, ⟨2, _⟩ => ⟨S64x1024, .f32⟩
  | .local .tc .vmem, ⟨3, _⟩ => ⟨S1x1024, .f32⟩
  | .local .tc .vmem, ⟨4, _⟩ => ⟨S1x4096, .f32⟩
  | .local .tc .vmem, ⟨5, _⟩ => ⟨S1x4096, .f32⟩
  | .local .tc .vmem, ⟨6, _⟩ => ⟨S4096x1024, .f32⟩
  | .local .tc .vmem, ⟨7, _⟩ => ⟨S4096x1024, .f32⟩
  | .local .scVector .vmem, ⟨0, _⟩ => ⟨S1024, .i32⟩
  | .local .scVector .vmem, ⟨1, _⟩ => ⟨S1024, .i32⟩
  | .local .scVector .vmem, ⟨2, _⟩ => ⟨S100000, .f32⟩
  | .local .scVector .vmem, ⟨3, _⟩ => ⟨S2000, .f32⟩
  | .local .scVector .vmem, ⟨4, _⟩ => ⟨S2x1024, .f32⟩
  | .local .scVector .vmem, ⟨5, _⟩ => ⟨S32, .f32⟩
  | _, _ => ⟨S1024x1, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 15 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTables nBuf rfl bufTy 4 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v0_scv : Ref sig .scVector := ⟨.hbm, 6, rfl⟩
abbrev main_v1_scv : Ref sig .scVector := ⟨.hbm, 7, rfl⟩
abbrev main_v2_scv : Ref sig .scVector := ⟨.hbm, 8, rfl⟩
abbrev main_v3_scv : Ref sig .scVector := ⟨.hbm, 9, rfl⟩
abbrev main_v4_scv : Ref sig .scVector := ⟨.hbm, 10, rfl⟩
abbrev main_v5_0_scv : Ref sig .scVector := ⟨.hbm, 11, rfl⟩
abbrev main_v5_1_scv : Ref sig .scVector := ⟨.hbm, 12, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg3_1 : Ref sig .tc := ⟨.vmem, 5, rfl⟩
abbrev cc1_stg4_0 : Ref sig .tc := ⟨.vmem, 6, rfl⟩
abbrev cc1_stg4_1 : Ref sig .tc := ⟨.vmem, 7, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem3_1 : DmaSem sig := 12
abbrev cc1_sem4_0 : DmaSem sig := 13
abbrev cc1_sem4_1 : DmaSem sig := 14
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v3 : BitVec 32 := Scalar.muli v1 c32_i32
  ![v3.toNat]
def k0_off2 (i : grid0.Coords) (c0_i32_1 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v6 : BitVec 32 := Scalar.addi v2 c0_i32_1
  let c0_i32_2 : BitVec 32 := 0#32
  ![v6.toNat, 0]
def k0_off3 (i : grid0.Coords) (c0_i32_1 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v6 : BitVec 32 := Scalar.addi v2 c0_i32_1
  let c0_i32_4 : BitVec 32 := 0#32
  ![v6.toNat, 0]
@[reducible] def k0_t1_loop : Scf.Loop 32 :=
  let c0_i32_10 : BitVec 32 := 0#32
  let c64_i32 : BitVec 32 := 64#32
  let v23 : BitVec 32 := Scalar.addi c0_i32_10 c64_i32
  let c1_i32 : BitVec 32 := 1#32
  ⟨c0_i32_10, v23, c1_i32⟩
def k0_off4 (k0_t1 : Fin k0_t1_loop.trips) : Fin 1 → Nat :=
  let c0_i32_10 : BitVec 32 := 0#32
  let c1_i32 : BitVec 32 := 1#32
  let arg18 : BitVec 32 := Scf.iv c0_i32_10 c1_i32 k0_t1
  let c16_i32 : BitVec 32 := 16#32
  let v45 : BitVec 32 := Scalar.muli arg18 c16_i32
  let v46 : Index := Scalar.indexCast v45
  ![v46.toNat]

def k0_chk1 (v47 : IVec S16 32) : Prop :=
  (∀ a x, ((![v47] : Fin 1 → IVec S16 32) a x).toNat < S100000.size a)
instance k0_chk1.dec : ∀ (v47 : IVec S16 32), Decidable (k0_chk1 v47) := fun v47 => decidable_of_iff' _ (Iff.of_eq (k0_chk1.eq_1 v47))
theorem k0_idx1_inb : ∀ (v47 : IVec S16 32) (k0_hw1 : k0_chk1 v47), ∀ a x, ((![v47] : Fin 1 → IVec S16 32) a x).toNat < S100000.size a := fun v47 k0_hw1 => k0_hw1
def k0_off5 (k0_t1 : Fin k0_t1_loop.trips) : Fin 1 → Nat :=
  let c0_i32_10 : BitVec 32 := 0#32
  let c1_i32 : BitVec 32 := 1#32
  let arg18 : BitVec 32 := Scf.iv c0_i32_10 c1_i32 k0_t1
  let c16_i32 : BitVec 32 := 16#32
  let v45 : BitVec 32 := Scalar.muli arg18 c16_i32
  let v49 : Index := Scalar.indexCast v45
  ![v49.toNat]

def k0_chk2 (v50 : IVec S16 32) : Prop :=
  (∀ a x, ((![v50] : Fin 1 → IVec S16 32) a x).toNat < S2000.size a)
instance k0_chk2.dec : ∀ (v50 : IVec S16 32), Decidable (k0_chk2 v50) := fun v50 => decidable_of_iff' _ (Iff.of_eq (k0_chk2.eq_1 v50))
theorem k0_idx2_inb : ∀ (v50 : IVec S16 32) (k0_hw2 : k0_chk2 v50), ∀ a x, ((![v50] : Fin 1 → IVec S16 32) a x).toNat < S2000.size a := fun v50 k0_hw2 => k0_hw2
def k0_off6 (k0_t1 : Fin k0_t1_loop.trips) : Fin 2 → Nat :=
  let c0_i32_27 : BitVec 32 := 0#32
  let v53 : Index := Scalar.indexCast c0_i32_27
  let c0_i32_10 : BitVec 32 := 0#32
  let c1_i32 : BitVec 32 := 1#32
  let arg18 : BitVec 32 := Scf.iv c0_i32_10 c1_i32 k0_t1
  let c16_i32 : BitVec 32 := 16#32
  let v45 : BitVec 32 := Scalar.muli arg18 c16_i32
  let v54 : Index := Scalar.indexCast v45
  ![0, v54.toNat]
@[reducible] def k0_t2_loop : Scf.Loop 32 :=
  let c0_i32_21 : BitVec 32 := 0#32
  let c64_i32_22 : BitVec 32 := 64#32
  let v41 : BitVec 32 := Scalar.addi c0_i32_21 c64_i32_22
  let c1_i32_23 : BitVec 32 := 1#32
  ⟨c0_i32_21, v41, c1_i32_23⟩
def k0_off7 (k0_t2 : Fin k0_t2_loop.trips) : Fin 1 → Nat :=
  let c0_i32_21 : BitVec 32 := 0#32
  let c1_i32_23 : BitVec 32 := 1#32
  let arg18 : BitVec 32 := Scf.iv c0_i32_21 c1_i32_23 k0_t2
  let c16_i32 : BitVec 32 := 16#32
  let v45 : BitVec 32 := Scalar.muli arg18 c16_i32
  let v46 : Index := Scalar.indexCast v45
  ![v46.toNat]

def k0_chk3 (v47 : IVec S16 32) : Prop :=
  (∀ a x, ((![v47] : Fin 1 → IVec S16 32) a x).toNat < S100000.size a)
instance k0_chk3.dec : ∀ (v47 : IVec S16 32), Decidable (k0_chk3 v47) := fun v47 => decidable_of_iff' _ (Iff.of_eq (k0_chk3.eq_1 v47))
theorem k0_idx3_inb : ∀ (v47 : IVec S16 32) (k0_hw3 : k0_chk3 v47), ∀ a x, ((![v47] : Fin 1 → IVec S16 32) a x).toNat < S100000.size a := fun v47 k0_hw3 => k0_hw3
def k0_off8 (k0_t2 : Fin k0_t2_loop.trips) : Fin 1 → Nat :=
  let c0_i32_21 : BitVec 32 := 0#32
  let c1_i32_23 : BitVec 32 := 1#32
  let arg18 : BitVec 32 := Scf.iv c0_i32_21 c1_i32_23 k0_t2
  let c16_i32 : BitVec 32 := 16#32
  let v45 : BitVec 32 := Scalar.muli arg18 c16_i32
  let v49 : Index := Scalar.indexCast v45
  ![v49.toNat]

def k0_chk4 (v50 : IVec S16 32) : Prop :=
  (∀ a x, ((![v50] : Fin 1 → IVec S16 32) a x).toNat < S2000.size a)
instance k0_chk4.dec : ∀ (v50 : IVec S16 32), Decidable (k0_chk4 v50) := fun v50 => decidable_of_iff' _ (Iff.of_eq (k0_chk4.eq_1 v50))
theorem k0_idx4_inb : ∀ (v50 : IVec S16 32) (k0_hw4 : k0_chk4 v50), ∀ a x, ((![v50] : Fin 1 → IVec S16 32) a x).toNat < S2000.size a := fun v50 k0_hw4 => k0_hw4
def k0_off9 (k0_t2 : Fin k0_t2_loop.trips) : Fin 2 → Nat :=
  let c1_i32_27 : BitVec 32 := 1#32
  let v53 : Index := Scalar.indexCast c1_i32_27
  let c0_i32_21 : BitVec 32 := 0#32
  let c1_i32_23 : BitVec 32 := 1#32
  let arg18 : BitVec 32 := Scf.iv c0_i32_21 c1_i32_23 k0_t2
  let c16_i32 : BitVec 32 := 16#32
  let v45 : BitVec 32 := Scalar.muli arg18 c16_i32
  let v54 : Index := Scalar.indexCast v45
  ![1, v54.toNat]
def k0_off10 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_27_r2 : BitVec 32 := 0#32
  ![v2.toNat, 0]
abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S64x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4096x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S1024x1_S1024 : S1024x1.ShapeCasts S1024
  transposes_S100000x64_S64x100000_1_0 : S100000x64.Transposes [1, 0] S64x100000
  transposes_S2000x64_S64x2000_1_0 : S2000x64.Transposes [1, 0] S64x2000
  shapeCasts_S100000x1_S100000 : S100000x1.ShapeCasts S100000
  inb_S100000_S100000_0 : ∀ a, (![0] : Fin 1 → Nat) a + S100000.size a ≤ S100000.size a
  gathers_S100000_S32 : S100000.Gathers 0 S32
  squeezes_S1x100000_S100000 : S1x100000.Squeezes S100000
  squeezes_S1x2000_S2000 : S1x2000.Squeezes S2000
  h_S16 : 0 < S16.numel
  h_S100000 : 0 < S100000.numel
  h_S2000 : 0 < S2000.numel
  h_S1x16 : 0 < S1x16.numel
  shapeCasts_S1x16_S16 : S1x16.ShapeCasts S16
  shapeCasts_S16_S1x16 : S16.ShapeCasts S1x16
  shapeCasts_S1024_S1x1024 : S1024.ShapeCasts S1x1024
  shapeCasts_S100000x1_S1x100000 : S100000x1.ShapeCasts S1x100000
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S4096x1024 : S1x1024.Broadcasts S4096x1024
  inb_S4096x1024_S4096x1024_0_0 : ∀ a, (![0, 0] : Fin 2 → Nat) a + S4096x1024.size a ≤ S4096x1024.size a
  h_S4096x1024 : 0 < S4096x1024.numel
  transposes_S100000x1024_S1024x100000_1_0 : S100000x1024.Transposes [1, 0] S1024x100000
  dot_S64x4096_S64x1024_S4096x1024_0_0_1_1_n_n_wf : DotDims.WF S64x4096 S64x1024 S4096x1024 [0] [0] [1] [1] [] []
  dot_S1x4096_S1x1024_S4096x1024_0_0_1_1_n_n_wf : DotDims.WF S1x4096 S1x1024 S4096x1024 [0] [0] [1] [1] [] []
  hcc0_scratch6 : 0 + S_.numel ≤ 15
  hcc0_scratch7 : 1 + S_.numel ≤ 15
  hcc0_scratch8 : 2 + S_.numel ≤ 15
  hcc0_scoped0 : 3 + S_.numel ≤ 15
  hcc0_scoped1 : 4 + S_.numel ≤ 15
  hcc0_scoped2 : 5 + S_.numel ≤ 15
  hcc0_scoped3 : 6 + S_.numel ≤ 15
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S32.size a ≤ S1024.size a
  k0_off2_inb : ∀ i : grid0.Coords, ∀ (r : Fin 2), ∀ a, (k0_off2 i (BitVec.ofNat 32 r.val)) a + S1x100000.size a ≤ S64x100000.size a
  k0_off3_inb : ∀ i : grid0.Coords, ∀ (r : Fin 2), ∀ a, (k0_off3 i (BitVec.ofNat 32 r.val)) a + S1x2000.size a ≤ S64x2000.size a
  k0_t1_ok : k0_t1_loop.OK
  k0_off4_inb : ∀ k0_t1 : Fin k0_t1_loop.trips, ∀ a, (k0_off4 k0_t1) a + S16.size a ≤ S1024.size a
  k0_off5_inb : ∀ k0_t1 : Fin k0_t1_loop.trips, ∀ a, (k0_off5 k0_t1) a + S16.size a ≤ S1024.size a
  k0_off6_inb : ∀ k0_t1 : Fin k0_t1_loop.trips, ∀ a, (k0_off6 k0_t1) a + S1x16.size a ≤ S2x1024.size a
  k0_t2_ok : k0_t2_loop.OK
  k0_off7_inb : ∀ k0_t2 : Fin k0_t2_loop.trips, ∀ a, (k0_off7 k0_t2) a + S16.size a ≤ S1024.size a
  k0_off8_inb : ∀ k0_t2 : Fin k0_t2_loop.trips, ∀ a, (k0_off8 k0_t2) a + S16.size a ≤ S1024.size a
  k0_off9_inb : ∀ k0_t2 : Fin k0_t2_loop.trips, ∀ a, (k0_off9 k0_t2) a + S1x16.size a ≤ S2x1024.size a
  k0_off10_inb : ∀ i : grid0.Coords, ∀ a, (k0_off10 i) a + S2x1024.size a ≤ S64x1024.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hstart1_0 : ∀ (i : grid1.Coords) a, cc1_transform_0 i a * S64x4096.size a < S64x100000.size a
  hwx1_0 : ∀ i : grid1.Coords, EltTy.bits .f32 = 32 ∨ (Rect.unit (s := S64x100000) (fun a => cc1_transform_0 i a * S64x4096.size a) (fun a => (Pipeline.Clip.of (cc1_transform_0 i a) (S64x4096.size a) (S64x100000.size a)).extent (S64x4096.size a)) fun a => Pipeline.Clip.inb (Pipeline.Clip.ok_of (hstart1_0 i a))).WholeWords (EltTy.packing .f32)
  hwxs1_0 : ∀ i : grid1.Coords, EltTy.bits .f32 = 32 ∨ (Rect.unit (s := S64x4096) (fun _ => 0) (fun a => (Pipeline.Clip.of (cc1_transform_0 i a) (S64x4096.size a) (S64x100000.size a)).extent (S64x4096.size a)) fun a => (Nat.zero_add _).trans_le (Pipeline.Clip.extent_le (Pipeline.Clip.ok_of (hstart1_0 i a)))).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x1024.size a ≤ S64x1024.size a
  hwx1_1 : ∀ i : grid1.Coords, EltTy.bits .f32 = 32 ∨ (Rect.block (s := S64x1024) S64x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hstart1_3 : ∀ (i : grid1.Coords) a, cc1_transform_3 i a * S1x4096.size a < S1x100000.size a
  hwx1_3 : ∀ i : grid1.Coords, EltTy.bits .f32 = 32 ∨ (Rect.unit (s := S1x100000) (fun a => cc1_transform_3 i a * S1x4096.size a) (fun a => (Pipeline.Clip.of (cc1_transform_3 i a) (S1x4096.size a) (S1x100000.size a)).extent (S1x4096.size a)) fun a => Pipeline.Clip.inb (Pipeline.Clip.ok_of (hstart1_3 i a))).WholeWords (EltTy.packing .f32)
  hwxs1_3 : ∀ i : grid1.Coords, EltTy.bits .f32 = 32 ∨ (Rect.unit (s := S1x4096) (fun _ => 0) (fun a => (Pipeline.Clip.of (cc1_transform_3 i a) (S1x4096.size a) (S1x100000.size a)).extent (S1x4096.size a)) fun a => (Nat.zero_add _).trans_le (Pipeline.Clip.extent_le (Pipeline.Clip.ok_of (hstart1_3 i a)))).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hstart1_4 : ∀ (i : grid1.Coords) a, cc1_transform_4 i a * S4096x1024.size a < S100000x1024.size a
  hwx1_4 : ∀ i : grid1.Coords, EltTy.bits .f32 = 32 ∨ (Rect.unit (s := S100000x1024) (fun a => cc1_transform_4 i a * S4096x1024.size a) (fun a => (Pipeline.Clip.of (cc1_transform_4 i a) (S4096x1024.size a) (S100000x1024.size a)).extent (S4096x1024.size a)) fun a => Pipeline.Clip.inb (Pipeline.Clip.ok_of (hstart1_4 i a))).WholeWords (EltTy.packing .f32)
  hwxs1_4 : ∀ i : grid1.Coords, EltTy.bits .f32 = 32 ∨ (Rect.unit (s := S4096x1024) (fun _ => 0) (fun a => (Pipeline.Clip.of (cc1_transform_4 i a) (S4096x1024.size a) (S100000x1024.size a)).extent (S4096x1024.size a)) fun a => (Nat.zero_add _).trans_le (Pipeline.Clip.extent_le (Pipeline.Clip.ok_of (hstart1_4 i a)))).WholeWords (EltTy.packing .f32)

variable [Facts₀]

abbrev cc0_scratch6 : DmaSems sig S_ := SemArray.consecutive 0 S_ hcc0_scratch6
abbrev cc0_scratch7 : DmaSems sig S_ := SemArray.consecutive 1 S_ hcc0_scratch7
abbrev cc0_scratch8 : DmaSems sig S_ := SemArray.consecutive 2 S_ hcc0_scratch8
abbrev cc0_scoped0 : DmaSems sig S_ := SemArray.consecutive 3 S_ hcc0_scoped0
abbrev cc0_scoped1 : DmaSems sig S_ := SemArray.consecutive 4 S_ hcc0_scoped1
abbrev cc0_scoped2 : DmaSems sig S_ := SemArray.consecutive 5 S_ hcc0_scoped2
abbrev cc0_scoped3 : DmaSems sig S_ := SemArray.consecutive 6 S_ hcc0_scoped3
def dot_S64x4096_S64x1024_S4096x1024_0_0_1_1_n_n : DotDims S64x4096 S64x1024 S4096x1024 where
  lhsContracting := [0]
  rhsContracting := [0]
  lhsNonContracting := [1]
  rhsNonContracting := [1]
  lhsBatch := []
  rhsBatch := []
  wf := dot_S64x4096_S64x1024_S4096x1024_0_0_1_1_n_n_wf
def dot_S1x4096_S1x1024_S4096x1024_0_0_1_1_n_n : DotDims S1x4096 S1x1024 S4096x1024 where
  lhsContracting := [0]
  rhsContracting := [0]
  lhsNonContracting := [1]
  rhsNonContracting := [1]
  lhsBatch := []
  rhsBatch := []
  wf := dot_S1x4096_S1x1024_S4096x1024_0_0_1_1_n_n_wf

abbrev win1_0 : Pipeline.Window sig grid1 :=
  Pipeline.Window.ofSpecClip (Memref.whole main_v2) S64x4096.size cc1_transform_0 reads1_0 false false 2 stage1_0 sem1_0
    hrank1 hreads1_0 hstart1_0 nbuf1_0 (Memref.isWhole_whole _) hwx1_0 hwxs1_0 hstage1_0

abbrev win1_1 : Pipeline.Window sig grid1 :=
  Pipeline.Window.ofSpec (Memref.whole main_v5_0) S64x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpecClip (Memref.whole main_v7) S1x4096.size cc1_transform_3 reads1_3 false false 2 stage1_3 sem1_3
    hrank1 hreads1_3 hstart1_3 nbuf1_3 (Memref.isWhole_whole _) hwx1_3 hwxs1_3 hstage1_3

abbrev win1_4 : Pipeline.Window sig grid1 :=
  Pipeline.Window.ofSpecClip (Memref.whole main_v8) S4096x1024.size cc1_transform_4 reads1_4 true false 2 stage1_4 sem1_4
    hrank1 hreads1_4 hstart1_4 nbuf1_4 (Memref.isWhole_whole _) hwx1_4 hwxs1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S1024x1 : Shape := ⟨2, ![1024, 1]⟩
abbrev S100000x64 : Shape := ⟨2, ![100000, 64]⟩
abbrev S2000x64 : Shape := ⟨2, ![2000, 64]⟩
abbrev S100000x1 : Shape := ⟨2, ![100000, 1]⟩
abbrev S_ : Shape := ⟨0, ![]⟩
abbrev S1024x1x1 : Shape := ⟨3, ![1024, 1, 1]⟩
abbrev S1 : Shape := ⟨1, ![1]⟩
abbrev S1x1x1 : Shape := ⟨3, ![1, 1, 1]⟩
abbrev S1024x1x64 : Shape := ⟨3, ![1024, 1, 64]⟩
abbrev S100000 : Shape := ⟨1, ![100000]⟩
abbrev S1x100000 : Shape := ⟨2, ![1, 100000]⟩
abbrev S1024x64 : Shape := ⟨2, ![1024, 64]⟩
abbrev S64x100000 : Shape := ⟨2, ![64, 100000]⟩
abbrev S1024x100000 : Shape := ⟨2, ![1024, 100000]⟩

abbrev nBuf : Space → Nat
  | .hbm => 86
  | .vmem => 0
  | .smem => 0
  | _ => 0

abbrev bufTy : (tb : Table) → Fin (tcTables nBuf tb) → BufTy
  | .hbm, ⟨0, _⟩ => ⟨S1024x1, .i32⟩
  | .hbm, ⟨1, _⟩ => ⟨S1024x1, .i32⟩
  | .hbm, ⟨2, _⟩ => ⟨S100000x64, .f32⟩
  | .hbm, ⟨3, _⟩ => ⟨S2000x64, .f32⟩
  | .hbm, ⟨4, _⟩ => ⟨S100000x1, .f32⟩
  | .hbm, ⟨5, _⟩ => ⟨S100000x1, .f32⟩
  | .hbm, ⟨6, _⟩ => ⟨S_, .i32⟩
  | .hbm, ⟨7, _⟩ => ⟨S1024x1, .i32⟩
  | .hbm, ⟨8, _⟩ => ⟨S1024x1, .i1⟩
  | .hbm, ⟨9, _⟩ => ⟨S_, .i32⟩
  | .hbm, ⟨10, _⟩ => ⟨S1024x1, .i32⟩
  | .hbm, ⟨11, _⟩ => ⟨S1024x1, .i32⟩
  | .hbm, ⟨12, _⟩ => ⟨S1024x1, .i32⟩
  | .hbm, ⟨13, _⟩ => ⟨S1024x1x1, .i32⟩
  | .hbm, ⟨14, _⟩ => ⟨S1, .i32⟩
  | .hbm, ⟨15, _⟩ => ⟨S_, .i32⟩
  | .hbm, ⟨16, _⟩ => ⟨S1024x1x1, .i32⟩
  | .hbm, ⟨17, _⟩ => ⟨S1024x1x1, .i1⟩
  | .hbm, ⟨18, _⟩ => ⟨S1x1x1, .i32⟩
  | .hbm, ⟨19, _⟩ => ⟨S1024x1x1, .i32⟩
  | .hbm, ⟨20, _⟩ => ⟨S1024x1x1, .i1⟩
  | .hbm, ⟨21, _⟩ => ⟨S1024x1x1, .i1⟩
  | .hbm, ⟨22, _⟩ => ⟨S_, .i1⟩
  | .hbm, ⟨23, _⟩ => ⟨S1024x1, .i1⟩
  | .hbm, ⟨24, _⟩ => ⟨S1024x1x64, .f32⟩
  | .hbm, ⟨25, _⟩ => ⟨S1024x1x64, .i1⟩
  | .hbm, ⟨26, _⟩ => ⟨S_, .f32⟩
  | .hbm, ⟨27, _⟩ => ⟨S1024x1x64, .f32⟩
  | .hbm, ⟨28, _⟩ => ⟨S1024x1x64, .f32⟩
  | .hbm, ⟨29, _⟩ => ⟨S100000, .f32⟩
  | .hbm, ⟨30, _⟩ => ⟨S1x100000, .f32⟩
  | .hbm, ⟨31, _⟩ => ⟨S_, .i32⟩
  | .hbm, ⟨32, _⟩ => ⟨S1024x1, .i32⟩
  | .hbm, ⟨33, _⟩ => ⟨S1024x1, .i1⟩
  | .hbm, ⟨34, _⟩ => ⟨S_, .i32⟩
  | .hbm, ⟨35, _⟩ => ⟨S1024x1, .i32⟩
  | .hbm, ⟨36, _⟩ => ⟨S1024x1, .i32⟩
  | .hbm, ⟨37, _⟩ => ⟨S1024x1, .i32⟩
  | .hbm, ⟨38, _⟩ => ⟨S1024x1x1, .i32⟩
  | .hbm, ⟨39, _⟩ => ⟨S1, .i32⟩
  | .hbm, ⟨40, _⟩ => ⟨S_, .i32⟩
  | .hbm, ⟨41, _⟩ => ⟨S1024x1x1, .i32⟩
  | .hbm, ⟨42, _⟩ => ⟨S1024x1x1, .i1⟩
  | .hbm, ⟨43, _⟩ => ⟨S1x1x1, .i32⟩
  | .hbm, ⟨44, _⟩ => ⟨S1024x1x1, .i32⟩
  | .hbm, ⟨45, _⟩ => ⟨S1024x1x1, .i1⟩
  | .hbm, ⟨46, _⟩ => ⟨S1024x1x1, .i1⟩
  | .hbm, ⟨47, _⟩ => ⟨S_, .i1⟩
  | .hbm, ⟨48, _⟩ => ⟨S1024x1, .i1⟩
  | .hbm, ⟨49, _⟩ => ⟨S1024x1x1, .f32⟩
  | .hbm, ⟨50, _⟩ => ⟨S1024x1x1, .i1⟩
  | .hbm, ⟨51, _⟩ => ⟨S_, .f32⟩
  | .hbm, ⟨52, _⟩ => ⟨S1024x1x1, .f32⟩
  | .hbm, ⟨53, _⟩ => ⟨S1024x1x1, .f32⟩
  | .hbm, ⟨54, _⟩ => ⟨S1024x1, .f32⟩
  | .hbm, ⟨55, _⟩ => ⟨S_, .i32⟩
  | .hbm, ⟨56, _⟩ => ⟨S1024x1, .i32⟩
  | .hbm, ⟨57, _⟩ => ⟨S1024x1, .i1⟩
  | .hbm, ⟨58, _⟩ => ⟨S_, .i32⟩
  | .hbm, ⟨59, _⟩ => ⟨S1024x1, .i32⟩
  | .hbm, ⟨60, _⟩ => ⟨S1024x1, .i32⟩
  | .hbm, ⟨61, _⟩ => ⟨S1024x1, .i32⟩
  | .hbm, ⟨62, _⟩ => ⟨S1024x1x1, .i32⟩
  | .hbm, ⟨63, _⟩ => ⟨S1, .i32⟩
  | .hbm, ⟨64, _⟩ => ⟨S_, .i32⟩
  | .hbm, ⟨65, _⟩ => ⟨S1024x1x1, .i32⟩
  | .hbm, ⟨66, _⟩ => ⟨S1024x1x1, .i1⟩
  | .hbm, ⟨67, _⟩ => ⟨S1x1x1, .i32⟩
  | .hbm, ⟨68, _⟩ => ⟨S1024x1x1, .i32⟩
  | .hbm, ⟨69, _⟩ => ⟨S1024x1x1, .i1⟩
  | .hbm, ⟨70, _⟩ => ⟨S1024x1x1, .i1⟩
  | .hbm, ⟨71, _⟩ => ⟨S_, .i1⟩
  | .hbm, ⟨72, _⟩ => ⟨S1024x1, .i1⟩
  | .hbm, ⟨73, _⟩ => ⟨S1024x1x64, .f32⟩
  | .hbm, ⟨74, _⟩ => ⟨S1024x1x64, .i1⟩
  | .hbm, ⟨75, _⟩ => ⟨S_, .f32⟩
  | .hbm, ⟨76, _⟩ => ⟨S1024x1x64, .f32⟩
  | .hbm, ⟨77, _⟩ => ⟨S1024x1x64, .f32⟩
  | .hbm, ⟨78, _⟩ => ⟨S1024x1x64, .f32⟩
  | .hbm, ⟨79, _⟩ => ⟨S1024x64, .f32⟩
  | .hbm, ⟨80, _⟩ => ⟨S64x100000, .f32⟩
  | .hbm, ⟨81, _⟩ => ⟨S1024x100000, .f32⟩
  | .hbm, ⟨82, _⟩ => ⟨S1024x100000, .f32⟩
  | .hbm, ⟨83, _⟩ => ⟨S1024x100000, .f32⟩
  | .hbm, ⟨84, _⟩ => ⟨S1024x100000, .f32⟩
  | .hbm, ⟨85, _⟩ => ⟨S1024x100000, .f32⟩
  | _, _ => ⟨S1024x1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_c_1 : Ref sig .tc := ⟨.hbm, 39, rfl⟩
abbrev main_call1_c_2 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_3 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_call1_cst : Ref sig .tc := ⟨.hbm, 51, rfl⟩
abbrev main_call1_v15 : Ref sig .tc := ⟨.hbm, 52, rfl⟩
abbrev main_v3 : Ref sig .tc := ⟨.hbm, 53, rfl⟩
abbrev main_v4 : Ref sig .tc := ⟨.hbm, 54, rfl⟩
abbrev main_call2_c : Ref sig .tc := ⟨.hbm, 55, rfl⟩
abbrev main_call2_v0 : Ref sig .tc := ⟨.hbm, 56, rfl⟩
abbrev main_call2_v1 : Ref sig .tc := ⟨.hbm, 57, rfl⟩
abbrev main_call2_c_0 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_call2_v5 : Ref sig .tc := ⟨.hbm, 62, rfl⟩
abbrev main_call2_c_1 : Ref sig .tc := ⟨.hbm, 63, rfl⟩
abbrev main_call2_c_2 : Ref sig .tc := ⟨.hbm, 64, rfl⟩
abbrev main_call2_v6 : Ref sig .tc := ⟨.hbm, 65, rfl⟩
abbrev main_call2_v7 : Ref sig .tc := ⟨.hbm, 66, rfl⟩
abbrev main_call2_v8 : Ref sig .tc := ⟨.hbm, 67, rfl⟩
abbrev main_call2_v9 : Ref sig .tc := ⟨.hbm, 68, rfl⟩
abbrev main_call2_v10 : Ref sig .tc := ⟨.hbm, 69, rfl⟩
abbrev main_call2_v11 : Ref sig .tc := ⟨.hbm, 70, rfl⟩
abbrev main_call2_c_3 : Ref sig .tc := ⟨.hbm, 71, rfl⟩
abbrev main_call2_v12 : Ref sig .tc := ⟨.hbm, 72, rfl⟩
abbrev main_call2_v13 : Ref sig .tc := ⟨.hbm, 73, rfl⟩
abbrev main_call2_v14 : Ref sig .tc := ⟨.hbm, 74, rfl⟩
abbrev main_call2_cst : Ref sig .tc := ⟨.hbm, 75, rfl⟩
abbrev main_call2_v15 : Ref sig .tc := ⟨.hbm, 76, rfl⟩
abbrev main_v5 : Ref sig .tc := ⟨.hbm, 77, rfl⟩
abbrev main_v6 : Ref sig .tc := ⟨.hbm, 78, rfl⟩
abbrev main_v7 : Ref sig .tc := ⟨.hbm, 79, rfl⟩
abbrev main_v8 : Ref sig .tc := ⟨.hbm, 80, rfl⟩
abbrev main_v9 : Ref sig .tc := ⟨.hbm, 81, rfl⟩
abbrev main_v10 : Ref sig .tc := ⟨.hbm, 82, rfl⟩
abbrev main_v11 : Ref sig .tc := ⟨.hbm, 83, rfl⟩
abbrev main_v12 : Ref sig .tc := ⟨.hbm, 84, rfl⟩
abbrev main_v13 : Ref sig .tc := ⟨.hbm, 85, rfl⟩

abbrev nD : Nat := 1
abbrev τ : Topo := Topo.v7x

variable {F : FTy → Type} [FloatOps F]

class Facts₀ : Prop where
  bcast_S_S1024x1 : S_.BroadcastsInDim S1024x1 (![] : Fin 0 → Fin S1024x1.rank)
  bcast_S1024x1_S1024x1x1_0_1 : S1024x1.BroadcastsInDim S1024x1x1 (![0, 1] : Fin 2 → Fin S1024x1x1.rank)
  bcast_S_S1024x1x1 : S_.BroadcastsInDim S1024x1x1 (![] : Fin 0 → Fin S1024x1x1.rank)
  bcast_S1_S1x1x1_2 : S1.BroadcastsInDim S1x1x1 (![2] : Fin 1 → Fin S1x1x1.rank)
  bcast_S1x1x1_S1024x1x1_0_1_2 : S1x1x1.BroadcastsInDim S1024x1x1 (![0, 1, 2] : Fin 3 → Fin S1024x1x1.rank)
  reducesTo_S1024x1x1_S1024x1_d2 : S1024x1x1.ReducesTo [2] S1024x1
  h_S_ : 0 < S_.numel
  bcast_S1024x1_S1024x1x64_0_1 : S1024x1.BroadcastsInDim S1024x1x64 (![0, 1] : Fin 2 → Fin S1024x1x64.rank)
  bcast_S_S1024x1x64 : S_.BroadcastsInDim S1024x1x64 (![] : Fin 0 → Fin S1024x1x64.rank)
  shapeCasts_S100000x1_S100000 : S100000x1.ShapeCasts S100000
  bcast_S100000_S1x100000_1 : S100000.BroadcastsInDim S1x100000 (![1] : Fin 1 → Fin S1x100000.rank)
  shapeCasts_S1024x1x1_S1024x1 : S1024x1x1.ShapeCasts S1024x1
  shapeCasts_S1024x1x64_S1024x64 : S1024x1x64.ShapeCasts S1024x64
  transposes_S100000x64_S64x100000_1_0 : S100000x64.Transposes [1, 0] S64x100000
  bcast_S1024x1_S1024x100000_0_1 : S1024x1.BroadcastsInDim S1024x100000 (![0, 1] : Fin 2 → Fin S1024x100000.rank)
  bcast_S1x100000_S1024x100000_0_1 : S1x100000.BroadcastsInDim S1024x100000 (![0, 1] : Fin 2 → Fin S1024x100000.rank)
  gather_S100000x64_S1024x1x1_S1024x1x64_2_0_n_n_0_2_164_wf : GatherDims.WF S100000x64 S1024x1x1 S1024x1x64 [2] [0] [] [0] [] 2 ![1, 64]
  gather_S100000x1_S1024x1x1_S1024x1x1_2_0_n_n_0_2_11_wf : GatherDims.WF S100000x1 S1024x1x1 S1024x1x1 [2] [0] [] [0] [] 2 ![1, 1]
  gather_S2000x64_S1024x1x1_S1024x1x64_2_0_n_n_0_2_164_wf : GatherDims.WF S2000x64 S1024x1x1 S1024x1x64 [2] [0] [] [0] [] 2 ![1, 64]
  dot_S1024x64_S64x100000_S1024x100000_1_0_0_1_n_n_wf : DotDims.WF S1024x64 S64x100000 S1024x100000 [1] [0] [0] [1] [] []

variable [Facts₀]

def gather_S100000x64_S1024x1x1_S1024x1x64_2_0_n_n_0_2_164 : GatherDims S100000x64 S1024x1x1 S1024x1x64 where
  offsetDims := [2]
  collapsedSliceDims := [0]
  operandBatchingDims := []
  startIndicesBatchingDims := []
  startIndexMap := [0]
  indexVectorDim := 2
  sliceSizes := ![1, 64]
  wf := gather_S100000x64_S1024x1x1_S1024x1x64_2_0_n_n_0_2_164_wf
def gather_S100000x1_S1024x1x1_S1024x1x1_2_0_n_n_0_2_11 : GatherDims S100000x1 S1024x1x1 S1024x1x1 where
  offsetDims := [2]
  collapsedSliceDims := [0]
  operandBatchingDims := []
  startIndicesBatchingDims := []
  startIndexMap := [0]
  indexVectorDim := 2
  sliceSizes := ![1, 1]
  wf := gather_S100000x1_S1024x1x1_S1024x1x1_2_0_n_n_0_2_11_wf
def gather_S2000x64_S1024x1x1_S1024x1x64_2_0_n_n_0_2_164 : GatherDims S2000x64 S1024x1x1 S1024x1x64 where
  offsetDims := [2]
  collapsedSliceDims := [0]
  operandBatchingDims := []
  startIndicesBatchingDims := []
  startIndexMap := [0]
  indexVectorDim := 2
  sliceSizes := ![1, 64]
  wf := gather_S2000x64_S1024x1x1_S1024x1x64_2_0_n_n_0_2_164_wf
def dot_S1024x64_S64x100000_S1024x100000_1_0_0_1_n_n : DotDims S1024x64 S64x100000 S1024x100000 where
  lhsContracting := [1]
  rhsContracting := [0]
  lhsNonContracting := [0]
  rhsNonContracting := [1]
  lhsBatch := []
  rhsBatch := []
  wf := dot_S1024x64_S64x100000_S1024x100000_1_0_0_1_n_n_wf

class Facts : Prop extends Facts₀ where

variable [Facts]
-- ==== Proof.ScSetup.lean ====
/-
  The SparseCore gather of the kernel program, seen as the launch theorem sees it.

  Thirty-two vector subcores (two SparseCores of sixteen) each take a worker number
  wid = 2 * subcore + core.  Worker wid copies the 1024 entity words and the 1024
  relation words into its own memory, fetches rows 2 wid and 2 wid + 1 of the transposed entity
  and relation tables one after the other, and for each of them forms, sixteen lanes at a time,
  the products  ent^T[d, src b] * rel^T[d, rel b]  for b < 1024, which it writes to rows
  2 wid, 2 wid + 1 of the 64 x 1024 result; beside that it gathers head_bias[src b] for its
  own thirty-two b into entries 32 wid .. 32 wid + 31 of the second result.

  This file fixes the vocabulary: the value functions, the index sets a worker owns, the shares
  of the tables every worker reads, and what the calls' handshakes carry.
-/
import proofs.«203358_g20435454394731_cont_8to1_1864_22_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import Idealize.ShloMosaic.Lib.ValueIdx
import proofs.«203358_g20435454394731_cont_8to1_1864_22_alg».proof.Proof.Gen.KernelIdeal
import proofs.«203358_g20435454394731_cont_8to1_1864_22_alg».proof.Proof.Gen.KernelIdeal.Skeleton

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the staging cells' rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP : Emb UP 𝕄).LandsIn (upEmb : UEmb _ 𝕄) := by unfold EP; infer_instance

/-! ## The value functions -/

/-- An index word as a row of a table of n rows (row 0 when out of range, which the precondition excludes). -/
def rowOf (n : ℕ) [NeZero n] (w : BitVec 32) : Fin n := if h : w.toNat < n then ⟨w.toNat, h⟩ else 0

theorem rowOf_of_lt {n : ℕ} [NeZero n] {w : BitVec 32} (h : w.toNat < n) : rowOf n w = ⟨w.toNat, h⟩ := dif_pos h

open ValueIdx in
/-- Row d, column b of the first result: the product of entry (d, src b) of the transposed entity table and
    entry (d, rel b) of the transposed relation table. -/
def hrtVal [FloatOps F] (A0 A1 : S1024.Idx → BitVec 32) (X2 : S64x100000.Idx → F .f32) (X3 : S64x2000.Idx → F .f32) : S64x1024.Idx → F .f32 :=
  fun j => FloatOps.mulf (X2 (ix2 (j 0) (rowOf 100000 (A0 (ix1 (j 1)))))) (X3 (ix2 (j 0) (rowOf 2000 (A1 (ix1 (j 1))))))

open ValueIdx in
/-- Entry b of the second result: the head bias of entity src b. -/
def hbVal (A0 : S1024.Idx → BitVec 32) (X4 : S100000.Idx → F .f32) : S1024.Idx → F .f32 :=
  fun j => X4 (ix1 (rowOf 100000 (A0 j)))

/-! ## What the arrays hold when the call is made -/

/-- The contents, on one device, of the five arrays the workers read (the entity words, the relation words, the
    transposed entity and relation tables, the head bias as a vector) and of the two arrays they write, at the call. -/
structure Cts (F : FTy → Type) where
  a0 : S1024.Idx → BitVec 32
  a1 : S1024.Idx → BitVec 32
  x2 : S64x100000.Idx → F .f32
  x3 : S64x2000.Idx → F .f32
  x4 : S100000.Idx → F .f32
  o0 : S64x1024.Idx → F .f32
  o1 : S1024.Idx → F .f32

/-- What the proof asks of the index words: every entity word names a row of the entity table, every relation word
    a row of the relation table. -/
def Cts.Ok (C : Cts F) : Prop := ∀ j, (C.a0 j).toNat < 100000 ∧ (C.a1 j).toNat < 2000

/-! ## The arrays and a worker's scratch, as the body table passes them -/

abbrev l0 (d : Dev nD) : Loc nD τ sig := (SparseCore.T d).loc main_v0
abbrev l1 (d : Dev nD) : Loc nD τ sig := (SparseCore.T d).loc main_v1
abbrev l2 (d : Dev nD) : Loc nD τ sig := (SparseCore.T d).loc main_v2
abbrev l3 (d : Dev nD) : Loc nD τ sig := (SparseCore.T d).loc main_v3
abbrev l4 (d : Dev nD) : Loc nD τ sig := (SparseCore.T d).loc main_v4
abbrev lo0 (d : Dev nD) : Loc nD τ sig := (SparseCore.T d).loc main_v5_0
abbrev lo1 (d : Dev nD) : Loc nD τ sig := (SparseCore.T d).loc main_v5_1

abbrev m0V : Memref sig .scVector .hbm S1024 .i32 := Memref.whole main_v0_scv
abbrev m1V : Memref sig .scVector .hbm S1024 .i32 := Memref.whole main_v1_scv
abbrev m2V : Memref sig .scVector .hbm S64x100000 .f32 := Memref.whole main_v2_scv
abbrev m3V : Memref sig .scVector .hbm S64x2000 .f32 := Memref.whole main_v3_scv
abbrev m4V : Memref sig .scVector .hbm S100000 .f32 := Memref.whole main_v4_scv
abbrev o0V : Memref sig .scVector .hbm S64x1024 .f32 := Memref.whole main_v5_0_scv
abbrev o1V : Memref sig .scVector .hbm S1024 .f32 := Memref.whole main_v5_1_scv
/-- A worker's scratch: the entity words, the relation words, a row of each table, the two product rows, the biases. -/
abbrev s0V : Memref sig .scVector .vmem S1024 .i32 := Memref.whole cc0_scratch0
abbrev s1V : Memref sig .scVector .vmem S1024 .i32 := Memref.whole cc0_scratch1
abbrev s2V : Memref sig .scVector .vmem S100000 .f32 := Memref.whole cc0_scratch2
abbrev s3V : Memref sig .scVector .vmem S2000 .f32 := Memref.whole cc0_scratch3
abbrev s4V : Memref sig .scVector .vmem S2x1024 .f32 := Memref.whole cc0_scratch4
abbrev s5V : Memref sig .scVector .vmem S32 .f32 := Memref.whole cc0_scratch5

abbrev cV (L : grid0.Coords) : Fin τ.nSC := (L 0).castLE hcore0
abbrev jV (L : grid0.Coords) : Fin τ.nSub := (L 1).castLE hsub0

/-- The two rows of the first result worker L writes, the thirty-two entries of the second, and the thirty-two
    entity words its bias gather reads, as the body slices them. -/
abbrev oRowK (L : grid0.Coords) : Memref sig .scVector .hbm S2x1024 .f32 :=
  (o0V).slice (Rect.unit (s := S64x1024) (k0_off10 L) S2x1024.size (k0_off10_inb L)) (fun _ => rfl)
abbrev oSegK (L : grid0.Coords) : Memref sig .scVector .hbm S32 .f32 :=
  (o1V).slice (Rect.unit (s := S1024) (k0_off1 L) S32.size (k0_off1_inb L)) (fun _ => rfl)
abbrev offsK (L : grid0.Coords) : Memref sig .scVector .vmem S32 .i32 :=
  (s0V).slice (Rect.unit (s := S1024) (k0_off1 L) S32.size (k0_off1_inb L)) (fun _ => rfl)

abbrev rowsSet (L : grid0.Coords) : Finset S64x1024.Idx := (oRowK L).view.set
abbrev segSet (L : grid0.Coords) : Finset S1024.Idx := (oSegK L).view.set

/-! ## A worker's seven DMA semaphores and six scratch buffers -/

section Own

variable (d : Dev nD) (L : grid0.Coords)

abbrev cell (sm : DmaSem sig) : GSem nD τ sig := (V d (cV L) (jV L), .dma sm)

theorem cell_ne {sm sm' : DmaSem sig} (h : sm ≠ sm') : cell d L sm ≠ cell d L sm' :=
  fun e => h (SemLoc.dma.inj (Prod.mk.inj e).2)

theorem cell_mem (sm : DmaSem sig) (h : (SemLoc.dma sm : SemLoc sig).isScoped .scVector = true) :
    cell d L sm ∈ ownCells (V d (cV L) (jV L)) := (mem_ownCells (g := cell d L sm)).mpr ⟨rfl, h⟩

abbrev q6 : DmaSem sig := cc0_scratch6.sem
abbrev q7 : DmaSem sig := cc0_scratch7.sem
abbrev q8 : DmaSem sig := cc0_scratch8.sem
abbrev p0 : DmaSem sig := cc0_scoped0.sem
abbrev p1 : DmaSem sig := cc0_scoped1.sem
abbrev p2 : DmaSem sig := cc0_scoped2.sem
abbrev p3 : DmaSem sig := cc0_scoped3.sem

theorem ownSems0_V :
    (ownSems0 (V d (cV L) (jV L)) : sProp 𝕄)
      = iprop(semVal (cell d L q6) 0 ∗ semVal (cell d L q7) 0 ∗ semVal (cell d L q8) 0 ∗ semVal (cell d L p0) 0
          ∗ semVal (cell d L p1) 0 ∗ semVal (cell d L p2) 0 ∗ semVal (cell d L p3) 0
          ∗ bigSep ((((((((ownCells (V d (cV L) (jV L))).erase (cell d L q6)).erase (cell d L q7)).erase (cell d L q8)).erase (cell d L p0)).erase (cell d L p1)).erase (cell d L p2)).erase (cell d L p3))
              fun g => semVal g 0) := by
  unfold SparseCore.Cfg.ownSems0
  have h6 := cell_mem d L q6 (by decide)
  have h7 := cell_mem d L q7 (by decide)
  have h8 := cell_mem d L q8 (by decide)
  have g0 := cell_mem d L p0 (by decide)
  have g1 := cell_mem d L p1 (by decide)
  have g2 := cell_mem d L p2 (by decide)
  have g3 := cell_mem d L p3 (by decide)
  have ne : ∀ {a b : DmaSem sig}, a ≠ b → cell d L a ≠ cell d L b := fun h => cell_ne d L h
  rw [SparseCore.bigSep_erase' h6,
    SparseCore.bigSep_erase' (Finset.mem_erase.mpr ⟨ne (by decide), h7⟩),
    SparseCore.bigSep_erase' (Finset.mem_erase.mpr ⟨ne (by decide), Finset.mem_erase.mpr ⟨ne (by decide), h8⟩⟩),
    SparseCore.bigSep_erase' (Finset.mem_erase.mpr ⟨ne (by decide), Finset.mem_erase.mpr ⟨ne (by decide), Finset.mem_erase.mpr ⟨ne (by decide), g0⟩⟩⟩),
    SparseCore.bigSep_erase' (Finset.mem_erase.mpr ⟨ne (by decide), Finset.mem_erase.mpr ⟨ne (by decide), Finset.mem_erase.mpr ⟨ne (by decide), Finset.mem_erase.mpr ⟨ne (by decide), g1⟩⟩⟩⟩),
    SparseCore.bigSep_erase' (Finset.mem_erase.mpr ⟨ne (by decide), Finset.mem_erase.mpr ⟨ne (by decide), Finset.mem_erase.mpr ⟨ne (by decide), Finset.mem_erase.mpr ⟨ne (by decide), Finset.mem_erase.mpr ⟨ne (by decide), g2⟩⟩⟩⟩⟩),
    SparseCore.bigSep_erase' (Finset.mem_erase.mpr ⟨ne (by decide), Finset.mem_erase.mpr ⟨ne (by decide), Finset.mem_erase.mpr ⟨ne (by decide), Finset.mem_erase.mpr ⟨ne (by decide), Finset.mem_erase.mpr ⟨ne (by decide), Finset.mem_erase.mpr ⟨ne (by decide), g3⟩⟩⟩⟩⟩⟩)]

abbrev bref (r : Ref sig .scVector) : DevRef τ sig := (Proc.scVector (cV L) (jV L)).devRef r

theorem bref_mem (r : Ref sig .scVector) (h : (bref L r).owner = .proc (Proc.scVector (cV L) (jV L))) : bref L r ∈ ownRefs (τ := τ) (.scVector (cV L) (jV L)) :=
  SparseCore.Cfg.mem_ownRefs_of_owner (p := Proc.scVector (cV L) (jV L)) (b := bref L r) h

theorem bref_ne {r r' : Ref sig .scVector} (h : r ≠ r') : bref L r ≠ bref L r' := fun e => h (Proc.devRef_injective _ e)

theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ (∃ f, (V d (cV L) (jV L)).loc cc0_scratch4 ↦{fullShare} f) ∗ (∃ f, (V d (cV L) (jV L)).loc cc0_scratch5 ↦{fullShare} f)
          ∗ bigSep (((((((ownRefs (τ := τ) (.scVector (cV L) (jV L))).erase (bref L cc0_scratch0)).erase (bref L cc0_scratch1)).erase (bref L cc0_scratch2)).erase (bref L cc0_scratch3)).erase (bref L cc0_scratch4)).erase (bref L cc0_scratch5))
              fun b => iprop(∃ f, ((d, b) : Loc nD τ sig) ↦{fullShare} f)) := by
  unfold SparseCore.Cfg.ownBufs
  have h0 := bref_mem L cc0_scratch0 rfl
  have h1 := bref_mem L cc0_scratch1 rfl
  have h2 := bref_mem L cc0_scratch2 rfl
  have h3 := bref_mem L cc0_scratch3 rfl
  have h4 := bref_mem L cc0_scratch4 rfl
  have h5 := bref_mem L cc0_scratch5 rfl
  have ne : ∀ {a b : Ref sig .scVector}, a ≠ b → bref L a ≠ bref L b := fun h => bref_ne L h
  refine (SparseCore.bigSep_erase' h0).trans ?_
  rw [SparseCore.bigSep_erase' (Finset.mem_erase.mpr ⟨ne (by decide), h1⟩),
    SparseCore.bigSep_erase' (Finset.mem_erase.mpr ⟨ne (by decide), Finset.mem_erase.mpr ⟨ne (by decide), h2⟩⟩),
    SparseCore.bigSep_erase' (Finset.mem_erase.mpr ⟨ne (by decide), Finset.mem_erase.mpr ⟨ne (by decide), Finset.mem_erase.mpr ⟨ne (by decide), h3⟩⟩⟩),
    SparseCore.bigSep_erase' (Finset.mem_erase.mpr ⟨ne (by decide), Finset.mem_erase.mpr ⟨ne (by decide), Finset.mem_erase.mpr ⟨ne (by decide), Finset.mem_erase.mpr ⟨ne (by decide), h4⟩⟩⟩⟩),
    SparseCore.bigSep_erase' (Finset.mem_erase.mpr ⟨ne (by decide), Finset.mem_erase.mpr ⟨ne (by decide), Finset.mem_erase.mpr ⟨ne (by decide), Finset.mem_erase.mpr ⟨ne (by decide), Finset.mem_erase.mpr ⟨ne (by decide), h5⟩⟩⟩⟩⟩)]

end Own

end Cert.KernelIdeal.Sc

end
-- ==== Proof.ScPay.lean ====
/-
  What the one SparseCore call's handshakes carry.  The TensorCore hands each SparseCore a read share of the five
  tables and, for each of its sixteen workers, the worker's two rows of the first result and thirty-two entries of
  the second; the sequencer deals every worker a further share of the tables and its own rows; the workers hand
  back the shares and their rows at the products and biases, and the SparseCore returns them to the TensorCore.
-/
import proofs.«203358_g20435454394731_cont_8to1_1864_22_alg».proof.Proof.ScSetup

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Workers -/

theorem bound_zero : grid0.bound 0 = 2 := rfl
theorem bound_one : grid0.bound 1 = 16 := rfl

def coordsV (c : Fin (grid0.bound 0)) (s : Fin (grid0.bound 1)) : grid0.Coords :=
  fun | 0 => c | 1 => s | ⟨_ + 2, h⟩ => absurd h (Nat.not_lt.2 (Nat.le_add_left _ _))

/-- The worker on subcore i of SparseCore c. -/
abbrev coords (c : Fin 2) (i : Fin 16) : grid0.Coords := coordsV (Fin.cast bound_zero.symm c) (Fin.cast bound_one.symm i)

/-- SparseCore c's share of a table, and worker (c, i)'s share of that. -/
abbrev cq (c : Fin 2) : PosShare TreeShare := Transfers.shareTok fullShare 2 c
abbrev tq (c : Fin 2) (i : Fin 16) : PosShare TreeShare := Transfers.shareTok (cq c) 16 i

section Res

variable (d : Dev nD) (L : grid0.Coords) (C : Cts F)

/-- What a worker is handed: a share of each table, its rows of the two results outright. -/
abbrev goRes (q : PosShare TreeShare) : sProp 𝕄 :=
  iprop((l0 d ↦{q} C.a0) ∗ (l1 d ↦{q} C.a1) ∗ (l2 d ↦{q} C.x2) ∗ (l3 d ↦{q} C.x3) ∗ (l4 d ↦{q} C.x4)
    ∗ (lo0 d ↦[rowsSet L]{fullShare} C.o0) ∗ (lo1 d ↦[segSet L]{fullShare} C.o1))

variable [FloatOps F]

/-- What it hands back: the shares, its rows at the products, its entries at the biases. -/
abbrev tdRes (q : PosShare TreeShare) : sProp 𝕄 :=
  iprop((l0 d ↦{q} C.a0) ∗ (l1 d ↦{q} C.a1) ∗ (l2 d ↦{q} C.x2) ∗ (l3 d ↦{q} C.x3) ∗ (l4 d ↦{q} C.x4)
    ∗ (lo0 d ↦[rowsSet L]{fullShare} hrtVal C.a0 C.a1 C.x2 C.x3) ∗ (lo1 d ↦[segSet L]{fullShare} hbVal C.a0 C.x4))

end Res

section Pay

variable (C : Dev nD → Cts F)

/-- A SparseCore's share of the five tables. -/
abbrev reads (d : Dev nD) (q : PosShare TreeShare) : sProp 𝕄 :=
  iprop((l0 d ↦{q} (C d).a0) ∗ (l1 d ↦{q} (C d).a1) ∗ (l2 d ↦{q} (C d).x2) ∗ (l3 d ↦{q} (C d).x3) ∗ (l4 d ↦{q} (C d).x4))

abbrev outs0 (d : Dev nD) (c : Fin 2) (i : Fin 16) : sProp 𝕄 :=
  iprop((lo0 d ↦[rowsSet (coords c i)]{fullShare} (C d).o0) ∗ (lo1 d ↦[segSet (coords c i)]{fullShare} (C d).o1))

variable [FloatOps F]

abbrev outs1 (d : Dev nD) (c : Fin 2) (i : Fin 16) : sProp 𝕄 :=
  iprop((lo0 d ↦[rowsSet (coords c i)]{fullShare} hrtVal (C d).a0 (C d).a1 (C d).x2 (C d).x3)
    ∗ (lo1 d ↦[segSet (coords c i)]{fullShare} hbVal (C d).a0 (C d).x4))

def P : (K (F := F)).Pay (nD := nD) (Val := Elt F) (Name := ℕ) (U := UU) where
  st := fun q d c => match q with
    | 0 => iprop(reads C d (cq (Fin.cast nCore_zero c)) ∗ bigSep Finset.univ fun i : Fin 16 => outs0 C d (Fin.cast nCore_zero c) i)
  dn := fun q d c => match q with
    | 0 => iprop(reads C d (cq (Fin.cast nCore_zero c)) ∗ bigSep Finset.univ fun i : Fin 16 => outs1 C d (Fin.cast nCore_zero c) i)
  go := fun q d c i => match q with
    | 0 => goRes d (coords (Fin.cast nCore_zero c) (Fin.cast nSub_zero i)) (C d) (tq (Fin.cast nCore_zero c) (Fin.cast nSub_zero i))
  td := fun q d c i => match q with
    | 0 => tdRes d (coords (Fin.cast nCore_zero c) (Fin.cast nSub_zero i)) (C d) (tq (Fin.cast nCore_zero c) (Fin.cast nSub_zero i))
  x := fun _ _ => iprop(emp)

instance P_storable : (P (F := F) C).IsStorable where
  st q d c := match q with
    | 0 => (inferInstance : BI.Storable (upEmb : UEmb _ 𝕄)
        iprop(reads C d (cq (Fin.cast nCore_zero c)) ∗ bigSep Finset.univ fun i : Fin 16 => outs0 C d (Fin.cast nCore_zero c) i))
  dn q d c := match q with
    | 0 => (inferInstance : BI.Storable (upEmb : UEmb _ 𝕄)
        iprop(reads C d (cq (Fin.cast nCore_zero c)) ∗ bigSep Finset.univ fun i : Fin 16 => outs1 C d (Fin.cast nCore_zero c) i))
  go q d c i := match q with
    | 0 => (inferInstance : BI.Storable (upEmb : UEmb _ 𝕄)
        (goRes d (coords (Fin.cast nCore_zero c) (Fin.cast nSub_zero i)) (C d) (tq (Fin.cast nCore_zero c) (Fin.cast nSub_zero i))))
  td q d c i := match q with
    | 0 => (inferInstance : BI.Storable (upEmb : UEmb _ 𝕄)
        (tdRes d (coords (Fin.cast nCore_zero c) (Fin.cast nSub_zero i)) (C d) (tq (Fin.cast nCore_zero c) (Fin.cast nSub_zero i))))

/-! ## A SparseCore's operands split among its workers, and their results gathered -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P C) 0 := by
  intro d c
  show iprop(reads C d (cq (Fin.cast nCore_zero c)) ∗ bigSep Finset.univ fun i : Fin 16 => outs0 C d (Fin.cast nCore_zero c) i)
    ⊢ |={Set.univ}=> iprop(
      (bigSep Finset.univ fun i : Fin ((K (F := F)).nSub 0) =>
        goRes d (coords (Fin.cast nCore_zero c) (Fin.cast nSub_zero i)) (C d) (tq (Fin.cast nCore_zero c) (Fin.cast nSub_zero i)))
      ∗ ((bigSep Finset.univ fun i : Fin ((K (F := F)).nSub 0) =>
          tdRes d (coords (Fin.cast nCore_zero c) (Fin.cast nSub_zero i)) (C d) (tq (Fin.cast nCore_zero c) (Fin.cast nSub_zero i)))
          -∗ iprop(reads C d (cq (Fin.cast nCore_zero c)) ∗ bigSep Finset.univ fun i : Fin 16 => outs1 C d (Fin.cast nCore_zero c) i)))
  generalize Fin.cast nCore_zero c = c'
  rw [bigSep_tasks (F := F) (fun i => goRes d (coords c' i) (C d) (tq c' i)),
    bigSep_tasks (F := F) (fun i => tdRes d (coords c' i) (C d) (tq c' i))]
  unfold goRes tdRes reads outs0 outs1
  simp only [bigSep_sep']
  iintro ⟨⟨H0, H1, H2, H3, H4⟩, Ho0, Ho1⟩
  ihave H0s := (Transfers.pointsTo_toks_split (cq c') 16) $$ H0
  ihave H1s := (Transfers.pointsTo_toks_split (cq c') 16) $$ H1
  ihave H2s := (Transfers.pointsTo_toks_split (cq c') 16) $$ H2
  ihave H3s := (Transfers.pointsTo_toks_split (cq c') 16) $$ H3
  ihave H4s := (Transfers.pointsTo_toks_split (cq c') 16) $$ H4
  icases H0s with ⟨D0, T0⟩
  icases H1s with ⟨D1, T1⟩
  icases H2s with ⟨D2, T2⟩
  icases H3s with ⟨D3, T3⟩
  icases H4s with ⟨D4, T4⟩
  imodintro
  isplitl [T0 T1 T2 T3 T4 Ho0 Ho1]
  · isplitl [T0]; · iexact T0
    isplitl [T1]; · iexact T1
    isplitl [T2]; · iexact T2
    isplitl [T3]; · iexact T3
    isplitl [T4]; · iexact T4
    isplitl [Ho0]; · iexact Ho0
    iexact Ho1
  iintro ⟨T0, T1, T2, T3, T4, Ho0, Ho1⟩
  isplitl [D0 D1 D2 D3 D4 T0 T1 T2 T3 T4]
  · isplitl [D0 T0]
    · iapply (Transfers.pointsTo_toks_join (cq c') 16); isplitl [D0] <;> iassumption
    isplitl [D1 T1]
    · iapply (Transfers.pointsTo_toks_join (cq c') 16); isplitl [D1] <;> iassumption
    isplitl [D2 T2]
    · iapply (Transfers.pointsTo_toks_join (cq c') 16); isplitl [D2] <;> iassumption
    isplitl [D3 T3]
    · iapply (Transfers.pointsTo_toks_join (cq c') 16); isplitl [D3] <;> iassumption
    · iapply (Transfers.pointsTo_toks_join (cq c') 16); isplitl [D4] <;> iassumption
  isplitl [Ho0]; · iexact Ho0
  iexact Ho1

end Pay

end Cert.KernelIdeal.Sc

end
-- ==== Proof.ScIndex.lean ====
/-
  Index arithmetic of one worker's task: what the store of a sixteen-lane chunk of products leaves in the product
  scratch, what the copy of the product rows leaves in the first result, what the gathered biases copied out leave
  in the second.  Pure facts about views, rectangles and the value functions; no program is run here.
-/
import proofs.«203358_g20435454394731_cont_8to1_1864_22_alg».proof.Proof.ScPay

noncomputable section

namespace Cert.KernelIdeal.Sc

open Cert.KernelIdeal Cert.KernelIdeal.Gen
open Idealize.ShloMosaic

variable {F : FTy → Type} [FloatOps F]

section Tile

variable (L : grid0.Coords) (C : Cts F)

/-- Row 2 wid + r of each transposed table, as the body slices and squeezes it. -/
abbrev rowK (r : Fin 2) : Memref sig .scVector .hbm S100000 .f32 :=
  ((m2V).slice (Rect.unit (s := S64x100000) (k0_off2 L (BitVec.ofNat 32 r.val)) S1x100000.size (k0_off2_inb L r)) (fun _ => rfl)).squeeze S100000 squeezes_S1x100000_S100000
abbrev rrowK (r : Fin 2) : Memref sig .scVector .hbm S2000 .f32 :=
  ((m3V).slice (Rect.unit (s := S64x2000) (k0_off3 L (BitVec.ofNat 32 r.val)) S1x2000.size (k0_off3_inb L r)) (fun _ => rfl)).squeeze S2000 squeezes_S1x2000_S2000

/-- What the two product rows are to hold: the first result at the places the copy-out will put them. -/
def Gv : S2x1024.Idx → F .f32 := fun j => hrtVal C.a0 C.a1 C.x2 C.x3 ((oRowK L).view.emb j)

/-- Two indices of a rank-two shape with the same coordinates are equal. -/
theorem idx2_ext {n0 n1 : ℕ} {i j : (⟨2, ![n0, n1]⟩ : Shape).Idx} (h0 : (i 0).val = (j 0).val) (h1 : (i 1).val = (j 1).val) : i = j :=
  funext (Fin.forall_fin_two.mpr ⟨Fin.ext h0, Fin.ext h1⟩)

theorem wrow_lt (r : Fin 2) : 4 * (L 1).val + 2 * (L 0).val + r.val < 64 := by
  have h0 : (L 0).val < 2 := (L 0).isLt
  have h1 : (L 1).val < 16 := (L 1).isLt
  have := r.isLt
  omega

theorem rowK_emb (r : Fin 2) (x : S100000.Idx) :
    (rowK L r).view.emb x = (ValueIdx.ix2 ⟨4 * (L 1).val + 2 * (L 0).val + r.val, wrow_lt L r⟩ (x 0) : S64x100000.Idx) := by
  have hz : Shape.reshapeEquiv (squeezes_S1x100000_S100000).numel_eq x = (ValueIdx.ix2 (0 : Fin 1) (x 0) : S1x100000.Idx) := by
    apply Shape.reshapeEquiv_eq_of_rowMajor
    rw [Shape.rowMajor_val_two, Shape.rowMajor_val_one]
    show 0 * 100000 + (x 0).val = (x 0).val
    omega
  show (Rect.unit (s := S64x100000) (k0_off2 L (BitVec.ofNat 32 r.val)) S1x100000.size (k0_off2_inb L r)).emb
      (Shape.reshapeEquiv (squeezes_S1x100000_S100000).numel_eq x) = _
  rw [hz]
  apply idx2_ext
  · show k0_off2 L (BitVec.ofNat 32 r.val) 0 + 1 * 0 = 4 * (L 1).val + 2 * (L 0).val + r.val
    rw [k0_off2_eq]
    show 4 * (L 1).val + 2 * (L 0).val + r.val + 1 * 0 = _
    omega
  · show k0_off2 L (BitVec.ofNat 32 r.val) 1 + 1 * (x 0).val = (x 0).val
    rw [k0_off2_eq]
    show 0 + 1 * (x 0).val = _
    omega

theorem rrowK_emb (r : Fin 2) (x : S2000.Idx) :
    (rrowK L r).view.emb x = (ValueIdx.ix2 ⟨4 * (L 1).val + 2 * (L 0).val + r.val, wrow_lt L r⟩ (x 0) : S64x2000.Idx) := by
  have hz : Shape.reshapeEquiv (squeezes_S1x2000_S2000).numel_eq x = (ValueIdx.ix2 (0 : Fin 1) (x 0) : S1x2000.Idx) := by
    apply Shape.reshapeEquiv_eq_of_rowMajor
    rw [Shape.rowMajor_val_two, Shape.rowMajor_val_one]
    show 0 * 2000 + (x 0).val = (x 0).val
    omega
  show (Rect.unit (s := S64x2000) (k0_off3 L (BitVec.ofNat 32 r.val)) S1x2000.size (k0_off3_inb L r)).emb
      (Shape.reshapeEquiv (squeezes_S1x2000_S2000).numel_eq x) = _
  rw [hz]
  apply idx2_ext
  · show k0_off3 L (BitVec.ofNat 32 r.val) 0 + 1 * 0 = 4 * (L 1).val + 2 * (L 0).val + r.val
    rw [k0_off3_eq]
    show 4 * (L 1).val + 2 * (L 0).val + r.val + 1 * 0 = _
    omega
  · show k0_off3 L (BitVec.ofNat 32 r.val) 1 + 1 * (x 0).val = (x 0).val
    rw [k0_off3_eq]
    show 0 + 1 * (x 0).val = _
    omega

theorem orow_lt (p : Fin 2) : 4 * (L 1).val + 2 * (L 0).val + p.val < 64 := wrow_lt L p

theorem oRowK_emb (j : S2x1024.Idx) :
    (oRowK L).view.emb j = (ValueIdx.ix2 ⟨4 * (L 1).val + 2 * (L 0).val + (j 0).val, wrow_lt L (j 0)⟩ (j 1) : S64x1024.Idx) := by
  show (Rect.unit (s := S64x1024) (k0_off10 L) S2x1024.size (k0_off10_inb L)).emb j = _
  apply idx2_ext
  · show k0_off10 L 0 + 1 * (j 0).val = 4 * (L 1).val + 2 * (L 0).val + (j 0).val
    rw [k0_off10_eq]
    show 4 * (L 1).val + 2 * (L 0).val + 1 * (j 0).val = _
    omega
  · show k0_off10 L 1 + 1 * (j 1).val = (j 1).val
    rw [k0_off10_eq]
    show 0 + 1 * (j 1).val = _
    omega

/-- A copy of a table row in a worker's memory, read back whole: entry x is the table's entry (row, x). -/
theorem ent_read (r : Fin 2) (x : S100000.Idx) :
    View.read (Elt F) ((s2V).access (Rect.whole S100000)) ((rowK L r).view.read (Elt F) C.x2) x
      = C.x2 (ValueIdx.ix2 ⟨4 * (L 1).val + 2 * (L 0).val + r.val, wrow_lt L r⟩ (x 0)) := by
  show (rowK L r).view.read (Elt F) C.x2 ((Rect.whole S100000).emb x) = _
  rw [Rect.emb_whole_apply]
  show C.x2 ((rowK L r).view.emb x) = _
  rw [rowK_emb]

theorem rel_read (r : Fin 2) (x : S2000.Idx) :
    View.read (Elt F) ((s3V).access (Rect.whole S2000)) ((rrowK L r).view.read (Elt F) C.x3) x
      = C.x3 (ValueIdx.ix2 ⟨4 * (L 1).val + 2 * (L 0).val + r.val, wrow_lt L r⟩ (x 0)) := by
  show (rrowK L r).view.read (Elt F) C.x3 ((Rect.whole S2000).emb x) = _
  rw [Rect.emb_whole_apply]
  show C.x3 ((rrowK L r).view.emb x) = _
  rw [rrowK_emb]

/-- Lane q of the sixteen words loaded at offset 16 kk of a worker's copy of the entity words is word 16 kk + q. -/
theorem words0_at (A : S1024.Idx → BitVec 32) (kk : ℕ) (h : ∀ a, (![16 * kk] : Fin 1 → ℕ) a + S16.size a ≤ S1024.size a)
    (q : Fin 16) (p : Fin 1024) (hp : p.val = 16 * kk + q.val) :
    (s0V).view.readAt (Elt F) (Rect.unit (s := S1024) ![16 * kk] S16.size h).toLoadRect A (ValueIdx.ix1 q) = A (ValueIdx.ix1 p) := by
  have hi : (Rect.unit (s := S1024) ![16 * kk] S16.size h).toLoadRect.idx (ValueIdx.ix1 q) = (ValueIdx.ix1 p : S1024.Idx) := by
    funext a
    apply Fin.ext
    match a with
    | ⟨0, _⟩ =>
      show 16 * kk + 1 * q.val = p.val
      omega
  show A ((Rect.unit (s := S1024) ![16 * kk] S16.size h).toLoadRect.idx (ValueIdx.ix1 q)) = _
  rw [hi]

/-- The same for the relation words. -/
theorem words1_at (A : S1024.Idx → BitVec 32) (kk : ℕ) (h : ∀ a, (![16 * kk] : Fin 1 → ℕ) a + S16.size a ≤ S1024.size a)
    (q : Fin 16) (p : Fin 1024) (hp : p.val = 16 * kk + q.val) :
    (s1V).view.readAt (Elt F) (Rect.unit (s := S1024) ![16 * kk] S16.size h).toLoadRect A (ValueIdx.ix1 q) = A (ValueIdx.ix1 p) := by
  have hi : (Rect.unit (s := S1024) ![16 * kk] S16.size h).toLoadRect.idx (ValueIdx.ix1 q) = (ValueIdx.ix1 p : S1024.Idx) := by
    funext a
    apply Fin.ext
    match a with
    | ⟨0, _⟩ =>
      show 16 * kk + 1 * q.val = p.val
      omega
  show A ((Rect.unit (s := S1024) ![16 * kk] S16.size h).toLoadRect.idx (ValueIdx.ix1 q)) = _
  rw [hi]

/-- Lane q of a trip's chunk of products is the first result's entry at the worker's row di, column 16 kk + q. -/
theorem chunk_at (hC : C.Ok) (di : Fin 2) (kk : ℕ)
    (h4i : ∀ a, (![16 * kk] : Fin 1 → ℕ) a + S16.size a ≤ S1024.size a) (h5i : ∀ a, (![16 * kk] : Fin 1 → ℕ) a + S16.size a ≤ S1024.size a)
    (hc1 : ∀ a x, ((![(s0V).view.readAt (Elt F) (Rect.unit (s := S1024) ![16 * kk] S16.size h4i).toLoadRect C.a0] : Fin 1 → IVec S16 32) a x).toNat < S100000.size a)
    (hc2 : ∀ a x, ((![(s1V).view.readAt (Elt F) (Rect.unit (s := S1024) ![16 * kk] S16.size h5i).toLoadRect C.a1] : Fin 1 → IVec S16 32) a x).toNat < S2000.size a)
    (q : Fin 16) (p : Fin 1024) (hp : p.val = 16 * kk + q.val) :
    mulf
        (loadIdx (View.read (Elt F) ((s2V).access (Rect.whole S100000)) ((rowK L di).view.read (Elt F) C.x2))
          ![(s0V).view.readAt (Elt F) (Rect.unit (s := S1024) ![16 * kk] S16.size h4i).toLoadRect C.a0] hc1)
        (loadIdx (View.read (Elt F) ((s3V).access (Rect.whole S2000)) ((rrowK L di).view.read (Elt F) C.x3))
          ![(s1V).view.readAt (Elt F) (Rect.unit (s := S1024) ![16 * kk] S16.size h5i).toLoadRect C.a1] hc2)
        (ValueIdx.ix1 q)
      = hrtVal C.a0 C.a1 C.x2 C.x3 (ValueIdx.ix2 ⟨4 * (L 1).val + 2 * (L 0).val + di.val, wrow_lt L di⟩ p) := by
  have e1 : loadIdx (View.read (Elt F) ((s2V).access (Rect.whole S100000)) ((rowK L di).view.read (Elt F) C.x2))
          ![(s0V).view.readAt (Elt F) (Rect.unit (s := S1024) ![16 * kk] S16.size h4i).toLoadRect C.a0] hc1 (ValueIdx.ix1 q)
        = C.x2 (ValueIdx.ix2 ⟨4 * (L 1).val + 2 * (L 0).val + di.val, wrow_lt L di⟩ (rowOf 100000 (C.a0 (ValueIdx.ix1 p)))) := by
    show View.read (Elt F) ((s2V).access (Rect.whole S100000)) ((rowK L di).view.read (Elt F) C.x2)
        (idxAt ![(s0V).view.readAt (Elt F) (Rect.unit (s := S1024) ![16 * kk] S16.size h4i).toLoadRect C.a0] hc1 (ValueIdx.ix1 q)) = _
    rw [ent_read, rowOf_of_lt (hC (ValueIdx.ix1 p)).1]
    refine congrArg (fun t => C.x2 (ValueIdx.ix2 ⟨4 * (L 1).val + 2 * (L 0).val + di.val, wrow_lt L di⟩ t)) (Fin.ext ?_)
    show ((s0V).view.readAt (Elt F) (Rect.unit (s := S1024) ![16 * kk] S16.size h4i).toLoadRect C.a0 (ValueIdx.ix1 q)).toNat = _
    rw [words0_at C.a0 kk h4i q p hp]
  have e2 : loadIdx (View.read (Elt F) ((s3V).access (Rect.whole S2000)) ((rrowK L di).view.read (Elt F) C.x3))
          ![(s1V).view.readAt (Elt F) (Rect.unit (s := S1024) ![16 * kk] S16.size h5i).toLoadRect C.a1] hc2 (ValueIdx.ix1 q)
        = C.x3 (ValueIdx.ix2 ⟨4 * (L 1).val + 2 * (L 0).val + di.val, wrow_lt L di⟩ (rowOf 2000 (C.a1 (ValueIdx.ix1 p)))) := by
    show View.read (Elt F) ((s3V).access (Rect.whole S2000)) ((rrowK L di).view.read (Elt F) C.x3)
        (idxAt ![(s1V).view.readAt (Elt F) (Rect.unit (s := S1024) ![16 * kk] S16.size h5i).toLoadRect C.a1] hc2 (ValueIdx.ix1 q)) = _
    rw [rel_read, rowOf_of_lt (hC (ValueIdx.ix1 p)).2]
    refine congrArg (fun t => C.x3 (ValueIdx.ix2 ⟨4 * (L 1).val + 2 * (L 0).val + di.val, wrow_lt L di⟩ t)) (Fin.ext ?_)
    show ((s1V).view.readAt (Elt F) (Rect.unit (s := S1024) ![16 * kk] S16.size h5i).toLoadRect C.a1 (ValueIdx.ix1 q)).toNat = _
    rw [words1_at C.a1 kk h5i q p hp]
  show FloatOps.mulf _ _ = FloatOps.mulf _ _
  rw [e1, e2]

/-- One trip of a pass: the chunk of sixteen products stored over lanes 16 kk .. 16 kk + 15 of row di of the product
    scratch extends the part of the scratch that is right by that chunk.  (o4, o5, o6 are the trip's offsets: the words'
    and the chunk's; the two index vectors are the entity and the relation words of the chunk, in range.) -/
theorem pass_store (hC : C.Ok) (di : Fin 2) (kk : ℕ)
    (o4 o5 : Fin 1 → ℕ) (h4i : ∀ a, o4 a + S16.size a ≤ S1024.size a) (h5i : ∀ a, o5 a + S16.size a ≤ S1024.size a)
    (o6 : Fin 2 → ℕ) (h6i : ∀ a, o6 a + S1x16.size a ≤ S2x1024.size a)
    (e4 : o4 = ![16 * kk]) (e5 : o5 = ![16 * kk]) (e6 : o6 = ![di.val, 16 * kk])
    (f : S2x1024.Idx → F .f32)
    (hf : ∀ j : S2x1024.Idx, ((j 0).val < di.val ∨ ((j 0).val = di.val ∧ (j 1).val < 16 * kk)) → f j = Gv L C j)
    (hc1 : ∀ a x, ((![(s0V).view.readAt (Elt F) (Rect.unit (s := S1024) o4 S16.size h4i).toLoadRect C.a0] : Fin 1 → IVec S16 32) a x).toNat < S100000.size a)
    (hc2 : ∀ a x, ((![(s1V).view.readAt (Elt F) (Rect.unit (s := S1024) o5 S16.size h5i).toLoadRect C.a1] : Fin 1 → IVec S16 32) a x).toNat < S2000.size a) :
    ∀ j : S2x1024.Idx, ((j 0).val < di.val ∨ ((j 0).val = di.val ∧ (j 1).val < 16 * (kk + 1))) →
      View.write (Elt F) ((s4V).access (Rect.unit (s := S2x1024) o6 S1x16.size h6i)) f
          (shapeCast S1x16
            (mulf
              (loadIdx (View.read (Elt F) ((s2V).access (Rect.whole S100000)) ((rowK L di).view.read (Elt F) C.x2))
                ![(s0V).view.readAt (Elt F) (Rect.unit (s := S1024) o4 S16.size h4i).toLoadRect C.a0] hc1)
              (loadIdx (View.read (Elt F) ((s3V).access (Rect.whole S2000)) ((rrowK L di).view.read (Elt F) C.x3))
                ![(s1V).view.readAt (Elt F) (Rect.unit (s := S1024) o5 S16.size h5i).toLoadRect C.a1] hc2))
            shapeCasts_S16_S1x16)
          Finset.univ j
        = Gv L C j := by
  subst e4 e5 e6
  intro j hj
  by_cases hin : (j 0).val = di.val ∧ 16 * kk ≤ (j 1).val
  · obtain ⟨h0, h1⟩ := hin
    have h1' : (j 1).val < 16 * kk + 16 := by omega
    obtain ⟨q, hq⟩ : ∃ q : Fin 16, (j 1).val = 16 * kk + q.val :=
      ⟨⟨(j 1).val - 16 * kk, by omega⟩, by show (j 1).val = 16 * kk + ((j 1).val - 16 * kk); omega⟩
    have hy : ((s4V).access (Rect.unit (s := S2x1024) ![di.val, 16 * kk] S1x16.size h6i)).emb
        (ValueIdx.ix2 (0 : Fin 1) q) = j := by
      apply idx2_ext
      · show di.val + 1 * 0 = (j 0).val
        omega
      · show 16 * kk + 1 * q.val = (j 1).val
        omega
    have hw := View.write_emb_of_mem (Val := Elt F) (v := (s4V).access (Rect.unit (s := S2x1024) ![di.val, 16 * kk] S1x16.size h6i)) f
      (shapeCast S1x16
            (mulf
              (loadIdx (View.read (Elt F) ((s2V).access (Rect.whole S100000)) ((rowK L di).view.read (Elt F) C.x2))
                ![(s0V).view.readAt (Elt F) (Rect.unit (s := S1024) ![16 * kk] S16.size h4i).toLoadRect C.a0] hc1)
              (loadIdx (View.read (Elt F) ((s3V).access (Rect.whole S2000)) ((rrowK L di).view.read (Elt F) C.x3))
                ![(s1V).view.readAt (Elt F) (Rect.unit (s := S1024) ![16 * kk] S16.size h5i).toLoadRect C.a1] hc2))
            shapeCasts_S16_S1x16)
      (Finset.mem_univ (ValueIdx.ix2 (0 : Fin 1) q))
    rw [hy] at hw
    rw [hw, cast_eq]
    have hk : (S16.rowMajor (ValueIdx.ix1 q)).val = (S1x16.rowMajor (ValueIdx.ix2 (0 : Fin 1) q)).val := by
      rw [Shape.rowMajor_val_one, Shape.rowMajor_val_two]
      show q.val = 0 * 16 + q.val
      omega
    show mulf _ _ (Shape.reshapeEquiv shapeCasts_S16_S1x16 (ValueIdx.ix2 (0 : Fin 1) q)) = _
    rw [Shape.reshapeEquiv_eq_of_rowMajor shapeCasts_S16_S1x16 hk, chunk_at L C hC di kk h4i h5i hc1 hc2 q (j 1) hq]
    show _ = hrtVal C.a0 C.a1 C.x2 C.x3 ((oRowK L).view.emb j)
    rw [oRowK_emb]
    refine congrArg (hrtVal C.a0 C.a1 C.x2 C.x3) (idx2_ext ?_ rfl)
    show 4 * (L 1).val + 2 * (L 0).val + di.val = 4 * (L 1).val + 2 * (L 0).val + (j 0).val
    omega
  · have hnot : j ∉ ((s4V).access (Rect.unit (s := S2x1024) ![di.val, 16 * kk] S1x16.size h6i)).setOn Finset.univ := by
      rw [View.setOn_univ]
      show j ∉ ((View.whole cc0_scratch4).slice (Rect.unit (s := S2x1024) ![di.val, 16 * kk] S1x16.size h6i)).set
      rw [View.set_slice_whole, Rect.mem_set_unit]
      intro hm
      have m0 : di.val ≤ (j 0).val ∧ (j 0).val < di.val + 1 := hm 0
      have m1 : 16 * kk ≤ (j 1).val ∧ (j 1).val < 16 * kk + 16 := hm 1
      exact hin ⟨by omega, m1.1⟩
    rw [View.write_of_not_mem _ _ _ hnot]
    exact hf j (by omega)

end Tile

end Cert.KernelIdeal.Sc

end
-- ==== Proof.ScIndex2.lean ====
/-
  What a worker's two copies out leave in the results, on the places it owns: the first result's two rows are the
  product scratch's rows, which are the products; the second result's thirty-two entries are the gathered biases, the
  head bias at each of the worker's thirty-two entity words.  Pure facts; no program is run here.

  A block written whole through a slice of an array lands, element by element, on the slice's places: the array's
  element under the slice's index x holds the block's element x. The product scratch read whole is what it holds. The
  gather's payload at entry x is the source at the row the offset list names for x; the source is the whole bias
  vector through a slice at offset zero, the offset list is the worker's thirty-two entity words, read at the same
  offset as the entries they are copied out to; and an entity word below the number of rows is its own row.
-/
import proofs.«203358_g20435454394731_cont_8to1_1864_22_alg».proof.Proof.ScIndex
import Idealize.ShloMosaic.Lib.Writes

noncomputable section

namespace Cert.KernelIdeal.Sc

open Cert.KernelIdeal Cert.KernelIdeal.Gen
open Idealize.ShloMosaic

variable {F : FTy → Type} [FloatOps F]

section Tile

variable (L : grid0.Coords) (C : Cts F)

/-- The whole bias vector, as the body slices it for the gather. -/
abbrev xAllK : Memref sig .scVector .hbm S100000 .f32 :=
  (m4V).slice (Rect.unit (s := S100000) ![0] S100000.size inb_S100000_S100000_0) (fun _ => rfl)

/-- A block written whole through the worker's row slice lands on the slice's places. -/
theorem oRow_writes_emb (w : S2x1024.Idx → F .f32) (j : S2x1024.Idx) :
    (oRowK L).view.writes (Elt F) C.o0 [⟨Rect.whole S2x1024, w⟩] ((oRowK L).view.emb j) = w j := by
  have h := View.read_writes_cons_emb (Val := Elt F) (oRowK L).view C.o0 (Rect.whole S2x1024) w [] j
  rw [Rect.emb_whole_apply, View.read_apply, cast_eq] at h
  exact h

/-- A block written whole through the worker's entry slice lands on the slice's places. -/
theorem oSeg_writes_emb (w : S32.Idx → F .f32) (x : S32.Idx) :
    (oSegK L).view.writes (Elt F) C.o1 [⟨Rect.whole S32, w⟩] ((oSegK L).view.emb x) = w x := by
  have h := View.read_writes_cons_emb (Val := Elt F) (oSegK L).view C.o1 (Rect.whole S32) w [] x
  rw [Rect.emb_whole_apply, View.read_apply, cast_eq] at h
  exact h

/-- The two rows copied out of a product scratch that holds the products are the products. -/
theorem rows_out (g : S2x1024.Idx → F .f32) (hg : ∀ j, g j = Gv L C j) :
    ∀ i ∈ (oRowK L).view.set,
      (oRowK L).view.writes (Elt F) C.o0 [⟨Rect.whole S2x1024, (s4V).view.read (Elt F) g⟩] i = hrtVal C.a0 C.a1 C.x2 C.x3 i := by
  intro i hi
  obtain ⟨j, -, rfl⟩ := Finset.mem_map.mp hi
  rw [oRow_writes_emb]
  exact hg j

/-- The slice of the bias vector at offset zero is the bias vector. -/
theorem xAllK_emb (y : S100000.Idx) : (xAllK).view.emb y = y := by
  show (Rect.unit (s := S100000) ![0] S100000.size inb_S100000_S100000_0).emb y = y
  funext a
  refine Fin.ext ?_
  match a with
  | ⟨0, _⟩ =>
    show 0 + 1 * (y 0).val = (y 0).val
    omega

/-- The bias vector read through that slice is the bias vector. -/
theorem xAllK_read (y : S100000.Idx) : (xAllK).view.read (Elt F) C.x4 y = C.x4 y := by
  show C.x4 ((xAllK).view.emb y) = C.x4 y
  rw [xAllK_emb]

/-- The worker's thirty-two entity words, read from its copy of the words once the copy has landed, are the entity
    words at the places of its thirty-two entries. -/
theorem offs_read (f0 : S1024.Idx → BitVec 32) (x : S32.Idx) :
    (offsK L).view.read (Elt F) (View.write (Elt F) (s0V).view f0 ((m0V).view.read (Elt F) C.a0) Finset.univ) x
      = C.a0 ((oSegK L).view.emb x) := by
  have hw : View.write (Elt F) (s0V).view f0 ((m0V).view.read (Elt F) C.a0) Finset.univ = C.a0 := by
    show (View.whole (cc0_scratch0 : Ref sig .scVector)).write (Elt F) f0
      ((View.whole (main_v0_scv : Ref sig .scVector)).read (Elt F) C.a0) Finset.univ = C.a0
    rw [View.read_whole, View.write_whole_univ]
  rw [hw]
  rfl

/-- The index of a rank-one shape at a row-major position is the index with that coordinate. -/
theorem rowMajor_symm_cast (x : S32.Idx) (hn : S32.numel = S32.size gathers_S100000_S32.axis') :
    S32.rowMajor.symm ((x gathers_S100000_S32.axis').cast hn.symm) = x := by
  rw [Equiv.symm_apply_eq]
  exact Fin.ext (Shape.rowMajor_val_one x).symm

/-- The thirty-two gathered biases copied out are the head biases at the worker's entity words. -/
theorem seg_out (f0 : S1024.Idx → BitVec 32) (f5 : S32.Idx → F .f32)
    (hn : S32.numel = S32.size gathers_S100000_S32.axis')
    (hin : ∀ x, ((offsK L).view.read (Elt F) (View.write (Elt F) (s0V).view f0 ((m0V).view.read (Elt F) C.a0) Finset.univ) x).toNat
      < S100000.size gathers_S100000_S32.axis) :
    ∀ i ∈ (oSegK L).view.set,
      (oSegK L).view.writes (Elt F) C.o1 [⟨Rect.whole S32, (s5V).view.read (Elt F) (View.write (Elt F) (s5V).view f5
        (SparseCore.gatherPayload gathers_S100000_S32 ((xAllK).view.read (Elt F) C.x4)
          (SparseCore.rows ((offsK L).view.read (Elt F) (View.write (Elt F) (s0V).view f0 ((m0V).view.read (Elt F) C.a0) Finset.univ)) hn hin))
        Finset.univ)⟩] i
      = hbVal C.a0 C.x4 i := by
  intro i hi
  obtain ⟨x, -, rfl⟩ := Finset.mem_map.mp hi
  rw [oSeg_writes_emb, View.read_write_univ]
  unfold SparseCore.gatherPayload
  rw [xAllK_read]
  have hlt : (C.a0 ((oSegK L).view.emb x)).toNat < 100000 := by
    have h := hin x
    rw [offs_read] at h
    exact h
  show C.x4 _ = C.x4 (ValueIdx.ix1 (rowOf 100000 (C.a0 ((oSegK L).view.emb x))))
  rw [rowOf_of_lt hlt]
  congr 1
  funext b
  refine Fin.ext ?_
  match b with
  | ⟨0, _⟩ =>
    refine (congrArg Fin.val (Shape.Gathers.idx_axis gathers_S100000_S32
      (SparseCore.rows ((offsK L).view.read (Elt F) (View.write (Elt F) (s0V).view f0 ((m0V).view.read (Elt F) C.a0) Finset.univ)) hn hin) x)).trans ?_
    show ((offsK L).view.read (Elt F) (View.write (Elt F) (s0V).view f0 ((m0V).view.read (Elt F) C.a0) Finset.univ)
      (S32.rowMajor.symm ((x gathers_S100000_S32.axis').cast hn.symm))).toNat = (C.a0 ((oSegK L).view.emb x)).toNat
    rw [rowMajor_symm_cast x hn, offs_read]

end Tile

end Cert.KernelIdeal.Sc

end
-- ==== Proof.ScBody.lean ====
/-
  One worker's task of the SparseCore gather, run from its share of the tables and its own rows of the two results:
  the word copies, the bias gather left in flight across the two row passes, each pass sixty-four trips of sixteen
  lanes, the two copies out.  The rows it leaves are the products of the transposed tables' entries at the words
  (hrtVal), its thirty-two biases those of its words' entities (hbVal).
-/
import proofs.«203358_g20435454394731_cont_8to1_1864_22_alg».proof.Proof.ScIndex2

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Tile

variable (d : Dev nD) (L : grid0.Coords) (C : Cts F)

/-- The words the bias gather reads are in range: the word scratch holds the entity words once its copy has landed. -/
theorem offs_inb (hC : C.Ok) (fs : S1024.Idx → BitVec 32) (pay : S1024.Idx → BitVec 32)
    (hpay : pay = (m0V).view.read (Elt F) C.a0) :
    ∀ x, ((offsK L).view.read (Elt F) (View.write (Elt F) (s0V).view fs pay Finset.univ) x).toNat < S100000.size gathers_S100000_S32.axis := by
  subst hpay; intro x
  rw [View.write_whole_univ]
  simp only [Memref.view_whole, View.read_whole]
  rw [show ∀ j, (offsK L).view.read (Elt F) C.a0 j = C.a0 ((offsK L).view.emb j) from fun j => (View.read_apply _ _).trans (cast_eq _ _)]
  exact (hC _).1

omit [FloatOps F] in
/-- A points-to at equal contents. -/
theorem pts_congr {ℓ : Loc nD τ sig} {S : Finset (Idx ℓ)} {q : PosShare TreeShare} {f g : Buf (Elt F) ℓ} (h : f = g) :
    (ℓ ↦[S]{q} f : sProp 𝕄) ⊢ ℓ ↦[S]{q} g := by subst h; exact BI.Entails.refl _

omit [FloatOps F] in
/-- A points-to at contents that agree on its element set. -/
theorem pts_congr_on {ℓ : Loc nD τ sig} {S : Finset (Idx ℓ)} {q : PosShare TreeShare} {f g : Buf (Elt F) ℓ} (h : ∀ i ∈ S, f i = g i) :
    (ℓ ↦[S]{q} f : sProp 𝕄) ⊢ ℓ ↦[S]{q} g := Entails.of_eq (pointsTo_congr h)

/-- Before trip k of the pass over row di: the words (half the share of the entity words), the two fetched rows, and
    the product scratch right on the rows before di and on the first 16 k lanes of row di. -/
def passInv (row : S100000.Idx → F .f32) (rrow : S2000.Idx → F .f32) (di : ℕ) (k : ℕ) (_ : PUnit) : sProp 𝕄 :=
  iprop(((s0V).view.loc (V d (cV L) (jV L)) ↦{(fullShare : PosShare TreeShare).right} C.a0)
    ∗ ((s1V).view.loc (V d (cV L) (jV L)) ↦{fullShare} C.a1)
    ∗ ((s2V).view.loc (V d (cV L) (jV L)) ↦{fullShare} row) ∗ ((s3V).view.loc (V d (cV L) (jV L)) ↦{fullShare} rrow)
    ∗ ∃ f, ((s4V).view.loc (V d (cV L) (jV L)) ↦{fullShare} f)
        ∗ ⌜∀ j : S2x1024.Idx, ((j 0).val < di ∨ ((j 0).val = di ∧ (j 1).val < 16 * k)) → f j = Gv L C j⌝)

set_option maxHeartbeats 4000000 in
theorem tile_body (hF : (K (F := F)).Facts) (hC : C.Ok) (q : PosShare TreeShare) (O : CellTallies nD τ sig (HIx 1)) (W : Waits sig (HIx 1)) (hO : ∀ g, O g none = 0) :
    iprop(levAts (K (F := F)).L (K (F := F)).lev ∗ emp ∗ goRes d L C q
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_sc_gather L m0V (Memref.isWhole_whole _) m1V (Memref.isWhole_whole _) m2V (Memref.isWhole_whole _) m3V (Memref.isWhole_whole _)
            m4V (Memref.isWhole_whole _) o0V (Memref.isWhole_whole _) o1V (Memref.isWhole_whole _)
            s0V (Memref.isWhole_whole _) s1V (Memref.isWhole_whole _) s2V (Memref.isWhole_whole _) s3V (Memref.isWhole_whole _)
            s4V (Memref.isWhole_whole _) s5V (Memref.isWhole_whole _) cc0_scratch6 cc0_scratch7 cc0_scratch8 cc0_scoped0 cc0_scoped1 cc0_scoped2 cc0_scoped3)
          fun _ => iprop(tdRes d L C q ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_sc_gather_eq_skeleton]; unfold cc0_sc_gather_skel
  simp only [k0_part1_eq_skeleton]; unfold k0_part1_skel
  rw [(K (F := F)).scopedBufs_V hF d (cV L) (jV L), SparseCore.Cfg.scopedSems0_V (Val := Elt F) d (cV L) (jV L), ownSems0_V, ownBufs_V]
  iintro ⟨#Hlv, -, ⟨H0, H1, H2, H3, H4, Ho0, Ho1⟩, ⟨⟨%f0, Hs0⟩, ⟨%f1, Hs1⟩, ⟨%f2, Hs2⟩, ⟨%f3, Hs3⟩, ⟨%f4, Hs4⟩, ⟨%f5, Hs5⟩, Hbufs⟩,
    ⟨Hq6, Hq7, Hq8, Hp0, Hp1, Hp2, Hp3, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave H0' := (Entails.of_eq (show (l0 d ↦{q} C.a0 : sProp 𝕄) = (m0V).view.loc (V d (cV L) (jV L)) ↦{q} C.a0 from rfl)) $$ H0
  ihave H1' := (Entails.of_eq (show (l1 d ↦{q} C.a1 : sProp 𝕄) = (m1V).view.loc (V d (cV L) (jV L)) ↦{q} C.a1 from rfl)) $$ H1
  ihave H2' := (Entails.of_eq (show (l2 d ↦{q} C.x2 : sProp 𝕄) = (m2V).view.loc (V d (cV L) (jV L)) ↦{q} C.x2 from rfl)) $$ H2
  ihave H3' := (Entails.of_eq (show (l3 d ↦{q} C.x3 : sProp 𝕄) = (m3V).view.loc (V d (cV L) (jV L)) ↦{q} C.x3 from rfl)) $$ H3
  ihave H4' := (Entails.of_eq (show (l4 d ↦{q} C.x4 : sProp 𝕄) = (m4V).view.loc (V d (cV L) (jV L)) ↦{q} C.x4 from rfl)) $$ H4
  ihave Ho0' := (Entails.of_eq (show (lo0 d ↦[rowsSet L]{fullShare} C.o0 : sProp 𝕄) = (oRowK L).view.loc (V d (cV L) (jV L)) ↦[(oRowK L).view.set]{fullShare} C.o0 from rfl)) $$ Ho0
  ihave Ho1' := (Entails.of_eq (show (lo1 d ↦[segSet L]{fullShare} C.o1 : sProp 𝕄) = (oSegK L).view.loc (V d (cV L) (jV L)) ↦[(oSegK L).view.set]{fullShare} C.o1 from rfl)) $$ Ho1
  ihave Hs0' := (Entails.of_eq (show ((V d (cV L) (jV L)).loc cc0_scratch0 ↦{fullShare} f0 : sProp 𝕄) = (s0V).view.loc (V d (cV L) (jV L)) ↦{fullShare} f0 from rfl)) $$ Hs0
  ihave Hs1' := (Entails.of_eq (show ((V d (cV L) (jV L)).loc cc0_scratch1 ↦{fullShare} f1 : sProp 𝕄) = (s1V).view.loc (V d (cV L) (jV L)) ↦{fullShare} f1 from rfl)) $$ Hs1
  ihave Hs2' := (Entails.of_eq (show ((V d (cV L) (jV L)).loc cc0_scratch2 ↦{fullShare} f2 : sProp 𝕄) = (s2V).view.loc (V d (cV L) (jV L)) ↦{fullShare} f2 from rfl)) $$ Hs2
  ihave Hs3' := (Entails.of_eq (show ((V d (cV L) (jV L)).loc cc0_scratch3 ↦{fullShare} f3 : sProp 𝕄) = (s3V).view.loc (V d (cV L) (jV L)) ↦{fullShare} f3 from rfl)) $$ Hs3
  ihave Hs4' := (Entails.of_eq (show ((V d (cV L) (jV L)).loc cc0_scratch4 ↦{fullShare} f4 : sProp 𝕄) = (s4V).view.loc (V d (cV L) (jV L)) ↦{fullShare} f4 from rfl)) $$ Hs4
  ihave Hs5' := (Entails.of_eq (show ((V d (cV L) (jV L)).loc cc0_scratch5 ↦{fullShare} f5 : sProp 𝕄) = (s5V).view.loc (V d (cV L) (jV L)) ↦{fullShare} f5 from rfl)) $$ Hs5
  sl_exec
  -- the bias gather: a share of the bias vector, the bias scratch, half of the word scratch's share on the thirty-two
  -- words it reads (the other half stays for the passes' loads), the cell at zero; back comes the transfer in flight
  ihave Hs0s := (pointsTo_share (I := Finset.univ) (PosShare.mem_left_op_right fullShare)).1 $$ Hs0'
  icases Hs0s with ⟨Hs0l, Hs0r⟩
  ihave Hol := (pointsTo_split_subset (S := Finset.univ) (Finset.subset_univ (offsK L).view.set)).1 $$ Hs0l
  icases Hol with ⟨Hoffs, Hs0l'⟩
  ihave Hxs := (pointsTo_split_subset (q := q) (f := C.x4) (S := Finset.univ) (Finset.subset_univ (xAllK).view.set)).1 $$ H4'
  icases Hxs with ⟨Hxs, Hxr⟩
  have h5s : (s5V).view.set = Finset.univ := View.set_whole _
  ihave Hs5'' := (Entails.of_eq (show ((s5V).view.loc (V d (cV L) (jV L)) ↦{fullShare} f5 : sProp 𝕄)
      = (s5V).view.loc (V d (cV L) (jV L)) ↦[(s5V).view.set]{fullShare} f5 by rw [h5s])) $$ Hs5'
  have hN : ∀ h : S100000.Gathers 0 S32, ∑ j, ((s5V).slice (S32.rowRect h.axis' j) (S32.stride_rowRect h.axis' j)).view.dmaCredit
      = (s5V).view.dmaCredit := by decide
  iapply (SparseCore.wp_indirectGatherLocal countersEmb 𝒱₀ (V d (cV L) (jV L)) none (hg := gathers_S100000_S32) (default : HIx 1)
      (s5V).view.dmaCredit (hN _) (by decide) (offs_inb L C hC f0 _ rfl)) $$ [Hxs Hs5'' Hoffs Hq8]
  · isplitl [Hxs]; · iexact Hxs
    isplitl [Hs5'']; · iexact Hs5''
    isplitl [Hoffs]; · iexact Hoffs
    iexact Hq8
  iintro Hfl
  sl_exec
  have e0 : View.write (Elt F) (s0V).view f0 (View.read (Elt F) (m0V).view C.a0) Finset.univ = C.a0 := View.write_whole_univ _ _ _
  have e1 : View.write (Elt F) (s1V).view f1 (tile_body.sl.dma0_1 C) Finset.univ = C.a1 := View.write_whole_univ _ _ _
  have e2 : View.write (Elt F) (s2V).view f2 (tile_body.sl.dma0_2 L C) Finset.univ = (rowK L 0).view.read (Elt F) C.x2 := View.write_whole_univ _ _ _
  have e3 : View.write (Elt F) (s3V).view f3 (tile_body.sl.dma0_3 L C) Finset.univ = (rrowK L 0).view.read (Elt F) C.x3 := View.write_whole_univ _ _ _
  ihave Hs0r := (pts_congr (F := F) e0) $$ Hs0r
  ihave Hs1' := (pts_congr (F := F) e1) $$ Hs1'
  ihave Hs2' := (pts_congr (F := F) e2) $$ Hs2'
  ihave Hs3' := (pts_congr (F := F) e3) $$ Hs3'
  rw [bind_assoc]
  sl_for (passInv d L C ((rowK L 0).view.read (Elt F) C.x2) ((rrowK L 0).view.read (Elt F) C.x3) 0) $$ [Hs0r Hs1' Hs2' Hs3' Hs4']
  case region =>
    intro k _
    unfold passInv
    iintro ⟨Hs0, Hs1, Hs2, Hs3, %f, Hs4, %hf⟩
    unfold tile_body.sl.prog.body_1 k0_t1_body
    simp only [Prog.lift, Prog.bind_op, Prog.bind_ret, Prog.pure_eq_ret]
    have hchk1 : k0_chk1 ((s0V).view.readAt (Elt F) (Rect.unit (s := S1024) (k0_off4 k) S16.size (k0_off4_inb k)).toLoadRect C.a0) := by
      intro a x
      obtain rfl : a = 0 := Subsingleton.elim _ _
      exact (hC _).1
    have hchk2 : k0_chk2 ((s1V).view.readAt (Elt F) (Rect.unit (s := S1024) (k0_off5 k) S16.size (k0_off5_inb k)).toLoadRect C.a1) := by
      intro a x
      obtain rfl : a = 0 := Subsingleton.elim _ _
      exact (hC _).2
    iapply (wp_load 𝒱₀ (V d (cV L) (jV L)) none Set.univ (m := s0V) (S := Finset.univ) (Finset.subset_univ _)) $$ Hs0; iintro Hs0
    rw [wp_assume_of _ _ _ _ hchk1]
    ihave Hs2a := (Entails.of_eq (show ((s2V).view.loc (V d (cV L) (jV L)) ↦{fullShare} (rowK L 0).view.read (Elt F) C.x2 : sProp 𝕄)
        = ((s2V).access (.whole S100000)).loc (V d (cV L) (jV L)) ↦{fullShare} (rowK L 0).view.read (Elt F) C.x2 from rfl)) $$ Hs2
    iapply (SparseCore.wp_vectorLoadIdx 𝒱₀ (V d (cV L) (jV L)) none Set.univ (base := s2V) (S := Finset.univ) (q := fullShare) (Finset.subset_univ _)) $$ Hs2a; iintro Hs2a
    iapply (wp_load 𝒱₀ (V d (cV L) (jV L)) none Set.univ (m := s1V) (S := Finset.univ) (Finset.subset_univ _)) $$ Hs1; iintro Hs1
    rw [wp_assume_of _ _ _ _ hchk2]
    ihave Hs3a := (Entails.of_eq (show ((s3V).view.loc (V d (cV L) (jV L)) ↦{fullShare} (rrowK L 0).view.read (Elt F) C.x3 : sProp 𝕄)
        = ((s3V).access (.whole S2000)).loc (V d (cV L) (jV L)) ↦{fullShare} (rrowK L 0).view.read (Elt F) C.x3 from rfl)) $$ Hs3
    iapply (SparseCore.wp_vectorLoadIdx 𝒱₀ (V d (cV L) (jV L)) none Set.univ (base := s3V) (S := Finset.univ) (q := fullShare) (Finset.subset_univ _)) $$ Hs3a; iintro Hs3a
    iapply (wp_load 𝒱₀ (V d (cV L) (jV L)) none Set.univ (m := s4V) (S := Finset.univ) (Finset.subset_univ _)) $$ Hs4; iintro Hs4
    ihave Hs4a := (Entails.of_eq (show ((s4V).view.loc (V d (cV L) (jV L)) ↦{fullShare} f : sProp 𝕄)
        = ((s4V).access (Rect.unit (s := S2x1024) (k0_off6 k) S1x16.size (k0_off6_inb k))).loc (V d (cV L) (jV L)) ↦{fullShare} f from rfl)) $$ Hs4
    iapply (wp_store 𝒱₀ (V d (cV L) (jV L)) none Set.univ (m := s4V) (r := Rect.unit (s := S2x1024) (k0_off6 k) S1x16.size (k0_off6_inb k)) (Mk := Finset.univ) (S := Finset.univ) (Finset.subset_univ _)) $$ Hs4a; iintro Hs4a
    rw [wp_ret]; imodintro
    isplitl [Hs0]; · iexact Hs0
    isplitl [Hs1]; · iexact Hs1
    isplitl [Hs2a]; · iexact Hs2a
    isplitl [Hs3a]; · iexact Hs3a
    iexists _; isplitl [Hs4a]; · iexact Hs4a
    ipureintro
    exact pass_store L C hC 0 k.val (k0_off4 k) (k0_off5 k) (k0_off4_inb k) (k0_off5_inb k) (k0_off6 k) (k0_off6_inb k)
      (k0_off4_eq k) (k0_off5_eq k) (k0_off6_eq k) f hf hchk1 hchk2
  · unfold passInv
    isplitl [Hs0r]; · iexact Hs0r
    isplitl [Hs1']; · iexact Hs1'
    isplitl [Hs2']; · iexact Hs2'
    isplitl [Hs3']; · iexact Hs3'
    iexists _; isplitl [Hs4']; · iexact Hs4'
    ipureintro
    intro j hj
    exfalso; omega
  iintro %_ HI
  unfold passInv
  icases HI with ⟨Hs0r, Hs1', Hs2', Hs3', %g4, Hs4', %hg4⟩
  sl_exec
  have ht1 : Scf.trips k0_t1_loop.lb k0_t1_loop.ub k0_t1_loop.st = 64 := by decide
  have e4 : View.write (Elt F) (s2V).view ((rowK L 0).view.read (Elt F) C.x2) (tile_body.sl.dma0_4 L C) Finset.univ = (rowK L 1).view.read (Elt F) C.x2 := View.write_whole_univ _ _ _
  have e5 : View.write (Elt F) (s3V).view ((rrowK L 0).view.read (Elt F) C.x3) (tile_body.sl.dma0_5 L C) Finset.univ = (rrowK L 1).view.read (Elt F) C.x3 := View.write_whole_univ _ _ _
  ihave Hs2' := (pts_congr (F := F) e4) $$ Hs2'
  ihave Hs3' := (pts_congr (F := F) e5) $$ Hs3'
  sl_for (passInv d L C ((rowK L 1).view.read (Elt F) C.x2) ((rrowK L 1).view.read (Elt F) C.x3) 1) $$ [Hs0r Hs1' Hs2' Hs3' Hs4']
  case region =>
    intro k _
    unfold passInv
    iintro ⟨Hs0, Hs1, Hs2, Hs3, %f, Hs4, %hf⟩
    unfold tile_body.sl.prog.body_2 k0_t2_body
    simp only [Prog.lift, Prog.bind_op, Prog.bind_ret, Prog.pure_eq_ret]
    have hchk3 : k0_chk3 ((s0V).view.readAt (Elt F) (Rect.unit (s := S1024) (k0_off7 k) S16.size (k0_off7_inb k)).toLoadRect C.a0) := by
      intro a x
      obtain rfl : a = 0 := Subsingleton.elim _ _
      exact (hC _).1
    have hchk4 : k0_chk4 ((s1V).view.readAt (Elt F) (Rect.unit (s := S1024) (k0_off8 k) S16.size (k0_off8_inb k)).toLoadRect C.a1) := by
      intro a x
      obtain rfl : a = 0 := Subsingleton.elim _ _
      exact (hC _).2
    iapply (wp_load 𝒱₀ (V d (cV L) (jV L)) none Set.univ (m := s0V) (S := Finset.univ) (Finset.subset_univ _)) $$ Hs0; iintro Hs0
    rw [wp_assume_of _ _ _ _ hchk3]
    ihave Hs2a := (Entails.of_eq (show ((s2V).view.loc (V d (cV L) (jV L)) ↦{fullShare} (rowK L 1).view.read (Elt F) C.x2 : sProp 𝕄)
        = ((s2V).access (.whole S100000)).loc (V d (cV L) (jV L)) ↦{fullShare} (rowK L 1).view.read (Elt F) C.x2 from rfl)) $$ Hs2
    iapply (SparseCore.wp_vectorLoadIdx 𝒱₀ (V d (cV L) (jV L)) none Set.univ (base := s2V) (S := Finset.univ) (q := fullShare) (Finset.subset_univ _)) $$ Hs2a; iintro Hs2a
    iapply (wp_load 𝒱₀ (V d (cV L) (jV L)) none Set.univ (m := s1V) (S := Finset.univ) (Finset.subset_univ _)) $$ Hs1; iintro Hs1
    rw [wp_assume_of _ _ _ _ hchk4]
    ihave Hs3a := (Entails.of_eq (show ((s3V).view.loc (V d (cV L) (jV L)) ↦{fullShare} (rrowK L 1).view.read (Elt F) C.x3 : sProp 𝕄)
        = ((s3V).access (.whole S2000)).loc (V d (cV L) (jV L)) ↦{fullShare} (rrowK L 1).view.read (Elt F) C.x3 from rfl)) $$ Hs3
    iapply (SparseCore.wp_vectorLoadIdx 𝒱₀ (V d (cV L) (jV L)) none Set.univ (base := s3V) (S := Finset.univ) (q := fullShare) (Finset.subset_univ _)) $$ Hs3a; iintro Hs3a
    iapply (wp_load 𝒱₀ (V d (cV L) (jV L)) none Set.univ (m := s4V) (S := Finset.univ) (Finset.subset_univ _)) $$ Hs4; iintro Hs4
    ihave Hs4a := (Entails.of_eq (show ((s4V).view.loc (V d (cV L) (jV L)) ↦{fullShare} f : sProp 𝕄)
        = ((s4V).access (Rect.unit (s := S2x1024) (k0_off9 k) S1x16.size (k0_off9_inb k))).loc (V d (cV L) (jV L)) ↦{fullShare} f from rfl)) $$ Hs4
    iapply (wp_store 𝒱₀ (V d (cV L) (jV L)) none Set.univ (m := s4V) (r := Rect.unit (s := S2x1024) (k0_off9 k) S1x16.size (k0_off9_inb k)) (Mk := Finset.univ) (S := Finset.univ) (Finset.subset_univ _)) $$ Hs4a; iintro Hs4a
    rw [wp_ret]; imodintro
    isplitl [Hs0]; · iexact Hs0
    isplitl [Hs1]; · iexact Hs1
    isplitl [Hs2a]; · iexact Hs2a
    isplitl [Hs3a]; · iexact Hs3a
    iexists _; isplitl [Hs4a]; · iexact Hs4a
    ipureintro
    exact pass_store L C hC 1 k.val (k0_off7 k) (k0_off8 k) (k0_off7_inb k) (k0_off8_inb k) (k0_off9 k) (k0_off9_inb k)
      (k0_off7_eq k) (k0_off8_eq k) (k0_off9_eq k) f hf hchk3 hchk4
  · unfold passInv
    isplitl [Hs0r]; · iexact Hs0r
    isplitl [Hs1']; · iexact Hs1'
    isplitl [Hs2']; · iexact Hs2'
    isplitl [Hs3']; · iexact Hs3'
    iexists _; isplitl [Hs4']; · iexact Hs4'
    ipureintro
    intro j hj
    refine hg4 j (Or.inr ⟨?_, ?_⟩)
    · rcases hj with h | ⟨_, h⟩ <;> omega
    · rw [ht1]; have := ValueIdx.idx2_lt1 j; omega
  iintro %_ HI
  unfold passInv
  icases HI with ⟨Hs0r, Hs1', Hs2', Hs3', %g5, Hs4', %hg5⟩
  sl_exec
  -- the bias gather's wait: the bias scratch written with the gathered biases, the share of the bias vector and the
  -- thirty-two words' half share back
  iapply (Transfers.wp_waitLocalO countersEmb 𝒱₀ (V d (cV L) (jV L)) none (default : HIx 1) (rfl : (s5V).view.dmaCredit = _)) $$ [Hfl HO]
  · isplitl [Hfl]; · iexact Hfl
    isplitl [HO]; · iexact HO
    iapply (Transfers.MayWaits.elim (SemLoc.dma cc0_scratch8.sem)) $$ Hmw
  iintro ⟨⟨Hs5, Hxs, Hoffs⟩, Hq8, HO⟩
  ihave H4' := (pointsTo_split_subset (ℓ := (m4V).view.loc (V d (cV L) (jV L))) (q := q) (f := C.x4) (S := Finset.univ) (Finset.subset_univ (xAllK).view.set)).2 $$ [Hxs Hxr]
  · isplitl [Hxs] <;> iassumption
  ihave Hoffs := (pts_congr (F := F) e0) $$ Hoffs
  ihave Hs0l' := (pts_congr (F := F) e0) $$ Hs0l'
  ihave Hs0l := (pointsTo_split_subset (ℓ := (s0V).view.loc (V d (cV L) (jV L))) (f := C.a0) (S := Finset.univ) (Finset.subset_univ (offsK L).view.set)).2 $$ [Hoffs Hs0l']
  · isplitl [Hoffs] <;> iassumption
  ihave Hs0' := (pointsTo_share (I := Finset.univ) (PosShare.mem_left_op_right fullShare)).2 $$ [Hs0l Hs0r]
  · isplitl [Hs0l] <;> iassumption
  ihave Hs5' := (Entails.of_eq (show ((s5V).view.loc (V d (cV L) (jV L)) ↦[(s5V).view.set]{fullShare} _ : sProp 𝕄)
      = (s5V).view.loc (V d (cV L) (jV L)) ↦{fullShare} _ by rw [h5s])) $$ Hs5
  sl_exec
  sl_step
  have ht2 : Scf.trips k0_t2_loop.lb k0_t2_loop.ub k0_t2_loop.st = 64 := by decide
  have hg5all : ∀ j, g5 j = Gv L C j := fun j => hg5 j (by
    rw [ht2]; have h0 := ValueIdx.idx2_lt0 j; have h1 := ValueIdx.idx2_lt1 j; omega)
  ihave Ho0'' := (pts_congr_on (F := F) (rows_out L C g5 hg5all)) $$ Ho0'
  ihave Ho1'' := (pts_congr_on (F := F) (seg_out L C f0 f5 _ _)) $$ Ho1'
  isplitl [H0' H1' H2' H3' H4' Ho0'' Ho1'']
  · isplitl [H0']; · iexact H0'
    isplitl [H1']; · iexact H1'
    isplitl [H2']; · iexact H2'
    isplitl [H3']; · iexact H3'
    isplitl [H4']; · iexact H4'
    isplitl [Ho0'']; · iexact Ho0''
    iexact Ho1''
  isplitl [Hs0' Hs1' Hs2' Hs3' Hs4' Hs5' Hbufs]
  · isplitl [Hs0']; · iexists _; iexact Hs0'
    isplitl [Hs1']; · iexists _; iexact Hs1'
    isplitl [Hs2']; · iexists _; iexact Hs2'
    isplitl [Hs3']; · iexists _; iexact Hs3'
    isplitl [Hs4']; · iexists _; iexact Hs4'
    isplitl [Hs5']; · iexists _; iexact Hs5'
    iexact Hbufs
  isplitl [Hq6 Hq7 Hq8 Hp0 Hp1 Hp2 Hp3 Hsems]
  · isplitl [Hq6]; · iexact Hq6
    isplitl [Hq7]; · iexact Hq7
    isplitl [Hq8]; · iexact Hq8
    isplitl [Hp0]; · iexact Hp0
    isplitl [Hp1]; · iexact Hp1
    isplitl [Hp2]; · iexact Hp2
    isplitl [Hp3]; · iexact Hp3
    iexact Hsems
  iexists _; isplitr
  swap; · iexact HO
  ipureintro; intro p hp
  simp only [Finset.mem_insert] at hp
  rcases hp with h | h | h | h | h | h | h | h | h | h
  all_goals first | exact .inl h | exact .inr (by rw [h]; rfl)

end Tile

end Cert.KernelIdeal.Sc

end
-- ==== Proof.TcData.lean ====
import proofs.«203358_g20435454394731_cont_8to1_1864_22_alg».proof.Proof.Gen.KernelIdeal.Launch
import proofs.«203358_g20435454394731_cont_8to1_1864_22_alg».proof.Proof.Gen.KernelIdeal.Skeleton
import proofs.«203358_g20435454394731_cont_8to1_1864_22_alg».proof.Proof.Gen.KernelIdeal.Points
import Idealize.ShloMosaic.Lib.Pipeline.Regions
import Idealize.ShloMosaic.Lib.Pipeline.FrameBody
import Idealize.ShloMosaic.Lib.Pipeline.Value
import Idealize.ShloMosaic.Lib.Tactic

noncomputable section

namespace Cert.KernelIdeal.Tc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-- The first grid point. -/
abbrev t0 : Fin cfg1.N := ⟨0, by decide⟩

/-- What the fetch of the first operand's block at point t leaves in a staging buffer that held d. -/
def fetX (X2 : Vec F S64x100000 .f32) (t : Fin cfg1.N) (d : Vec F S64x4096 .f32) : Vec F S64x4096 .f32 :=
  win1_0.fill (grid1.coords t) d ((win1_0.blk t).view.read (Elt F) X2)

/-- The same for the fourth operand's block. -/
def fetT (T7 : Vec F S1x100000 .f32) (t : Fin cfg1.N) (d : Vec F S1x4096 .f32) : Vec F S1x4096 .f32 :=
  win1_3.fill (grid1.coords t) d ((win1_3.blk t).view.read (Elt F) T7)

/-- The second operand's one block, the whole array, as the fetch at the first point reads it. -/
def blkH (H : Vec F S64x1024 .f32) : Vec F S64x1024 .f32 := (win1_1.blk t0).view.read (Elt F) H
/-- The third operand's likewise. -/
def blkB (B6 : Vec F S1x1024 .f32) : Vec F S1x1024 .f32 := (win1_2.blk t0).view.read (Elt F) B6

/-- What the body may leave in the result's staging buffer at point t: the payload of what the four input buffers
    may then hold — the first and fourth operands' blocks just fetched (anything past the arrays' end), the second and
    third operands' whole. -/
def OutRel (X2 : Vec F S64x100000 .f32) (H : Vec F S64x1024 .f32) (B6 : Vec F S1x1024 .f32) (T7 : Vec F S1x100000 .f32)
    (t : Fin cfg1.N) (X : Vec F S4096x1024 .f32) : Prop :=
  ∃ (d0 : Vec F S64x4096 .f32) (d3 : Vec F S1x4096 .f32), X = k1_pay1 (fetX X2 t d0) (blkH H) (fetT T7 t d3) (blkB B6)

variable (X2 : Vec F S64x100000 .f32) (H : Vec F S64x1024 .f32) (B6 : Vec F S1x1024 .f32) (T7 : Vec F S1x100000 .f32) (f8 : Vec F S100000x1024 .f32)

/-- The relational proof data of the one pipeline on core c: the five arrays at the given contents; an input's
    buffer left as found; the result's buffer left at the payload (OutRel); no invariant; nothing owed. -/
def rdat (c : Dev nD) : RDat τ (Elt F) Ix Name U Lvl cfg1 c where
  A w := match w with
    | ⟨0, _⟩ => X2
    | ⟨1, _⟩ => H
    | ⟨2, _⟩ => B6
    | ⟨3, _⟩ => T7
    | ⟨4, _⟩ => f8
  after w t Y X := match w with
    | ⟨0, _⟩ => X = Y
    | ⟨1, _⟩ => X = Y
    | ⟨2, _⟩ => X = Y
    | ⟨3, _⟩ => X = Y
    | ⟨4, _⟩ => OutRel X2 H B6 T7 t X
  Φ _ := BI.emp
  q _ := fullShare
  owed _ := 0

set_option maxRecDepth 16384

/-- The literal zero offsets. -/
theorem zz2 : (![0, 0] : Fin 2 → Nat) = fun _ => 0 := funext fun a => by fin_cases a <;> rfl

set_option maxHeartbeats 1000000 in
/-- The kernel body on whole staging memrefs: four whole loads, the payload, a whole store over the result's buffer;
    the inputs' buffers are left as read. -/
theorem sound_kernel (c : Dev nD) (E : Set Name) (i : grid1.Coords)
    (arg1 : Memref sig .tc .vmem S64x4096 .f32) (harg1 : arg1.IsWhole) (arg2 : Memref sig .tc .vmem S64x1024 .f32) (harg2 : arg2.IsWhole)
    (arg3 : Memref sig .tc .vmem S1x1024 .f32) (harg3 : arg3.IsWhole) (arg4 : Memref sig .tc .vmem S1x4096 .f32) (harg4 : arg4.IsWhole)
    (arg5 : Memref sig .tc .vmem S4096x1024 .f32) (harg5 : arg5.IsWhole)
    (x0 : Vec F S64x4096 .f32) (x1 : Vec F S64x1024 .f32) (x2 : Vec F S1x1024 .f32) (x3 : Vec F S1x4096 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (k1_pay1 x0 x1 x3 x2)) -∗ K ⟨⟩))
      ⊢ wp frame (wpE (defs₀ (F := F)) Variants.none c none) E (cc1__tc_score i arg1 harg1 arg2 harg2 arg3 harg3 arg4 harg4 arg5 harg5) K := by
  simp only [cc1__tc_score_eq_skeleton]; unfold cc1__tc_score_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [View.read_writes_eq_canon _ _ _ (fun y => ⟨_, List.mem_singleton_self _, View.mem_set_unit_zero zz2 inb_S4096x1024_S4096x1024_0_0 y⟩), View.canon_unit_zero zz2]
  simp only [View.readAt_eq_ld]
  rw [View.ld_unit_zero zz2, View.ld_unit_zero zz2, View.ld_unit_zero zz2, View.ld_unit_zero zz2]

section Data

variable (X2 : Vec F S64x100000 .f32) (H : Vec F S64x1024 .f32) (B6 : Vec F S1x1024 .f32) (T7 : Vec F S1x100000 .f32) (f8 : Vec F S100000x1024 .f32)
variable (ι : Ix)

local notation "𝔯[" c "]" => (rdat X2 H B6 T7 f8 c : RDat τ (Elt F) Ix Name U Lvl cfg1 c)

theorem flush1_0 (t : Fin cfg1.N) : (cfg1.win 0).flush t = false := rfl
theorem flush1_1 (t : Fin cfg1.N) : (cfg1.win 1).flush t = false := rfl
theorem flush1_2 (t : Fin cfg1.N) : (cfg1.win 2).flush t = false := rfl
theorem flush1_3 (t : Fin cfg1.N) : (cfg1.win 3).flush t = false := rfl

theorem finds_0 (c : Dev nD) (t : Fin cfg1.N) (Y : Vec F S64x4096 .f32) (h : 𝔯[c].Finds 0 t Y) : ∃ d, Y = fetX X2 t d := by
  obtain ⟨d, hd⟩ := (𝔯[c].finds_of_fetch (fetch1_0 t) Y).mp h
  exact ⟨d, hd.trans (by unfold RDat.fetched RDat.blockOf fetX; dsimp only [rdat]; try rfl)⟩

theorem finds_3 (c : Dev nD) (t : Fin cfg1.N) (Y : Vec F S1x4096 .f32) (h : 𝔯[c].Finds 3 t Y) : ∃ d, Y = fetT T7 t d := by
  obtain ⟨d, hd⟩ := (𝔯[c].finds_of_fetch (fetch1_3 t) Y).mp h
  exact ⟨d, hd.trans (by unfold RDat.fetched RDat.blockOf fetT; dsimp only [rdat]; try rfl)⟩

theorem finds_1 (c : Dev nD) : ∀ (n : Nat) (t : Fin cfg1.N), t.val = n → ∀ Y : Vec F S64x1024 .f32, 𝔯[c].Finds 1 t Y → Y = blkH H := by
  intro n
  induction n with
  | zero =>
    intro t ht Y h
    have hf : (cfg1.win 1).fetch t = true := (fetch1_1 t).mpr (by omega)
    obtain ⟨d, hd⟩ := (𝔯[c].finds_of_fetch hf Y).mp h
    have e : t = t0 := Fin.ext ht
    subst e
    exact hd.trans (by unfold RDat.fetched RDat.blockOf blkH; dsimp only [rdat]; try rfl)
  | succ n ih =>
    intro t ht Y h
    have hN : t.val < 25 := t.isLt
    have hf : (cfg1.win 1).fetch t = false := by
      rcases hb : (cfg1.win 1).fetch t with _ | _
      · rfl
      · exfalso; have := (fetch1_1 t).mp hb; omega
    rcases (𝔯[c].finds_of_pos hf (by omega) Y).mp h with hfl | ⟨Y', hY', hrel⟩
    · exact absurd hfl (by rw [flush1_1]; exact Bool.false_ne_true)
    · have hrel' : Y = Y' := by dsimp only [rdat] at hrel; exact hrel
      rw [hrel']; exact ih ⟨t.val - 1, by omega⟩ (by show t.val - 1 = n; omega) Y' hY'

theorem finds_2 (c : Dev nD) : ∀ (n : Nat) (t : Fin cfg1.N), t.val = n → ∀ Y : Vec F S1x1024 .f32, 𝔯[c].Finds 2 t Y → Y = blkB B6 := by
  intro n
  induction n with
  | zero =>
    intro t ht Y h
    have hf : (cfg1.win 2).fetch t = true := (fetch1_2 t).mpr (by omega)
    obtain ⟨d, hd⟩ := (𝔯[c].finds_of_fetch hf Y).mp h
    have e : t = t0 := Fin.ext ht
    subst e
    exact hd.trans (by unfold RDat.fetched RDat.blockOf blkB; dsimp only [rdat]; try rfl)
  | succ n ih =>
    intro t ht Y h
    have hN : t.val < 25 := t.isLt
    have hf : (cfg1.win 2).fetch t = false := by
      rcases hb : (cfg1.win 2).fetch t with _ | _
      · rfl
      · exfalso; have := (fetch1_2 t).mp hb; omega
    rcases (𝔯[c].finds_of_pos hf (by omega) Y).mp h with hfl | ⟨Y', hY', hrel⟩
    · exact absurd hfl (by rw [flush1_2]; exact Bool.false_ne_true)
    · have hrel' : Y = Y' := by dsimp only [rdat] at hrel; exact hrel
      rw [hrel']; exact ih ⟨t.val - 1, by omega⟩ (by show t.val - 1 = n; omega) Y' hY'

/-- The body at any point. -/
theorem sound_body (c : Dev nD) (t : Fin cfg1.N) (Y : (w : Fin cfg1.W) → (cfg1.win w).block.Idx → Elt F (cfg1.win w).elt)
    (hY : ∀ w, 𝔯[c].Finds w t (Y w)) :
    iprop(𝔯[c].Φ t.castSucc ∗ 𝔯[c].owesAt ι t.castSucc
        ∗ owns (c : Thread nD τ) (st1_0 t) fullShare (Y 0) ∗ owns (c : Thread nD τ) (st1_1 t) fullShare (Y 1)
        ∗ owns (c : Thread nD τ) (st1_2 t) fullShare (Y 2) ∗ owns (c : Thread nD τ) (st1_3 t) fullShare (Y 3)
        ∗ owns (c : Thread nD τ) (st1_4 t) fullShare (Y 4))
      ⊢ wp frame (wpE (defs₀ (F := F)) Variants.none c none) Set.univ (bodyAt1 t) (fun _ =>
          iprop(𝔯[c].Φ t.succ ∗ 𝔯[c].owesAt ι t.succ
            ∗ (∃ X, ⌜𝔯[c].after 0 t (Y 0) X⌝ ∗ owns (c : Thread nD τ) (st1_0 t) fullShare X)
            ∗ (∃ X, ⌜𝔯[c].after 1 t (Y 1) X⌝ ∗ owns (c : Thread nD τ) (st1_1 t) fullShare X)
            ∗ (∃ X, ⌜𝔯[c].after 2 t (Y 2) X⌝ ∗ owns (c : Thread nD τ) (st1_2 t) fullShare X)
            ∗ (∃ X, ⌜𝔯[c].after 3 t (Y 3) X⌝ ∗ owns (c : Thread nD τ) (st1_3 t) fullShare X)
            ∗ (∃ X, ⌜𝔯[c].after 4 t (Y 4) X⌝ ∗ owns (c : Thread nD τ) (st1_4 t) fullShare X))) := by
  obtain ⟨d0, h0⟩ := finds_0 X2 H B6 T7 f8 c t (Y 0) (hY 0)
  have h1 := finds_1 X2 H B6 T7 f8 c t.val t rfl (Y 1) (hY 1)
  have h2 := finds_2 X2 H B6 T7 f8 c t.val t rfl (Y 2) (hY 2)
  obtain ⟨d3, h3⟩ := finds_3 X2 H B6 T7 f8 c t (Y 3) (hY 3)
  unfold bodyAt1
  rw [show 𝔯[c].Φ t.succ = 𝔯[c].Φ t.castSucc from rfl, show 𝔯[c].owesAt ι t.succ = 𝔯[c].owesAt ι t.castSucc from rfl]
  iintro ⟨HΦ, Ho, H0, H1, H2, H3, H4⟩
  iapply (sound_kernel (F := F) c Set.univ (grid1.coords t) _ _ _ _ _ _ _ _ _ _ (Y 0) (Y 1) (Y 2) (Y 3) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]
  · iexists (Y 0); isplitr; · ipureintro; dsimp only [rdat]
    iexact H0
  isplitl [H1]
  · iexists (Y 1); isplitr; · ipureintro; dsimp only [rdat]
    iexact H1
  isplitl [H2]
  · iexists (Y 2); isplitr; · ipureintro; dsimp only [rdat]
    iexact H2
  isplitl [H3]
  · iexists (Y 3); isplitr; · ipureintro; dsimp only [rdat]
    iexact H3
  iexists _; isplitr
  swap; · iexact H4
  ipureintro
  dsimp only [rdat]
  exact ⟨d0, d3, by rw [← h0, ← h1, ← h2, ← h3]⟩

theorem body_obligation (c : Dev nD) : 𝔯[c].BodyObligation (defs₀ (F := F)) Variants.none ι Set.univ := fun t Y hY => by
  rw [bigSep_W1, bigSep_W1]
  exact sound_body X2 H B6 T7 f8 ι c t Y hY

end Data

end Cert.KernelIdeal.Tc

end
-- ==== Proof.TcValue.lean ====
/-
  The value the one pipeline leaves in its result array, block by block.

  The grid's 25 blocks of 4096 rows cover the array's 100000 rows with the last block overhanging: its write-back
  writes the 1696 rows inside the array. At a generic float instance the matrix product is one opaque function of its
  whole operands, so a row of the last block inside the array formally depends on the columns of the staged blocks
  past the operands' end, which hold words nothing names. The specification therefore quantifies the staged blocks
  existentially: for each block there are staged blocks of the first and fourth operands that agree with the arrays
  on the columns inside them, whose payload the result holds on the block's rows inside the array.

  The proof reads each write-back as an update of the array's rectangle at the block's offsets: a later write-back
  leaves an earlier block's rows alone, and a block's own write-back puts the staged payload on its rows.
-/
import proofs.«203358_g20435454394731_cont_8to1_1864_22_alg».proof.Proof.TcData
import Idealize.ShloMosaic.Lib.ValueIdx
import Idealize.ShloMosaic.Lib.Pipeline.Value

set_option maxRecDepth 16384

noncomputable section

namespace Cert.KernelIdeal.Tc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)
open Idealize.ShloMosaic.ValueIdx

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-- The result's specification, block by block: on the rows of block t inside the array the result holds the
    payload of SOME staged blocks that agree with the operands on the columns inside their arrays. -/
def TcSpec (X2 : Vec F S64x100000 .f32) (H : Vec F S64x1024 .f32) (B6 : Vec F S1x1024 .f32) (T7 : Vec F S1x100000 .f32)
    (g8 : Vec F S100000x1024 .f32) : Prop :=
  ∀ t : Fin 25, ∃ (xb : Vec F S64x4096 .f32) (tb : Vec F S1x4096 .f32),
    (∀ (d : Fin 64) (j : Fin 4096) (h : 4096 * t.val + j.val < 100000), xb (ix2 d j) = X2 (ix2 d ⟨4096 * t.val + j.val, h⟩)) ∧
    (∀ (j : Fin 4096) (h : 4096 * t.val + j.val < 100000), tb (ix2 0 j) = T7 (ix2 0 ⟨4096 * t.val + j.val, h⟩)) ∧
    (∀ (r : Fin 4096) (b : Fin 1024) (h : 4096 * t.val + r.val < 100000),
      g8 (ix2 ⟨4096 * t.val + r.val, h⟩ b) = k1_pay1 xb H tb B6 (ix2 r b))

/-! ## The windows' blocks, in numbers -/

/-- Window 0's block index and the sizes of what its transfer moves, at every point. -/
theorem idx0 : ∀ u : Fin grid1.N, win1_0.index u 0 = 0 ∧ win1_0.index u 1 = u.val
    ∧ win1_0.xsize (grid1.coords u) 0 = 64 ∧ win1_0.xsize (grid1.coords u) 1 = min 4096 (100000 - 4096 * u.val) := by decide +kernel
/-- Window 3's. -/
theorem idx3 : ∀ u : Fin grid1.N, win1_3.index u 0 = 0 ∧ win1_3.index u 1 = u.val
    ∧ win1_3.xsize (grid1.coords u) 0 = 1 ∧ win1_3.xsize (grid1.coords u) 1 = min 4096 (100000 - 4096 * u.val) := by decide +kernel
/-- Window 4's. -/
theorem idx4 : ∀ u : Fin grid1.N, win1_4.index u 0 = u.val ∧ win1_4.index u 1 = 0
    ∧ win1_4.xsize (grid1.coords u) 0 = min 4096 (100000 - 4096 * u.val) ∧ win1_4.xsize (grid1.coords u) 1 = 1024 := by decide +kernel
/-- Windows 1 and 2 stage their whole arrays: block index zero. -/
theorem idx1 : ∀ a : Fin 2, win1_1.index t0 a = 0 := by decide +kernel
theorem idx2 : ∀ a : Fin 2, win1_2.index t0 a = 0 := by decide +kernel

/-- The second operand's block is the array. -/
theorem blkH_eq (H : Vec F S64x1024 .f32) : blkH H = H := by
  funext y
  show H ((win1_1.rect t0).emb y) = H y
  refine congrArg H (funext fun a => Fin.ext ?_)
  exact Pipeline.Window.rect_emb_val_of_index_zero win1_1 t0 a (idx1 a) y

/-- The third operand's likewise. -/
theorem blkB_eq (B6 : Vec F S1x1024 .f32) : blkB B6 = B6 := by
  funext y
  show B6 ((win1_2.rect t0).emb y) = B6 y
  refine congrArg B6 (funext fun a => Fin.ext ?_)
  exact Pipeline.Window.rect_emb_val_of_index_zero win1_2 t0 a (idx2 a) y

/-- A fetched block of the first operand, read at a column inside the array. -/
theorem fetX_apply (X2 : Vec F S64x100000 .f32) (u : Fin cfg1.N) (d0 : Vec F S64x4096 .f32) (dd : Fin 64) (j : Fin 4096)
    (h : 4096 * u.val + j.val < 100000) : fetX X2 u d0 (ix2 dd j) = X2 (ix2 dd ⟨4096 * u.val + j.val, h⟩) := by
  obtain ⟨i0, i1, x0, x1⟩ := idx0 u
  have hm : win1_0.moved (grid1.coords u) (ix2 dd j) = true := (win1_0.moved_iff _ _).mpr fun a => by
    match a with
    | ⟨0, _⟩ => show dd.val < win1_0.xsize (grid1.coords u) 0; rw [x0]; exact dd.isLt
    | ⟨1, _⟩ => show j.val < win1_0.xsize (grid1.coords u) 1; rw [x1]; have := j.isLt; omega
  unfold fetX Pipeline.Window.fill
  rw [dif_pos hm]
  show X2 ((win1_0.rect u).emb _) = _
  refine congrArg X2 (funext fun a => Fin.ext ?_)
  rw [Pipeline.Window.rect_emb_val]
  match a with
  | ⟨0, _⟩ => show win1_0.index u 0 * 64 + dd.val = dd.val; rw [i0]; omega
  | ⟨1, _⟩ => show win1_0.index u 1 * 4096 + j.val = 4096 * u.val + j.val; rw [i1]; omega

/-- A fetched block of the fourth operand, read at a column inside the array. -/
theorem fetT_apply (T7 : Vec F S1x100000 .f32) (u : Fin cfg1.N) (d3 : Vec F S1x4096 .f32) (j : Fin 4096)
    (h : 4096 * u.val + j.val < 100000) : fetT T7 u d3 (ix2 0 j) = T7 (ix2 0 ⟨4096 * u.val + j.val, h⟩) := by
  obtain ⟨i0, i1, x0, x1⟩ := idx3 u
  have hm : win1_3.moved (grid1.coords u) (ix2 (0 : Fin 1) j) = true := (win1_3.moved_iff _ _).mpr fun a => by
    match a with
    | ⟨0, _⟩ => show (0 : Fin 1).val < win1_3.xsize (grid1.coords u) 0; rw [x0]; exact Nat.zero_lt_one
    | ⟨1, _⟩ => show j.val < win1_3.xsize (grid1.coords u) 1; rw [x1]; have := j.isLt; omega
  unfold fetT Pipeline.Window.fill
  rw [dif_pos hm]
  show T7 ((win1_3.rect u).emb _) = _
  refine congrArg T7 (funext fun a => Fin.ext ?_)
  rw [Pipeline.Window.rect_emb_val]
  match a with
  | ⟨0, _⟩ => show win1_3.index u 0 * 1 + (0 : Fin 1).val = (0 : Fin 1).val; rw [i0]; omega
  | ⟨1, _⟩ => show win1_3.index u 1 * 4096 + j.val = 4096 * u.val + j.val; rw [i1]; omega

/-! ## The write-backs -/

/-- A write-back of block u is an update of the array's rectangle at the block's offsets. -/
theorem write_blk4 (u : Fin cfg1.N) (G₀ : Vec F S100000x1024 .f32) (Xc : (win1_4.xblock (grid1.coords u)).Idx → Elt F .f32) :
    (win1_4.blk u).view.write (Elt F) G₀ Xc Finset.univ
      = updateSlice G₀ Xc (fun a => win1_4.index u a * win1_4.size a) ⟨rfl, fun a => Pipeline.Clip.inb (win1_4.hclip (grid1.coords u) a)⟩ :=
  View.write_whole_slice_unit main_v8 _ _ _ G₀ Xc

/-- A row outside block u is not written by its write-back. -/
theorem step_other (u : Fin cfg1.N) (G₀ : Vec F S100000x1024 .f32) (Xc : (win1_4.xblock (grid1.coords u)).Idx → Elt F .f32)
    (R : Fin 100000) (b : Fin 1024) (hR : R.val < 4096 * u.val ∨ 4096 * u.val + 4096 ≤ R.val) :
    ((win1_4.blk u).view.write (Elt F) G₀ Xc Finset.univ) (ix2 R b) = G₀ (ix2 R b) := by
  obtain ⟨i0, i1, x0, x1⟩ := idx4 u
  rw [write_blk4]
  unfold updateSlice
  rw [dif_neg]
  intro hin
  have h0 := hin ⟨0, by decide⟩
  have h0' : win1_4.index u 0 * 4096 ≤ R.val ∧ R.val < win1_4.index u 0 * 4096 + win1_4.xsize (grid1.coords u) 0 := h0
  rw [i0, x0] at h0'
  omega

/-- A row of block u inside the array holds what its write-back wrote. -/
theorem step_same (u : Fin cfg1.N) (G₀ : Vec F S100000x1024 .f32) (X : Vec F S4096x1024 .f32) (r : Fin 4096) (b : Fin 1024)
    (h : 4096 * u.val + r.val < 100000) :
    ((win1_4.blk u).view.write (Elt F) G₀ (win1_4.cut (grid1.coords u) X) Finset.univ) (ix2 ⟨4096 * u.val + r.val, h⟩ b) = X (ix2 r b) := by
  obtain ⟨i0, i1, x0, x1⟩ := idx4 u
  rw [write_blk4]
  unfold updateSlice
  have hin : ∀ a : Fin 2, win1_4.index u a * win1_4.size a ≤ ((ix2 (⟨4096 * u.val + r.val, h⟩ : Fin 100000) b) a).val
      ∧ ((ix2 (⟨4096 * u.val + r.val, h⟩ : Fin 100000) b) a).val < win1_4.index u a * win1_4.size a + win1_4.xsize (grid1.coords u) a := fun a => by
    match a with
    | ⟨0, _⟩ =>
      show win1_4.index u 0 * 4096 ≤ 4096 * u.val + r.val ∧ 4096 * u.val + r.val < win1_4.index u 0 * 4096 + win1_4.xsize (grid1.coords u) 0
      rw [i0, x0]; have := r.isLt; omega
    | ⟨1, _⟩ =>
      show win1_4.index u 1 * 1024 ≤ b.val ∧ b.val < win1_4.index u 1 * 1024 + win1_4.xsize (grid1.coords u) 1
      rw [i1, x1]; have := b.isLt; omega
  split
  case isFalse hout => exact absurd hin hout
  show X _ = X _
  refine congrArg X (funext fun a => Fin.ext ?_)
  match a with
  | ⟨0, _⟩ => show 4096 * u.val + r.val - win1_4.index u 0 * 4096 = r.val; rw [i0]; omega
  | ⟨1, _⟩ => show b.val - win1_4.index u 1 * 1024 = b.val; rw [i1]; omega

section Arr

variable (X2 : Vec F S64x100000 .f32) (H : Vec F S64x1024 .f32) (B6 : Vec F S1x1024 .f32) (T7 : Vec F S1x100000 .f32) (f8 : Vec F S100000x1024 .f32)

/-- The specification of one block. -/
def BlockOk (t : Fin 25) (g8 : Vec F S100000x1024 .f32) : Prop :=
  ∃ (xb : Vec F S64x4096 .f32) (tb : Vec F S1x4096 .f32),
    (∀ (d : Fin 64) (j : Fin 4096) (h : 4096 * t.val + j.val < 100000), xb (ix2 d j) = X2 (ix2 d ⟨4096 * t.val + j.val, h⟩)) ∧
    (∀ (j : Fin 4096) (h : 4096 * t.val + j.val < 100000), tb (ix2 0 j) = T7 (ix2 0 ⟨4096 * t.val + j.val, h⟩)) ∧
    (∀ (r : Fin 4096) (b : Fin 1024) (h : 4096 * t.val + r.val < 100000),
      g8 (ix2 ⟨4096 * t.val + r.val, h⟩ b) = k1_pay1 xb H tb B6 (ix2 r b))

/-- After the write-backs of the points below n every block below n is as specified: a later write-back leaves an
    earlier block's rows alone, and writes its own block's rows inside the array. -/
theorem blocks_of_arrAt (c : Dev nD) : ∀ (n : Nat) (hn : n ≤ 25) (G : Vec F S100000x1024 .f32),
    (rdat (Ix := Ix) (Name := Name) (U := U) (Lvl := Lvl) X2 H B6 T7 f8 c).ArrAt 4 n G → ∀ t : Fin 25, t.val < n → BlockOk X2 H B6 T7 t G
  | 0, _, _, _, t, ht => absurd ht (Nat.not_lt_zero _)
  | n + 1, hn, G, hG, t, ht => by
    have hlt : n < cfg1.N := by show n < 25; omega
    have hG' : (rdat (Ix := Ix) (Name := Name) (U := U) (Lvl := Lvl) X2 H B6 T7 f8 c).ArrStep 4 ⟨n, hlt⟩
        ((rdat (Ix := Ix) (Name := Name) (U := U) (Lvl := Lvl) X2 H B6 T7 f8 c).ArrAt 4 n) G := by
      have h := hG
      unfold RDat.ArrAt at h
      simp only [dif_pos hlt, if_pos (flush1_4 ⟨n, hlt⟩)] at h
      exact h
    obtain ⟨G₀, X, hG₀, hX, rfl⟩ := hG'
    by_cases htn : t.val = n
    · obtain ⟨Y, _, hrel⟩ := hX
      have hrel' : OutRel X2 H B6 T7 ⟨n, hlt⟩ X := by dsimp only [rdat] at hrel; exact hrel
      obtain ⟨d0, d3, rfl⟩ := hrel'
      have et : t = (⟨n, Nat.lt_of_succ_le hn⟩ : Fin 25) := Fin.ext htn
      subst et
      refine ⟨fetX X2 ⟨n, hlt⟩ d0, fetT T7 ⟨n, hlt⟩ d3, fun d j h => fetX_apply X2 ⟨n, hlt⟩ d0 d j h,
        fun j h => fetT_apply T7 ⟨n, hlt⟩ d3 j h, fun r b h => ?_⟩
      rw [blkH_eq, blkB_eq]
      exact step_same ⟨n, hlt⟩ G₀ _ r b h
    · obtain ⟨xb, tb, hx, ht', hg⟩ := blocks_of_arrAt c n (by omega) G₀ hG₀ t (by omega)
      refine ⟨xb, tb, hx, ht', fun r b h => ?_⟩
      rw [← hg r b h]
      exact step_other ⟨n, hlt⟩ G₀ _ ⟨4096 * t.val + r.val, h⟩ b (by
        have := r.isLt
        show 4096 * t.val + r.val < 4096 * n ∨ 4096 * n + 4096 ≤ 4096 * t.val + r.val
        omega)

/-- After every write-back the result array meets its specification. -/
theorem spec_of_arrAt (c : Dev nD) (G : Vec F S100000x1024 .f32)
    (h : (rdat (Ix := Ix) (Name := Name) (U := U) (Lvl := Lvl) X2 H B6 T7 f8 c).ArrAt 4 cfg1.N G) : TcSpec X2 H B6 T7 G :=
  fun t => blocks_of_arrAt X2 H B6 T7 f8 c 25 (Nat.le_refl _) G h t t.isLt

end Arr

end Cert.KernelIdeal.Tc

end
-- ==== Proof.TcRegion.lean ====
/-
  The one TensorCore pipeline of the program as a kernel region: entered with the five arrays it windows held whole
  at given contents and the core owing nothing, left with the four operands as they were and the result array at
  contents meeting the block-by-block specification (TcSpec), the core owing nothing.

  The region is a record of the library's relational kernel-region kit: the layout decided at launch, no semaphore of
  the kernel's own, the body obligation of the relational proof data, no wait evidence needed (nothing is owed at the
  pipeline's cells), and the four entailments around the thread states TcPre / TcPost.
-/
import proofs.«203358_g20435454394731_cont_8to1_1864_22_alg».proof.Proof.TcData
import proofs.«203358_g20435454394731_cont_8to1_1864_22_alg».proof.Proof.TcValue
import Idealize.ShloMosaic.Lib.ValueIdx

set_option maxRecDepth 16384

noncomputable section

namespace Cert.KernelIdeal.Tc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)
open Idealize.ShloMosaic.ValueIdx

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

section Region

variable (X2 : Vec F S64x100000 .f32) (H : Vec F S64x1024 .f32) (B6 : Vec F S1x1024 .f32) (T7 : Vec F S1x100000 .f32) (f8 : Vec F S100000x1024 .f32)
variable (ι : Ix)
variable (EP : Emb (URounds (GSem nD τ sig) Unit) (MT nD τ sig Ix (Elt F) Name U Lvl))
variable (L : GSem nD τ sig → Finset Ix) (lv : GSem nD τ sig → Ix → Lvl)

/-- The pipelines' tables: none has one. -/
abbrev adm : (p : Fin 1) → (pcfgs (F := F) p).Adm := fun p => (cfgs p).toPCfg_adm

/-- The proof data family: the one pipeline's. -/
def rdats : (p : Fin 1) → (c : Dev nD) → RDat τ (Elt F) Ix Name U Lvl (Pipeline.pin (pcfgs (F := F)) adm p) c
  | ⟨0, _⟩ => fun c => rdat X2 H B6 T7 f8 c

/-- The thread state the region is entered from: the five arrays whole at the given contents, nothing owed. -/
def TcPre (c : Dev nD) (W : Waits sig Ix) : sProp 𝕄 :=
  iprop((((c : Thread nD τ).loc main_v2) ↦{fullShare} X2) ∗ (((c : Thread nD τ).loc main_v5_0) ↦{fullShare} H)
    ∗ (((c : Thread nD τ).loc main_v6) ↦{fullShare} B6) ∗ (((c : Thread nD τ).loc main_v7) ↦{fullShare} T7)
    ∗ (((c : Thread nD τ).loc main_v8) ↦{fullShare} f8) ∗ owes (c : Thread nD τ) (0 : CellTallies nD τ sig Ix) W)

/-- The thread state it leaves: the operands as they were, the result at contents meeting the specification, nothing owed. -/
def TcPost (c : Dev nD) : sProp 𝕄 :=
  iprop((((c : Thread nD τ).loc main_v2) ↦{fullShare} X2) ∗ (((c : Thread nD τ).loc main_v5_0) ↦{fullShare} H)
    ∗ (((c : Thread nD τ).loc main_v6) ↦{fullShare} B6) ∗ (((c : Thread nD τ).loc main_v7) ↦{fullShare} T7)
    ∗ (∃ g8 : Vec F S100000x1024 .f32, ⌜TcSpec X2 H B6 T7 g8⌝ ∗ (((c : Thread nD τ).loc main_v8) ↦{fullShare} g8))
    ∗ ∃ W', owes (c : Thread nD τ) (0 : CellTallies nD τ sig Ix) W')

set_option backward.isDefEq.respectTransparency.types false in
/-- The region's record. -/
def reg (W : Waits sig Ix) : Pipeline.RDat.RegionSeg (pcfgs (F := F)) adm (rdats (Name := Name) (U := U) X2 H B6 T7 f8) ι defs₀ Variants.none L lv 0 where
  win := launch1.win.to₀
  block_pos := launch1.block_pos
  stage_whole := launch1.stage_whole
  K := PEmpty
  osem k := k.elim
  ho := Pipeline.OwnSemFacts.none _
  hbody c := body_obligation X2 H B6 T7 f8 ι c
  hwaits := Pipeline.RDat.hwaits_of_owed_zero (pcfgs (F := F)) adm (rdats (Name := Name) (U := U) X2 H B6 T7 f8) ι L lv 0 fun _ _ => rfl
  pre c := TcPre X2 H B6 T7 f8 c W
  post c := TcPost (Ix := Ix) (Name := Name) (U := U) (Lvl := Lvl) X2 H B6 T7 c
  X _ := BI.emp
  Y _ := BI.emp
  Z _ := BI.emp
  hentry c := by
    rw [Pipeline.ownSems0_none,
      Pipeline.RDat.arrays_eq (pcfgs (F := F)) adm (rdats (Name := Name) (U := U) X2 H B6 T7 f8) 0 c launch1.arr_whole
        ((rdats X2 H B6 T7 f8 0 c).share_full fun _ => rfl) _, bigSep_W1]
    unfold TcPre
    iintro ⟨⟨H0, H1, H2, H3, H4, HO⟩, -, -⟩
    imodintro
    isplitl [H0 H1 H2 H3 H4]
    · isplitl [H0]; · iexact H0
      isplitl [H1]; · iexact H1
      isplitl [H2]; · iexact H2
      isplitl [H3]; · iexact H3
      iexact H4
    isplitr; · unfold Pipeline.prefHeld; rw [show (Finset.univ : Finset (Fin 0)) = ∅ from rfl, BI.bigSep_empty]; iempintro
    isplitl [HO]
    · unfold Pipeline.RDat.owesAt Pipeline.owesWithin
      iexists W; isplitr; · ipureintro; exact fun _ _ => Or.inl trivial
      iexact HO
    isplitr <;> iempintro
  hin c := by
    rw [show (rdats (Ix := Ix) (Name := Name) (U := U) (Lvl := Lvl) X2 H B6 T7 f8 0 c).Φ 0 = BI.emp from rfl]
    have hs := scopedRest1_eq (Ix := Ix) (Val := Elt F) (Name := Name) (U := U) (Lvl := Lvl) c
    rw [show Pipeline.scopedRest (Ix := Ix) (Name := Name) (U := U) (Lvl := Lvl) (Val := Elt F) (Pipeline.pin (pcfgs (F := F)) adm 0).spec c
      = Pipeline.scopedRest (Ix := Ix) (Name := Name) (U := U) (Lvl := Lvl) (Val := Elt F) spec1 c from rfl, hs]
    iintro ⟨-, -, -⟩; iempintro
  hout c := by
    rw [Pipeline.ownSems0_none, show (rdats (Ix := Ix) (Name := Name) (U := U) (Lvl := Lvl) X2 H B6 T7 f8 0 c).Φ (Fin.last _) = BI.emp from rfl]
    have hs := scopedRest1_eq (Ix := Ix) (Val := Elt F) (Name := Name) (U := U) (Lvl := Lvl) c
    rw [show Pipeline.scopedRest (Ix := Ix) (Name := Name) (U := U) (Lvl := Lvl) (Val := Elt F) (Pipeline.pin (pcfgs (F := F)) adm 0).spec c
      = Pipeline.scopedRest (Ix := Ix) (Name := Name) (U := U) (Lvl := Lvl) (Val := Elt F) spec1 c from rfl, hs]
    iintro -
    isplitr; · iempintro
    isplitr <;> iempintro
  hexit c := by
    have hA : (rdats (Ix := Ix) (Name := Name) (U := U) (Lvl := Lvl) X2 H B6 T7 f8 0 c).arraysAt (Pipeline.pin (pcfgs (F := F)) adm 0).N
        = bigSep Finset.univ fun w : Fin (Pipeline.pin (pcfgs (F := F)) adm 0).W =>
            (iprop(∃ G, ⌜(rdats (Ix := Ix) (Name := Name) (U := U) (Lvl := Lvl) X2 H B6 T7 f8 0 c).ArrAt w (Pipeline.pin (pcfgs (F := F)) adm 0).N G⌝
            ∗ (((c.tc : Thread nD τ).loc (Pipeline.arrRef (Pipeline.pin (pcfgs (F := F)) adm 0).spec w)) ↦{fullShare} G)) : sProp 𝕄) := by
      unfold RDat.arraysAt
      exact bigSep_congr fun w _ => by
        rw [(launch1.arr_whole w).set_eq_univ, (rdats X2 H B6 T7 f8 0 c).share_full (fun _ => rfl) w]
    rw [hA, bigSep_W1]
    iintro ⟨⟨⟨%G0, %h0, A0⟩, ⟨%G1, %h1, A1⟩, ⟨%G2, %h2, A2⟩, ⟨%G3, %h3, A3⟩, ⟨%G4, %h4, A4⟩⟩, HO, -, -⟩
    rw [RDat.ArrAt_in _ 0 rfl] at h0
    rw [RDat.ArrAt_in _ 1 rfl] at h1
    rw [RDat.ArrAt_in _ 2 rfl] at h2
    rw [RDat.ArrAt_in _ 3 rfl] at h3
    have e0 : X2 = G0 := h0.symm
    have e1 : H = G1 := h1.symm
    have e2 : B6 = G2 := h2.symm
    have e3 : T7 = G3 := h3.symm
    subst e0 e1 e2 e3
    have h4' : (rdat (Ix := Ix) (Name := Name) (U := U) (Lvl := Lvl) X2 H B6 T7 f8 c).ArrAt 4 cfg1.N G4 := h4
    imodintro
    unfold TcPost
    isplitl [A0]; · iexact A0
    isplitl [A1]; · iexact A1
    isplitl [A2]; · iexact A2
    isplitl [A3]; · iexact A3
    isplitl [A4]
    · iexists G4; isplitr; · ipureintro; exact spec_of_arrAt X2 H B6 T7 f8 c G4 h4'
      iexact A4
    unfold Pipeline.RDat.owesAt Pipeline.owesWithin
    icases HO with ⟨%W', -, HO⟩; iexists W'; iexact HO

/-- The region's step on core c. -/
theorem region_wp [∀ e, Nonempty (Elt F e)] [Infinite Name] [EP.LandsIn (upEmb : UEmb _ 𝕄)] (ι : Ix) (c : Dev nD)
    (bd : Option (Variants.lift Variants.none).V)
    (hv : ∀ u ∈ bd, (Variants.lift Variants.none).lt (.inr ((Pipeline.pin (pcfgs (F := F)) adm 0).tripCount + 1)) u)
    {α : Type} (k : PUnit → Prog (TpuEff nD τ sig (Elt F) (Pipeline.Sig Λ₀ (Fin 1) fun p => (pcfgs (F := F) p).Adm) .tc) α) (Q : α → sProp 𝕄)
    (W : Waits sig Ix) :
    iprop((iprop(boundary (c.tc : Thread nD τ) ∗ TcPost (Ix := Ix) (Name := Name) (U := U) (Lvl := Lvl) X2 H B6 T7 c)
            -∗ wp frame (wpE (Pipeline.defs (pcfgs (F := F)) defs₀) (Variants.lift Variants.none) (c.tc : Thread nD τ) bd) Set.univ (k ⟨⟩) Q)
        ∗ boundary (c.tc : Thread nD τ) ∗ TcPre X2 H B6 T7 f8 c W ∗ levAts L lv
        ∗ Pipeline.cellsGhost (Pipeline.pin (pcfgs (F := F)) adm) EP 0 c ∗ Pipeline.toksInit (Pipeline.pin (pcfgs (F := F)) adm) EP 0 c)
      ⊢ wp frame (wpE (Pipeline.defs (pcfgs (F := F)) defs₀) (Variants.lift Variants.none) (c.tc : Thread nD τ) bd) Set.univ
          (.op (.customCall (Pipeline.entry 0) ()) k) Q :=
  Pipeline.RDat.RegionSeg.wp (pcfgs (F := F)) adm (rdats (Name := Name) (U := U) X2 H B6 T7 f8) ι cellOf_inj EP defs₀ Variants.none L lv
    (reg X2 H B6 T7 f8 ι L lv W) c bd hv k Q

end Region

end Cert.KernelIdeal.Tc

end
-- ==== Proof.ScGhost.lean ====
/-
  The launch element of the program's ghost state: the handshakes' rounds of the one SparseCore call, the rounds of
  the one TensorCore pipeline's staging cells with a duty token for every transfer the pipeline issues, and the unit
  of the transfers' counters. Owning it splits over the product into the handshakes' part and the pipeline's part;
  the pipeline's part funds, on every device, the cells' round states and the duty tokens the kernel region of the
  pipeline is entered with.
-/
import proofs.«203358_g20435454394731_cont_8to1_1864_22_alg».proof.Proof.ScPay
import proofs.«203358_g20435454394731_cont_8to1_1864_22_alg».proof.Proof.TcRegion

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The one pipeline's staging cells are pairwise distinct. -/
theorem hinj : Function.Injective (Pipeline.cellOf (nD := nD) (τ := τ) (Pipeline.pin (pcfgs (F := F)) Tc.adm)) := cellOf_inj

/-- What the launch deals device d for the pipeline: its staging cells' ghost state and its duty tokens. -/
def G (d : Dev nD) : sProp 𝕄 :=
  iprop(Pipeline.cellsGhost (Pipeline.pin (pcfgs (F := F)) Tc.adm) EP 0 d ∗ Pipeline.toksInit (Pipeline.pin (pcfgs (F := F)) Tc.adm) EP 0 d)

/-- The launch element. -/
def u₀ : UU :=
  (initOf (K (F := F)).hsCells (K (F := F)).hsToks,
    (initOf (Pipeline.cells (Pipeline.pin (pcfgs (F := F)) Tc.adm) hinj) (Pipeline.launchToks (Pipeline.pin (pcfgs (F := F)) Tc.adm) hinj), 1))

/-- Owning a triple with the counters' unit is owning its first two parts through their embeddings. -/
theorem ownU_split (a : UH) (b : UP) : (ownU (a, (b, (1 : Counters))) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

/-- The pipeline's part funds every device's share. -/
theorem ghost_intro :
    (BI.own (EP (F := F) (initOf (Pipeline.cells (Pipeline.pin (pcfgs (F := F)) Tc.adm) hinj)
        (Pipeline.launchToks (Pipeline.pin (pcfgs (F := F)) Tc.adm) hinj))) : sProp 𝕄)
      ⊢ iprop(|==> bigSep Finset.univ fun d : Dev nD => G (F := F) d) := by
  have h := Pipeline.fund_ghost (Ix := HIx 1) (Name := ℕ) (U := UU) (Lvl := ℕ) (Pipeline.pin (pcfgs (F := F)) Tc.adm) (EP (F := F)) hinj
  have e1 : (bigSep Finset.univ fun c : Dev nD => bigSep Finset.univ fun p : Fin 1 =>
        (Pipeline.cellsGhost (Pipeline.pin (pcfgs (F := F)) Tc.adm) EP p c : sProp 𝕄))
      = bigSep Finset.univ fun c : Dev nD => Pipeline.cellsGhost (Pipeline.pin (pcfgs (F := F)) Tc.adm) EP 0 c :=
    bigSep_congr fun c _ => bigSep_univ_of_subsingleton (0 : Fin 1)
  have e2 : (bigSep Finset.univ fun c : Dev nD => bigSep Finset.univ fun p : Fin 1 =>
        (Pipeline.toksInit (Pipeline.pin (pcfgs (F := F)) Tc.adm) EP p c : sProp 𝕄))
      = bigSep Finset.univ fun c : Dev nD => Pipeline.toksInit (Pipeline.pin (pcfgs (F := F)) Tc.adm) EP 0 c :=
    bigSep_congr fun c _ => bigSep_univ_of_subsingleton (0 : Fin 1)
  rw [e1, e2, ← bigSep_sep'] at h
  exact h

omit [FloatOps F] in
theorem bigSep_emp' {I : Type} (s : Finset I) : (bigSep s fun _ => iprop(emp)) = (iprop(emp) : sProp 𝕄) := bigSep_emp_const s

/-- The launch element makes the handshakes' rounds, every device's pipeline ghost state, and nothing for a
    protocol of the workers' own. -/
theorem hu₀ (C : Dev nD → Cts F) : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P C).x q thr) := by
  unfold u₀
  iintro Hu
  ihave H := (ownU_split _ _) $$ Hu
  icases H with ⟨HH, HP⟩
  imod ghost_intro $$ HP with HG
  imodintro
  isplitl [HH]; · iexact HH
  isplitl [HG]; · iexact HG
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.KernelIdeal.Sc

end
-- ==== Proof.ScSets.lean ====
/-
  The workers' rows of the two results partition them.

  Worker (c, i), on subcore i of SparseCore c, has number wid = 2 i + c. Of the 64 x 1024 result it owns the two rows
  2 wid and 2 wid + 1, that is the rows 4 i + 2 c and 4 i + 2 c + 1, whole; of the 1024-entry result it owns the
  thirty-two entries from 32 wid = 64 i + 32 c on. Two different workers have different numbers, so their rows and
  their entries are disjoint; and row r belongs to worker (⌊r / 2⌋ mod 2, ⌊r / 4⌋), entry e to worker
  (⌊e / 32⌋ mod 2, ⌊e / 64⌋), so the thirty-two workers' rows are all the rows and their entries all the entries.
  Hence each result array held whole is the same as its thirty-two pieces held together, SparseCore by SparseCore and
  subcore by subcore.
-/
import proofs.«203358_g20435454394731_cont_8to1_1864_22_alg».proof.Proof.ScPay

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## A worker's coordinates -/

theorem coords_zero_val (c : Fin 2) (i : Fin 16) : ((coords c i) 0).val = c.val := rfl
theorem coords_one_val (c : Fin 2) (i : Fin 16) : ((coords c i) 1).val = i.val := rfl

/-! ## The sets as rectangles -/

/-- A worker's rows of the first result are the rectangle of two whole rows at its row offset. -/
theorem rowsSet_eq (L : grid0.Coords) :
    rowsSet L = (Rect.unit (s := S64x1024) (k0_off10 L) S2x1024.size (k0_off10_inb L)).set := by
  show ((View.whole (main_v5_0_scv : Ref sig .scVector)).slice
    (Rect.unit (s := S64x1024) (k0_off10 L) S2x1024.size (k0_off10_inb L))).set = _
  rw [View.set_slice]; exact Finset.map_refl

/-- A worker's entries of the second result are the rectangle of thirty-two entries at its entry offset. -/
theorem segSet_eq (L : grid0.Coords) :
    segSet L = (Rect.unit (s := S1024) (k0_off1 L) S32.size (k0_off1_inb L)).set := by
  show ((View.whole (main_v5_1_scv : Ref sig .scVector)).slice
    (Rect.unit (s := S1024) (k0_off1 L) S32.size (k0_off1_inb L))).set = _
  rw [View.set_slice]; exact Finset.map_refl

/-! ## The rows of the first result -/

/-- Two different workers own different rows. -/
theorem rows_disjoint : ∀ a ∈ (Finset.univ : Finset (Fin 2 × Fin 16)), ∀ b ∈ (Finset.univ : Finset (Fin 2 × Fin 16)), a ≠ b →
    Disjoint (rowsSet (coords a.1 a.2)) (rowsSet (coords b.1 b.2)) := by
  rintro ⟨c, i⟩ - ⟨c', i'⟩ - h
  rw [rowsSet_eq, rowsSet_eq]
  refine Rect.unit_disjoint (0 : Fin 2) ?_
  rw [k0_off10_eq, k0_off10_eq]
  show 4 * i.val + 2 * c.val + 2 ≤ 4 * i'.val + 2 * c'.val ∨ 4 * i'.val + 2 * c'.val + 2 ≤ 4 * i.val + 2 * c.val
  have hne : ¬(c.val = c'.val ∧ i.val = i'.val) := fun e => h (Prod.ext (Fin.ext e.1) (Fin.ext e.2))
  have hc := c.isLt
  have hc' := c'.isLt
  omega

/-- Every row is some worker's. -/
theorem rows_cover : (Finset.univ : Finset (Fin 2 × Fin 16)).biUnion (fun a => rowsSet (coords a.1 a.2)) = Finset.univ := by
  ext j
  simp only [Finset.mem_biUnion, Finset.mem_univ, true_and, iff_true]
  have h0 : (j 0).val < 64 := (j 0).isLt
  have h1 : (j 1).val < 1024 := (j 1).isLt
  refine ⟨(⟨(j 0).val / 2 % 2, Nat.mod_lt _ (by decide)⟩, ⟨(j 0).val / 4, by omega⟩), ?_⟩
  rw [rowsSet_eq, Rect.mem_set_unit, k0_off10_eq]
  intro a
  match a with
  | ⟨0, _⟩ =>
    show 4 * ((j 0).val / 4) + 2 * ((j 0).val / 2 % 2) ≤ (j 0).val
      ∧ (j 0).val < 4 * ((j 0).val / 4) + 2 * ((j 0).val / 2 % 2) + 2
    omega
  | ⟨1, _⟩ =>
    show 0 ≤ (j 1).val ∧ (j 1).val < 0 + 1024
    omega

/-! ## The entries of the second result -/

/-- Two different workers own different entries. -/
theorem segs_disjoint : ∀ a ∈ (Finset.univ : Finset (Fin 2 × Fin 16)), ∀ b ∈ (Finset.univ : Finset (Fin 2 × Fin 16)), a ≠ b →
    Disjoint (segSet (coords a.1 a.2)) (segSet (coords b.1 b.2)) := by
  rintro ⟨c, i⟩ - ⟨c', i'⟩ - h
  rw [segSet_eq, segSet_eq]
  refine Rect.unit_disjoint (0 : Fin 1) ?_
  rw [k0_off1_eq, k0_off1_eq]
  show 64 * i.val + 32 * c.val + 32 ≤ 64 * i'.val + 32 * c'.val ∨ 64 * i'.val + 32 * c'.val + 32 ≤ 64 * i.val + 32 * c.val
  have hne : ¬(c.val = c'.val ∧ i.val = i'.val) := fun e => h (Prod.ext (Fin.ext e.1) (Fin.ext e.2))
  have hc := c.isLt
  have hc' := c'.isLt
  omega

/-- Every entry is some worker's. -/
theorem segs_cover : (Finset.univ : Finset (Fin 2 × Fin 16)).biUnion (fun a => segSet (coords a.1 a.2)) = Finset.univ := by
  ext j
  simp only [Finset.mem_biUnion, Finset.mem_univ, true_and, iff_true]
  have h0 : (j 0).val < 1024 := (j 0).isLt
  refine ⟨(⟨(j 0).val / 32 % 2, Nat.mod_lt _ (by decide)⟩, ⟨(j 0).val / 64, by omega⟩), ?_⟩
  rw [segSet_eq, Rect.mem_set_unit, k0_off1_eq]
  intro a
  match a with
  | ⟨0, _⟩ =>
    show 64 * ((j 0).val / 64) + 32 * ((j 0).val / 32 % 2) ≤ (j 0).val
      ∧ (j 0).val < 64 * ((j 0).val / 64) + 32 * ((j 0).val / 32 % 2) + 32
    omega

/-! ## Each result whole is its thirty-two pieces -/

/-- The first result held whole is its rows held worker by worker. -/
theorem o0_split (d : Dev nD) (f : Buf (Elt F) (lo0 d)) :
    (lo0 d ↦{fullShare} f : sProp 𝕄)
      = bigSep Finset.univ fun c : Fin 2 => bigSep Finset.univ fun i : Fin 16 => lo0 d ↦[rowsSet (coords c i)]{fullShare} f := by
  refine Eq.trans ?_ (SparseCore.bigSep_product Finset.univ Finset.univ
    (fun a : Fin 2 × Fin 16 => (lo0 d ↦[rowsSet (coords a.1 a.2)]{fullShare} f : sProp 𝕄)))
  rw [Finset.univ_product_univ,
    ← pointsTo_biUnion Finset.univ (ℓ := lo0 d) (fun a : Fin 2 × Fin 16 => rowsSet (coords a.1 a.2)) rows_disjoint, rows_cover]
  try rfl

/-- The second result held whole is its entries held worker by worker. -/
theorem o1_split (d : Dev nD) (f : Buf (Elt F) (lo1 d)) :
    (lo1 d ↦{fullShare} f : sProp 𝕄)
      = bigSep Finset.univ fun c : Fin 2 => bigSep Finset.univ fun i : Fin 16 => lo1 d ↦[segSet (coords c i)]{fullShare} f := by
  refine Eq.trans ?_ (SparseCore.bigSep_product Finset.univ Finset.univ
    (fun a : Fin 2 × Fin 16 => (lo1 d ↦[segSet (coords a.1 a.2)]{fullShare} f : sProp 𝕄)))
  rw [Finset.univ_product_univ,
    ← pointsTo_biUnion Finset.univ (ℓ := lo1 d) (fun a : Fin 2 × Fin 16 => segSet (coords a.1 a.2)) segs_disjoint, segs_cover]
  try rfl

end Cert.KernelIdeal.Sc

end
-- ==== Proof.ScMain.lean ====
/-
  @main on the TensorCore: five host operations lay out the call's operands, the SparseCore call gathers, two
  reshapes lay out the pipeline's operands, the one pipeline scores, a transpose lays out the result.
-/
import proofs.«203358_g20435454394731_cont_8to1_1864_22_alg».proof.Proof.ScGhost
import proofs.«203358_g20435454394731_cont_8to1_1864_22_alg».proof.Proof.ScSets
import proofs.«203358_g20435454394731_cont_8to1_1864_22_alg».proof.Proof.TcRegion

set_option maxRecDepth 16384

noncomputable section

namespace Cert.KernelIdeal.Sc

open Cert.KernelIdeal Cert.KernelIdeal.Gen

open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type} [FloatOps F]

local notation "𝕄" => MT nD τ sig (HIx 1) (Elt F) ℕ UU ℕ

/-! ## The host operations and the buffers they touch -/

abbrev dA0 : DevRef τ sig := Proc.devRef .tc (main_arg0 : Ref sig .tc)
abbrev dA1 : DevRef τ sig := Proc.devRef .tc (main_arg1 : Ref sig .tc)
abbrev dA2 : DevRef τ sig := Proc.devRef .tc (main_arg2 : Ref sig .tc)
abbrev dA3 : DevRef τ sig := Proc.devRef .tc (main_arg3 : Ref sig .tc)
abbrev dA4 : DevRef τ sig := Proc.devRef .tc (main_arg4 : Ref sig .tc)
abbrev dA5 : DevRef τ sig := Proc.devRef .tc (main_arg5 : Ref sig .tc)
abbrev dV0 : DevRef τ sig := Proc.devRef .tc (main_v0 : Ref sig .tc)
abbrev dV1 : DevRef τ sig := Proc.devRef .tc (main_v1 : Ref sig .tc)
abbrev dV2 : DevRef τ sig := Proc.devRef .tc (main_v2 : Ref sig .tc)
abbrev dV3 : DevRef τ sig := Proc.devRef .tc (main_v3 : Ref sig .tc)
abbrev dV4 : DevRef τ sig := Proc.devRef .tc (main_v4 : Ref sig .tc)
abbrev dV51 : DevRef τ sig := Proc.devRef .tc (main_v5_1 : Ref sig .tc)
abbrev dV6 : DevRef τ sig := Proc.devRef .tc (main_v6 : Ref sig .tc)
abbrev dV7 : DevRef τ sig := Proc.devRef .tc (main_v7 : Ref sig .tc)
abbrev dV8 : DevRef τ sig := Proc.devRef .tc (main_v8 : Ref sig .tc)
abbrev dV9 : DevRef τ sig := Proc.devRef .tc (main_v9 : Ref sig .tc)

abbrev op0 : HloOp τ sig (Elt F) := StableHlo.reshape main_arg0 main_v0 rfl shapeCasts_S1024x1_S1024
abbrev op1 : HloOp τ sig (Elt F) := StableHlo.reshape main_arg1 main_v1 rfl shapeCasts_S1024x1_S1024
abbrev op2 : HloOp τ sig (Elt F) := StableHlo.unary main_arg2 main_v2 ((transpose S64x100000 [1, 0] · transposes_S100000x64_S64x100000_1_0) : (⟨S100000x64, .f32⟩ : BufTy).Contents (Elt F) → (⟨S64x100000, .f32⟩ : BufTy).Contents (Elt F))
abbrev op3 : HloOp τ sig (Elt F) := StableHlo.unary main_arg3 main_v3 ((transpose S64x2000 [1, 0] · transposes_S2000x64_S64x2000_1_0) : (⟨S2000x64, .f32⟩ : BufTy).Contents (Elt F) → (⟨S64x2000, .f32⟩ : BufTy).Contents (Elt F))
abbrev op4 : HloOp τ sig (Elt F) := StableHlo.reshape main_arg4 main_v4 rfl shapeCasts_S100000x1_S100000
abbrev op6 : HloOp τ sig (Elt F) := StableHlo.reshape main_v5_1 main_v6 rfl shapeCasts_S1024_S1x1024
abbrev op7 : HloOp τ sig (Elt F) := StableHlo.reshape main_arg5 main_v7 rfl shapeCasts_S100000x1_S1x100000
abbrev op9 : HloOp τ sig (Elt F) := StableHlo.unary main_v8 main_v9 ((transpose S1024x100000 [1, 0] · transposes_S100000x1024_S1024x100000_1_0) : (⟨S100000x1024, .f32⟩ : BufTy).Contents (Elt F) → (⟨S1024x100000, .f32⟩ : BufTy).Contents (Elt F))

variable (m : (ℓ : Loc nD τ sig) → Buf (Elt F) ℓ) (ρ : Dev nD → PrngReg)

/-- The launch valuation. -/
def V0 (d : Dev nD) : Valuation τ sig (Elt F) := fun b => m (d, b)

/-- The seven arrays' contents when the call is made. -/
def Cm (d : Dev nD) : Cts F where
  a0 := shapeCast S1024 (m ((SparseCore.T d).loc main_arg0)) shapeCasts_S1024x1_S1024
  a1 := shapeCast S1024 (m ((SparseCore.T d).loc main_arg1)) shapeCasts_S1024x1_S1024
  x2 := transpose S64x100000 [1, 0] (m ((SparseCore.T d).loc main_arg2)) transposes_S100000x64_S64x100000_1_0
  x3 := transpose S64x2000 [1, 0] (m ((SparseCore.T d).loc main_arg3)) transposes_S2000x64_S64x2000_1_0
  x4 := shapeCast S100000 (m ((SparseCore.T d).loc main_arg4)) shapeCasts_S100000x1_S100000
  o0 := m (lo0 d)
  o1 := m (lo1 d)

theorem Cm_a0 (d : Dev nD) : (Cm m d).a0 = shapeCast S1024 (m ((SparseCore.T d).loc main_arg0)) shapeCasts_S1024x1_S1024 := rfl
theorem Cm_a1 (d : Dev nD) : (Cm m d).a1 = shapeCast S1024 (m ((SparseCore.T d).loc main_arg1)) shapeCasts_S1024x1_S1024 := rfl
theorem Cm_x2 (d : Dev nD) : (Cm m d).x2 = transpose S64x100000 [1, 0] (m ((SparseCore.T d).loc main_arg2)) transposes_S100000x64_S64x100000_1_0 := rfl
theorem Cm_x3 (d : Dev nD) : (Cm m d).x3 = transpose S64x2000 [1, 0] (m ((SparseCore.T d).loc main_arg3)) transposes_S2000x64_S64x2000_1_0 := rfl
theorem Cm_x4 (d : Dev nD) : (Cm m d).x4 = shapeCast S100000 (m ((SparseCore.T d).loc main_arg4)) shapeCasts_S100000x1_S100000 := rfl

/-- The pipeline's bias row and target row: what the two reshapes write. -/
def B6m (d : Dev nD) : Vec F S1x1024 .f32 := shapeCast S1x1024 (hbVal (Cm m d).a0 (Cm m d).x4) shapeCasts_S1024_S1x1024
def T7m (d : Dev nD) : Vec F S1x100000 .f32 := shapeCast S1x100000 (m ((SparseCore.T d).loc main_arg5)) shapeCasts_S100000x1_S1x100000

/-! ## Two buffers held -/

omit [FloatOps F] in
/-- Two distinct buffers held at a valuation are their two points-to. -/
theorem held_pair (d : Dev nD) (a b : DevRef τ sig) (hab : a ≠ b) (W : Valuation τ sig (Elt F))
    (fa : Buf (Elt F) ((d, a) : Loc nD τ sig)) (fb : Buf (Elt F) ((d, b) : Loc nD τ sig)) (ha : W a = fa) (hb : W b = fb) :
    (held (SparseCore.T d) {a, b} W : sProp 𝕄) = iprop((((d, a) : Loc nD τ sig) ↦{fullShare} fa) ∗ (((d, b) : Loc nD τ sig) ↦{fullShare} fb)) := by
  unfold held
  rw [SparseCore.bigSep_insert' (Finset.notMem_singleton.mpr hab), bigSep_singleton, ha, hb]

/-! ## What the call takes and what it hands back -/

omit [FloatOps F] in
/-- The call's SparseCores are the two. -/
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- What the call takes: each SparseCore's share of the five tables; the two results whole. -/
theorem st0_eq (C : Dev nD → Cts F) (d : Dev nD) :
    (bigSep Finset.univ fun c : Fin ((K (F := F)).nCore 0) => (P C).st 0 d c)
      = iprop(((bigSep Finset.univ fun c : Fin 2 => l0 d ↦{cq c} (C d).a0) ∗ (bigSep Finset.univ fun c : Fin 2 => l1 d ↦{cq c} (C d).a1)
          ∗ (bigSep Finset.univ fun c : Fin 2 => l2 d ↦{cq c} (C d).x2) ∗ (bigSep Finset.univ fun c : Fin 2 => l3 d ↦{cq c} (C d).x3)
          ∗ (bigSep Finset.univ fun c : Fin 2 => l4 d ↦{cq c} (C d).x4))
        ∗ (lo0 d ↦{fullShare} (C d).o0) ∗ (lo1 d ↦{fullShare} (C d).o1)) := by
  show (bigSep Finset.univ fun c : Fin ((K (F := F)).nCore 0) =>
    iprop(reads C d (cq (Fin.cast nCore_zero c)) ∗ bigSep Finset.univ fun i : Fin 16 => outs0 C d (Fin.cast nCore_zero c) i)) = _
  rw [bigSep_cores (fun c => iprop(reads C d (cq c) ∗ bigSep Finset.univ fun i : Fin 16 => outs0 C d c i)), o0_split, o1_split]
  unfold reads outs0
  simp only [bigSep_sep']

/-- What it hands back: the shares; the two results whole at the products and the biases. -/
theorem dn0_eq (C : Dev nD → Cts F) (d : Dev nD) :
    (bigSep Finset.univ fun c : Fin ((K (F := F)).nCore 0) => (P C).dn 0 d c)
      = iprop(((bigSep Finset.univ fun c : Fin 2 => l0 d ↦{cq c} (C d).a0) ∗ (bigSep Finset.univ fun c : Fin 2 => l1 d ↦{cq c} (C d).a1)
          ∗ (bigSep Finset.univ fun c : Fin 2 => l2 d ↦{cq c} (C d).x2) ∗ (bigSep Finset.univ fun c : Fin 2 => l3 d ↦{cq c} (C d).x3)
          ∗ (bigSep Finset.univ fun c : Fin 2 => l4 d ↦{cq c} (C d).x4))
        ∗ (lo0 d ↦{fullShare} hrtVal (C d).a0 (C d).a1 (C d).x2 (C d).x3) ∗ (lo1 d ↦{fullShare} hbVal (C d).a0 (C d).x4)) := by
  show (bigSep Finset.univ fun c : Fin ((K (F := F)).nCore 0) =>
    iprop(reads C d (cq (Fin.cast nCore_zero c)) ∗ bigSep Finset.univ fun i : Fin 16 => outs1 C d (Fin.cast nCore_zero c) i)) = _
  rw [bigSep_cores (fun c => iprop(reads C d (cq c) ∗ bigSep Finset.univ fun i : Fin 16 => outs1 C d c i)), o0_split, o1_split]
  unfold reads outs1
  simp only [bigSep_sep']

/-! ## What @main leaves the claim -/

/-- The six arguments whole at their launch contents; the result's transpose at contents meeting the pipeline's
    specification. -/
def FIN (d : Dev nD) : sProp 𝕄 :=
  iprop((((SparseCore.T d).loc main_arg0) ↦{fullShare} m ((SparseCore.T d).loc main_arg0)) ∗ (((SparseCore.T d).loc main_arg1) ↦{fullShare} m ((SparseCore.T d).loc main_arg1))
    ∗ (((SparseCore.T d).loc main_arg2) ↦{fullShare} m ((SparseCore.T d).loc main_arg2)) ∗ (((SparseCore.T d).loc main_arg3) ↦{fullShare} m ((SparseCore.T d).loc main_arg3))
    ∗ (((SparseCore.T d).loc main_arg4) ↦{fullShare} m ((SparseCore.T d).loc main_arg4)) ∗ (((SparseCore.T d).loc main_arg5) ↦{fullShare} m ((SparseCore.T d).loc main_arg5))
    ∗ ∃ g8 : Vec F S100000x1024 .f32,
        ⌜Tc.TcSpec (Cm m d).x2 (hrtVal (Cm m d).a0 (Cm m d).a1 (Cm m d).x2 (Cm m d).x3) (B6m m d) (T7m m d) g8⌝
        ∗ (((SparseCore.T d).loc main_v9) ↦{fullShare} transpose S1024x100000 [1, 0] g8 transposes_S100000x1024_S1024x100000_1_0))

/-- What the claim reads of the final state on device d. -/
def fq (d : Dev nD) (s' : Phys nD τ sig (Elt F)) : Prop :=
  s'.mem.mem ((SparseCore.T d).loc main_arg0) = m ((SparseCore.T d).loc main_arg0) ∧ s'.mem.mem ((SparseCore.T d).loc main_arg1) = m ((SparseCore.T d).loc main_arg1)
    ∧ s'.mem.mem ((SparseCore.T d).loc main_arg2) = m ((SparseCore.T d).loc main_arg2) ∧ s'.mem.mem ((SparseCore.T d).loc main_arg3) = m ((SparseCore.T d).loc main_arg3)
    ∧ s'.mem.mem ((SparseCore.T d).loc main_arg4) = m ((SparseCore.T d).loc main_arg4) ∧ s'.mem.mem ((SparseCore.T d).loc main_arg5) = m ((SparseCore.T d).loc main_arg5)
    ∧ ∃ g8 : Vec F S100000x1024 .f32,
        Tc.TcSpec (Cm m d).x2 (hrtVal (Cm m d).a0 (Cm m d).a1 (Cm m d).x2 (Cm m d).x3) (B6m m d) (T7m m d) g8
        ∧ s'.mem.mem ((SparseCore.T d).loc main_v9) = transpose S1024x100000 [1, 0] g8 transposes_S100000x1024_S1024x100000_1_0

omit [FloatOps F] in
/-- A buffer held whole reads as its contents in the state. -/
theorem agree (ℓ : Loc nD τ sig) (f : Buf (Elt F) ℓ) (s' : Phys nD τ sig (Elt F)) :
    iprop((ℓ ↦{fullShare} f) ∗ SI s') ⊢ (iprop(⌜s'.mem.mem ℓ = f⌝ ∗ (ℓ ↦{fullShare} f) ∗ SI s') : sProp 𝕄) := by
  iintro ⟨Hx, HSI⟩
  icombine HSI Hx gives %h
  isplitr; · ipureintro; exact funext fun i => h i (Finset.mem_univ i)
  isplitl [Hx]; · iexact Hx
  iexact HSI

/-- The final assertion read against the final state. -/
theorem hfin (d : Dev nD) (s' : Phys nD τ sig (Elt F)) : iprop(FIN m d ∗ SI s') ⊢ (⌜fq m d s'⌝ : sProp 𝕄) := by
  unfold FIN fq
  iintro ⟨⟨H0, H1, H2, H3, H4, H5, %g8, %hg, H9⟩, HSI⟩
  icombine HSI H0 gives %e0
  icombine HSI H1 gives %e1
  icombine HSI H2 gives %e2
  icombine HSI H3 gives %e3
  icombine HSI H4 gives %e4
  icombine HSI H5 gives %e5
  icombine HSI H9 gives %e9
  ipureintro
  exact ⟨funext fun i => e0 i (Finset.mem_univ i), funext fun i => e1 i (Finset.mem_univ i), funext fun i => e2 i (Finset.mem_univ i),
    funext fun i => e3 i (Finset.mem_univ i), funext fun i => e4 i (Finset.mem_univ i), funext fun i => e5 i (Finset.mem_univ i),
    g8, hg, funext fun i => e9 i (Finset.mem_univ i)⟩

/-! ## One host operation over its two buffers -/

set_option backward.isDefEq.respectTransparency.types false in
/-- A host operation that touches two buffers, run holding them whole: they end at what the operation leaves. -/
theorem hlo2 (d : Dev nD) (op : HloOp τ sig (Elt F)) (a b : DevRef τ sig) (hab : a ≠ b) (hbufs : op.bufs ⊆ {a, b})
    (hfresh : op.fresh = ∅) (W : Valuation τ sig (Elt F))
    (fa : Buf (Elt F) ((d, a) : Loc nD τ sig)) (fb : Buf (Elt F) ((d, b) : Loc nD τ sig)) (ha : W a = fa) (hb : W b = fb)
    (fa' : Buf (Elt F) ((d, a) : Loc nD τ sig)) (fb' : Buf (Elt F) ((d, b) : Loc nD τ sig))
    (ha' : op.result W a = fa') (hb' : op.result W b = fb')
    {α : Type} (k : ((b : op.writes) → b.1.ty.Contents (Elt F)) → Prog (TpuEff nD τ sig (Elt F) (SparseCore.Sig (ΛP (F := F)) 1) .tc) α)
    (Q : α → sProp 𝕄) :
    iprop(boundary (SparseCore.T d) ∗ (((d, a) : Loc nD τ sig) ↦{fullShare} fa) ∗ (((d, b) : Loc nD τ sig) ↦{fullShare} fb))
      ⊢ iprop(((boundary (SparseCore.T d) ∗ (((d, a) : Loc nD τ sig) ↦{fullShare} fa') ∗ (((d, b) : Loc nD τ sig) ↦{fullShare} fb'))
              -∗ wp frame (wpE ((K (F := F)).defs (D (F := F))) 𝒱 (SparseCore.T d) none) Set.univ (k (op.fn fun x => W x.1)) Q)
          -∗ wp frame (wpE ((K (F := F)).defs (D (F := F))) 𝒱 (SparseCore.T d) none) Set.univ (hlo rfl op k) Q) := by
  iintro ⟨Hb, Ha, Hbb⟩ Hk
  iapply (wp_hlo_within 𝒱 (SparseCore.T d) none Set.univ (op := op) (S := {a, b}) hbufs (V := W) hfresh) $$ [Hb Ha Hbb]
  · isplitl [Hb]; · iexact Hb
    rw [held_pair d a b hab W fa fb ha hb]
    isplitl [Ha]; · iexact Ha
    iexact Hbb
  iintro ⟨Hb, Hh⟩
  ihave Hh' := (Entails.of_eq (held_pair d a b hab (op.result W) fa' fb' ha' hb')) $$ Hh
  icases Hh' with ⟨Ha, Hbb⟩
  iapply Hk
  isplitl [Hb]; · iexact Hb
  isplitl [Ha]; · iexact Ha
  iexact Hbb

/-! ## The valuations of the later host operations -/

/-- Before the first reshape after the call: the second result at the biases. -/
def W6 (d : Dev nD) : Valuation τ sig (Elt F) := Function.update (V0 m d) dV51 (hbVal (Cm m d).a0 (Cm m d).x4)
theorem W6_51 (d : Dev nD) : W6 m d dV51 = hbVal (Cm m d).a0 (Cm m d).x4 := Function.update_self _ _ _
theorem W6_6 (d : Dev nD) : W6 m d dV6 = m ((SparseCore.T d).loc main_v6) := Function.update_of_ne (show dV6 ≠ dV51 by decide) _ _

/-- Before the last transpose: the pipeline's result at g8. -/
def W9 (d : Dev nD) (g8 : Vec F S100000x1024 .f32) : Valuation τ sig (Elt F) := Function.update (V0 m d) dV8 g8
theorem W9_8 (d : Dev nD) (g8 : Vec F S100000x1024 .f32) : W9 m d g8 dV8 = g8 := Function.update_self _ _ _
theorem W9_9 (d : Dev nD) (g8 : Vec F S100000x1024 .f32) : W9 m d g8 dV9 = m ((SparseCore.T d).loc main_v9) :=
  Function.update_of_ne (show dV9 ≠ dV8 by decide) _ _

/-! ## The TensorCore's state after the one call, opened at what it owes -/

omit [FloatOps F] in
/-- With one call, every recorded pair sits at or below level 8. -/
theorem wbelow_any (d : Dev nD) (W : Waits sig (HIx 1)) : (K (F := F)).WBelow (SparseCore.T d) W (8 * 1) := by
  intro p _
  match p.2 with
  | none => simp
  | some q => have := (K (F := F)).lev_some_le (SparseCore.T d, p.1) q; have := q.isLt; omega

omit [FloatOps F] in
/-- After the one call the TensorCore owes nothing, whatever its waits recorded. -/
theorem tcSt1_split (d : Dev nD) : ∃ R : sProp 𝕄,
    ((K (F := F)).tcSt EH d 1 ⊢ iprop((∃ W, owes (SparseCore.T d) (0 : CellTallies nD τ sig (HIx 1)) W) ∗ R))
    ∧ (iprop((∃ W, owes (SparseCore.T d) (0 : CellTallies nD τ sig (HIx 1)) W) ∗ R) ⊢ (K (F := F)).tcSt EH d 1) := by
  unfold SparseCore.Cfg.tcSt
  rw [(K (F := F)).Otc_end d (le_refl 1)]
  exact ⟨_, sep_mono (by iintro ⟨%W, -, HO⟩; iexists W; iexact HO) .rfl,
    sep_mono (by
      iintro ⟨%W, HO⟩; iexists W
      isplitr; · ipureintro; exact wbelow_any d W
      iexact HO) .rfl⟩

set_option maxHeartbeats 2000000 in
set_option backward.isDefEq.respectTransparency.types false in
/-- @main on device d's TensorCore: the five host operations each over its two buffers; the call, handed each
    SparseCore's share of the five tables and the two results whole, handing back the shares and the results at the
    products and the biases; the two reshapes; the pipeline's region, entered owing nothing; the last transpose. -/
theorem hmain (κ : GSem nD τ sig → ℕ) (d : Dev nD) :
    iprop((K (F := F)).ctx EH (P (Cm m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [Pipeline.unscopedBufs_split (Ix := HIx 1) (Name := ℕ) (U := UU) (Lvl := ℕ) cfgs 0 winFacts1.arr_unscoped winFacts1.arr_inj d
      (fun b => m ((SparseCore.T d).loc b)), bigSep_W1, unscopedRest1_eq]
  simp only [main, wp_bind, wp_pure]
  iintro ⟨#Hctx, Hst, ⟨Hb, ⟨⟨Hv2, Hv50, Hv6, Hv7, Hv8⟩, Ha0, Ha1, Ha2, Ha3, Ha4, Ha5, Hv0, Hv1, Hv3, Hv4, Hv51, Hv9⟩, -, -⟩, HG⟩
  -- the five host operations
  iapply (hlo2 d (op0 (F := F)) dA0 dV0 (by decide) (Finset.Subset.refl _) rfl (V0 m d) _ _ rfl rfl
    (m ((SparseCore.T d).loc main_arg0)) ((Cm m d).a0)
    ((op0 (F := F)).result_of_not_mem (V0 m d) (b := dA0) (show dA0 ∉ ({dV0} : Finset (DevRef τ sig)) by decide))
    ((StableHlo.reshape_result _ _ _ _ _ _ (V0 m d)).trans rfl)) $$ [Hb Ha0 Hv0]
  · isplitl [Hb]; · iexact Hb
    isplitl [Ha0]; · iexact Ha0
    iexact Hv0
  iintro ⟨Hb, Ha0, Hv0⟩
  rw [wp_ret]; imodintro
  iapply (hlo2 d (op1 (F := F)) dA1 dV1 (by decide) (Finset.Subset.refl _) rfl (V0 m d) _ _ rfl rfl
    (m ((SparseCore.T d).loc main_arg1)) ((Cm m d).a1)
    ((op1 (F := F)).result_of_not_mem (V0 m d) (b := dA1) (show dA1 ∉ ({dV1} : Finset (DevRef τ sig)) by decide))
    ((StableHlo.reshape_result _ _ _ _ _ _ (V0 m d)).trans rfl)) $$ [Hb Ha1 Hv1]
  · isplitl [Hb]; · iexact Hb
    isplitl [Ha1]; · iexact Ha1
    iexact Hv1
  iintro ⟨Hb, Ha1, Hv1⟩
  rw [wp_ret]; imodintro
  iapply (hlo2 d (op2 (F := F)) dA2 dV2 (by decide) (Finset.Subset.refl _) rfl (V0 m d) _ _ rfl rfl
    (m ((SparseCore.T d).loc main_arg2)) ((Cm m d).x2)
    ((op2 (F := F)).result_of_not_mem (V0 m d) (b := dA2) (show dA2 ∉ ({dV2} : Finset (DevRef τ sig)) by decide))
    ((StableHlo.unary_result _ _ _ _ _ (V0 m d)).trans rfl)) $$ [Hb Ha2 Hv2]
  · isplitl [Hb]; · iexact Hb
    isplitl [Ha2]; · iexact Ha2
    iexact Hv2
  iintro ⟨Hb, Ha2, Hv2⟩
  rw [wp_ret]; imodintro
  iapply (hlo2 d (op3 (F := F)) dA3 dV3 (by decide) (Finset.Subset.refl _) rfl (V0 m d) _ _ rfl rfl
    (m ((SparseCore.T d).loc main_arg3)) ((Cm m d).x3)
    ((op3 (F := F)).result_of_not_mem (V0 m d) (b := dA3) (show dA3 ∉ ({dV3} : Finset (DevRef τ sig)) by decide))
    ((StableHlo.unary_result _ _ _ _ _ (V0 m d)).trans rfl)) $$ [Hb Ha3 Hv3]
  · isplitl [Hb]; · iexact Hb
    isplitl [Ha3]; · iexact Ha3
    iexact Hv3
  iintro ⟨Hb, Ha3, Hv3⟩
  rw [wp_ret]; imodintro
  iapply (hlo2 d (op4 (F := F)) dA4 dV4 (by decide) (Finset.Subset.refl _) rfl (V0 m d) _ _ rfl rfl
    (m ((SparseCore.T d).loc main_arg4)) ((Cm m d).x4)
    ((op4 (F := F)).result_of_not_mem (V0 m d) (b := dA4) (show dA4 ∉ ({dV4} : Finset (DevRef τ sig)) by decide))
    ((StableHlo.reshape_result _ _ _ _ _ _ (V0 m d)).trans rfl)) $$ [Hb Ha4 Hv4]
  · isplitl [Hb]; · iexact Hb
    isplitl [Ha4]; · iexact Ha4
    iexact Hv4
  iintro ⟨Hb, Ha4, Hv4⟩
  rw [wp_ret]; imodintro
  -- the call
  ihave S0 := (Transfers.pointsTo_toks_split fullShare 2) $$ Hv0
  ihave S1 := (Transfers.pointsTo_toks_split fullShare 2) $$ Hv1
  ihave S2 := (Transfers.pointsTo_toks_split fullShare 2) $$ Hv2
  ihave S3 := (Transfers.pointsTo_toks_split fullShare 2) $$ Hv3
  ihave S4 := (Transfers.pointsTo_toks_split fullShare 2) $$ Hv4
  icases S0 with ⟨D0, T0⟩
  icases S1 with ⟨D1, T1⟩
  icases S2 with ⟨D2, T2⟩
  icases S3 with ⟨D3, T3⟩
  icases S4 with ⟨D4, T4⟩
  iapply ((K (F := F)).wp_run (D (F := F)) 𝒱 (EH := EH) (P := P (Cm m)) κ d 0) $$ [Hst T0 T1 T2 T3 T4 Hv50 Hv51 Hb Ha0 Ha1 Ha2 Ha3 Ha4 Ha5 Hv6 Hv7 Hv8 Hv9 HG D0 D1 D2 D3 D4]
  isplitr; · iexact Hctx
  isplitl [Hst]; · iexact Hst
  isplitl [T0 T1 T2 T3 T4 Hv50 Hv51]
  · rw [st0_eq]
    isplitl [T0 T1 T2 T3 T4]
    · isplitl [T0]; · iexact T0
      isplitl [T1]; · iexact T1
      isplitl [T2]; · iexact T2
      isplitl [T3]; · iexact T3
      iexact T4
    isplitl [Hv50]; · iexact Hv50
    iexact Hv51
  iintro ⟨Hst, Hdn⟩
  ihave Hdn' := (Entails.of_eq (dn0_eq (Cm m) d)) $$ Hdn
  icases Hdn' with ⟨⟨T0, T1, T2, T3, T4⟩, Hv50, Hv51⟩

  -- the tables whole again (the first is the pipeline's operand)
  ihave Hv2 := (Transfers.pointsTo_toks_join fullShare 2) $$ [D2 T2]
  · isplitl [D2] <;> iassumption
  -- the two reshapes
  iapply (hlo2 d (op6 (F := F)) dV51 dV6 (by decide) (Finset.Subset.refl _) rfl (W6 m d) _ _ (W6_51 m d) (W6_6 m d)
    (hbVal (Cm m d).a0 (Cm m d).x4) (B6m m d)
    (((op6 (F := F)).result_of_not_mem (W6 m d) (b := dV51) (show dV51 ∉ ({dV6} : Finset (DevRef τ sig)) by decide)).trans (W6_51 m d))
    ((StableHlo.reshape_result _ _ _ _ _ _ (W6 m d)).trans
      (congrArg (fun v => shapeCast S1x1024 v shapeCasts_S1024_S1x1024) (W6_51 m d)))) $$ [Hb Hv51 Hv6]
  · isplitl [Hb]; · iexact Hb
    isplitl [Hv51]; · iexact Hv51
    iexact Hv6
  iintro ⟨Hb, Hv51, Hv6⟩
  rw [wp_ret]; imodintro
  iapply (hlo2 d (op7 (F := F)) dA5 dV7 (by decide) (Finset.Subset.refl _) rfl (V0 m d) _ _ rfl rfl
    (m ((SparseCore.T d).loc main_arg5)) (T7m m d)
    ((op7 (F := F)).result_of_not_mem (V0 m d) (b := dA5) (show dA5 ∉ ({dV7} : Finset (DevRef τ sig)) by decide))
    ((StableHlo.reshape_result _ _ _ _ _ _ (V0 m d)).trans rfl)) $$ [Hb Ha5 Hv7]
  · isplitl [Hb]; · iexact Hb
    isplitl [Ha5]; · iexact Ha5
    iexact Hv7
  iintro ⟨Hb, Ha5, Hv7⟩
  rw [wp_ret]; imodintro
  -- the region
  obtain ⟨R, hopen, hclose⟩ := tcSt1_split (F := F) d
  have e1 : ((K (F := F)).tcSt EH d ((0 : Fin 1).val + 1) : sProp 𝕄) = (K (F := F)).tcSt EH d 1 := rfl
  ihave Hst' := ((Entails.of_eq e1).trans hopen) $$ Hst
  icases Hst' with ⟨⟨%W, HO⟩, HR⟩
  ihave Hlev := (SparseCore.Cfg.ctx_levAts κ) $$ Hctx
  unfold G
  icases HG with ⟨HG1, HG2⟩
  iapply ((K (F := F)).wp_liftProg (D (F := F)) 𝒱 (SparseCore.T d) Set.univ none (.op (.customCall (Pipeline.entry 0) ()) .ret) _)
  iapply (Tc.region_wp (Ix := HIx 1) (Name := ℕ) (U := UU) (Lvl := ℕ) (Cm m d).x2 (hrtVal (Cm m d).a0 (Cm m d).a1 (Cm m d).x2 (Cm m d).x3)
    (B6m m d) (T7m m d) (m ((SparseCore.T d).loc main_v8)) (EP (F := F)) (K (F := F)).L (K (F := F)).lev none d none
    (fun _ h => absurd h (by simp)) .ret _ W)
  isplitl [HR Ha0 Ha1 Ha2 Ha3 Ha4 Ha5 Hv9]
  swap
  · isplitl [Hb]; · iexact Hb
    isplitl [Hv2 Hv50 Hv6 Hv7 Hv8 HO]
    · unfold Tc.TcPre
      isplitl [Hv2]; · iexact Hv2
      isplitl [Hv50]; · iexact Hv50
      isplitl [Hv6]; · iexact Hv6
      isplitl [Hv7]; · iexact Hv7
      isplitl [Hv8]; · iexact Hv8
      iexact HO
    isplitl [Hlev]; · iexact Hlev
    isplitl [HG1]; · iexact HG1
    iexact HG2
  iintro ⟨Hb, Hpost⟩
  unfold Tc.TcPost
  icases Hpost with ⟨Hv2, Hv50, Hv6, Hv7, ⟨%g8, %hg, Hv8⟩, ⟨%W', HO⟩⟩
  rw [wp_ret]; imodintro
  -- the last transpose
  iapply (hlo2 d (op9 (F := F)) dV8 dV9 (by decide) (Finset.Subset.refl _) rfl (W9 m d g8) _ _ (W9_8 m d g8) (W9_9 m d g8)
    g8 (transpose S1024x100000 [1, 0] g8 transposes_S100000x1024_S1024x100000_1_0)
    (((op9 (F := F)).result_of_not_mem (W9 m d g8) (b := dV8) (show dV8 ∉ ({dV9} : Finset (DevRef τ sig)) by decide)).trans (W9_8 m d g8))
    ((StableHlo.unary_result _ _ _ _ _ (W9 m d g8)).trans
      (congrArg (fun v => transpose S1024x100000 [1, 0] v transposes_S100000x1024_S1024x100000_1_0) (W9_8 m d g8)))) $$ [Hb Hv8 Hv9]
  · isplitl [Hb]; · iexact Hb
    isplitl [Hv8]; · iexact Hv8
    iexact Hv9
  iintro ⟨Hb, Hv8, Hv9⟩
  rw [wp_ret]; imodintro; imodintro
  isplitl [HO HR]
  · iapply hclose
    isplitl [HO]; · iexists W'; iexact HO
    iexact HR
  unfold FIN
  isplitl [Ha0]; · iexact Ha0
  isplitl [Ha1]; · iexact Ha1
  isplitl [Ha2]; · iexact Ha2
  isplitl [Ha3]; · iexact Ha3
  isplitl [Ha4]; · iexact Ha4
  isplitl [Ha5]; · iexact Ha5
  iexists g8
  isplitr; · ipureintro; exact hg
  iexact Hv9

end Cert.KernelIdeal.Sc

end
-- ==== Proof.ScPre.lean ====
/-
  The certificate's precondition read back at the index words.

  The printed predicate is a conjunction: four tests that the float arrays are finite, and for each of the two index
  columns the conjunction over all its entries of "the word, read signed, is at least zero and at most the last row
  of its table" (99999 for the entity words, 1999 for the relation words). Where the predicate is all ones each
  conjunct is one; a conjunction over all entries that is one has a one at every entry; and a 32-bit word that is
  between zero and a bound below 2 ^ 31 when read signed is that number as an unsigned word. So every entity word is
  the number of a row of the 100000-row table and every relation word the number of a row of the 2000-row table.
  Nothing is asked of the floats; the statements hold for any float values.
-/
import proofs.«203358_g20435454394731_cont_8to1_1864_22_alg».proof.Proof.ScSetup
import proofs.«203358_g20435454394731_cont_8to1_1864_22_alg».proof.Proof.Gen.Pre_input_domain
import Idealize.ShloMosaic.Lib.ReduceAll
import Idealize.ShloMosaic.Lib.DynamicIndex
import Idealize.ShloMosaic.Lib.ValueIdx

namespace Cert.KernelIdeal.Sc

open Idealize.ShloMosaic

variable {F : FTy → Type}

/-- The scalar shape has one index. -/
instance subsingleton_scalarIdx : Subsingleton Cert.Pre_input_domain.S_.Idx := ⟨fun _ _ => funext fun d => d.elim0⟩

/-- A 32-bit word that, read signed, is at least zero and at most `N` (below `2 ^ 31`) is at most `N` read unsigned. -/
theorem toNat_le_of_range (v : BitVec 32) (N : ℕ) (hN : N < 2 ^ 31)
    (e : IntOp.andi (IntOp.cmpi .sge v 0#32) (IntOp.cmpi .sle v (BitVec.ofNat 32 N)) = 1#1) : v.toNat ≤ N := by
  rw [IntOp.andi_eq_one, IntOp.cmpi_sge, IntOp.cmpi_sle, toInt_ofNat_of_lt hN] at e
  have h0 : (0#32 : BitVec 32).toInt = 0 := by decide
  rw [h0] at e
  have ht := BitVec.toInt_eq_toNat_cond v
  have hv := v.isLt
  split at ht <;> omega

/-- A 32-bit word is its unsigned value as a word. -/
theorem eq_ofNat_toNat (v : BitVec 32) : v = BitVec.ofNat 32 v.toNat :=
  BitVec.eq_of_toNat_eq (by rw [BitVec.toNat_ofNat]; exact (Nat.mod_eq_of_lt v.isLt).symm)

/-- Where the precondition is all ones, both range tests hold at every entry of the two index columns. -/
theorem ranges_of_pre [Cert.Pre_input_domain.Facts] [FloatOps F]
    (a0 a1 : IVec Cert.Pre_input_domain.S1024x1 32) (a2 : FVec F Cert.Pre_input_domain.S100000x64 .f32)
    (a3 : FVec F Cert.Pre_input_domain.S2000x64 .f32) (a4 a5 : FVec F Cert.Pre_input_domain.S100000x1 .f32)
    (h : Cert.Pre_input_domain.fn (F := F) a0 a1 a2 a3 a4 a5 = fun _ => 1#1) (i : Cert.Pre_input_domain.S1024x1.Idx) :
    IntOp.andi (IntOp.cmpi .sge (a0 i) 0#32) (IntOp.cmpi .sle (a0 i) 99999#32) = 1#1
      ∧ IntOp.andi (IntOp.cmpi .sge (a1 i) 0#32) (IntOp.cmpi .sle (a1 i) 1999#32) = 1#1 := by
  have e := congrFun h ValueIdx.ix0
  simp only [Cert.Pre_input_domain.fn, Cert.Pre_input_domain.fn_part1, andi] at e
  rw [IntOp.andi_eq_one] at e
  obtain ⟨e1, e31⟩ := e
  rw [IntOp.andi_eq_one] at e1
  obtain ⟨-, e24⟩ := e1
  exact ⟨Host.reduce_andi_all _ _ _ _ _ e24 i, Host.reduce_andi_all _ _ _ _ _ e31 i⟩

/-- Every entity word is the number of a row of the 100000-row table. -/
theorem src_of_pre [Cert.Pre_input_domain.Facts] [FloatOps F]
    (a0 a1 : IVec Cert.Pre_input_domain.S1024x1 32) (a2 : FVec F Cert.Pre_input_domain.S100000x64 .f32)
    (a3 : FVec F Cert.Pre_input_domain.S2000x64 .f32) (a4 a5 : FVec F Cert.Pre_input_domain.S100000x1 .f32)
    (h : Cert.Pre_input_domain.fn (F := F) a0 a1 a2 a3 a4 a5 = fun _ => 1#1) (b : Fin 1024) :
    ∃ s : Fin 100000, a0 (ValueIdx.ix2 b (0 : Fin 1)) = BitVec.ofNat 32 s.val := by
  have hle := toNat_le_of_range _ 99999 (by norm_num) (ranges_of_pre a0 a1 a2 a3 a4 a5 h (ValueIdx.ix2 b (0 : Fin 1))).1
  exact ⟨⟨(a0 (ValueIdx.ix2 b (0 : Fin 1))).toNat, by omega⟩, eq_ofNat_toNat _⟩

/-- Every relation word is the number of a row of the 2000-row table. -/
theorem rel_of_pre [Cert.Pre_input_domain.Facts] [FloatOps F]
    (a0 a1 : IVec Cert.Pre_input_domain.S1024x1 32) (a2 : FVec F Cert.Pre_input_domain.S100000x64 .f32)
    (a3 : FVec F Cert.Pre_input_domain.S2000x64 .f32) (a4 a5 : FVec F Cert.Pre_input_domain.S100000x1 .f32)
    (h : Cert.Pre_input_domain.fn (F := F) a0 a1 a2 a3 a4 a5 = fun _ => 1#1) (b : Fin 1024) :
    ∃ k : Fin 2000, a1 (ValueIdx.ix2 b (0 : Fin 1)) = BitVec.ofNat 32 k.val := by
  have hle := toNat_le_of_range _ 1999 (by norm_num) (ranges_of_pre a0 a1 a2 a3 a4 a5 h (ValueIdx.ix2 b (0 : Fin 1))).2
  exact ⟨⟨(a1 (ValueIdx.ix2 b (0 : Fin 1))).toNat, by omega⟩, eq_ofNat_toNat _⟩

end Cert.KernelIdeal.Sc
-- ==== Proof.ScOk.lean ====
/-
  The index words the workers read are in range.

  The kernel program reshapes the two 1024 x 1 columns of index words to vectors of 1024 before the gather.  Entry j
  of a reshaped column is entry (j, 0) of the column: both sit at row-major position j.  Where the certificate's
  precondition is all ones every entity word, read signed, lies between 0 and 99999 and every relation word
  between 0 and 1999; such a word is the same number read unsigned.  So every reshaped entity word names a row of
  the 100000-row table and every reshaped relation word a row of the 2000-row table.
-/
import proofs.«203358_g20435454394731_cont_8to1_1864_22_alg».proof.Proof.ScPre

noncomputable section

namespace Cert.KernelIdeal.Sc

open Cert.KernelIdeal Cert.KernelIdeal.Gen
open Idealize.ShloMosaic

variable {F : FTy → Type} [FloatOps F]

/-- Entry j of a 1024 x 1 column reshaped to a vector is the column's entry (j, 0). -/
theorem reshape_col (hc : S1024x1.ShapeCasts S1024) (j : S1024.Idx) :
    Shape.reshapeEquiv hc j = (ValueIdx.ix2 (j 0) (0 : Fin 1) : S1024x1.Idx) := by
  apply Shape.reshapeEquiv_eq_of_rowMajor
  rw [Shape.rowMajor_val_two, Shape.rowMajor_val_one]
  show (j 0).val * 1 + 0 = (j 0).val
  omega

/-- Under the precondition the reshaped entity words are below 100000 and the reshaped relation words below 2000. -/
theorem words_ok [Cert.Pre_input_domain.Facts] (a0 a1 : IVec S1024x1 32) (a2 : FVec F S100000x64 .f32) (a3 : FVec F S2000x64 .f32) (a4 a5 : FVec F S100000x1 .f32)
    (h : Cert.Pre_input_domain.fn (F := F) a0 a1 a2 a3 a4 a5 = fun _ => 1#1) (hc : S1024x1.ShapeCasts S1024) :
    ∀ j : S1024.Idx, (shapeCast S1024 a0 hc j).toNat < 100000 ∧ (shapeCast S1024 a1 hc j).toNat < 2000 := by
  intro j
  have r := ranges_of_pre a0 a1 a2 a3 a4 a5 h (ValueIdx.ix2 (j 0) (0 : Fin 1))
  have h0 := toNat_le_of_range _ 99999 (by norm_num) r.1
  have h1 := toNat_le_of_range _ 1999 (by norm_num) r.2
  constructor
  · show (a0 (Shape.reshapeEquiv hc j)).toNat < 100000
    rw [reshape_col hc j]
    omega
  · show (a1 (Shape.reshapeEquiv hc j)).toNat < 2000
    rw [reshape_col hc j]
    omega

/-- The same for the contents record whose two word lists are the reshaped columns. -/
theorem cts_ok_of (C : Cts F) [Cert.Pre_input_domain.Facts] (a0 a1 : IVec S1024x1 32) (a2 : FVec F S100000x64 .f32) (a3 : FVec F S2000x64 .f32) (a4 a5 : FVec F S100000x1 .f32)
    (h : Cert.Pre_input_domain.fn (F := F) a0 a1 a2 a3 a4 a5 = fun _ => 1#1) (hc : S1024x1.ShapeCasts S1024)
    (e0 : C.a0 = shapeCast S1024 a0 hc) (e1 : C.a1 = shapeCast S1024 a1 hc) : C.Ok := by
  intro j
  rw [e0, e1]
  exact words_ok a0 a1 a2 a3 a4 a5 h hc j

end Cert.KernelIdeal.Sc

end
-- ==== Proof.ScLaunch.lean ====
/-
  The kernel program's run.  The launch theorem for SparseCore programs takes each worker's task (the body run at
  a symbolic worker), how a SparseCore's operands split among its sixteen workers, the launch element of the ghost
  state and @main on the TensorCore; it gives that every weakly fair execution of the thirty-five threads ends, nothing
  faulting, with the six arguments unchanged and the result the transpose of an array that meets the TensorCore
  region's specification over the products and biases the workers left.
-/
import proofs.«203358_g20435454394731_cont_8to1_1864_22_alg».proof.Proof.ScBody
import proofs.«203358_g20435454394731_cont_8to1_1864_22_alg».proof.Proof.ScMain
import proofs.«203358_g20435454394731_cont_8to1_1864_22_alg».proof.Proof.ScOk

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## A worker's task, as the launch theorem states it -/

theorem defs₀_vector (c : Fin τ.nSC) (s : Fin τ.nSub) :
    defs₀ (F := F) (.scVector c s) 0 ()
      = SparseCore.onTile hcore0 hsub0 (fun c s => cc0_sc_gather (coordsV c s)
          m0V (Memref.isWhole_whole _) m1V (Memref.isWhole_whole _) m2V (Memref.isWhole_whole _) m3V (Memref.isWhole_whole _)
          m4V (Memref.isWhole_whole _) o0V (Memref.isWhole_whole _) o1V (Memref.isWhole_whole _)
          s0V (Memref.isWhole_whole _) s1V (Memref.isWhole_whole _) s2V (Memref.isWhole_whole _) s3V (Memref.isWhole_whole _)
          s4V (Memref.isWhole_whole _) s5V (Memref.isWhole_whole _) cc0_scratch6 cc0_scratch7 cc0_scratch8 cc0_scoped0 cc0_scoped1 cc0_scoped2 cc0_scoped3) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (C : Dev nD → Cts F) (hC : ∀ d, (C d).Ok) (hF : (K (F := F)).Facts) : (K (F := F)).TileObl (D (F := F)) 𝒱 (P C) v₀ 0 := by
  intro d c i O W hO _ _
  -- this kernel owes nothing for a protocol of its own
  simp only [show (P C).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) (C d) hF (hC d) (tq (Fin.cast nCore_zero c) (Fin.cast nSub_zero i)) O W hO).trans
    (wp_mono frame _ _ fun _ => obl_post)

/-! ## The program's run -/

variable (m : (ℓ : Loc nD τ sig) → Buf (Elt F) ℓ) (ρ : Dev nD → PrngReg)

/-- Under the certificate's precondition the index words the call is made with are in range. -/
theorem cm_ok [Cert.Pre_input_domain.Facts] (d : Dev nD)
    (h : Cert.Pre_input_domain.fn (F := F) (m ((SparseCore.T d).loc main_arg0)) (m ((SparseCore.T d).loc main_arg1)) (m ((SparseCore.T d).loc main_arg2))
      (m ((SparseCore.T d).loc main_arg3)) (m ((SparseCore.T d).loc main_arg4)) (m ((SparseCore.T d).loc main_arg5)) = fun _ => 1#1) :
    (Cm m d).Ok :=
  cts_ok_of (Cm m d) _ _ _ _ _ _ h shapeCasts_S1024x1_S1024 (Cm_a0 m d) (Cm_a1 m d)

/-- What every final memory satisfies, on each device: the six arguments as launched, and the result the transpose of
    an array meeting the TensorCore region's specification over the workers' products and biases. -/
def QC : PUnit × MemSt nD τ sig (Elt F) → Prop := fun r => ∀ c : Dev nD,
  r.2.mem ((SparseCore.T c).loc main_arg0) = m ((SparseCore.T c).loc main_arg0)
  ∧ r.2.mem ((SparseCore.T c).loc main_arg1) = m ((SparseCore.T c).loc main_arg1)
  ∧ r.2.mem ((SparseCore.T c).loc main_arg2) = m ((SparseCore.T c).loc main_arg2)
  ∧ r.2.mem ((SparseCore.T c).loc main_arg3) = m ((SparseCore.T c).loc main_arg3)
  ∧ r.2.mem ((SparseCore.T c).loc main_arg4) = m ((SparseCore.T c).loc main_arg4)
  ∧ r.2.mem ((SparseCore.T c).loc main_arg5) = m ((SparseCore.T c).loc main_arg5)
  ∧ ∃ g8 : Vec F S100000x1024 .f32, Tc.TcSpec (Cm m c).x2 (hrtVal (Cm m c).a0 (Cm m c).a1 (Cm m c).x2 (Cm m c).x3) (B6m m c) (T7m m c) g8
      ∧ r.2.mem ((SparseCore.T c).loc main_v9) = transpose S1024x100000 [1, 0] g8 transposes_S100000x1024_S1024x100000_1_0

theorem run_main [∀ e, Nonempty (Elt F e)] (hok : ∀ d, (Cm m d).Ok) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P (Cm m)) facts v₀
    (fun q hq => match q with | 0 => nomatch hq)
    (fun q _ => match q with | 0 => tileObl (Cm m) hok facts)
    (fun q _ => match q with | 0 => SparseCore.Cfg.VecSplit.of_plain (vecSplit (Cm m)))
    m ρ main (G (F := F)) (FIN m) (u₀ (F := F)) (sep_elim_left.trans (hu₀ (Cm m))) (hmain m ρ) (fq m) (hfin m) (QC m) (fun _ h => h)

end Cert.KernelIdeal.Sc

end
-- ==== Proof.Bits.ScSetup.lean ====
/-
  The SparseCore gather of the kernel program, seen as the launch theorem sees it.

  Thirty-two vector subcores (two SparseCores of sixteen) each take a worker number
  wid = 2 * subcore + core.  Worker wid copies the 1024 entity words and the 1024
  relation words into its own memory, fetches rows 2 wid and 2 wid + 1 of the transposed entity
  and relation tables one after the other, and for each of them forms, sixteen lanes at a time,
  the products  ent^T[d, src b] * rel^T[d, rel b]  for b < 1024, which it writes to rows
  2 wid, 2 wid + 1 of the 64 x 1024 result; beside that it gathers head_bias[src b] for its
  own thirty-two b into entries 32 wid .. 32 wid + 31 of the second result.

  This file fixes the vocabulary: the value functions, the index sets a worker owns, the shares
  of the tables every worker reads, and what the calls' handshakes carry.
-/
import proofs.«203358_g20435454394731_cont_8to1_1864_22_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import Idealize.ShloMosaic.Lib.ValueIdx
import proofs.«203358_g20435454394731_cont_8to1_1864_22_alg».proof.Proof.Gen.Kernel
import proofs.«203358_g20435454394731_cont_8to1_1864_22_alg».proof.Proof.Gen.Kernel.Skeleton

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the staging cells' rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP : Emb UP 𝕄).LandsIn (upEmb : UEmb _ 𝕄) := by unfold EP; infer_instance

/-! ## The value functions -/

/-- An index word as a row of a table of n rows (row 0 when out of range, which the precondition excludes). -/
def rowOf (n : ℕ) [NeZero n] (w : BitVec 32) : Fin n := if h : w.toNat < n then ⟨w.toNat, h⟩ else 0

theorem rowOf_of_lt {n : ℕ} [NeZero n] {w : BitVec 32} (h : w.toNat < n) : rowOf n w = ⟨w.toNat, h⟩ := dif_pos h

open ValueIdx in
/-- Row d, column b of the first result: the product of entry (d, src b) of the transposed entity table and
    entry (d, rel b) of the transposed relation table. -/
def hrtVal [FloatOps F] (A0 A1 : S1024.Idx → BitVec 32) (X2 : S64x100000.Idx → F .f32) (X3 : S64x2000.Idx → F .f32) : S64x1024.Idx → F .f32 :=
  fun j => FloatOps.mulf (X2 (ix2 (j 0) (rowOf 100000 (A0 (ix1 (j 1)))))) (X3 (ix2 (j 0) (rowOf 2000 (A1 (ix1 (j 1))))))

open ValueIdx in
/-- Entry b of the second result: the head bias of entity src b. -/
def hbVal (A0 : S1024.Idx → BitVec 32) (X4 : S100000.Idx → F .f32) : S1024.Idx → F .f32 :=
  fun j => X4 (ix1 (rowOf 100000 (A0 j)))

/-! ## What the arrays hold when the call is made -/

/-- The contents, on one device, of the five arrays the workers read (the entity words, the relation words, the
    transposed entity and relation tables, the head bias as a vector) and of the two arrays they write, at the call. -/
structure Cts (F : FTy → Type) where
  a0 : S1024.Idx → BitVec 32
  a1 : S1024.Idx → BitVec 32
  x2 : S64x100000.Idx → F .f32
  x3 : S64x2000.Idx → F .f32
  x4 : S100000.Idx → F .f32
  o0 : S64x1024.Idx → F .f32
  o1 : S1024.Idx → F .f32

/-- What the proof asks of the index words: every entity word names a row of the entity table, every relation word
    a row of the relation table. -/
def Cts.Ok (C : Cts F) : Prop := ∀ j, (C.a0 j).toNat < 100000 ∧ (C.a1 j).toNat < 2000

/-! ## The arrays and a worker's scratch, as the body table passes them -/

abbrev l0 (d : Dev nD) : Loc nD τ sig := (SparseCore.T d).loc main_v0
abbrev l1 (d : Dev nD) : Loc nD τ sig := (SparseCore.T d).loc main_v1
abbrev l2 (d : Dev nD) : Loc nD τ sig := (SparseCore.T d).loc main_v2
abbrev l3 (d : Dev nD) : Loc nD τ sig := (SparseCore.T d).loc main_v3
abbrev l4 (d : Dev nD) : Loc nD τ sig := (SparseCore.T d).loc main_v4
abbrev lo0 (d : Dev nD) : Loc nD τ sig := (SparseCore.T d).loc main_v5_0
abbrev lo1 (d : Dev nD) : Loc nD τ sig := (SparseCore.T d).loc main_v5_1

abbrev m0V : Memref sig .scVector .hbm S1024 .i32 := Memref.whole main_v0_scv
abbrev m1V : Memref sig .scVector .hbm S1024 .i32 := Memref.whole main_v1_scv
abbrev m2V : Memref sig .scVector .hbm S64x100000 .f32 := Memref.whole main_v2_scv
abbrev m3V : Memref sig .scVector .hbm S64x2000 .f32 := Memref.whole main_v3_scv
abbrev m4V : Memref sig .scVector .hbm S100000 .f32 := Memref.whole main_v4_scv
abbrev o0V : Memref sig .scVector .hbm S64x1024 .f32 := Memref.whole main_v5_0_scv
abbrev o1V : Memref sig .scVector .hbm S1024 .f32 := Memref.whole main_v5_1_scv
/-- A worker's scratch: the entity words, the relation words, a row of each table, the two product rows, the biases. -/
abbrev s0V : Memref sig .scVector .vmem S1024 .i32 := Memref.whole cc0_scratch0
abbrev s1V : Memref sig .scVector .vmem S1024 .i32 := Memref.whole cc0_scratch1
abbrev s2V : Memref sig .scVector .vmem S100000 .f32 := Memref.whole cc0_scratch2
abbrev s3V : Memref sig .scVector .vmem S2000 .f32 := Memref.whole cc0_scratch3
abbrev s4V : Memref sig .scVector .vmem S2x1024 .f32 := Memref.whole cc0_scratch4
abbrev s5V : Memref sig .scVector .vmem S32 .f32 := Memref.whole cc0_scratch5

abbrev cV (L : grid0.Coords) : Fin τ.nSC := (L 0).castLE hcore0
abbrev jV (L : grid0.Coords) : Fin τ.nSub := (L 1).castLE hsub0

/-- The two rows of the first result worker L writes, the thirty-two entries of the second, and the thirty-two
    entity words its bias gather reads, as the body slices them. -/
abbrev oRowK (L : grid0.Coords) : Memref sig .scVector .hbm S2x1024 .f32 :=
  (o0V).slice (Rect.unit (s := S64x1024) (k0_off10 L) S2x1024.size (k0_off10_inb L)) (fun _ => rfl)
abbrev oSegK (L : grid0.Coords) : Memref sig .scVector .hbm S32 .f32 :=
  (o1V).slice (Rect.unit (s := S1024) (k0_off1 L) S32.size (k0_off1_inb L)) (fun _ => rfl)
abbrev offsK (L : grid0.Coords) : Memref sig .scVector .vmem S32 .i32 :=
  (s0V).slice (Rect.unit (s := S1024) (k0_off1 L) S32.size (k0_off1_inb L)) (fun _ => rfl)

abbrev rowsSet (L : grid0.Coords) : Finset S64x1024.Idx := (oRowK L).view.set
abbrev segSet (L : grid0.Coords) : Finset S1024.Idx := (oSegK L).view.set

/-! ## A worker's seven DMA semaphores and six scratch buffers -/

section Own

variable (d : Dev nD) (L : grid0.Coords)

abbrev cell (sm : DmaSem sig) : GSem nD τ sig := (V d (cV L) (jV L), .dma sm)

theorem cell_ne {sm sm' : DmaSem sig} (h : sm ≠ sm') : cell d L sm ≠ cell d L sm' :=
  fun e => h (SemLoc.dma.inj (Prod.mk.inj e).2)

theorem cell_mem (sm : DmaSem sig) (h : (SemLoc.dma sm : SemLoc sig).isScoped .scVector = true) :
    cell d L sm ∈ ownCells (V d (cV L) (jV L)) := (mem_ownCells (g := cell d L sm)).mpr ⟨rfl, h⟩

abbrev q6 : DmaSem sig := cc0_scratch6.sem
abbrev q7 : DmaSem sig := cc0_scratch7.sem
abbrev q8 : DmaSem sig := cc0_scratch8.sem
abbrev p0 : DmaSem sig := cc0_scoped0.sem
abbrev p1 : DmaSem sig := cc0_scoped1.sem
abbrev p2 : DmaSem sig := cc0_scoped2.sem
abbrev p3 : DmaSem sig := cc0_scoped3.sem

theorem ownSems0_V :
    (ownSems0 (V d (cV L) (jV L)) : sProp 𝕄)
      = iprop(semVal (cell d L q6) 0 ∗ semVal (cell d L q7) 0 ∗ semVal (cell d L q8) 0 ∗ semVal (cell d L p0) 0
          ∗ semVal (cell d L p1) 0 ∗ semVal (cell d L p2) 0 ∗ semVal (cell d L p3) 0
          ∗ bigSep ((((((((ownCells (V d (cV L) (jV L))).erase (cell d L q6)).erase (cell d L q7)).erase (cell d L q8)).erase (cell d L p0)).erase (cell d L p1)).erase (cell d L p2)).erase (cell d L p3))
              fun g => semVal g 0) := by
  unfold SparseCore.Cfg.ownSems0
  have h6 := cell_mem d L q6 (by decide)
  have h7 := cell_mem d L q7 (by decide)
  have h8 := cell_mem d L q8 (by decide)
  have g0 := cell_mem d L p0 (by decide)
  have g1 := cell_mem d L p1 (by decide)
  have g2 := cell_mem d L p2 (by decide)
  have g3 := cell_mem d L p3 (by decide)
  have ne : ∀ {a b : DmaSem sig}, a ≠ b → cell d L a ≠ cell d L b := fun h => cell_ne d L h
  rw [SparseCore.bigSep_erase' h6,
    SparseCore.bigSep_erase' (Finset.mem_erase.mpr ⟨ne (by decide), h7⟩),
    SparseCore.bigSep_erase' (Finset.mem_erase.mpr ⟨ne (by decide), Finset.mem_erase.mpr ⟨ne (by decide), h8⟩⟩),
    SparseCore.bigSep_erase' (Finset.mem_erase.mpr ⟨ne (by decide), Finset.mem_erase.mpr ⟨ne (by decide), Finset.mem_erase.mpr ⟨ne (by decide), g0⟩⟩⟩),
    SparseCore.bigSep_erase' (Finset.mem_erase.mpr ⟨ne (by decide), Finset.mem_erase.mpr ⟨ne (by decide), Finset.mem_erase.mpr ⟨ne (by decide), Finset.mem_erase.mpr ⟨ne (by decide), g1⟩⟩⟩⟩),
    SparseCore.bigSep_erase' (Finset.mem_erase.mpr ⟨ne (by decide), Finset.mem_erase.mpr ⟨ne (by decide), Finset.mem_erase.mpr ⟨ne (by decide), Finset.mem_erase.mpr ⟨ne (by decide), Finset.mem_erase.mpr ⟨ne (by decide), g2⟩⟩⟩⟩⟩),
    SparseCore.bigSep_erase' (Finset.mem_erase.mpr ⟨ne (by decide), Finset.mem_erase.mpr ⟨ne (by decide), Finset.mem_erase.mpr ⟨ne (by decide), Finset.mem_erase.mpr ⟨ne (by decide), Finset.mem_erase.mpr ⟨ne (by decide), Finset.mem_erase.mpr ⟨ne (by decide), g3⟩⟩⟩⟩⟩⟩)]

abbrev bref (r : Ref sig .scVector) : DevRef τ sig := (Proc.scVector (cV L) (jV L)).devRef r

theorem bref_mem (r : Ref sig .scVector) (h : (bref L r).owner = .proc (Proc.scVector (cV L) (jV L))) : bref L r ∈ ownRefs (τ := τ) (.scVector (cV L) (jV L)) :=
  SparseCore.Cfg.mem_ownRefs_of_owner (p := Proc.scVector (cV L) (jV L)) (b := bref L r) h

theorem bref_ne {r r' : Ref sig .scVector} (h : r ≠ r') : bref L r ≠ bref L r' := fun e => h (Proc.devRef_injective _ e)

theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ (∃ f, (V d (cV L) (jV L)).loc cc0_scratch4 ↦{fullShare} f) ∗ (∃ f, (V d (cV L) (jV L)).loc cc0_scratch5 ↦{fullShare} f)
          ∗ bigSep (((((((ownRefs (τ := τ) (.scVector (cV L) (jV L))).erase (bref L cc0_scratch0)).erase (bref L cc0_scratch1)).erase (bref L cc0_scratch2)).erase (bref L cc0_scratch3)).erase (bref L cc0_scratch4)).erase (bref L cc0_scratch5))
              fun b => iprop(∃ f, ((d, b) : Loc nD τ sig) ↦{fullShare} f)) := by
  unfold SparseCore.Cfg.ownBufs
  have h0 := bref_mem L cc0_scratch0 rfl
  have h1 := bref_mem L cc0_scratch1 rfl
  have h2 := bref_mem L cc0_scratch2 rfl
  have h3 := bref_mem L cc0_scratch3 rfl
  have h4 := bref_mem L cc0_scratch4 rfl
  have h5 := bref_mem L cc0_scratch5 rfl
  have ne : ∀ {a b : Ref sig .scVector}, a ≠ b → bref L a ≠ bref L b := fun h => bref_ne L h
  refine (SparseCore.bigSep_erase' h0).trans ?_
  rw [SparseCore.bigSep_erase' (Finset.mem_erase.mpr ⟨ne (by decide), h1⟩),
    SparseCore.bigSep_erase' (Finset.mem_erase.mpr ⟨ne (by decide), Finset.mem_erase.mpr ⟨ne (by decide), h2⟩⟩),
    SparseCore.bigSep_erase' (Finset.mem_erase.mpr ⟨ne (by decide), Finset.mem_erase.mpr ⟨ne (by decide), Finset.mem_erase.mpr ⟨ne (by decide), h3⟩⟩⟩),
    SparseCore.bigSep_erase' (Finset.mem_erase.mpr ⟨ne (by decide), Finset.mem_erase.mpr ⟨ne (by decide), Finset.mem_erase.mpr ⟨ne (by decide), Finset.mem_erase.mpr ⟨ne (by decide), h4⟩⟩⟩⟩),
    SparseCore.bigSep_erase' (Finset.mem_erase.mpr ⟨ne (by decide), Finset.mem_erase.mpr ⟨ne (by decide), Finset.mem_erase.mpr ⟨ne (by decide), Finset.mem_erase.mpr ⟨ne (by decide), Finset.mem_erase.mpr ⟨ne (by decide), h5⟩⟩⟩⟩⟩)]

end Own

end Cert.Kernel.Sc

end
-- ==== Proof.Bits.ScPay.lean ====
/-
  What the one SparseCore call's handshakes carry.  The TensorCore hands each SparseCore a read share of the five
  tables and, for each of its sixteen workers, the worker's two rows of the first result and thirty-two entries of
  the second; the sequencer deals every worker a further share of the tables and its own rows; the workers hand
  back the shares and their rows at the products and biases, and the SparseCore returns them to the TensorCore.
-/
import proofs.«203358_g20435454394731_cont_8to1_1864_22_alg».proof.Proof.Bits.ScSetup

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Workers -/

theorem bound_zero : grid0.bound 0 = 2 := rfl
theorem bound_one : grid0.bound 1 = 16 := rfl

def coordsV (c : Fin (grid0.bound 0)) (s : Fin (grid0.bound 1)) : grid0.Coords :=
  fun | 0 => c | 1 => s | ⟨_ + 2, h⟩ => absurd h (Nat.not_lt.2 (Nat.le_add_left _ _))

/-- The worker on subcore i of SparseCore c. -/
abbrev coords (c : Fin 2) (i : Fin 16) : grid0.Coords := coordsV (Fin.cast bound_zero.symm c) (Fin.cast bound_one.symm i)

/-- SparseCore c's share of a table, and worker (c, i)'s share of that. -/
abbrev cq (c : Fin 2) : PosShare TreeShare := Transfers.shareTok fullShare 2 c
abbrev tq (c : Fin 2) (i : Fin 16) : PosShare TreeShare := Transfers.shareTok (cq c) 16 i

section Res

variable (d : Dev nD) (L : grid0.Coords) (C : Cts F)

/-- What a worker is handed: a share of each table, its rows of the two results outright. -/
abbrev goRes (q : PosShare TreeShare) : sProp 𝕄 :=
  iprop((l0 d ↦{q} C.a0) ∗ (l1 d ↦{q} C.a1) ∗ (l2 d ↦{q} C.x2) ∗ (l3 d ↦{q} C.x3) ∗ (l4 d ↦{q} C.x4)
    ∗ (lo0 d ↦[rowsSet L]{fullShare} C.o0) ∗ (lo1 d ↦[segSet L]{fullShare} C.o1))

variable [FloatOps F]

/-- What it hands back: the shares, its rows at the products, its entries at the biases. -/
abbrev tdRes (q : PosShare TreeShare) : sProp 𝕄 :=
  iprop((l0 d ↦{q} C.a0) ∗ (l1 d ↦{q} C.a1) ∗ (l2 d ↦{q} C.x2) ∗ (l3 d ↦{q} C.x3) ∗ (l4 d ↦{q} C.x4)
    ∗ (lo0 d ↦[rowsSet L]{fullShare} hrtVal C.a0 C.a1 C.x2 C.x3) ∗ (lo1 d ↦[segSet L]{fullShare} hbVal C.a0 C.x4))

end Res

section Pay

variable (C : Dev nD → Cts F)

/-- A SparseCore's share of the five tables. -/
abbrev reads (d : Dev nD) (q : PosShare TreeShare) : sProp 𝕄 :=
  iprop((l0 d ↦{q} (C d).a0) ∗ (l1 d ↦{q} (C d).a1) ∗ (l2 d ↦{q} (C d).x2) ∗ (l3 d ↦{q} (C d).x3) ∗ (l4 d ↦{q} (C d).x4))

abbrev outs0 (d : Dev nD) (c : Fin 2) (i : Fin 16) : sProp 𝕄 :=
  iprop((lo0 d ↦[rowsSet (coords c i)]{fullShare} (C d).o0) ∗ (lo1 d ↦[segSet (coords c i)]{fullShare} (C d).o1))

variable [FloatOps F]

abbrev outs1 (d : Dev nD) (c : Fin 2) (i : Fin 16) : sProp 𝕄 :=
  iprop((lo0 d ↦[rowsSet (coords c i)]{fullShare} hrtVal (C d).a0 (C d).a1 (C d).x2 (C d).x3)
    ∗ (lo1 d ↦[segSet (coords c i)]{fullShare} hbVal (C d).a0 (C d).x4))

def P : (K (F := F)).Pay (nD := nD) (Val := Elt F) (Name := ℕ) (U := UU) where
  st := fun q d c => match q with
    | 0 => iprop(reads C d (cq (Fin.cast nCore_zero c)) ∗ bigSep Finset.univ fun i : Fin 16 => outs0 C d (Fin.cast nCore_zero c) i)
  dn := fun q d c => match q with
    | 0 => iprop(reads C d (cq (Fin.cast nCore_zero c)) ∗ bigSep Finset.univ fun i : Fin 16 => outs1 C d (Fin.cast nCore_zero c) i)
  go := fun q d c i => match q with
    | 0 => goRes d (coords (Fin.cast nCore_zero c) (Fin.cast nSub_zero i)) (C d) (tq (Fin.cast nCore_zero c) (Fin.cast nSub_zero i))
  td := fun q d c i => match q with
    | 0 => tdRes d (coords (Fin.cast nCore_zero c) (Fin.cast nSub_zero i)) (C d) (tq (Fin.cast nCore_zero c) (Fin.cast nSub_zero i))
  x := fun _ _ => iprop(emp)

instance P_storable : (P (F := F) C).IsStorable where
  st q d c := match q with
    | 0 => (inferInstance : BI.Storable (upEmb : UEmb _ 𝕄)
        iprop(reads C d (cq (Fin.cast nCore_zero c)) ∗ bigSep Finset.univ fun i : Fin 16 => outs0 C d (Fin.cast nCore_zero c) i))
  dn q d c := match q with
    | 0 => (inferInstance : BI.Storable (upEmb : UEmb _ 𝕄)
        iprop(reads C d (cq (Fin.cast nCore_zero c)) ∗ bigSep Finset.univ fun i : Fin 16 => outs1 C d (Fin.cast nCore_zero c) i))
  go q d c i := match q with
    | 0 => (inferInstance : BI.Storable (upEmb : UEmb _ 𝕄)
        (goRes d (coords (Fin.cast nCore_zero c) (Fin.cast nSub_zero i)) (C d) (tq (Fin.cast nCore_zero c) (Fin.cast nSub_zero i))))
  td q d c i := match q with
    | 0 => (inferInstance : BI.Storable (upEmb : UEmb _ 𝕄)
        (tdRes d (coords (Fin.cast nCore_zero c) (Fin.cast nSub_zero i)) (C d) (tq (Fin.cast nCore_zero c) (Fin.cast nSub_zero i))))

/-! ## A SparseCore's operands split among its workers, and their results gathered -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P C) 0 := by
  intro d c
  show iprop(reads C d (cq (Fin.cast nCore_zero c)) ∗ bigSep Finset.univ fun i : Fin 16 => outs0 C d (Fin.cast nCore_zero c) i)
    ⊢ |={Set.univ}=> iprop(
      (bigSep Finset.univ fun i : Fin ((K (F := F)).nSub 0) =>
        goRes d (coords (Fin.cast nCore_zero c) (Fin.cast nSub_zero i)) (C d) (tq (Fin.cast nCore_zero c) (Fin.cast nSub_zero i)))
      ∗ ((bigSep Finset.univ fun i : Fin ((K (F := F)).nSub 0) =>
          tdRes d (coords (Fin.cast nCore_zero c) (Fin.cast nSub_zero i)) (C d) (tq (Fin.cast nCore_zero c) (Fin.cast nSub_zero i)))
          -∗ iprop(reads C d (cq (Fin.cast nCore_zero c)) ∗ bigSep Finset.univ fun i : Fin 16 => outs1 C d (Fin.cast nCore_zero c) i)))
  generalize Fin.cast nCore_zero c = c'
  rw [bigSep_tasks (F := F) (fun i => goRes d (coords c' i) (C d) (tq c' i)),
    bigSep_tasks (F := F) (fun i => tdRes d (coords c' i) (C d) (tq c' i))]
  unfold goRes tdRes reads outs0 outs1
  simp only [bigSep_sep']
  iintro ⟨⟨H0, H1, H2, H3, H4⟩, Ho0, Ho1⟩
  ihave H0s := (Transfers.pointsTo_toks_split (cq c') 16) $$ H0
  ihave H1s := (Transfers.pointsTo_toks_split (cq c') 16) $$ H1
  ihave H2s := (Transfers.pointsTo_toks_split (cq c') 16) $$ H2
  ihave H3s := (Transfers.pointsTo_toks_split (cq c') 16) $$ H3
  ihave H4s := (Transfers.pointsTo_toks_split (cq c') 16) $$ H4
  icases H0s with ⟨D0, T0⟩
  icases H1s with ⟨D1, T1⟩
  icases H2s with ⟨D2, T2⟩
  icases H3s with ⟨D3, T3⟩
  icases H4s with ⟨D4, T4⟩
  imodintro
  isplitl [T0 T1 T2 T3 T4 Ho0 Ho1]
  · isplitl [T0]; · iexact T0
    isplitl [T1]; · iexact T1
    isplitl [T2]; · iexact T2
    isplitl [T3]; · iexact T3
    isplitl [T4]; · iexact T4
    isplitl [Ho0]; · iexact Ho0
    iexact Ho1
  iintro ⟨T0, T1, T2, T3, T4, Ho0, Ho1⟩
  isplitl [D0 D1 D2 D3 D4 T0 T1 T2 T3 T4]
  · isplitl [D0 T0]
    · iapply (Transfers.pointsTo_toks_join (cq c') 16); isplitl [D0] <;> iassumption
    isplitl [D1 T1]
    · iapply (Transfers.pointsTo_toks_join (cq c') 16); isplitl [D1] <;> iassumption
    isplitl [D2 T2]
    · iapply (Transfers.pointsTo_toks_join (cq c') 16); isplitl [D2] <;> iassumption
    isplitl [D3 T3]
    · iapply (Transfers.pointsTo_toks_join (cq c') 16); isplitl [D3] <;> iassumption
    · iapply (Transfers.pointsTo_toks_join (cq c') 16); isplitl [D4] <;> iassumption
  isplitl [Ho0]; · iexact Ho0
  iexact Ho1

end Pay

end Cert.Kernel.Sc

end
-- ==== Proof.Bits.ScIndex.lean ====
/-
  Index arithmetic of one worker's task: what the store of a sixteen-lane chunk of products leaves in the product
  scratch, what the copy of the product rows leaves in the first result, what the gathered biases copied out leave
  in the second.  Pure facts about views, rectangles and the value functions; no program is run here.
-/
import proofs.«203358_g20435454394731_cont_8to1_1864_22_alg».proof.Proof.Bits.ScPay

noncomputable section

namespace Cert.Kernel.Sc

open Cert.Kernel Cert.Kernel.Gen
open Idealize.ShloMosaic

variable {F : FTy → Type} [FloatOps F]

section Tile

variable (L : grid0.Coords) (C : Cts F)

/-- Row 2 wid + r of each transposed table, as the body slices and squeezes it. -/
abbrev rowK (r : Fin 2) : Memref sig .scVector .hbm S100000 .f32 :=
  ((m2V).slice (Rect.unit (s := S64x100000) (k0_off2 L (BitVec.ofNat 32 r.val)) S1x100000.size (k0_off2_inb L r)) (fun _ => rfl)).squeeze S100000 squeezes_S1x100000_S100000
abbrev rrowK (r : Fin 2) : Memref sig .scVector .hbm S2000 .f32 :=
  ((m3V).slice (Rect.unit (s := S64x2000) (k0_off3 L (BitVec.ofNat 32 r.val)) S1x2000.size (k0_off3_inb L r)) (fun _ => rfl)).squeeze S2000 squeezes_S1x2000_S2000

/-- What the two product rows are to hold: the first result at the places the copy-out will put them. -/
def Gv : S2x1024.Idx → F .f32 := fun j => hrtVal C.a0 C.a1 C.x2 C.x3 ((oRowK L).view.emb j)

/-- Two indices of a rank-two shape with the same coordinates are equal. -/
theorem idx2_ext {n0 n1 : ℕ} {i j : (⟨2, ![n0, n1]⟩ : Shape).Idx} (h0 : (i 0).val = (j 0).val) (h1 : (i 1).val = (j 1).val) : i = j :=
  funext (Fin.forall_fin_two.mpr ⟨Fin.ext h0, Fin.ext h1⟩)

theorem wrow_lt (r : Fin 2) : 4 * (L 1).val + 2 * (L 0).val + r.val < 64 := by
  have h0 : (L 0).val < 2 := (L 0).isLt
  have h1 : (L 1).val < 16 := (L 1).isLt
  have := r.isLt
  omega

theorem rowK_emb (r : Fin 2) (x : S100000.Idx) :
    (rowK L r).view.emb x = (ValueIdx.ix2 ⟨4 * (L 1).val + 2 * (L 0).val + r.val, wrow_lt L r⟩ (x 0) : S64x100000.Idx) := by
  have hz : Shape.reshapeEquiv (squeezes_S1x100000_S100000).numel_eq x = (ValueIdx.ix2 (0 : Fin 1) (x 0) : S1x100000.Idx) := by
    apply Shape.reshapeEquiv_eq_of_rowMajor
    rw [Shape.rowMajor_val_two, Shape.rowMajor_val_one]
    show 0 * 100000 + (x 0).val = (x 0).val
    omega
  show (Rect.unit (s := S64x100000) (k0_off2 L (BitVec.ofNat 32 r.val)) S1x100000.size (k0_off2_inb L r)).emb
      (Shape.reshapeEquiv (squeezes_S1x100000_S100000).numel_eq x) = _
  rw [hz]
  apply idx2_ext
  · show k0_off2 L (BitVec.ofNat 32 r.val) 0 + 1 * 0 = 4 * (L 1).val + 2 * (L 0).val + r.val
    rw [k0_off2_eq]
    show 4 * (L 1).val + 2 * (L 0).val + r.val + 1 * 0 = _
    omega
  · show k0_off2 L (BitVec.ofNat 32 r.val) 1 + 1 * (x 0).val = (x 0).val
    rw [k0_off2_eq]
    show 0 + 1 * (x 0).val = _
    omega

theorem rrowK_emb (r : Fin 2) (x : S2000.Idx) :
    (rrowK L r).view.emb x = (ValueIdx.ix2 ⟨4 * (L 1).val + 2 * (L 0).val + r.val, wrow_lt L r⟩ (x 0) : S64x2000.Idx) := by
  have hz : Shape.reshapeEquiv (squeezes_S1x2000_S2000).numel_eq x = (ValueIdx.ix2 (0 : Fin 1) (x 0) : S1x2000.Idx) := by
    apply Shape.reshapeEquiv_eq_of_rowMajor
    rw [Shape.rowMajor_val_two, Shape.rowMajor_val_one]
    show 0 * 2000 + (x 0).val = (x 0).val
    omega
  show (Rect.unit (s := S64x2000) (k0_off3 L (BitVec.ofNat 32 r.val)) S1x2000.size (k0_off3_inb L r)).emb
      (Shape.reshapeEquiv (squeezes_S1x2000_S2000).numel_eq x) = _
  rw [hz]
  apply idx2_ext
  · show k0_off3 L (BitVec.ofNat 32 r.val) 0 + 1 * 0 = 4 * (L 1).val + 2 * (L 0).val + r.val
    rw [k0_off3_eq]
    show 4 * (L 1).val + 2 * (L 0).val + r.val + 1 * 0 = _
    omega
  · show k0_off3 L (BitVec.ofNat 32 r.val) 1 + 1 * (x 0).val = (x 0).val
    rw [k0_off3_eq]
    show 0 + 1 * (x 0).val = _
    omega

theorem orow_lt (p : Fin 2) : 4 * (L 1).val + 2 * (L 0).val + p.val < 64 := wrow_lt L p

theorem oRowK_emb (j : S2x1024.Idx) :
    (oRowK L).view.emb j = (ValueIdx.ix2 ⟨4 * (L 1).val + 2 * (L 0).val + (j 0).val, wrow_lt L (j 0)⟩ (j 1) : S64x1024.Idx) := by
  show (Rect.unit (s := S64x1024) (k0_off10 L) S2x1024.size (k0_off10_inb L)).emb j = _
  apply idx2_ext
  · show k0_off10 L 0 + 1 * (j 0).val = 4 * (L 1).val + 2 * (L 0).val + (j 0).val
    rw [k0_off10_eq]
    show 4 * (L 1).val + 2 * (L 0).val + 1 * (j 0).val = _
    omega
  · show k0_off10 L 1 + 1 * (j 1).val = (j 1).val
    rw [k0_off10_eq]
    show 0 + 1 * (j 1).val = _
    omega

/-- A copy of a table row in a worker's memory, read back whole: entry x is the table's entry (row, x). -/
theorem ent_read (r : Fin 2) (x : S100000.Idx) :
    View.read (Elt F) ((s2V).access (Rect.whole S100000)) ((rowK L r).view.read (Elt F) C.x2) x
      = C.x2 (ValueIdx.ix2 ⟨4 * (L 1).val + 2 * (L 0).val + r.val, wrow_lt L r⟩ (x 0)) := by
  show (rowK L r).view.read (Elt F) C.x2 ((Rect.whole S100000).emb x) = _
  rw [Rect.emb_whole_apply]
  show C.x2 ((rowK L r).view.emb x) = _
  rw [rowK_emb]

theorem rel_read (r : Fin 2) (x : S2000.Idx) :
    View.read (Elt F) ((s3V).access (Rect.whole S2000)) ((rrowK L r).view.read (Elt F) C.x3) x
      = C.x3 (ValueIdx.ix2 ⟨4 * (L 1).val + 2 * (L 0).val + r.val, wrow_lt L r⟩ (x 0)) := by
  show (rrowK L r).view.read (Elt F) C.x3 ((Rect.whole S2000).emb x) = _
  rw [Rect.emb_whole_apply]
  show C.x3 ((rrowK L r).view.emb x) = _
  rw [rrowK_emb]

/-- Lane q of the sixteen words loaded at offset 16 kk of a worker's copy of the entity words is word 16 kk + q. -/
theorem words0_at (A : S1024.Idx → BitVec 32) (kk : ℕ) (h : ∀ a, (![16 * kk] : Fin 1 → ℕ) a + S16.size a ≤ S1024.size a)
    (q : Fin 16) (p : Fin 1024) (hp : p.val = 16 * kk + q.val) :
    (s0V).view.readAt (Elt F) (Rect.unit (s := S1024) ![16 * kk] S16.size h).toLoadRect A (ValueIdx.ix1 q) = A (ValueIdx.ix1 p) := by
  have hi : (Rect.unit (s := S1024) ![16 * kk] S16.size h).toLoadRect.idx (ValueIdx.ix1 q) = (ValueIdx.ix1 p : S1024.Idx) := by
    funext a
    apply Fin.ext
    match a with
    | ⟨0, _⟩ =>
      show 16 * kk + 1 * q.val = p.val
      omega
  show A ((Rect.unit (s := S1024) ![16 * kk] S16.size h).toLoadRect.idx (ValueIdx.ix1 q)) = _
  rw [hi]

/-- The same for the relation words. -/
theorem words1_at (A : S1024.Idx → BitVec 32) (kk : ℕ) (h : ∀ a, (![16 * kk] : Fin 1 → ℕ) a + S16.size a ≤ S1024.size a)
    (q : Fin 16) (p : Fin 1024) (hp : p.val = 16 * kk + q.val) :
    (s1V).view.readAt (Elt F) (Rect.unit (s := S1024) ![16 * kk] S16.size h).toLoadRect A (ValueIdx.ix1 q) = A (ValueIdx.ix1 p) := by
  have hi : (Rect.unit (s := S1024) ![16 * kk] S16.size h).toLoadRect.idx (ValueIdx.ix1 q) = (ValueIdx.ix1 p : S1024.Idx) := by
    funext a
    apply Fin.ext
    match a with
    | ⟨0, _⟩ =>
      show 16 * kk + 1 * q.val = p.val
      omega
  show A ((Rect.unit (s := S1024) ![16 * kk] S16.size h).toLoadRect.idx (ValueIdx.ix1 q)) = _
  rw [hi]

/-- Lane q of a trip's chunk of products is the first result's entry at the worker's row di, column 16 kk + q. -/
theorem chunk_at (hC : C.Ok) (di : Fin 2) (kk : ℕ)
    (h4i : ∀ a, (![16 * kk] : Fin 1 → ℕ) a + S16.size a ≤ S1024.size a) (h5i : ∀ a, (![16 * kk] : Fin 1 → ℕ) a + S16.size a ≤ S1024.size a)
    (hc1 : ∀ a x, ((![(s0V).view.readAt (Elt F) (Rect.unit (s := S1024) ![16 * kk] S16.size h4i).toLoadRect C.a0] : Fin 1 → IVec S16 32) a x).toNat < S100000.size a)
    (hc2 : ∀ a x, ((![(s1V).view.readAt (Elt F) (Rect.unit (s := S1024) ![16 * kk] S16.size h5i).toLoadRect C.a1] : Fin 1 → IVec S16 32) a x).toNat < S2000.size a)
    (q : Fin 16) (p : Fin 1024) (hp : p.val = 16 * kk + q.val) :
    mulf
        (loadIdx (View.read (Elt F) ((s2V).access (Rect.whole S100000)) ((rowK L di).view.read (Elt F) C.x2))
          ![(s0V).view.readAt (Elt F) (Rect.unit (s := S1024) ![16 * kk] S16.size h4i).toLoadRect C.a0] hc1)
        (loadIdx (View.read (Elt F) ((s3V).access (Rect.whole S2000)) ((rrowK L di).view.read (Elt F) C.x3))
          ![(s1V).view.readAt (Elt F) (Rect.unit (s := S1024) ![16 * kk] S16.size h5i).toLoadRect C.a1] hc2)
        (ValueIdx.ix1 q)
      = hrtVal C.a0 C.a1 C.x2 C.x3 (ValueIdx.ix2 ⟨4 * (L 1).val + 2 * (L 0).val + di.val, wrow_lt L di⟩ p) := by
  have e1 : loadIdx (View.read (Elt F) ((s2V).access (Rect.whole S100000)) ((rowK L di).view.read (Elt F) C.x2))
          ![(s0V).view.readAt (Elt F) (Rect.unit (s := S1024) ![16 * kk] S16.size h4i).toLoadRect C.a0] hc1 (ValueIdx.ix1 q)
        = C.x2 (ValueIdx.ix2 ⟨4 * (L 1).val + 2 * (L 0).val + di.val, wrow_lt L di⟩ (rowOf 100000 (C.a0 (ValueIdx.ix1 p)))) := by
    show View.read (Elt F) ((s2V).access (Rect.whole S100000)) ((rowK L di).view.read (Elt F) C.x2)
        (idxAt ![(s0V).view.readAt (Elt F) (Rect.unit (s := S1024) ![16 * kk] S16.size h4i).toLoadRect C.a0] hc1 (ValueIdx.ix1 q)) = _
    rw [ent_read, rowOf_of_lt (hC (ValueIdx.ix1 p)).1]
    refine congrArg (fun t => C.x2 (ValueIdx.ix2 ⟨4 * (L 1).val + 2 * (L 0).val + di.val, wrow_lt L di⟩ t)) (Fin.ext ?_)
    show ((s0V).view.readAt (Elt F) (Rect.unit (s := S1024) ![16 * kk] S16.size h4i).toLoadRect C.a0 (ValueIdx.ix1 q)).toNat = _
    rw [words0_at C.a0 kk h4i q p hp]
  have e2 : loadIdx (View.read (Elt F) ((s3V).access (Rect.whole S2000)) ((rrowK L di).view.read (Elt F) C.x3))
          ![(s1V).view.readAt (Elt F) (Rect.unit (s := S1024) ![16 * kk] S16.size h5i).toLoadRect C.a1] hc2 (ValueIdx.ix1 q)
        = C.x3 (ValueIdx.ix2 ⟨4 * (L 1).val + 2 * (L 0).val + di.val, wrow_lt L di⟩ (rowOf 2000 (C.a1 (ValueIdx.ix1 p)))) := by
    show View.read (Elt F) ((s3V).access (Rect.whole S2000)) ((rrowK L di).view.read (Elt F) C.x3)
        (idxAt ![(s1V).view.readAt (Elt F) (Rect.unit (s := S1024) ![16 * kk] S16.size h5i).toLoadRect C.a1] hc2 (ValueIdx.ix1 q)) = _
    rw [rel_read, rowOf_of_lt (hC (ValueIdx.ix1 p)).2]
    refine congrArg (fun t => C.x3 (ValueIdx.ix2 ⟨4 * (L 1).val + 2 * (L 0).val + di.val, wrow_lt L di⟩ t)) (Fin.ext ?_)
    show ((s1V).view.readAt (Elt F) (Rect.unit (s := S1024) ![16 * kk] S16.size h5i).toLoadRect C.a1 (ValueIdx.ix1 q)).toNat = _
    rw [words1_at C.a1 kk h5i q p hp]
  show FloatOps.mulf _ _ = FloatOps.mulf _ _
  rw [e1, e2]

/-- One trip of a pass: the chunk of sixteen products stored over lanes 16 kk .. 16 kk + 15 of row di of the product
    scratch extends the part of the scratch that is right by that chunk.  (o4, o5, o6 are the trip's offsets: the words'
    and the chunk's; the two index vectors are the entity and the relation words of the chunk, in range.) -/
theorem pass_store (hC : C.Ok) (di : Fin 2) (kk : ℕ)
    (o4 o5 : Fin 1 → ℕ) (h4i : ∀ a, o4 a + S16.size a ≤ S1024.size a) (h5i : ∀ a, o5 a + S16.size a ≤ S1024.size a)
    (o6 : Fin 2 → ℕ) (h6i : ∀ a, o6 a + S1x16.size a ≤ S2x1024.size a)
    (e4 : o4 = ![16 * kk]) (e5 : o5 = ![16 * kk]) (e6 : o6 = ![di.val, 16 * kk])
    (f : S2x1024.Idx → F .f32)
    (hf : ∀ j : S2x1024.Idx, ((j 0).val < di.val ∨ ((j 0).val = di.val ∧ (j 1).val < 16 * kk)) → f j = Gv L C j)
    (hc1 : ∀ a x, ((![(s0V).view.readAt (Elt F) (Rect.unit (s := S1024) o4 S16.size h4i).toLoadRect C.a0] : Fin 1 → IVec S16 32) a x).toNat < S100000.size a)
    (hc2 : ∀ a x, ((![(s1V).view.readAt (Elt F) (Rect.unit (s := S1024) o5 S16.size h5i).toLoadRect C.a1] : Fin 1 → IVec S16 32) a x).toNat < S2000.size a) :
    ∀ j : S2x1024.Idx, ((j 0).val < di.val ∨ ((j 0).val = di.val ∧ (j 1).val < 16 * (kk + 1))) →
      View.write (Elt F) ((s4V).access (Rect.unit (s := S2x1024) o6 S1x16.size h6i)) f
          (shapeCast S1x16
            (mulf
              (loadIdx (View.read (Elt F) ((s2V).access (Rect.whole S100000)) ((rowK L di).view.read (Elt F) C.x2))
                ![(s0V).view.readAt (Elt F) (Rect.unit (s := S1024) o4 S16.size h4i).toLoadRect C.a0] hc1)
              (loadIdx (View.read (Elt F) ((s3V).access (Rect.whole S2000)) ((rrowK L di).view.read (Elt F) C.x3))
                ![(s1V).view.readAt (Elt F) (Rect.unit (s := S1024) o5 S16.size h5i).toLoadRect C.a1] hc2))
            shapeCasts_S16_S1x16)
          Finset.univ j
        = Gv L C j := by
  subst e4 e5 e6
  intro j hj
  by_cases hin : (j 0).val = di.val ∧ 16 * kk ≤ (j 1).val
  · obtain ⟨h0, h1⟩ := hin
    have h1' : (j 1).val < 16 * kk + 16 := by omega
    obtain ⟨q, hq⟩ : ∃ q : Fin 16, (j 1).val = 16 * kk + q.val :=
      ⟨⟨(j 1).val - 16 * kk, by omega⟩, by show (j 1).val = 16 * kk + ((j 1).val - 16 * kk); omega⟩
    have hy : ((s4V).access (Rect.unit (s := S2x1024) ![di.val, 16 * kk] S1x16.size h6i)).emb
        (ValueIdx.ix2 (0 : Fin 1) q) = j := by
      apply idx2_ext
      · show di.val + 1 * 0 = (j 0).val
        omega
      · show 16 * kk + 1 * q.val = (j 1).val
        omega
    have hw := View.write_emb_of_mem (Val := Elt F) (v := (s4V).access (Rect.unit (s := S2x1024) ![di.val, 16 * kk] S1x16.size h6i)) f
      (shapeCast S1x16
            (mulf
              (loadIdx (View.read (Elt F) ((s2V).access (Rect.whole S100000)) ((rowK L di).view.read (Elt F) C.x2))
                ![(s0V).view.readAt (Elt F) (Rect.unit (s := S1024) ![16 * kk] S16.size h4i).toLoadRect C.a0] hc1)
              (loadIdx (View.read (Elt F) ((s3V).access (Rect.whole S2000)) ((rrowK L di).view.read (Elt F) C.x3))
                ![(s1V).view.readAt (Elt F) (Rect.unit (s := S1024) ![16 * kk] S16.size h5i).toLoadRect C.a1] hc2))
            shapeCasts_S16_S1x16)
      (Finset.mem_univ (ValueIdx.ix2 (0 : Fin 1) q))
    rw [hy] at hw
    rw [hw, cast_eq]
    have hk : (S16.rowMajor (ValueIdx.ix1 q)).val = (S1x16.rowMajor (ValueIdx.ix2 (0 : Fin 1) q)).val := by
      rw [Shape.rowMajor_val_one, Shape.rowMajor_val_two]
      show q.val = 0 * 16 + q.val
      omega
    show mulf _ _ (Shape.reshapeEquiv shapeCasts_S16_S1x16 (ValueIdx.ix2 (0 : Fin 1) q)) = _
    rw [Shape.reshapeEquiv_eq_of_rowMajor shapeCasts_S16_S1x16 hk, chunk_at L C hC di kk h4i h5i hc1 hc2 q (j 1) hq]
    show _ = hrtVal C.a0 C.a1 C.x2 C.x3 ((oRowK L).view.emb j)
    rw [oRowK_emb]
    refine congrArg (hrtVal C.a0 C.a1 C.x2 C.x3) (idx2_ext ?_ rfl)
    show 4 * (L 1).val + 2 * (L 0).val + di.val = 4 * (L 1).val + 2 * (L 0).val + (j 0).val
    omega
  · have hnot : j ∉ ((s4V).access (Rect.unit (s := S2x1024) ![di.val, 16 * kk] S1x16.size h6i)).setOn Finset.univ := by
      rw [View.setOn_univ]
      show j ∉ ((View.whole cc0_scratch4).slice (Rect.unit (s := S2x1024) ![di.val, 16 * kk] S1x16.size h6i)).set
      rw [View.set_slice_whole, Rect.mem_set_unit]
      intro hm
      have m0 : di.val ≤ (j 0).val ∧ (j 0).val < di.val + 1 := hm 0
      have m1 : 16 * kk ≤ (j 1).val ∧ (j 1).val < 16 * kk + 16 := hm 1
      exact hin ⟨by omega, m1.1⟩
    rw [View.write_of_not_mem _ _ _ hnot]
    exact hf j (by omega)

end Tile

end Cert.Kernel.Sc

end
-- ==== Proof.Bits.ScIndex2.lean ====
/-
  What a worker's two copies out leave in the results, on the places it owns: the first result's two rows are the
  product scratch's rows, which are the products; the second result's thirty-two entries are the gathered biases, the
  head bias at each of the worker's thirty-two entity words.  Pure facts; no program is run here.

  A block written whole through a slice of an array lands, element by element, on the slice's places: the array's
  element under the slice's index x holds the block's element x. The product scratch read whole is what it holds. The
  gather's payload at entry x is the source at the row the offset list names for x; the source is the whole bias
  vector through a slice at offset zero, the offset list is the worker's thirty-two entity words, read at the same
  offset as the entries they are copied out to; and an entity word below the number of rows is its own row.
-/
import proofs.«203358_g20435454394731_cont_8to1_1864_22_alg».proof.Proof.Bits.ScIndex
import Idealize.ShloMosaic.Lib.Writes

noncomputable section

namespace Cert.Kernel.Sc

open Cert.Kernel Cert.Kernel.Gen
open Idealize.ShloMosaic

variable {F : FTy → Type} [FloatOps F]

section Tile

variable (L : grid0.Coords) (C : Cts F)

/-- The whole bias vector, as the body slices it for the gather. -/
abbrev xAllK : Memref sig .scVector .hbm S100000 .f32 :=
  (m4V).slice (Rect.unit (s := S100000) ![0] S100000.size inb_S100000_S100000_0) (fun _ => rfl)

/-- A block written whole through the worker's row slice lands on the slice's places. -/
theorem oRow_writes_emb (w : S2x1024.Idx → F .f32) (j : S2x1024.Idx) :
    (oRowK L).view.writes (Elt F) C.o0 [⟨Rect.whole S2x1024, w⟩] ((oRowK L).view.emb j) = w j := by
  have h := View.read_writes_cons_emb (Val := Elt F) (oRowK L).view C.o0 (Rect.whole S2x1024) w [] j
  rw [Rect.emb_whole_apply, View.read_apply, cast_eq] at h
  exact h

/-- A block written whole through the worker's entry slice lands on the slice's places. -/
theorem oSeg_writes_emb (w : S32.Idx → F .f32) (x : S32.Idx) :
    (oSegK L).view.writes (Elt F) C.o1 [⟨Rect.whole S32, w⟩] ((oSegK L).view.emb x) = w x := by
  have h := View.read_writes_cons_emb (Val := Elt F) (oSegK L).view C.o1 (Rect.whole S32) w [] x
  rw [Rect.emb_whole_apply, View.read_apply, cast_eq] at h
  exact h

/-- The two rows copied out of a product scratch that holds the products are the products. -/
theorem rows_out (g : S2x1024.Idx → F .f32) (hg : ∀ j, g j = Gv L C j) :
    ∀ i ∈ (oRowK L).view.set,
      (oRowK L).view.writes (Elt F) C.o0 [⟨Rect.whole S2x1024, (s4V).view.read (Elt F) g⟩] i = hrtVal C.a0 C.a1 C.x2 C.x3 i := by
  intro i hi
  obtain ⟨j, -, rfl⟩ := Finset.mem_map.mp hi
  rw [oRow_writes_emb]
  exact hg j

/-- The slice of the bias vector at offset zero is the bias vector. -/
theorem xAllK_emb (y : S100000.Idx) : (xAllK).view.emb y = y := by
  show (Rect.unit (s := S100000) ![0] S100000.size inb_S100000_S100000_0).emb y = y
  funext a
  refine Fin.ext ?_
  match a with
  | ⟨0, _⟩ =>
    show 0 + 1 * (y 0).val = (y 0).val
    omega

/-- The bias vector read through that slice is the bias vector. -/
theorem xAllK_read (y : S100000.Idx) : (xAllK).view.read (Elt F) C.x4 y = C.x4 y := by
  show C.x4 ((xAllK).view.emb y) = C.x4 y
  rw [xAllK_emb]

/-- The worker's thirty-two entity words, read from its copy of the words once the copy has landed, are the entity
    words at the places of its thirty-two entries. -/
theorem offs_read (f0 : S1024.Idx → BitVec 32) (x : S32.Idx) :
    (offsK L).view.read (Elt F) (View.write (Elt F) (s0V).view f0 ((m0V).view.read (Elt F) C.a0) Finset.univ) x
      = C.a0 ((oSegK L).view.emb x) := by
  have hw : View.write (Elt F) (s0V).view f0 ((m0V).view.read (Elt F) C.a0) Finset.univ = C.a0 := by
    show (View.whole (cc0_scratch0 : Ref sig .scVector)).write (Elt F) f0
      ((View.whole (main_v0_scv : Ref sig .scVector)).read (Elt F) C.a0) Finset.univ = C.a0
    rw [View.read_whole, View.write_whole_univ]
  rw [hw]
  rfl

/-- The index of a rank-one shape at a row-major position is the index with that coordinate. -/
theorem rowMajor_symm_cast (x : S32.Idx) (hn : S32.numel = S32.size gathers_S100000_S32.axis') :
    S32.rowMajor.symm ((x gathers_S100000_S32.axis').cast hn.symm) = x := by
  rw [Equiv.symm_apply_eq]
  exact Fin.ext (Shape.rowMajor_val_one x).symm

/-- The thirty-two gathered biases copied out are the head biases at the worker's entity words. -/
theorem seg_out (f0 : S1024.Idx → BitVec 32) (f5 : S32.Idx → F .f32)
    (hn : S32.numel = S32.size gathers_S100000_S32.axis')
    (hin : ∀ x, ((offsK L).view.read (Elt F) (View.write (Elt F) (s0V).view f0 ((m0V).view.read (Elt F) C.a0) Finset.univ) x).toNat
      < S100000.size gathers_S100000_S32.axis) :
    ∀ i ∈ (oSegK L).view.set,
      (oSegK L).view.writes (Elt F) C.o1 [⟨Rect.whole S32, (s5V).view.read (Elt F) (View.write (Elt F) (s5V).view f5
        (SparseCore.gatherPayload gathers_S100000_S32 ((xAllK).view.read (Elt F) C.x4)
          (SparseCore.rows ((offsK L).view.read (Elt F) (View.write (Elt F) (s0V).view f0 ((m0V).view.read (Elt F) C.a0) Finset.univ)) hn hin))
        Finset.univ)⟩] i
      = hbVal C.a0 C.x4 i := by
  intro i hi
  obtain ⟨x, -, rfl⟩ := Finset.mem_map.mp hi
  rw [oSeg_writes_emb, View.read_write_univ]
  unfold SparseCore.gatherPayload
  rw [xAllK_read]
  have hlt : (C.a0 ((oSegK L).view.emb x)).toNat < 100000 := by
    have h := hin x
    rw [offs_read] at h
    exact h
  show C.x4 _ = C.x4 (ValueIdx.ix1 (rowOf 100000 (C.a0 ((oSegK L).view.emb x))))
  rw [rowOf_of_lt hlt]
  congr 1
  funext b
  refine Fin.ext ?_
  match b with
  | ⟨0, _⟩ =>
    refine (congrArg Fin.val (Shape.Gathers.idx_axis gathers_S100000_S32
      (SparseCore.rows ((offsK L).view.read (Elt F) (View.write (Elt F) (s0V).view f0 ((m0V).view.read (Elt F) C.a0) Finset.univ)) hn hin) x)).trans ?_
    show ((offsK L).view.read (Elt F) (View.write (Elt F) (s0V).view f0 ((m0V).view.read (Elt F) C.a0) Finset.univ)
      (S32.rowMajor.symm ((x gathers_S100000_S32.axis').cast hn.symm))).toNat = (C.a0 ((oSegK L).view.emb x)).toNat
    rw [rowMajor_symm_cast x hn, offs_read]

end Tile

end Cert.Kernel.Sc

end
-- ==== Proof.Bits.ScBody.lean ====
/-
  One worker's task of the SparseCore gather, run from its share of the tables and its own rows of the two results:
  the word copies, the bias gather left in flight across the two row passes, each pass sixty-four trips of sixteen
  lanes, the two copies out.  The rows it leaves are the products of the transposed tables' entries at the words
  (hrtVal), its thirty-two biases those of its words' entities (hbVal).
-/
import proofs.«203358_g20435454394731_cont_8to1_1864_22_alg».proof.Proof.Bits.ScIndex2

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Tile

variable (d : Dev nD) (L : grid0.Coords) (C : Cts F)

/-- The words the bias gather reads are in range: the word scratch holds the entity words once its copy has landed. -/
theorem offs_inb (hC : C.Ok) (fs : S1024.Idx → BitVec 32) (pay : S1024.Idx → BitVec 32)
    (hpay : pay = (m0V).view.read (Elt F) C.a0) :
    ∀ x, ((offsK L).view.read (Elt F) (View.write (Elt F) (s0V).view fs pay Finset.univ) x).toNat < S100000.size gathers_S100000_S32.axis := by
  subst hpay; intro x
  rw [View.write_whole_univ]
  simp only [Memref.view_whole, View.read_whole]
  rw [show ∀ j, (offsK L).view.read (Elt F) C.a0 j = C.a0 ((offsK L).view.emb j) from fun j => (View.read_apply _ _).trans (cast_eq _ _)]
  exact (hC _).1

omit [FloatOps F] in
/-- A points-to at equal contents. -/
theorem pts_congr {ℓ : Loc nD τ sig} {S : Finset (Idx ℓ)} {q : PosShare TreeShare} {f g : Buf (Elt F) ℓ} (h : f = g) :
    (ℓ ↦[S]{q} f : sProp 𝕄) ⊢ ℓ ↦[S]{q} g := by subst h; exact BI.Entails.refl _

omit [FloatOps F] in
/-- A points-to at contents that agree on its element set. -/
theorem pts_congr_on {ℓ : Loc nD τ sig} {S : Finset (Idx ℓ)} {q : PosShare TreeShare} {f g : Buf (Elt F) ℓ} (h : ∀ i ∈ S, f i = g i) :
    (ℓ ↦[S]{q} f : sProp 𝕄) ⊢ ℓ ↦[S]{q} g := Entails.of_eq (pointsTo_congr h)

/-- Before trip k of the pass over row di: the words (half the share of the entity words), the two fetched rows, and
    the product scratch right on the rows before di and on the first 16 k lanes of row di. -/
def passInv (row : S100000.Idx → F .f32) (rrow : S2000.Idx → F .f32) (di : ℕ) (k : ℕ) (_ : PUnit) : sProp 𝕄 :=
  iprop(((s0V).view.loc (V d (cV L) (jV L)) ↦{(fullShare : PosShare TreeShare).right} C.a0)
    ∗ ((s1V).view.loc (V d (cV L) (jV L)) ↦{fullShare} C.a1)
    ∗ ((s2V).view.loc (V d (cV L) (jV L)) ↦{fullShare} row) ∗ ((s3V).view.loc (V d (cV L) (jV L)) ↦{fullShare} rrow)
    ∗ ∃ f, ((s4V).view.loc (V d (cV L) (jV L)) ↦{fullShare} f)
        ∗ ⌜∀ j : S2x1024.Idx, ((j 0).val < di ∨ ((j 0).val = di ∧ (j 1).val < 16 * k)) → f j = Gv L C j⌝)

set_option maxHeartbeats 4000000 in
theorem tile_body (hF : (K (F := F)).Facts) (hC : C.Ok) (q : PosShare TreeShare) (O : CellTallies nD τ sig (HIx 1)) (W : Waits sig (HIx 1)) (hO : ∀ g, O g none = 0) :
    iprop(levAts (K (F := F)).L (K (F := F)).lev ∗ emp ∗ goRes d L C q
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_sc_gather L m0V (Memref.isWhole_whole _) m1V (Memref.isWhole_whole _) m2V (Memref.isWhole_whole _) m3V (Memref.isWhole_whole _)
            m4V (Memref.isWhole_whole _) o0V (Memref.isWhole_whole _) o1V (Memref.isWhole_whole _)
            s0V (Memref.isWhole_whole _) s1V (Memref.isWhole_whole _) s2V (Memref.isWhole_whole _) s3V (Memref.isWhole_whole _)
            s4V (Memref.isWhole_whole _) s5V (Memref.isWhole_whole _) cc0_scratch6 cc0_scratch7 cc0_scratch8 cc0_scoped0 cc0_scoped1 cc0_scoped2 cc0_scoped3)
          fun _ => iprop(tdRes d L C q ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_sc_gather_eq_skeleton]; unfold cc0_sc_gather_skel
  simp only [k0_part1_eq_skeleton]; unfold k0_part1_skel
  rw [(K (F := F)).scopedBufs_V hF d (cV L) (jV L), SparseCore.Cfg.scopedSems0_V (Val := Elt F) d (cV L) (jV L), ownSems0_V, ownBufs_V]
  iintro ⟨#Hlv, -, ⟨H0, H1, H2, H3, H4, Ho0, Ho1⟩, ⟨⟨%f0, Hs0⟩, ⟨%f1, Hs1⟩, ⟨%f2, Hs2⟩, ⟨%f3, Hs3⟩, ⟨%f4, Hs4⟩, ⟨%f5, Hs5⟩, Hbufs⟩,
    ⟨Hq6, Hq7, Hq8, Hp0, Hp1, Hp2, Hp3, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave H0' := (Entails.of_eq (show (l0 d ↦{q} C.a0 : sProp 𝕄) = (m0V).view.loc (V d (cV L) (jV L)) ↦{q} C.a0 from rfl)) $$ H0
  ihave H1' := (Entails.of_eq (show (l1 d ↦{q} C.a1 : sProp 𝕄) = (m1V).view.loc (V d (cV L) (jV L)) ↦{q} C.a1 from rfl)) $$ H1
  ihave H2' := (Entails.of_eq (show (l2 d ↦{q} C.x2 : sProp 𝕄) = (m2V).view.loc (V d (cV L) (jV L)) ↦{q} C.x2 from rfl)) $$ H2
  ihave H3' := (Entails.of_eq (show (l3 d ↦{q} C.x3 : sProp 𝕄) = (m3V).view.loc (V d (cV L) (jV L)) ↦{q} C.x3 from rfl)) $$ H3
  ihave H4' := (Entails.of_eq (show (l4 d ↦{q} C.x4 : sProp 𝕄) = (m4V).view.loc (V d (cV L) (jV L)) ↦{q} C.x4 from rfl)) $$ H4
  ihave Ho0' := (Entails.of_eq (show (lo0 d ↦[rowsSet L]{fullShare} C.o0 : sProp 𝕄) = (oRowK L).view.loc (V d (cV L) (jV L)) ↦[(oRowK L).view.set]{fullShare} C.o0 from rfl)) $$ Ho0
  ihave Ho1' := (Entails.of_eq (show (lo1 d ↦[segSet L]{fullShare} C.o1 : sProp 𝕄) = (oSegK L).view.loc (V d (cV L) (jV L)) ↦[(oSegK L).view.set]{fullShare} C.o1 from rfl)) $$ Ho1
  ihave Hs0' := (Entails.of_eq (show ((V d (cV L) (jV L)).loc cc0_scratch0 ↦{fullShare} f0 : sProp 𝕄) = (s0V).view.loc (V d (cV L) (jV L)) ↦{fullShare} f0 from rfl)) $$ Hs0
  ihave Hs1' := (Entails.of_eq (show ((V d (cV L) (jV L)).loc cc0_scratch1 ↦{fullShare} f1 : sProp 𝕄) = (s1V).view.loc (V d (cV L) (jV L)) ↦{fullShare} f1 from rfl)) $$ Hs1
  ihave Hs2' := (Entails.of_eq (show ((V d (cV L) (jV L)).loc cc0_scratch2 ↦{fullShare} f2 : sProp 𝕄) = (s2V).view.loc (V d (cV L) (jV L)) ↦{fullShare} f2 from rfl)) $$ Hs2
  ihave Hs3' := (Entails.of_eq (show ((V d (cV L) (jV L)).loc cc0_scratch3 ↦{fullShare} f3 : sProp 𝕄) = (s3V).view.loc (V d (cV L) (jV L)) ↦{fullShare} f3 from rfl)) $$ Hs3
  ihave Hs4' := (Entails.of_eq (show ((V d (cV L) (jV L)).loc cc0_scratch4 ↦{fullShare} f4 : sProp 𝕄) = (s4V).view.loc (V d (cV L) (jV L)) ↦{fullShare} f4 from rfl)) $$ Hs4
  ihave Hs5' := (Entails.of_eq (show ((V d (cV L) (jV L)).loc cc0_scratch5 ↦{fullShare} f5 : sProp 𝕄) = (s5V).view.loc (V d (cV L) (jV L)) ↦{fullShare} f5 from rfl)) $$ Hs5
  sl_exec
  -- the bias gather: a share of the bias vector, the bias scratch, half of the word scratch's share on the thirty-two
  -- words it reads (the other half stays for the passes' loads), the cell at zero; back comes the transfer in flight
  ihave Hs0s := (pointsTo_share (I := Finset.univ) (PosShare.mem_left_op_right fullShare)).1 $$ Hs0'
  icases Hs0s with ⟨Hs0l, Hs0r⟩
  ihave Hol := (pointsTo_split_subset (S := Finset.univ) (Finset.subset_univ (offsK L).view.set)).1 $$ Hs0l
  icases Hol with ⟨Hoffs, Hs0l'⟩
  ihave Hxs := (pointsTo_split_subset (q := q) (f := C.x4) (S := Finset.univ) (Finset.subset_univ (xAllK).view.set)).1 $$ H4'
  icases Hxs with ⟨Hxs, Hxr⟩
  have h5s : (s5V).view.set = Finset.univ := View.set_whole _
  ihave Hs5'' := (Entails.of_eq (show ((s5V).view.loc (V d (cV L) (jV L)) ↦{fullShare} f5 : sProp 𝕄)
      = (s5V).view.loc (V d (cV L) (jV L)) ↦[(s5V).view.set]{fullShare} f5 by rw [h5s])) $$ Hs5'
  have hN : ∀ h : S100000.Gathers 0 S32, ∑ j, ((s5V).slice (S32.rowRect h.axis' j) (S32.stride_rowRect h.axis' j)).view.dmaCredit
      = (s5V).view.dmaCredit := by decide
  iapply (SparseCore.wp_indirectGatherLocal countersEmb 𝒱₀ (V d (cV L) (jV L)) none (hg := gathers_S100000_S32) (default : HIx 1)
      (s5V).view.dmaCredit (hN _) (by decide) (offs_inb L C hC f0 _ rfl)) $$ [Hxs Hs5'' Hoffs Hq8]
  · isplitl [Hxs]; · iexact Hxs
    isplitl [Hs5'']; · iexact Hs5''
    isplitl [Hoffs]; · iexact Hoffs
    iexact Hq8
  iintro Hfl
  sl_exec
  have e0 : View.write (Elt F) (s0V).view f0 (View.read (Elt F) (m0V).view C.a0) Finset.univ = C.a0 := View.write_whole_univ _ _ _
  have e1 : View.write (Elt F) (s1V).view f1 (tile_body.sl.dma0_1 C) Finset.univ = C.a1 := View.write_whole_univ _ _ _
  have e2 : View.write (Elt F) (s2V).view f2 (tile_body.sl.dma0_2 L C) Finset.univ = (rowK L 0).view.read (Elt F) C.x2 := View.write_whole_univ _ _ _
  have e3 : View.write (Elt F) (s3V).view f3 (tile_body.sl.dma0_3 L C) Finset.univ = (rrowK L 0).view.read (Elt F) C.x3 := View.write_whole_univ _ _ _
  ihave Hs0r := (pts_congr (F := F) e0) $$ Hs0r
  ihave Hs1' := (pts_congr (F := F) e1) $$ Hs1'
  ihave Hs2' := (pts_congr (F := F) e2) $$ Hs2'
  ihave Hs3' := (pts_congr (F := F) e3) $$ Hs3'
  rw [bind_assoc]
  sl_for (passInv d L C ((rowK L 0).view.read (Elt F) C.x2) ((rrowK L 0).view.read (Elt F) C.x3) 0) $$ [Hs0r Hs1' Hs2' Hs3' Hs4']
  case region =>
    intro k _
    unfold passInv
    iintro ⟨Hs0, Hs1, Hs2, Hs3, %f, Hs4, %hf⟩
    unfold tile_body.sl.prog.body_1 k0_t1_body
    simp only [Prog.lift, Prog.bind_op, Prog.bind_ret, Prog.pure_eq_ret]
    have hchk1 : k0_chk1 ((s0V).view.readAt (Elt F) (Rect.unit (s := S1024) (k0_off4 k) S16.size (k0_off4_inb k)).toLoadRect C.a0) := by
      intro a x
      obtain rfl : a = 0 := Subsingleton.elim _ _
      exact (hC _).1
    have hchk2 : k0_chk2 ((s1V).view.readAt (Elt F) (Rect.unit (s := S1024) (k0_off5 k) S16.size (k0_off5_inb k)).toLoadRect C.a1) := by
      intro a x
      obtain rfl : a = 0 := Subsingleton.elim _ _
      exact (hC _).2
    iapply (wp_load 𝒱₀ (V d (cV L) (jV L)) none Set.univ (m := s0V) (S := Finset.univ) (Finset.subset_univ _)) $$ Hs0; iintro Hs0
    rw [wp_assume_of _ _ _ _ hchk1]
    ihave Hs2a := (Entails.of_eq (show ((s2V).view.loc (V d (cV L) (jV L)) ↦{fullShare} (rowK L 0).view.read (Elt F) C.x2 : sProp 𝕄)
        = ((s2V).access (.whole S100000)).loc (V d (cV L) (jV L)) ↦{fullShare} (rowK L 0).view.read (Elt F) C.x2 from rfl)) $$ Hs2
    iapply (SparseCore.wp_vectorLoadIdx 𝒱₀ (V d (cV L) (jV L)) none Set.univ (base := s2V) (S := Finset.univ) (q := fullShare) (Finset.subset_univ _)) $$ Hs2a; iintro Hs2a
    iapply (wp_load 𝒱₀ (V d (cV L) (jV L)) none Set.univ (m := s1V) (S := Finset.univ) (Finset.subset_univ _)) $$ Hs1; iintro Hs1
    rw [wp_assume_of _ _ _ _ hchk2]
    ihave Hs3a := (Entails.of_eq (show ((s3V).view.loc (V d (cV L) (jV L)) ↦{fullShare} (rrowK L 0).view.read (Elt F) C.x3 : sProp 𝕄)
        = ((s3V).access (.whole S2000)).loc (V d (cV L) (jV L)) ↦{fullShare} (rrowK L 0).view.read (Elt F) C.x3 from rfl)) $$ Hs3
    iapply (SparseCore.wp_vectorLoadIdx 𝒱₀ (V d (cV L) (jV L)) none Set.univ (base := s3V) (S := Finset.univ) (q := fullShare) (Finset.subset_univ _)) $$ Hs3a; iintro Hs3a
    iapply (wp_load 𝒱₀ (V d (cV L) (jV L)) none Set.univ (m := s4V) (S := Finset.univ) (Finset.subset_univ _)) $$ Hs4; iintro Hs4
    ihave Hs4a := (Entails.of_eq (show ((s4V).view.loc (V d (cV L) (jV L)) ↦{fullShare} f : sProp 𝕄)
        = ((s4V).access (Rect.unit (s := S2x1024) (k0_off6 k) S1x16.size (k0_off6_inb k))).loc (V d (cV L) (jV L)) ↦{fullShare} f from rfl)) $$ Hs4
    iapply (wp_store 𝒱₀ (V d (cV L) (jV L)) none Set.univ (m := s4V) (r := Rect.unit (s := S2x1024) (k0_off6 k) S1x16.size (k0_off6_inb k)) (Mk := Finset.univ) (S := Finset.univ) (Finset.subset_univ _)) $$ Hs4a; iintro Hs4a
    rw [wp_ret]; imodintro
    isplitl [Hs0]; · iexact Hs0
    isplitl [Hs1]; · iexact Hs1
    isplitl [Hs2a]; · iexact Hs2a
    isplitl [Hs3a]; · iexact Hs3a
    iexists _; isplitl [Hs4a]; · iexact Hs4a
    ipureintro
    exact pass_store L C hC 0 k.val (k0_off4 k) (k0_off5 k) (k0_off4_inb k) (k0_off5_inb k) (k0_off6 k) (k0_off6_inb k)
      (k0_off4_eq k) (k0_off5_eq k) (k0_off6_eq k) f hf hchk1 hchk2
  · unfold passInv
    isplitl [Hs0r]; · iexact Hs0r
    isplitl [Hs1']; · iexact Hs1'
    isplitl [Hs2']; · iexact Hs2'
    isplitl [Hs3']; · iexact Hs3'
    iexists _; isplitl [Hs4']; · iexact Hs4'
    ipureintro
    intro j hj
    exfalso; omega
  iintro %_ HI
  unfold passInv
  icases HI with ⟨Hs0r, Hs1', Hs2', Hs3', %g4, Hs4', %hg4⟩
  sl_exec
  have ht1 : Scf.trips k0_t1_loop.lb k0_t1_loop.ub k0_t1_loop.st = 64 := by decide
  have e4 : View.write (Elt F) (s2V).view ((rowK L 0).view.read (Elt F) C.x2) (tile_body.sl.dma0_4 L C) Finset.univ = (rowK L 1).view.read (Elt F) C.x2 := View.write_whole_univ _ _ _
  have e5 : View.write (Elt F) (s3V).view ((rrowK L 0).view.read (Elt F) C.x3) (tile_body.sl.dma0_5 L C) Finset.univ = (rrowK L 1).view.read (Elt F) C.x3 := View.write_whole_univ _ _ _
  ihave Hs2' := (pts_congr (F := F) e4) $$ Hs2'
  ihave Hs3' := (pts_congr (F := F) e5) $$ Hs3'
  sl_for (passInv d L C ((rowK L 1).view.read (Elt F) C.x2) ((rrowK L 1).view.read (Elt F) C.x3) 1) $$ [Hs0r Hs1' Hs2' Hs3' Hs4']
  case region =>
    intro k _
    unfold passInv
    iintro ⟨Hs0, Hs1, Hs2, Hs3, %f, Hs4, %hf⟩
    unfold tile_body.sl.prog.body_2 k0_t2_body
    simp only [Prog.lift, Prog.bind_op, Prog.bind_ret, Prog.pure_eq_ret]
    have hchk3 : k0_chk3 ((s0V).view.readAt (Elt F) (Rect.unit (s := S1024) (k0_off7 k) S16.size (k0_off7_inb k)).toLoadRect C.a0) := by
      intro a x
      obtain rfl : a = 0 := Subsingleton.elim _ _
      exact (hC _).1
    have hchk4 : k0_chk4 ((s1V).view.readAt (Elt F) (Rect.unit (s := S1024) (k0_off8 k) S16.size (k0_off8_inb k)).toLoadRect C.a1) := by
      intro a x
      obtain rfl : a = 0 := Subsingleton.elim _ _
      exact (hC _).2
    iapply (wp_load 𝒱₀ (V d (cV L) (jV L)) none Set.univ (m := s0V) (S := Finset.univ) (Finset.subset_univ _)) $$ Hs0; iintro Hs0
    rw [wp_assume_of _ _ _ _ hchk3]
    ihave Hs2a := (Entails.of_eq (show ((s2V).view.loc (V d (cV L) (jV L)) ↦{fullShare} (rowK L 1).view.read (Elt F) C.x2 : sProp 𝕄)
        = ((s2V).access (.whole S100000)).loc (V d (cV L) (jV L)) ↦{fullShare} (rowK L 1).view.read (Elt F) C.x2 from rfl)) $$ Hs2
    iapply (SparseCore.wp_vectorLoadIdx 𝒱₀ (V d (cV L) (jV L)) none Set.univ (base := s2V) (S := Finset.univ) (q := fullShare) (Finset.subset_univ _)) $$ Hs2a; iintro Hs2a
    iapply (wp_load 𝒱₀ (V d (cV L) (jV L)) none Set.univ (m := s1V) (S := Finset.univ) (Finset.subset_univ _)) $$ Hs1; iintro Hs1
    rw [wp_assume_of _ _ _ _ hchk4]
    ihave Hs3a := (Entails.of_eq (show ((s3V).view.loc (V d (cV L) (jV L)) ↦{fullShare} (rrowK L 1).view.read (Elt F) C.x3 : sProp 𝕄)
        = ((s3V).access (.whole S2000)).loc (V d (cV L) (jV L)) ↦{fullShare} (rrowK L 1).view.read (Elt F) C.x3 from rfl)) $$ Hs3
    iapply (SparseCore.wp_vectorLoadIdx 𝒱₀ (V d (cV L) (jV L)) none Set.univ (base := s3V) (S := Finset.univ) (q := fullShare) (Finset.subset_univ _)) $$ Hs3a; iintro Hs3a
    iapply (wp_load 𝒱₀ (V d (cV L) (jV L)) none Set.univ (m := s4V) (S := Finset.univ) (Finset.subset_univ _)) $$ Hs4; iintro Hs4
    ihave Hs4a := (Entails.of_eq (show ((s4V).view.loc (V d (cV L) (jV L)) ↦{fullShare} f : sProp 𝕄)
        = ((s4V).access (Rect.unit (s := S2x1024) (k0_off9 k) S1x16.size (k0_off9_inb k))).loc (V d (cV L) (jV L)) ↦{fullShare} f from rfl)) $$ Hs4
    iapply (wp_store 𝒱₀ (V d (cV L) (jV L)) none Set.univ (m := s4V) (r := Rect.unit (s := S2x1024) (k0_off9 k) S1x16.size (k0_off9_inb k)) (Mk := Finset.univ) (S := Finset.univ) (Finset.subset_univ _)) $$ Hs4a; iintro Hs4a
    rw [wp_ret]; imodintro
    isplitl [Hs0]; · iexact Hs0
    isplitl [Hs1]; · iexact Hs1
    isplitl [Hs2a]; · iexact Hs2a
    isplitl [Hs3a]; · iexact Hs3a
    iexists _; isplitl [Hs4a]; · iexact Hs4a
    ipureintro
    exact pass_store L C hC 1 k.val (k0_off7 k) (k0_off8 k) (k0_off7_inb k) (k0_off8_inb k) (k0_off9 k) (k0_off9_inb k)
      (k0_off7_eq k) (k0_off8_eq k) (k0_off9_eq k) f hf hchk3 hchk4
  · unfold passInv
    isplitl [Hs0r]; · iexact Hs0r
    isplitl [Hs1']; · iexact Hs1'
    isplitl [Hs2']; · iexact Hs2'
    isplitl [Hs3']; · iexact Hs3'
    iexists _; isplitl [Hs4']; · iexact Hs4'
    ipureintro
    intro j hj
    refine hg4 j (Or.inr ⟨?_, ?_⟩)
    · rcases hj with h | ⟨_, h⟩ <;> omega
    · rw [ht1]; have := ValueIdx.idx2_lt1 j; omega
  iintro %_ HI
  unfold passInv
  icases HI with ⟨Hs0r, Hs1', Hs2', Hs3', %g5, Hs4', %hg5⟩
  sl_exec
  -- the bias gather's wait: the bias scratch written with the gathered biases, the share of the bias vector and the
  -- thirty-two words' half share back
  iapply (Transfers.wp_waitLocalO countersEmb 𝒱₀ (V d (cV L) (jV L)) none (default : HIx 1) (rfl : (s5V).view.dmaCredit = _)) $$ [Hfl HO]
  · isplitl [Hfl]; · iexact Hfl
    isplitl [HO]; · iexact HO
    iapply (Transfers.MayWaits.elim (SemLoc.dma cc0_scratch8.sem)) $$ Hmw
  iintro ⟨⟨Hs5, Hxs, Hoffs⟩, Hq8, HO⟩
  ihave H4' := (pointsTo_split_subset (ℓ := (m4V).view.loc (V d (cV L) (jV L))) (q := q) (f := C.x4) (S := Finset.univ) (Finset.subset_univ (xAllK).view.set)).2 $$ [Hxs Hxr]
  · isplitl [Hxs] <;> iassumption
  ihave Hoffs := (pts_congr (F := F) e0) $$ Hoffs
  ihave Hs0l' := (pts_congr (F := F) e0) $$ Hs0l'
  ihave Hs0l := (pointsTo_split_subset (ℓ := (s0V).view.loc (V d (cV L) (jV L))) (f := C.a0) (S := Finset.univ) (Finset.subset_univ (offsK L).view.set)).2 $$ [Hoffs Hs0l']
  · isplitl [Hoffs] <;> iassumption
  ihave Hs0' := (pointsTo_share (I := Finset.univ) (PosShare.mem_left_op_right fullShare)).2 $$ [Hs0l Hs0r]
  · isplitl [Hs0l] <;> iassumption
  ihave Hs5' := (Entails.of_eq (show ((s5V).view.loc (V d (cV L) (jV L)) ↦[(s5V).view.set]{fullShare} _ : sProp 𝕄)
      = (s5V).view.loc (V d (cV L) (jV L)) ↦{fullShare} _ by rw [h5s])) $$ Hs5
  sl_exec
  sl_step
  have ht2 : Scf.trips k0_t2_loop.lb k0_t2_loop.ub k0_t2_loop.st = 64 := by decide
  have hg5all : ∀ j, g5 j = Gv L C j := fun j => hg5 j (by
    rw [ht2]; have h0 := ValueIdx.idx2_lt0 j; have h1 := ValueIdx.idx2_lt1 j; omega)
  ihave Ho0'' := (pts_congr_on (F := F) (rows_out L C g5 hg5all)) $$ Ho0'
  ihave Ho1'' := (pts_congr_on (F := F) (seg_out L C f0 f5 _ _)) $$ Ho1'
  isplitl [H0' H1' H2' H3' H4' Ho0'' Ho1'']
  · isplitl [H0']; · iexact H0'
    isplitl [H1']; · iexact H1'
    isplitl [H2']; · iexact H2'
    isplitl [H3']; · iexact H3'
    isplitl [H4']; · iexact H4'
    isplitl [Ho0'']; · iexact Ho0''
    iexact Ho1''
  isplitl [Hs0' Hs1' Hs2' Hs3' Hs4' Hs5' Hbufs]
  · isplitl [Hs0']; · iexists _; iexact Hs0'
    isplitl [Hs1']; · iexists _; iexact Hs1'
    isplitl [Hs2']; · iexists _; iexact Hs2'
    isplitl [Hs3']; · iexists _; iexact Hs3'
    isplitl [Hs4']; · iexists _; iexact Hs4'
    isplitl [Hs5']; · iexists _; iexact Hs5'
    iexact Hbufs
  isplitl [Hq6 Hq7 Hq8 Hp0 Hp1 Hp2 Hp3 Hsems]
  · isplitl [Hq6]; · iexact Hq6
    isplitl [Hq7]; · iexact Hq7
    isplitl [Hq8]; · iexact Hq8
    isplitl [Hp0]; · iexact Hp0
    isplitl [Hp1]; · iexact Hp1
    isplitl [Hp2]; · iexact Hp2
    isplitl [Hp3]; · iexact Hp3
    iexact Hsems
  iexists _; isplitr
  swap; · iexact HO
  ipureintro; intro p hp
  simp only [Finset.mem_insert] at hp
  rcases hp with h | h | h | h | h | h | h | h | h | h
  all_goals first | exact .inl h | exact .inr (by rw [h]; rfl)

end Tile

end Cert.Kernel.Sc

end
-- ==== Proof.Bits.TcData.lean ====
import proofs.«203358_g20435454394731_cont_8to1_1864_22_alg».proof.Proof.Gen.Kernel.Launch
import proofs.«203358_g20435454394731_cont_8to1_1864_22_alg».proof.Proof.Gen.Kernel.Skeleton
import proofs.«203358_g20435454394731_cont_8to1_1864_22_alg».proof.Proof.Gen.Kernel.Points
import Idealize.ShloMosaic.Lib.Pipeline.Regions
import Idealize.ShloMosaic.Lib.Pipeline.FrameBody
import Idealize.ShloMosaic.Lib.Pipeline.Value
import Idealize.ShloMosaic.Lib.Tactic

noncomputable section

namespace Cert.Kernel.Tc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-- The first grid point. -/
abbrev t0 : Fin cfg1.N := ⟨0, by decide⟩

/-- What the fetch of the first operand's block at point t leaves in a staging buffer that held d. -/
def fetX (X2 : Vec F S64x100000 .f32) (t : Fin cfg1.N) (d : Vec F S64x4096 .f32) : Vec F S64x4096 .f32 :=
  win1_0.fill (grid1.coords t) d ((win1_0.blk t).view.read (Elt F) X2)

/-- The same for the fourth operand's block. -/
def fetT (T7 : Vec F S1x100000 .f32) (t : Fin cfg1.N) (d : Vec F S1x4096 .f32) : Vec F S1x4096 .f32 :=
  win1_3.fill (grid1.coords t) d ((win1_3.blk t).view.read (Elt F) T7)

/-- The second operand's one block, the whole array, as the fetch at the first point reads it. -/
def blkH (H : Vec F S64x1024 .f32) : Vec F S64x1024 .f32 := (win1_1.blk t0).view.read (Elt F) H
/-- The third operand's likewise. -/
def blkB (B6 : Vec F S1x1024 .f32) : Vec F S1x1024 .f32 := (win1_2.blk t0).view.read (Elt F) B6

/-- What the body may leave in the result's staging buffer at point t: the payload of what the four input buffers
    may then hold — the first and fourth operands' blocks just fetched (anything past the arrays' end), the second and
    third operands' whole. -/
def OutRel (X2 : Vec F S64x100000 .f32) (H : Vec F S64x1024 .f32) (B6 : Vec F S1x1024 .f32) (T7 : Vec F S1x100000 .f32)
    (t : Fin cfg1.N) (X : Vec F S4096x1024 .f32) : Prop :=
  ∃ (d0 : Vec F S64x4096 .f32) (d3 : Vec F S1x4096 .f32), X = k1_pay1 (fetX X2 t d0) (blkH H) (fetT T7 t d3) (blkB B6)

variable (X2 : Vec F S64x100000 .f32) (H : Vec F S64x1024 .f32) (B6 : Vec F S1x1024 .f32) (T7 : Vec F S1x100000 .f32) (f8 : Vec F S100000x1024 .f32)

/-- The relational proof data of the one pipeline on core c: the five arrays at the given contents; an input's
    buffer left as found; the result's buffer left at the payload (OutRel); no invariant; nothing owed. -/
def rdat (c : Dev nD) : RDat τ (Elt F) Ix Name U Lvl cfg1 c where
  A w := match w with
    | ⟨0, _⟩ => X2
    | ⟨1, _⟩ => H
    | ⟨2, _⟩ => B6
    | ⟨3, _⟩ => T7
    | ⟨4, _⟩ => f8
  after w t Y X := match w with
    | ⟨0, _⟩ => X = Y
    | ⟨1, _⟩ => X = Y
    | ⟨2, _⟩ => X = Y
    | ⟨3, _⟩ => X = Y
    | ⟨4, _⟩ => OutRel X2 H B6 T7 t X
  Φ _ := BI.emp
  q _ := fullShare
  owed _ := 0

set_option maxRecDepth 16384

/-- The literal zero offsets. -/
theorem zz2 : (![0, 0] : Fin 2 → Nat) = fun _ => 0 := funext fun a => by fin_cases a <;> rfl

set_option maxHeartbeats 1000000 in
/-- The kernel body on whole staging memrefs: four whole loads, the payload, a whole store over the result's buffer;
    the inputs' buffers are left as read. -/
theorem sound_kernel (c : Dev nD) (E : Set Name) (i : grid1.Coords)
    (arg1 : Memref sig .tc .vmem S64x4096 .f32) (harg1 : arg1.IsWhole) (arg2 : Memref sig .tc .vmem S64x1024 .f32) (harg2 : arg2.IsWhole)
    (arg3 : Memref sig .tc .vmem S1x1024 .f32) (harg3 : arg3.IsWhole) (arg4 : Memref sig .tc .vmem S1x4096 .f32) (harg4 : arg4.IsWhole)
    (arg5 : Memref sig .tc .vmem S4096x1024 .f32) (harg5 : arg5.IsWhole)
    (x0 : Vec F S64x4096 .f32) (x1 : Vec F S64x1024 .f32) (x2 : Vec F S1x1024 .f32) (x3 : Vec F S1x4096 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (k1_pay1 x0 x1 x3 x2)) -∗ K ⟨⟩))
      ⊢ wp frame (wpE (defs₀ (F := F)) Variants.none c none) E (cc1__tc_score i arg1 harg1 arg2 harg2 arg3 harg3 arg4 harg4 arg5 harg5) K := by
  simp only [cc1__tc_score_eq_skeleton]; unfold cc1__tc_score_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [View.read_writes_eq_canon _ _ _ (fun y => ⟨_, List.mem_singleton_self _, View.mem_set_unit_zero zz2 inb_S4096x1024_S4096x1024_0_0 y⟩), View.canon_unit_zero zz2]
  simp only [View.readAt_eq_ld]
  rw [View.ld_unit_zero zz2, View.ld_unit_zero zz2, View.ld_unit_zero zz2, View.ld_unit_zero zz2]

section Data

variable (X2 : Vec F S64x100000 .f32) (H : Vec F S64x1024 .f32) (B6 : Vec F S1x1024 .f32) (T7 : Vec F S1x100000 .f32) (f8 : Vec F S100000x1024 .f32)
variable (ι : Ix)

local notation "𝔯[" c "]" => (rdat X2 H B6 T7 f8 c : RDat τ (Elt F) Ix Name U Lvl cfg1 c)

theorem flush1_0 (t : Fin cfg1.N) : (cfg1.win 0).flush t = false := rfl
theorem flush1_1 (t : Fin cfg1.N) : (cfg1.win 1).flush t = false := rfl
theorem flush1_2 (t : Fin cfg1.N) : (cfg1.win 2).flush t = false := rfl
theorem flush1_3 (t : Fin cfg1.N) : (cfg1.win 3).flush t = false := rfl

theorem finds_0 (c : Dev nD) (t : Fin cfg1.N) (Y : Vec F S64x4096 .f32) (h : 𝔯[c].Finds 0 t Y) : ∃ d, Y = fetX X2 t d := by
  obtain ⟨d, hd⟩ := (𝔯[c].finds_of_fetch (fetch1_0 t) Y).mp h
  exact ⟨d, hd.trans (by unfold RDat.fetched RDat.blockOf fetX; dsimp only [rdat]; try rfl)⟩

theorem finds_3 (c : Dev nD) (t : Fin cfg1.N) (Y : Vec F S1x4096 .f32) (h : 𝔯[c].Finds 3 t Y) : ∃ d, Y = fetT T7 t d := by
  obtain ⟨d, hd⟩ := (𝔯[c].finds_of_fetch (fetch1_3 t) Y).mp h
  exact ⟨d, hd.trans (by unfold RDat.fetched RDat.blockOf fetT; dsimp only [rdat]; try rfl)⟩

theorem finds_1 (c : Dev nD) : ∀ (n : Nat) (t : Fin cfg1.N), t.val = n → ∀ Y : Vec F S64x1024 .f32, 𝔯[c].Finds 1 t Y → Y = blkH H := by
  intro n
  induction n with
  | zero =>
    intro t ht Y h
    have hf : (cfg1.win 1).fetch t = true := (fetch1_1 t).mpr (by omega)
    obtain ⟨d, hd⟩ := (𝔯[c].finds_of_fetch hf Y).mp h
    have e : t = t0 := Fin.ext ht
    subst e
    exact hd.trans (by unfold RDat.fetched RDat.blockOf blkH; dsimp only [rdat]; try rfl)
  | succ n ih =>
    intro t ht Y h
    have hN : t.val < 25 := t.isLt
    have hf : (cfg1.win 1).fetch t = false := by
      rcases hb : (cfg1.win 1).fetch t with _ | _
      · rfl
      · exfalso; have := (fetch1_1 t).mp hb; omega
    rcases (𝔯[c].finds_of_pos hf (by omega) Y).mp h with hfl | ⟨Y', hY', hrel⟩
    · exact absurd hfl (by rw [flush1_1]; exact Bool.false_ne_true)
    · have hrel' : Y = Y' := by dsimp only [rdat] at hrel; exact hrel
      rw [hrel']; exact ih ⟨t.val - 1, by omega⟩ (by show t.val - 1 = n; omega) Y' hY'

theorem finds_2 (c : Dev nD) : ∀ (n : Nat) (t : Fin cfg1.N), t.val = n → ∀ Y : Vec F S1x1024 .f32, 𝔯[c].Finds 2 t Y → Y = blkB B6 := by
  intro n
  induction n with
  | zero =>
    intro t ht Y h
    have hf : (cfg1.win 2).fetch t = true := (fetch1_2 t).mpr (by omega)
    obtain ⟨d, hd⟩ := (𝔯[c].finds_of_fetch hf Y).mp h
    have e : t = t0 := Fin.ext ht
    subst e
    exact hd.trans (by unfold RDat.fetched RDat.blockOf blkB; dsimp only [rdat]; try rfl)
  | succ n ih =>
    intro t ht Y h
    have hN : t.val < 25 := t.isLt
    have hf : (cfg1.win 2).fetch t = false := by
      rcases hb : (cfg1.win 2).fetch t with _ | _
      · rfl
      · exfalso; have := (fetch1_2 t).mp hb; omega
    rcases (𝔯[c].finds_of_pos hf (by omega) Y).mp h with hfl | ⟨Y', hY', hrel⟩
    · exact absurd hfl (by rw [flush1_2]; exact Bool.false_ne_true)
    · have hrel' : Y = Y' := by dsimp only [rdat] at hrel; exact hrel
      rw [hrel']; exact ih ⟨t.val - 1, by omega⟩ (by show t.val - 1 = n; omega) Y' hY'

/-- The body at any point. -/
theorem sound_body (c : Dev nD) (t : Fin cfg1.N) (Y : (w : Fin cfg1.W) → (cfg1.win w).block.Idx → Elt F (cfg1.win w).elt)
    (hY : ∀ w, 𝔯[c].Finds w t (Y w)) :
    iprop(𝔯[c].Φ t.castSucc ∗ 𝔯[c].owesAt ι t.castSucc
        ∗ owns (c : Thread nD τ) (st1_0 t) fullShare (Y 0) ∗ owns (c : Thread nD τ) (st1_1 t) fullShare (Y 1)
        ∗ owns (c : Thread nD τ) (st1_2 t) fullShare (Y 2) ∗ owns (c : Thread nD τ) (st1_3 t) fullShare (Y 3)
        ∗ owns (c : Thread nD τ) (st1_4 t) fullShare (Y 4))
      ⊢ wp frame (wpE (defs₀ (F := F)) Variants.none c none) Set.univ (bodyAt1 t) (fun _ =>
          iprop(𝔯[c].Φ t.succ ∗ 𝔯[c].owesAt ι t.succ
            ∗ (∃ X, ⌜𝔯[c].after 0 t (Y 0) X⌝ ∗ owns (c : Thread nD τ) (st1_0 t) fullShare X)
            ∗ (∃ X, ⌜𝔯[c].after 1 t (Y 1) X⌝ ∗ owns (c : Thread nD τ) (st1_1 t) fullShare X)
            ∗ (∃ X, ⌜𝔯[c].after 2 t (Y 2) X⌝ ∗ owns (c : Thread nD τ) (st1_2 t) fullShare X)
            ∗ (∃ X, ⌜𝔯[c].after 3 t (Y 3) X⌝ ∗ owns (c : Thread nD τ) (st1_3 t) fullShare X)
            ∗ (∃ X, ⌜𝔯[c].after 4 t (Y 4) X⌝ ∗ owns (c : Thread nD τ) (st1_4 t) fullShare X))) := by
  obtain ⟨d0, h0⟩ := finds_0 X2 H B6 T7 f8 c t (Y 0) (hY 0)
  have h1 := finds_1 X2 H B6 T7 f8 c t.val t rfl (Y 1) (hY 1)
  have h2 := finds_2 X2 H B6 T7 f8 c t.val t rfl (Y 2) (hY 2)
  obtain ⟨d3, h3⟩ := finds_3 X2 H B6 T7 f8 c t (Y 3) (hY 3)
  unfold bodyAt1
  rw [show 𝔯[c].Φ t.succ = 𝔯[c].Φ t.castSucc from rfl, show 𝔯[c].owesAt ι t.succ = 𝔯[c].owesAt ι t.castSucc from rfl]
  iintro ⟨HΦ, Ho, H0, H1, H2, H3, H4⟩
  iapply (sound_kernel (F := F) c Set.univ (grid1.coords t) _ _ _ _ _ _ _ _ _ _ (Y 0) (Y 1) (Y 2) (Y 3) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]
  · iexists (Y 0); isplitr; · ipureintro; dsimp only [rdat]
    iexact H0
  isplitl [H1]
  · iexists (Y 1); isplitr; · ipureintro; dsimp only [rdat]
    iexact H1
  isplitl [H2]
  · iexists (Y 2); isplitr; · ipureintro; dsimp only [rdat]
    iexact H2
  isplitl [H3]
  · iexists (Y 3); isplitr; · ipureintro; dsimp only [rdat]
    iexact H3
  iexists _; isplitr
  swap; · iexact H4
  ipureintro
  dsimp only [rdat]
  exact ⟨d0, d3, by rw [← h0, ← h1, ← h2, ← h3]⟩

theorem body_obligation (c : Dev nD) : 𝔯[c].BodyObligation (defs₀ (F := F)) Variants.none ι Set.univ := fun t Y hY => by
  rw [bigSep_W1, bigSep_W1]
  exact sound_body X2 H B6 T7 f8 ι c t Y hY

end Data

end Cert.Kernel.Tc

end
-- ==== Proof.Bits.TcValue.lean ====
/-
  The value the one pipeline leaves in its result array, block by block.

  The grid's 25 blocks of 4096 rows cover the array's 100000 rows with the last block overhanging: its write-back
  writes the 1696 rows inside the array. At a generic float instance the matrix product is one opaque function of its
  whole operands, so a row of the last block inside the array formally depends on the columns of the staged blocks
  past the operands' end, which hold words nothing names. The specification therefore quantifies the staged blocks
  existentially: for each block there are staged blocks of the first and fourth operands that agree with the arrays
  on the columns inside them, whose payload the result holds on the block's rows inside the array.

  The proof reads each write-back as an update of the array's rectangle at the block's offsets: a later write-back
  leaves an earlier block's rows alone, and a block's own write-back puts the staged payload on its rows.
-/
import proofs.«203358_g20435454394731_cont_8to1_1864_22_alg».proof.Proof.Bits.TcData
import Idealize.ShloMosaic.Lib.ValueIdx
import Idealize.ShloMosaic.Lib.Pipeline.Value

set_option maxRecDepth 16384

noncomputable section

namespace Cert.Kernel.Tc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)
open Idealize.ShloMosaic.ValueIdx

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-- The result's specification, block by block: on the rows of block t inside the array the result holds the
    payload of SOME staged blocks that agree with the operands on the columns inside their arrays. -/
def TcSpec (X2 : Vec F S64x100000 .f32) (H : Vec F S64x1024 .f32) (B6 : Vec F S1x1024 .f32) (T7 : Vec F S1x100000 .f32)
    (g8 : Vec F S100000x1024 .f32) : Prop :=
  ∀ t : Fin 25, ∃ (xb : Vec F S64x4096 .f32) (tb : Vec F S1x4096 .f32),
    (∀ (d : Fin 64) (j : Fin 4096) (h : 4096 * t.val + j.val < 100000), xb (ix2 d j) = X2 (ix2 d ⟨4096 * t.val + j.val, h⟩)) ∧
    (∀ (j : Fin 4096) (h : 4096 * t.val + j.val < 100000), tb (ix2 0 j) = T7 (ix2 0 ⟨4096 * t.val + j.val, h⟩)) ∧
    (∀ (r : Fin 4096) (b : Fin 1024) (h : 4096 * t.val + r.val < 100000),
      g8 (ix2 ⟨4096 * t.val + r.val, h⟩ b) = k1_pay1 xb H tb B6 (ix2 r b))

/-! ## The windows' blocks, in numbers -/

/-- Window 0's block index and the sizes of what its transfer moves, at every point. -/
theorem idx0 : ∀ u : Fin grid1.N, win1_0.index u 0 = 0 ∧ win1_0.index u 1 = u.val
    ∧ win1_0.xsize (grid1.coords u) 0 = 64 ∧ win1_0.xsize (grid1.coords u) 1 = min 4096 (100000 - 4096 * u.val) := by decide +kernel
/-- Window 3's. -/
theorem idx3 : ∀ u : Fin grid1.N, win1_3.index u 0 = 0 ∧ win1_3.index u 1 = u.val
    ∧ win1_3.xsize (grid1.coords u) 0 = 1 ∧ win1_3.xsize (grid1.coords u) 1 = min 4096 (100000 - 4096 * u.val) := by decide +kernel
/-- Window 4's. -/
theorem idx4 : ∀ u : Fin grid1.N, win1_4.index u 0 = u.val ∧ win1_4.index u 1 = 0
    ∧ win1_4.xsize (grid1.coords u) 0 = min 4096 (100000 - 4096 * u.val) ∧ win1_4.xsize (grid1.coords u) 1 = 1024 := by decide +kernel
/-- Windows 1 and 2 stage their whole arrays: block index zero. -/
theorem idx1 : ∀ a : Fin 2, win1_1.index t0 a = 0 := by decide +kernel
theorem idx2 : ∀ a : Fin 2, win1_2.index t0 a = 0 := by decide +kernel

/-- The second operand's block is the array. -/
theorem blkH_eq (H : Vec F S64x1024 .f32) : blkH H = H := by
  funext y
  show H ((win1_1.rect t0).emb y) = H y
  refine congrArg H (funext fun a => Fin.ext ?_)
  exact Pipeline.Window.rect_emb_val_of_index_zero win1_1 t0 a (idx1 a) y

/-- The third operand's likewise. -/
theorem blkB_eq (B6 : Vec F S1x1024 .f32) : blkB B6 = B6 := by
  funext y
  show B6 ((win1_2.rect t0).emb y) = B6 y
  refine congrArg B6 (funext fun a => Fin.ext ?_)
  exact Pipeline.Window.rect_emb_val_of_index_zero win1_2 t0 a (idx2 a) y

/-- A fetched block of the first operand, read at a column inside the array. -/
theorem fetX_apply (X2 : Vec F S64x100000 .f32) (u : Fin cfg1.N) (d0 : Vec F S64x4096 .f32) (dd : Fin 64) (j : Fin 4096)
    (h : 4096 * u.val + j.val < 100000) : fetX X2 u d0 (ix2 dd j) = X2 (ix2 dd ⟨4096 * u.val + j.val, h⟩) := by
  obtain ⟨i0, i1, x0, x1⟩ := idx0 u
  have hm : win1_0.moved (grid1.coords u) (ix2 dd j) = true := (win1_0.moved_iff _ _).mpr fun a => by
    match a with
    | ⟨0, _⟩ => show dd.val < win1_0.xsize (grid1.coords u) 0; rw [x0]; exact dd.isLt
    | ⟨1, _⟩ => show j.val < win1_0.xsize (grid1.coords u) 1; rw [x1]; have := j.isLt; omega
  unfold fetX Pipeline.Window.fill
  rw [dif_pos hm]
  show X2 ((win1_0.rect u).emb _) = _
  refine congrArg X2 (funext fun a => Fin.ext ?_)
  rw [Pipeline.Window.rect_emb_val]
  match a with
  | ⟨0, _⟩ => show win1_0.index u 0 * 64 + dd.val = dd.val; rw [i0]; omega
  | ⟨1, _⟩ => show win1_0.index u 1 * 4096 + j.val = 4096 * u.val + j.val; rw [i1]; omega

/-- A fetched block of the fourth operand, read at a column inside the array. -/
theorem fetT_apply (T7 : Vec F S1x100000 .f32) (u : Fin cfg1.N) (d3 : Vec F S1x4096 .f32) (j : Fin 4096)
    (h : 4096 * u.val + j.val < 100000) : fetT T7 u d3 (ix2 0 j) = T7 (ix2 0 ⟨4096 * u.val + j.val, h⟩) := by
  obtain ⟨i0, i1, x0, x1⟩ := idx3 u
  have hm : win1_3.moved (grid1.coords u) (ix2 (0 : Fin 1) j) = true := (win1_3.moved_iff _ _).mpr fun a => by
    match a with
    | ⟨0, _⟩ => show (0 : Fin 1).val < win1_3.xsize (grid1.coords u) 0; rw [x0]; exact Nat.zero_lt_one
    | ⟨1, _⟩ => show j.val < win1_3.xsize (grid1.coords u) 1; rw [x1]; have := j.isLt; omega
  unfold fetT Pipeline.Window.fill
  rw [dif_pos hm]
  show T7 ((win1_3.rect u).emb _) = _
  refine congrArg T7 (funext fun a => Fin.ext ?_)
  rw [Pipeline.Window.rect_emb_val]
  match a with
  | ⟨0, _⟩ => show win1_3.index u 0 * 1 + (0 : Fin 1).val = (0 : Fin 1).val; rw [i0]; omega
  | ⟨1, _⟩ => show win1_3.index u 1 * 4096 + j.val = 4096 * u.val + j.val; rw [i1]; omega

/-! ## The write-backs -/

/-- A write-back of block u is an update of the array's rectangle at the block's offsets. -/
theorem write_blk4 (u : Fin cfg1.N) (G₀ : Vec F S100000x1024 .f32) (Xc : (win1_4.xblock (grid1.coords u)).Idx → Elt F .f32) :
    (win1_4.blk u).view.write (Elt F) G₀ Xc Finset.univ
      = updateSlice G₀ Xc (fun a => win1_4.index u a * win1_4.size a) ⟨rfl, fun a => Pipeline.Clip.inb (win1_4.hclip (grid1.coords u) a)⟩ :=
  View.write_whole_slice_unit main_v8 _ _ _ G₀ Xc

/-- A row outside block u is not written by its write-back. -/
theorem step_other (u : Fin cfg1.N) (G₀ : Vec F S100000x1024 .f32) (Xc : (win1_4.xblock (grid1.coords u)).Idx → Elt F .f32)
    (R : Fin 100000) (b : Fin 1024) (hR : R.val < 4096 * u.val ∨ 4096 * u.val + 4096 ≤ R.val) :
    ((win1_4.blk u).view.write (Elt F) G₀ Xc Finset.univ) (ix2 R b) = G₀ (ix2 R b) := by
  obtain ⟨i0, i1, x0, x1⟩ := idx4 u
  rw [write_blk4]
  unfold updateSlice
  rw [dif_neg]
  intro hin
  have h0 := hin ⟨0, by decide⟩
  have h0' : win1_4.index u 0 * 4096 ≤ R.val ∧ R.val < win1_4.index u 0 * 4096 + win1_4.xsize (grid1.coords u) 0 := h0
  rw [i0, x0] at h0'
  omega

/-- A row of block u inside the array holds what its write-back wrote. -/
theorem step_same (u : Fin cfg1.N) (G₀ : Vec F S100000x1024 .f32) (X : Vec F S4096x1024 .f32) (r : Fin 4096) (b : Fin 1024)
    (h : 4096 * u.val + r.val < 100000) :
    ((win1_4.blk u).view.write (Elt F) G₀ (win1_4.cut (grid1.coords u) X) Finset.univ) (ix2 ⟨4096 * u.val + r.val, h⟩ b) = X (ix2 r b) := by
  obtain ⟨i0, i1, x0, x1⟩ := idx4 u
  rw [write_blk4]
  unfold updateSlice
  have hin : ∀ a : Fin 2, win1_4.index u a * win1_4.size a ≤ ((ix2 (⟨4096 * u.val + r.val, h⟩ : Fin 100000) b) a).val
      ∧ ((ix2 (⟨4096 * u.val + r.val, h⟩ : Fin 100000) b) a).val < win1_4.index u a * win1_4.size a + win1_4.xsize (grid1.coords u) a := fun a => by
    match a with
    | ⟨0, _⟩ =>
      show win1_4.index u 0 * 4096 ≤ 4096 * u.val + r.val ∧ 4096 * u.val + r.val < win1_4.index u 0 * 4096 + win1_4.xsize (grid1.coords u) 0
      rw [i0, x0]; have := r.isLt; omega
    | ⟨1, _⟩ =>
      show win1_4.index u 1 * 1024 ≤ b.val ∧ b.val < win1_4.index u 1 * 1024 + win1_4.xsize (grid1.coords u) 1
      rw [i1, x1]; have := b.isLt; omega
  split
  case isFalse hout => exact absurd hin hout
  show X _ = X _
  refine congrArg X (funext fun a => Fin.ext ?_)
  match a with
  | ⟨0, _⟩ => show 4096 * u.val + r.val - win1_4.index u 0 * 4096 = r.val; rw [i0]; omega
  | ⟨1, _⟩ => show b.val - win1_4.index u 1 * 1024 = b.val; rw [i1]; omega

section Arr

variable (X2 : Vec F S64x100000 .f32) (H : Vec F S64x1024 .f32) (B6 : Vec F S1x1024 .f32) (T7 : Vec F S1x100000 .f32) (f8 : Vec F S100000x1024 .f32)

/-- The specification of one block. -/
def BlockOk (t : Fin 25) (g8 : Vec F S100000x1024 .f32) : Prop :=
  ∃ (xb : Vec F S64x4096 .f32) (tb : Vec F S1x4096 .f32),
    (∀ (d : Fin 64) (j : Fin 4096) (h : 4096 * t.val + j.val < 100000), xb (ix2 d j) = X2 (ix2 d ⟨4096 * t.val + j.val, h⟩)) ∧
    (∀ (j : Fin 4096) (h : 4096 * t.val + j.val < 100000), tb (ix2 0 j) = T7 (ix2 0 ⟨4096 * t.val + j.val, h⟩)) ∧
    (∀ (r : Fin 4096) (b : Fin 1024) (h : 4096 * t.val + r.val < 100000),
      g8 (ix2 ⟨4096 * t.val + r.val, h⟩ b) = k1_pay1 xb H tb B6 (ix2 r b))

/-- After the write-backs of the points below n every block below n is as specified: a later write-back leaves an
    earlier block's rows alone, and writes its own block's rows inside the array. -/
theorem blocks_of_arrAt (c : Dev nD) : ∀ (n : Nat) (hn : n ≤ 25) (G : Vec F S100000x1024 .f32),
    (rdat (Ix := Ix) (Name := Name) (U := U) (Lvl := Lvl) X2 H B6 T7 f8 c).ArrAt 4 n G → ∀ t : Fin 25, t.val < n → BlockOk X2 H B6 T7 t G
  | 0, _, _, _, t, ht => absurd ht (Nat.not_lt_zero _)
  | n + 1, hn, G, hG, t, ht => by
    have hlt : n < cfg1.N := by show n < 25; omega
    have hG' : (rdat (Ix := Ix) (Name := Name) (U := U) (Lvl := Lvl) X2 H B6 T7 f8 c).ArrStep 4 ⟨n, hlt⟩
        ((rdat (Ix := Ix) (Name := Name) (U := U) (Lvl := Lvl) X2 H B6 T7 f8 c).ArrAt 4 n) G := by
      have h := hG
      unfold RDat.ArrAt at h
      simp only [dif_pos hlt, if_pos (flush1_4 ⟨n, hlt⟩)] at h
      exact h
    obtain ⟨G₀, X, hG₀, hX, rfl⟩ := hG'
    by_cases htn : t.val = n
    · obtain ⟨Y, _, hrel⟩ := hX
      have hrel' : OutRel X2 H B6 T7 ⟨n, hlt⟩ X := by dsimp only [rdat] at hrel; exact hrel
      obtain ⟨d0, d3, rfl⟩ := hrel'
      have et : t = (⟨n, Nat.lt_of_succ_le hn⟩ : Fin 25) := Fin.ext htn
      subst et
      refine ⟨fetX X2 ⟨n, hlt⟩ d0, fetT T7 ⟨n, hlt⟩ d3, fun d j h => fetX_apply X2 ⟨n, hlt⟩ d0 d j h,
        fun j h => fetT_apply T7 ⟨n, hlt⟩ d3 j h, fun r b h => ?_⟩
      rw [blkH_eq, blkB_eq]
      exact step_same ⟨n, hlt⟩ G₀ _ r b h
    · obtain ⟨xb, tb, hx, ht', hg⟩ := blocks_of_arrAt c n (by omega) G₀ hG₀ t (by omega)
      refine ⟨xb, tb, hx, ht', fun r b h => ?_⟩
      rw [← hg r b h]
      exact step_other ⟨n, hlt⟩ G₀ _ ⟨4096 * t.val + r.val, h⟩ b (by
        have := r.isLt
        show 4096 * t.val + r.val < 4096 * n ∨ 4096 * n + 4096 ≤ 4096 * t.val + r.val
        omega)

/-- After every write-back the result array meets its specification. -/
theorem spec_of_arrAt (c : Dev nD) (G : Vec F S100000x1024 .f32)
    (h : (rdat (Ix := Ix) (Name := Name) (U := U) (Lvl := Lvl) X2 H B6 T7 f8 c).ArrAt 4 cfg1.N G) : TcSpec X2 H B6 T7 G :=
  fun t => blocks_of_arrAt X2 H B6 T7 f8 c 25 (Nat.le_refl _) G h t t.isLt

end Arr

end Cert.Kernel.Tc

end
-- ==== Proof.Bits.TcRegion.lean ====
/-
  The one TensorCore pipeline of the program as a kernel region: entered with the five arrays it windows held whole
  at given contents and the core owing nothing, left with the four operands as they were and the result array at
  contents meeting the block-by-block specification (TcSpec), the core owing nothing.

  The region is a record of the library's relational kernel-region kit: the layout decided at launch, no semaphore of
  the kernel's own, the body obligation of the relational proof data, no wait evidence needed (nothing is owed at the
  pipeline's cells), and the four entailments around the thread states TcPre / TcPost.
-/
import proofs.«203358_g20435454394731_cont_8to1_1864_22_alg».proof.Proof.Bits.TcData
import proofs.«203358_g20435454394731_cont_8to1_1864_22_alg».proof.Proof.Bits.TcValue
import Idealize.ShloMosaic.Lib.ValueIdx

set_option maxRecDepth 16384

noncomputable section

namespace Cert.Kernel.Tc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)
open Idealize.ShloMosaic.ValueIdx

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

section Region

variable (X2 : Vec F S64x100000 .f32) (H : Vec F S64x1024 .f32) (B6 : Vec F S1x1024 .f32) (T7 : Vec F S1x100000 .f32) (f8 : Vec F S100000x1024 .f32)
variable (ι : Ix)
variable (EP : Emb (URounds (GSem nD τ sig) Unit) (MT nD τ sig Ix (Elt F) Name U Lvl))
variable (L : GSem nD τ sig → Finset Ix) (lv : GSem nD τ sig → Ix → Lvl)

/-- The pipelines' tables: none has one. -/
abbrev adm : (p : Fin 1) → (pcfgs (F := F) p).Adm := fun p => (cfgs p).toPCfg_adm

/-- The proof data family: the one pipeline's. -/
def rdats : (p : Fin 1) → (c : Dev nD) → RDat τ (Elt F) Ix Name U Lvl (Pipeline.pin (pcfgs (F := F)) adm p) c
  | ⟨0, _⟩ => fun c => rdat X2 H B6 T7 f8 c

/-- The thread state the region is entered from: the five arrays whole at the given contents, nothing owed. -/
def TcPre (c : Dev nD) (W : Waits sig Ix) : sProp 𝕄 :=
  iprop((((c : Thread nD τ).loc main_v2) ↦{fullShare} X2) ∗ (((c : Thread nD τ).loc main_v5_0) ↦{fullShare} H)
    ∗ (((c : Thread nD τ).loc main_v6) ↦{fullShare} B6) ∗ (((c : Thread nD τ).loc main_v7) ↦{fullShare} T7)
    ∗ (((c : Thread nD τ).loc main_v8) ↦{fullShare} f8) ∗ owes (c : Thread nD τ) (0 : CellTallies nD τ sig Ix) W)

/-- The thread state it leaves: the operands as they were, the result at contents meeting the specification, nothing owed. -/
def TcPost (c : Dev nD) : sProp 𝕄 :=
  iprop((((c : Thread nD τ).loc main_v2) ↦{fullShare} X2) ∗ (((c : Thread nD τ).loc main_v5_0) ↦{fullShare} H)
    ∗ (((c : Thread nD τ).loc main_v6) ↦{fullShare} B6) ∗ (((c : Thread nD τ).loc main_v7) ↦{fullShare} T7)
    ∗ (∃ g8 : Vec F S100000x1024 .f32, ⌜TcSpec X2 H B6 T7 g8⌝ ∗ (((c : Thread nD τ).loc main_v8) ↦{fullShare} g8))
    ∗ ∃ W', owes (c : Thread nD τ) (0 : CellTallies nD τ sig Ix) W')

set_option backward.isDefEq.respectTransparency.types false in
/-- The region's record. -/
def reg (W : Waits sig Ix) : Pipeline.RDat.RegionSeg (pcfgs (F := F)) adm (rdats (Name := Name) (U := U) X2 H B6 T7 f8) ι defs₀ Variants.none L lv 0 where
  win := launch1.win.to₀
  block_pos := launch1.block_pos
  stage_whole := launch1.stage_whole
  K := PEmpty
  osem k := k.elim
  ho := Pipeline.OwnSemFacts.none _
  hbody c := body_obligation X2 H B6 T7 f8 ι c
  hwaits := Pipeline.RDat.hwaits_of_owed_zero (pcfgs (F := F)) adm (rdats (Name := Name) (U := U) X2 H B6 T7 f8) ι L lv 0 fun _ _ => rfl
  pre c := TcPre X2 H B6 T7 f8 c W
  post c := TcPost (Ix := Ix) (Name := Name) (U := U) (Lvl := Lvl) X2 H B6 T7 c
  X _ := BI.emp
  Y _ := BI.emp
  Z _ := BI.emp
  hentry c := by
    rw [Pipeline.ownSems0_none,
      Pipeline.RDat.arrays_eq (pcfgs (F := F)) adm (rdats (Name := Name) (U := U) X2 H B6 T7 f8) 0 c launch1.arr_whole
        ((rdats X2 H B6 T7 f8 0 c).share_full fun _ => rfl) _, bigSep_W1]
    unfold TcPre
    iintro ⟨⟨H0, H1, H2, H3, H4, HO⟩, -, -⟩
    imodintro
    isplitl [H0 H1 H2 H3 H4]
    · isplitl [H0]; · iexact H0
      isplitl [H1]; · iexact H1
      isplitl [H2]; · iexact H2
      isplitl [H3]; · iexact H3
      iexact H4
    isplitr; · unfold Pipeline.prefHeld; rw [show (Finset.univ : Finset (Fin 0)) = ∅ from rfl, BI.bigSep_empty]; iempintro
    isplitl [HO]
    · unfold Pipeline.RDat.owesAt Pipeline.owesWithin
      iexists W; isplitr; · ipureintro; exact fun _ _ => Or.inl trivial
      iexact HO
    isplitr <;> iempintro
  hin c := by
    rw [show (rdats (Ix := Ix) (Name := Name) (U := U) (Lvl := Lvl) X2 H B6 T7 f8 0 c).Φ 0 = BI.emp from rfl]
    have hs := scopedRest1_eq (Ix := Ix) (Val := Elt F) (Name := Name) (U := U) (Lvl := Lvl) c
    rw [show Pipeline.scopedRest (Ix := Ix) (Name := Name) (U := U) (Lvl := Lvl) (Val := Elt F) (Pipeline.pin (pcfgs (F := F)) adm 0).spec c
      = Pipeline.scopedRest (Ix := Ix) (Name := Name) (U := U) (Lvl := Lvl) (Val := Elt F) spec1 c from rfl, hs]
    iintro ⟨-, -, -⟩; iempintro
  hout c := by
    rw [Pipeline.ownSems0_none, show (rdats (Ix := Ix) (Name := Name) (U := U) (Lvl := Lvl) X2 H B6 T7 f8 0 c).Φ (Fin.last _) = BI.emp from rfl]
    have hs := scopedRest1_eq (Ix := Ix) (Val := Elt F) (Name := Name) (U := U) (Lvl := Lvl) c
    rw [show Pipeline.scopedRest (Ix := Ix) (Name := Name) (U := U) (Lvl := Lvl) (Val := Elt F) (Pipeline.pin (pcfgs (F := F)) adm 0).spec c
      = Pipeline.scopedRest (Ix := Ix) (Name := Name) (U := U) (Lvl := Lvl) (Val := Elt F) spec1 c from rfl, hs]
    iintro -
    isplitr; · iempintro
    isplitr <;> iempintro
  hexit c := by
    have hA : (rdats (Ix := Ix) (Name := Name) (U := U) (Lvl := Lvl) X2 H B6 T7 f8 0 c).arraysAt (Pipeline.pin (pcfgs (F := F)) adm 0).N
        = bigSep Finset.univ fun w : Fin (Pipeline.pin (pcfgs (F := F)) adm 0).W =>
            (iprop(∃ G, ⌜(rdats (Ix := Ix) (Name := Name) (U := U) (Lvl := Lvl) X2 H B6 T7 f8 0 c).ArrAt w (Pipeline.pin (pcfgs (F := F)) adm 0).N G⌝
            ∗ (((c.tc : Thread nD τ).loc (Pipeline.arrRef (Pipeline.pin (pcfgs (F := F)) adm 0).spec w)) ↦{fullShare} G)) : sProp 𝕄) := by
      unfold RDat.arraysAt
      exact bigSep_congr fun w _ => by
        rw [(launch1.arr_whole w).set_eq_univ, (rdats X2 H B6 T7 f8 0 c).share_full (fun _ => rfl) w]
    rw [hA, bigSep_W1]
    iintro ⟨⟨⟨%G0, %h0, A0⟩, ⟨%G1, %h1, A1⟩, ⟨%G2, %h2, A2⟩, ⟨%G3, %h3, A3⟩, ⟨%G4, %h4, A4⟩⟩, HO, -, -⟩
    rw [RDat.ArrAt_in _ 0 rfl] at h0
    rw [RDat.ArrAt_in _ 1 rfl] at h1
    rw [RDat.ArrAt_in _ 2 rfl] at h2
    rw [RDat.ArrAt_in _ 3 rfl] at h3
    have e0 : X2 = G0 := h0.symm
    have e1 : H = G1 := h1.symm
    have e2 : B6 = G2 := h2.symm
    have e3 : T7 = G3 := h3.symm
    subst e0 e1 e2 e3
    have h4' : (rdat (Ix := Ix) (Name := Name) (U := U) (Lvl := Lvl) X2 H B6 T7 f8 c).ArrAt 4 cfg1.N G4 := h4
    imodintro
    unfold TcPost
    isplitl [A0]; · iexact A0
    isplitl [A1]; · iexact A1
    isplitl [A2]; · iexact A2
    isplitl [A3]; · iexact A3
    isplitl [A4]
    · iexists G4; isplitr; · ipureintro; exact spec_of_arrAt X2 H B6 T7 f8 c G4 h4'
      iexact A4
    unfold Pipeline.RDat.owesAt Pipeline.owesWithin
    icases HO with ⟨%W', -, HO⟩; iexists W'; iexact HO

/-- The region's step on core c. -/
theorem region_wp [∀ e, Nonempty (Elt F e)] [Infinite Name] [EP.LandsIn (upEmb : UEmb _ 𝕄)] (ι : Ix) (c : Dev nD)
    (bd : Option (Variants.lift Variants.none).V)
    (hv : ∀ u ∈ bd, (Variants.lift Variants.none).lt (.inr ((Pipeline.pin (pcfgs (F := F)) adm 0).tripCount + 1)) u)
    {α : Type} (k : PUnit → Prog (TpuEff nD τ sig (Elt F) (Pipeline.Sig Λ₀ (Fin 1) fun p => (pcfgs (F := F) p).Adm) .tc) α) (Q : α → sProp 𝕄)
    (W : Waits sig Ix) :
    iprop((iprop(boundary (c.tc : Thread nD τ) ∗ TcPost (Ix := Ix) (Name := Name) (U := U) (Lvl := Lvl) X2 H B6 T7 c)
            -∗ wp frame (wpE (Pipeline.defs (pcfgs (F := F)) defs₀) (Variants.lift Variants.none) (c.tc : Thread nD τ) bd) Set.univ (k ⟨⟩) Q)
        ∗ boundary (c.tc : Thread nD τ) ∗ TcPre X2 H B6 T7 f8 c W ∗ levAts L lv
        ∗ Pipeline.cellsGhost (Pipeline.pin (pcfgs (F := F)) adm) EP 0 c ∗ Pipeline.toksInit (Pipeline.pin (pcfgs (F := F)) adm) EP 0 c)
      ⊢ wp frame (wpE (Pipeline.defs (pcfgs (F := F)) defs₀) (Variants.lift Variants.none) (c.tc : Thread nD τ) bd) Set.univ
          (.op (.customCall (Pipeline.entry 0) ()) k) Q :=
  Pipeline.RDat.RegionSeg.wp (pcfgs (F := F)) adm (rdats (Name := Name) (U := U) X2 H B6 T7 f8) ι cellOf_inj EP defs₀ Variants.none L lv
    (reg X2 H B6 T7 f8 ι L lv W) c bd hv k Q

end Region

end Cert.Kernel.Tc

end
-- ==== Proof.Bits.ScGhost.lean ====
/-
  The launch element of the program's ghost state: the handshakes' rounds of the one SparseCore call, the rounds of
  the one TensorCore pipeline's staging cells with a duty token for every transfer the pipeline issues, and the unit
  of the transfers' counters. Owning it splits over the product into the handshakes' part and the pipeline's part;
  the pipeline's part funds, on every device, the cells' round states and the duty tokens the kernel region of the
  pipeline is entered with.
-/
import proofs.«203358_g20435454394731_cont_8to1_1864_22_alg».proof.Proof.Bits.ScPay
import proofs.«203358_g20435454394731_cont_8to1_1864_22_alg».proof.Proof.Bits.TcRegion

noncomputable section

namespace Cert.Kernel.Sc

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The one pipeline's staging cells are pairwise distinct. -/
theorem hinj : Function.Injective (Pipeline.cellOf (nD := nD) (τ := τ) (Pipeline.pin (pcfgs (F := F)) Tc.adm)) := cellOf_inj

/-- What the launch deals device d for the pipeline: its staging cells' ghost state and its duty tokens. -/
def G (d : Dev nD) : sProp 𝕄 :=
  iprop(Pipeline.cellsGhost (Pipeline.pin (pcfgs (F := F)) Tc.adm) EP 0 d ∗ Pipeline.toksInit (Pipeline.pin (pcfgs (F := F)) Tc.adm) EP 0 d)

/-- The launch element. -/
def u₀ : UU :=
  (initOf (K (F := F)).hsCells (K (F := F)).hsToks,
    (initOf (Pipeline.cells (Pipeline.pin (pcfgs (F := F)) Tc.adm) hinj) (Pipeline.launchToks (Pipeline.pin (pcfgs (F := F)) Tc.adm) hinj), 1))

/-- Owning a triple with the counters' unit is owning its first two parts through their embeddings. -/
theorem ownU_split (a : UH) (b : UP) : (ownU (a, (b, (1 : Counters))) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

/-- The pipeline's part funds every device's share. -/
theorem ghost_intro :
    (BI.own (EP (F := F) (initOf (Pipeline.cells (Pipeline.pin (pcfgs (F := F)) Tc.adm) hinj)
        (Pipeline.launchToks (Pipeline.pin (pcfgs (F := F)) Tc.adm) hinj))) : sProp 𝕄)
      ⊢ iprop(|==> bigSep Finset.univ fun d : Dev nD => G (F := F) d) := by
  have h := Pipeline.fund_ghost (Ix := HIx 1) (Name := ℕ) (U := UU) (Lvl := ℕ) (Pipeline.pin (pcfgs (F := F)) Tc.adm) (EP (F := F)) hinj
  have e1 : (bigSep Finset.univ fun c : Dev nD => bigSep Finset.univ fun p : Fin 1 =>
        (Pipeline.cellsGhost (Pipeline.pin (pcfgs (F := F)) Tc.adm) EP p c : sProp 𝕄))
      = bigSep Finset.univ fun c : Dev nD => Pipeline.cellsGhost (Pipeline.pin (pcfgs (F := F)) Tc.adm) EP 0 c :=
    bigSep_congr fun c _ => bigSep_univ_of_subsingleton (0 : Fin 1)
  have e2 : (bigSep Finset.univ fun c : Dev nD => bigSep Finset.univ fun p : Fin 1 =>
        (Pipeline.toksInit (Pipeline.pin (pcfgs (F := F)) Tc.adm) EP p c : sProp 𝕄))
      = bigSep Finset.univ fun c : Dev nD => Pipeline.toksInit (Pipeline.pin (pcfgs (F := F)) Tc.adm) EP 0 c :=
    bigSep_congr fun c _ => bigSep_univ_of_subsingleton (0 : Fin 1)
  rw [e1, e2, ← bigSep_sep'] at h
  exact h

omit [FloatOps F] in
theorem bigSep_emp' {I : Type} (s : Finset I) : (bigSep s fun _ => iprop(emp)) = (iprop(emp) : sProp 𝕄) := bigSep_emp_const s

/-- The launch element makes the handshakes' rounds, every device's pipeline ghost state, and nothing for a
    protocol of the workers' own. -/
theorem hu₀ (C : Dev nD → Cts F) : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P C).x q thr) := by
  unfold u₀
  iintro Hu
  ihave H := (ownU_split _ _) $$ Hu
  icases H with ⟨HH, HP⟩
  imod ghost_intro $$ HP with HG
  imodintro
  isplitl [HH]; · iexact HH
  isplitl [HG]; · iexact HG
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.Kernel.Sc

end
-- ==== Proof.Bits.ScSets.lean ====
/-
  The workers' rows of the two results partition them.

  Worker (c, i), on subcore i of SparseCore c, has number wid = 2 i + c. Of the 64 x 1024 result it owns the two rows
  2 wid and 2 wid + 1, that is the rows 4 i + 2 c and 4 i + 2 c + 1, whole; of the 1024-entry result it owns the
  thirty-two entries from 32 wid = 64 i + 32 c on. Two different workers have different numbers, so their rows and
  their entries are disjoint; and row r belongs to worker (⌊r / 2⌋ mod 2, ⌊r / 4⌋), entry e to worker
  (⌊e / 32⌋ mod 2, ⌊e / 64⌋), so the thirty-two workers' rows are all the rows and their entries all the entries.
  Hence each result array held whole is the same as its thirty-two pieces held together, SparseCore by SparseCore and
  subcore by subcore.
-/
import proofs.«203358_g20435454394731_cont_8to1_1864_22_alg».proof.Proof.Bits.ScPay

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## A worker's coordinates -/

theorem coords_zero_val (c : Fin 2) (i : Fin 16) : ((coords c i) 0).val = c.val := rfl
theorem coords_one_val (c : Fin 2) (i : Fin 16) : ((coords c i) 1).val = i.val := rfl

/-! ## The sets as rectangles -/

/-- A worker's rows of the first result are the rectangle of two whole rows at its row offset. -/
theorem rowsSet_eq (L : grid0.Coords) :
    rowsSet L = (Rect.unit (s := S64x1024) (k0_off10 L) S2x1024.size (k0_off10_inb L)).set := by
  show ((View.whole (main_v5_0_scv : Ref sig .scVector)).slice
    (Rect.unit (s := S64x1024) (k0_off10 L) S2x1024.size (k0_off10_inb L))).set = _
  rw [View.set_slice]; exact Finset.map_refl

/-- A worker's entries of the second result are the rectangle of thirty-two entries at its entry offset. -/
theorem segSet_eq (L : grid0.Coords) :
    segSet L = (Rect.unit (s := S1024) (k0_off1 L) S32.size (k0_off1_inb L)).set := by
  show ((View.whole (main_v5_1_scv : Ref sig .scVector)).slice
    (Rect.unit (s := S1024) (k0_off1 L) S32.size (k0_off1_inb L))).set = _
  rw [View.set_slice]; exact Finset.map_refl

/-! ## The rows of the first result -/

/-- Two different workers own different rows. -/
theorem rows_disjoint : ∀ a ∈ (Finset.univ : Finset (Fin 2 × Fin 16)), ∀ b ∈ (Finset.univ : Finset (Fin 2 × Fin 16)), a ≠ b →
    Disjoint (rowsSet (coords a.1 a.2)) (rowsSet (coords b.1 b.2)) := by
  rintro ⟨c, i⟩ - ⟨c', i'⟩ - h
  rw [rowsSet_eq, rowsSet_eq]
  refine Rect.unit_disjoint (0 : Fin 2) ?_
  rw [k0_off10_eq, k0_off10_eq]
  show 4 * i.val + 2 * c.val + 2 ≤ 4 * i'.val + 2 * c'.val ∨ 4 * i'.val + 2 * c'.val + 2 ≤ 4 * i.val + 2 * c.val
  have hne : ¬(c.val = c'.val ∧ i.val = i'.val) := fun e => h (Prod.ext (Fin.ext e.1) (Fin.ext e.2))
  have hc := c.isLt
  have hc' := c'.isLt
  omega

/-- Every row is some worker's. -/
theorem rows_cover : (Finset.univ : Finset (Fin 2 × Fin 16)).biUnion (fun a => rowsSet (coords a.1 a.2)) = Finset.univ := by
  ext j
  simp only [Finset.mem_biUnion, Finset.mem_univ, true_and, iff_true]
  have h0 : (j 0).val < 64 := (j 0).isLt
  have h1 : (j 1).val < 1024 := (j 1).isLt
  refine ⟨(⟨(j 0).val / 2 % 2, Nat.mod_lt _ (by decide)⟩, ⟨(j 0).val / 4, by omega⟩), ?_⟩
  rw [rowsSet_eq, Rect.mem_set_unit, k0_off10_eq]
  intro a
  match a with
  | ⟨0, _⟩ =>
    show 4 * ((j 0).val / 4) + 2 * ((j 0).val / 2 % 2) ≤ (j 0).val
      ∧ (j 0).val < 4 * ((j 0).val / 4) + 2 * ((j 0).val / 2 % 2) + 2
    omega
  | ⟨1, _⟩ =>
    show 0 ≤ (j 1).val ∧ (j 1).val < 0 + 1024
    omega

/-! ## The entries of the second result -/

/-- Two different workers own different entries. -/
theorem segs_disjoint : ∀ a ∈ (Finset.univ : Finset (Fin 2 × Fin 16)), ∀ b ∈ (Finset.univ : Finset (Fin 2 × Fin 16)), a ≠ b →
    Disjoint (segSet (coords a.1 a.2)) (segSet (coords b.1 b.2)) := by
  rintro ⟨c, i⟩ - ⟨c', i'⟩ - h
  rw [segSet_eq, segSet_eq]
  refine Rect.unit_disjoint (0 : Fin 1) ?_
  rw [k0_off1_eq, k0_off1_eq]
  show 64 * i.val + 32 * c.val + 32 ≤ 64 * i'.val + 32 * c'.val ∨ 64 * i'.val + 32 * c'.val + 32 ≤ 64 * i.val + 32 * c.val
  have hne : ¬(c.val = c'.val ∧ i.val = i'.val) := fun e => h (Prod.ext (Fin.ext e.1) (Fin.ext e.2))
  have hc := c.isLt
  have hc' := c'.isLt
  omega

/-- Every entry is some worker's. -/
theorem segs_cover : (Finset.univ : Finset (Fin 2 × Fin 16)).biUnion (fun a => segSet (coords a.1 a.2)) = Finset.univ := by
  ext j
  simp only [Finset.mem_biUnion, Finset.mem_univ, true_and, iff_true]
  have h0 : (j 0).val < 1024 := (j 0).isLt
  refine ⟨(⟨(j 0).val / 32 % 2, Nat.mod_lt _ (by decide)⟩, ⟨(j 0).val / 64, by omega⟩), ?_⟩
  rw [segSet_eq, Rect.mem_set_unit, k0_off1_eq]
  intro a
  match a with
  | ⟨0, _⟩ =>
    show 64 * ((j 0).val / 64) + 32 * ((j 0).val / 32 % 2) ≤ (j 0).val
      ∧ (j 0).val < 64 * ((j 0).val / 64) + 32 * ((j 0).val / 32 % 2) + 32
    omega

/-! ## Each result whole is its thirty-two pieces -/

/-- The first result held whole is its rows held worker by worker. -/
theorem o0_split (d : Dev nD) (f : Buf (Elt F) (lo0 d)) :
    (lo0 d ↦{fullShare} f : sProp 𝕄)
      = bigSep Finset.univ fun c : Fin 2 => bigSep Finset.univ fun i : Fin 16 => lo0 d ↦[rowsSet (coords c i)]{fullShare} f := by
  refine Eq.trans ?_ (SparseCore.bigSep_product Finset.univ Finset.univ
    (fun a : Fin 2 × Fin 16 => (lo0 d ↦[rowsSet (coords a.1 a.2)]{fullShare} f : sProp 𝕄)))
  rw [Finset.univ_product_univ,
    ← pointsTo_biUnion Finset.univ (ℓ := lo0 d) (fun a : Fin 2 × Fin 16 => rowsSet (coords a.1 a.2)) rows_disjoint, rows_cover]
  try rfl

/-- The second result held whole is its entries held worker by worker. -/
theorem o1_split (d : Dev nD) (f : Buf (Elt F) (lo1 d)) :
    (lo1 d ↦{fullShare} f : sProp 𝕄)
      = bigSep Finset.univ fun c : Fin 2 => bigSep Finset.univ fun i : Fin 16 => lo1 d ↦[segSet (coords c i)]{fullShare} f := by
  refine Eq.trans ?_ (SparseCore.bigSep_product Finset.univ Finset.univ
    (fun a : Fin 2 × Fin 16 => (lo1 d ↦[segSet (coords a.1 a.2)]{fullShare} f : sProp 𝕄)))
  rw [Finset.univ_product_univ,
    ← pointsTo_biUnion Finset.univ (ℓ := lo1 d) (fun a : Fin 2 × Fin 16 => segSet (coords a.1 a.2)) segs_disjoint, segs_cover]
  try rfl

end Cert.Kernel.Sc

end
-- ==== Proof.Bits.ScMain.lean ====
/-
  @main on the TensorCore: five host operations lay out the call's operands, the SparseCore call gathers, two
  reshapes lay out the pipeline's operands, the one pipeline scores, a transpose lays out the result.
-/
import proofs.«203358_g20435454394731_cont_8to1_1864_22_alg».proof.Proof.Bits.ScGhost
import proofs.«203358_g20435454394731_cont_8to1_1864_22_alg».proof.Proof.Bits.ScSets
import proofs.«203358_g20435454394731_cont_8to1_1864_22_alg».proof.Proof.Bits.TcRegion

set_option maxRecDepth 16384

noncomputable section

namespace Cert.Kernel.Sc

open Cert.Kernel Cert.Kernel.Gen

open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type} [FloatOps F]

local notation "𝕄" => MT nD τ sig (HIx 1) (Elt F) ℕ UU ℕ

/-! ## The host operations and the buffers they touch -/

abbrev dA0 : DevRef τ sig := Proc.devRef .tc (main_arg0 : Ref sig .tc)
abbrev dA1 : DevRef τ sig := Proc.devRef .tc (main_arg1 : Ref sig .tc)
abbrev dA2 : DevRef τ sig := Proc.devRef .tc (main_arg2 : Ref sig .tc)
abbrev dA3 : DevRef τ sig := Proc.devRef .tc (main_arg3 : Ref sig .tc)
abbrev dA4 : DevRef τ sig := Proc.devRef .tc (main_arg4 : Ref sig .tc)
abbrev dA5 : DevRef τ sig := Proc.devRef .tc (main_arg5 : Ref sig .tc)
abbrev dV0 : DevRef τ sig := Proc.devRef .tc (main_v0 : Ref sig .tc)
abbrev dV1 : DevRef τ sig := Proc.devRef .tc (main_v1 : Ref sig .tc)
abbrev dV2 : DevRef τ sig := Proc.devRef .tc (main_v2 : Ref sig .tc)
abbrev dV3 : DevRef τ sig := Proc.devRef .tc (main_v3 : Ref sig .tc)
abbrev dV4 : DevRef τ sig := Proc.devRef .tc (main_v4 : Ref sig .tc)
abbrev dV51 : DevRef τ sig := Proc.devRef .tc (main_v5_1 : Ref sig .tc)
abbrev dV6 : DevRef τ sig := Proc.devRef .tc (main_v6 : Ref sig .tc)
abbrev dV7 : DevRef τ sig := Proc.devRef .tc (main_v7 : Ref sig .tc)
abbrev dV8 : DevRef τ sig := Proc.devRef .tc (main_v8 : Ref sig .tc)
abbrev dV9 : DevRef τ sig := Proc.devRef .tc (main_v9 : Ref sig .tc)

abbrev op0 : HloOp τ sig (Elt F) := StableHlo.reshape main_arg0 main_v0 rfl shapeCasts_S1024x1_S1024
abbrev op1 : HloOp τ sig (Elt F) := StableHlo.reshape main_arg1 main_v1 rfl shapeCasts_S1024x1_S1024
abbrev op2 : HloOp τ sig (Elt F) := StableHlo.unary main_arg2 main_v2 ((transpose S64x100000 [1, 0] · transposes_S100000x64_S64x100000_1_0) : (⟨S100000x64, .f32⟩ : BufTy).Contents (Elt F) → (⟨S64x100000, .f32⟩ : BufTy).Contents (Elt F))
abbrev op3 : HloOp τ sig (Elt F) := StableHlo.unary main_arg3 main_v3 ((transpose S64x2000 [1, 0] · transposes_S2000x64_S64x2000_1_0) : (⟨S2000x64, .f32⟩ : BufTy).Contents (Elt F) → (⟨S64x2000, .f32⟩ : BufTy).Contents (Elt F))
abbrev op4 : HloOp τ sig (Elt F) := StableHlo.reshape main_arg4 main_v4 rfl shapeCasts_S100000x1_S100000
abbrev op6 : HloOp τ sig (Elt F) := StableHlo.reshape main_v5_1 main_v6 rfl shapeCasts_S1024_S1x1024
abbrev op7 : HloOp τ sig (Elt F) := StableHlo.reshape main_arg5 main_v7 rfl shapeCasts_S100000x1_S1x100000
abbrev op9 : HloOp τ sig (Elt F) := StableHlo.unary main_v8 main_v9 ((transpose S1024x100000 [1, 0] · transposes_S100000x1024_S1024x100000_1_0) : (⟨S100000x1024, .f32⟩ : BufTy).Contents (Elt F) → (⟨S1024x100000, .f32⟩ : BufTy).Contents (Elt F))

variable (m : (ℓ : Loc nD τ sig) → Buf (Elt F) ℓ) (ρ : Dev nD → PrngReg)

/-- The launch valuation. -/
def V0 (d : Dev nD) : Valuation τ sig (Elt F) := fun b => m (d, b)

/-- The seven arrays' contents when the call is made. -/
def Cm (d : Dev nD) : Cts F where
  a0 := shapeCast S1024 (m ((SparseCore.T d).loc main_arg0)) shapeCasts_S1024x1_S1024
  a1 := shapeCast S1024 (m ((SparseCore.T d).loc main_arg1)) shapeCasts_S1024x1_S1024
  x2 := transpose S64x100000 [1, 0] (m ((SparseCore.T d).loc main_arg2)) transposes_S100000x64_S64x100000_1_0
  x3 := transpose S64x2000 [1, 0] (m ((SparseCore.T d).loc main_arg3)) transposes_S2000x64_S64x2000_1_0
  x4 := shapeCast S100000 (m ((SparseCore.T d).loc main_arg4)) shapeCasts_S100000x1_S100000
  o0 := m (lo0 d)
  o1 := m (lo1 d)

theorem Cm_a0 (d : Dev nD) : (Cm m d).a0 = shapeCast S1024 (m ((SparseCore.T d).loc main_arg0)) shapeCasts_S1024x1_S1024 := rfl
theorem Cm_a1 (d : Dev nD) : (Cm m d).a1 = shapeCast S1024 (m ((SparseCore.T d).loc main_arg1)) shapeCasts_S1024x1_S1024 := rfl
theorem Cm_x2 (d : Dev nD) : (Cm m d).x2 = transpose S64x100000 [1, 0] (m ((SparseCore.T d).loc main_arg2)) transposes_S100000x64_S64x100000_1_0 := rfl
theorem Cm_x3 (d : Dev nD) : (Cm m d).x3 = transpose S64x2000 [1, 0] (m ((SparseCore.T d).loc main_arg3)) transposes_S2000x64_S64x2000_1_0 := rfl
theorem Cm_x4 (d : Dev nD) : (Cm m d).x4 = shapeCast S100000 (m ((SparseCore.T d).loc main_arg4)) shapeCasts_S100000x1_S100000 := rfl

/-- The pipeline's bias row and target row: what the two reshapes write. -/
def B6m (d : Dev nD) : Vec F S1x1024 .f32 := shapeCast S1x1024 (hbVal (Cm m d).a0 (Cm m d).x4) shapeCasts_S1024_S1x1024
def T7m (d : Dev nD) : Vec F S1x100000 .f32 := shapeCast S1x100000 (m ((SparseCore.T d).loc main_arg5)) shapeCasts_S100000x1_S1x100000

/-! ## Two buffers held -/

omit [FloatOps F] in
/-- Two distinct buffers held at a valuation are their two points-to. -/
theorem held_pair (d : Dev nD) (a b : DevRef τ sig) (hab : a ≠ b) (W : Valuation τ sig (Elt F))
    (fa : Buf (Elt F) ((d, a) : Loc nD τ sig)) (fb : Buf (Elt F) ((d, b) : Loc nD τ sig)) (ha : W a = fa) (hb : W b = fb) :
    (held (SparseCore.T d) {a, b} W : sProp 𝕄) = iprop((((d, a) : Loc nD τ sig) ↦{fullShare} fa) ∗ (((d, b) : Loc nD τ sig) ↦{fullShare} fb)) := by
  unfold held
  rw [SparseCore.bigSep_insert' (Finset.notMem_singleton.mpr hab), bigSep_singleton, ha, hb]

/-! ## What the call takes and what it hands back -/

omit [FloatOps F] in
/-- The call's SparseCores are the two. -/
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- What the call takes: each SparseCore's share of the five tables; the two results whole. -/
theorem st0_eq (C : Dev nD → Cts F) (d : Dev nD) :
    (bigSep Finset.univ fun c : Fin ((K (F := F)).nCore 0) => (P C).st 0 d c)
      = iprop(((bigSep Finset.univ fun c : Fin 2 => l0 d ↦{cq c} (C d).a0) ∗ (bigSep Finset.univ fun c : Fin 2 => l1 d ↦{cq c} (C d).a1)
          ∗ (bigSep Finset.univ fun c : Fin 2 => l2 d ↦{cq c} (C d).x2) ∗ (bigSep Finset.univ fun c : Fin 2 => l3 d ↦{cq c} (C d).x3)
          ∗ (bigSep Finset.univ fun c : Fin 2 => l4 d ↦{cq c} (C d).x4))
        ∗ (lo0 d ↦{fullShare} (C d).o0) ∗ (lo1 d ↦{fullShare} (C d).o1)) := by
  show (bigSep Finset.univ fun c : Fin ((K (F := F)).nCore 0) =>
    iprop(reads C d (cq (Fin.cast nCore_zero c)) ∗ bigSep Finset.univ fun i : Fin 16 => outs0 C d (Fin.cast nCore_zero c) i)) = _
  rw [bigSep_cores (fun c => iprop(reads C d (cq c) ∗ bigSep Finset.univ fun i : Fin 16 => outs0 C d c i)), o0_split, o1_split]
  unfold reads outs0
  simp only [bigSep_sep']

/-- What it hands back: the shares; the two results whole at the products and the biases. -/
theorem dn0_eq (C : Dev nD → Cts F) (d : Dev nD) :
    (bigSep Finset.univ fun c : Fin ((K (F := F)).nCore 0) => (P C).dn 0 d c)
      = iprop(((bigSep Finset.univ fun c : Fin 2 => l0 d ↦{cq c} (C d).a0) ∗ (bigSep Finset.univ fun c : Fin 2 => l1 d ↦{cq c} (C d).a1)
          ∗ (bigSep Finset.univ fun c : Fin 2 => l2 d ↦{cq c} (C d).x2) ∗ (bigSep Finset.univ fun c : Fin 2 => l3 d ↦{cq c} (C d).x3)
          ∗ (bigSep Finset.univ fun c : Fin 2 => l4 d ↦{cq c} (C d).x4))
        ∗ (lo0 d ↦{fullShare} hrtVal (C d).a0 (C d).a1 (C d).x2 (C d).x3) ∗ (lo1 d ↦{fullShare} hbVal (C d).a0 (C d).x4)) := by
  show (bigSep Finset.univ fun c : Fin ((K (F := F)).nCore 0) =>
    iprop(reads C d (cq (Fin.cast nCore_zero c)) ∗ bigSep Finset.univ fun i : Fin 16 => outs1 C d (Fin.cast nCore_zero c) i)) = _
  rw [bigSep_cores (fun c => iprop(reads C d (cq c) ∗ bigSep Finset.univ fun i : Fin 16 => outs1 C d c i)), o0_split, o1_split]
  unfold reads outs1
  simp only [bigSep_sep']

/-! ## What @main leaves the claim -/

/-- The six arguments whole at their launch contents; the result's transpose at contents meeting the pipeline's
    specification. -/
def FIN (d : Dev nD) : sProp 𝕄 :=
  iprop((((SparseCore.T d).loc main_arg0) ↦{fullShare} m ((SparseCore.T d).loc main_arg0)) ∗ (((SparseCore.T d).loc main_arg1) ↦{fullShare} m ((SparseCore.T d).loc main_arg1))
    ∗ (((SparseCore.T d).loc main_arg2) ↦{fullShare} m ((SparseCore.T d).loc main_arg2)) ∗ (((SparseCore.T d).loc main_arg3) ↦{fullShare} m ((SparseCore.T d).loc main_arg3))
    ∗ (((SparseCore.T d).loc main_arg4) ↦{fullShare} m ((SparseCore.T d).loc main_arg4)) ∗ (((SparseCore.T d).loc main_arg5) ↦{fullShare} m ((SparseCore.T d).loc main_arg5))
    ∗ ∃ g8 : Vec F S100000x1024 .f32,
        ⌜Tc.TcSpec (Cm m d).x2 (hrtVal (Cm m d).a0 (Cm m d).a1 (Cm m d).x2 (Cm m d).x3) (B6m m d) (T7m m d) g8⌝
        ∗ (((SparseCore.T d).loc main_v9) ↦{fullShare} transpose S1024x100000 [1, 0] g8 transposes_S100000x1024_S1024x100000_1_0))

/-- What the claim reads of the final state on device d. -/
def fq (d : Dev nD) (s' : Phys nD τ sig (Elt F)) : Prop :=
  s'.mem.mem ((SparseCore.T d).loc main_arg0) = m ((SparseCore.T d).loc main_arg0) ∧ s'.mem.mem ((SparseCore.T d).loc main_arg1) = m ((SparseCore.T d).loc main_arg1)
    ∧ s'.mem.mem ((SparseCore.T d).loc main_arg2) = m ((SparseCore.T d).loc main_arg2) ∧ s'.mem.mem ((SparseCore.T d).loc main_arg3) = m ((SparseCore.T d).loc main_arg3)
    ∧ s'.mem.mem ((SparseCore.T d).loc main_arg4) = m ((SparseCore.T d).loc main_arg4) ∧ s'.mem.mem ((SparseCore.T d).loc main_arg5) = m ((SparseCore.T d).loc main_arg5)
    ∧ ∃ g8 : Vec F S100000x1024 .f32,
        Tc.TcSpec (Cm m d).x2 (hrtVal (Cm m d).a0 (Cm m d).a1 (Cm m d).x2 (Cm m d).x3) (B6m m d) (T7m m d) g8
        ∧ s'.mem.mem ((SparseCore.T d).loc main_v9) = transpose S1024x100000 [1, 0] g8 transposes_S100000x1024_S1024x100000_1_0

omit [FloatOps F] in
/-- A buffer held whole reads as its contents in the state. -/
theorem agree (ℓ : Loc nD τ sig) (f : Buf (Elt F) ℓ) (s' : Phys nD τ sig (Elt F)) :
    iprop((ℓ ↦{fullShare} f) ∗ SI s') ⊢ (iprop(⌜s'.mem.mem ℓ = f⌝ ∗ (ℓ ↦{fullShare} f) ∗ SI s') : sProp 𝕄) := by
  iintro ⟨Hx, HSI⟩
  icombine HSI Hx gives %h
  isplitr; · ipureintro; exact funext fun i => h i (Finset.mem_univ i)
  isplitl [Hx]; · iexact Hx
  iexact HSI

/-- The final assertion read against the final state. -/
theorem hfin (d : Dev nD) (s' : Phys nD τ sig (Elt F)) : iprop(FIN m d ∗ SI s') ⊢ (⌜fq m d s'⌝ : sProp 𝕄) := by
  unfold FIN fq
  iintro ⟨⟨H0, H1, H2, H3, H4, H5, %g8, %hg, H9⟩, HSI⟩
  icombine HSI H0 gives %e0
  icombine HSI H1 gives %e1
  icombine HSI H2 gives %e2
  icombine HSI H3 gives %e3
  icombine HSI H4 gives %e4
  icombine HSI H5 gives %e5
  icombine HSI H9 gives %e9
  ipureintro
  exact ⟨funext fun i => e0 i (Finset.mem_univ i), funext fun i => e1 i (Finset.mem_univ i), funext fun i => e2 i (Finset.mem_univ i),
    funext fun i => e3 i (Finset.mem_univ i), funext fun i => e4 i (Finset.mem_univ i), funext fun i => e5 i (Finset.mem_univ i),
    g8, hg, funext fun i => e9 i (Finset.mem_univ i)⟩

/-! ## One host operation over its two buffers -/

set_option backward.isDefEq.respectTransparency.types false in
/-- A host operation that touches two buffers, run holding them whole: they end at what the operation leaves. -/
theorem hlo2 (d : Dev nD) (op : HloOp τ sig (Elt F)) (a b : DevRef τ sig) (hab : a ≠ b) (hbufs : op.bufs ⊆ {a, b})
    (hfresh : op.fresh = ∅) (W : Valuation τ sig (Elt F))
    (fa : Buf (Elt F) ((d, a) : Loc nD τ sig)) (fb : Buf (Elt F) ((d, b) : Loc nD τ sig)) (ha : W a = fa) (hb : W b = fb)
    (fa' : Buf (Elt F) ((d, a) : Loc nD τ sig)) (fb' : Buf (Elt F) ((d, b) : Loc nD τ sig))
    (ha' : op.result W a = fa') (hb' : op.result W b = fb')
    {α : Type} (k : ((b : op.writes) → b.1.ty.Contents (Elt F)) → Prog (TpuEff nD τ sig (Elt F) (SparseCore.Sig (ΛP (F := F)) 1) .tc) α)
    (Q : α → sProp 𝕄) :
    iprop(boundary (SparseCore.T d) ∗ (((d, a) : Loc nD τ sig) ↦{fullShare} fa) ∗ (((d, b) : Loc nD τ sig) ↦{fullShare} fb))
      ⊢ iprop(((boundary (SparseCore.T d) ∗ (((d, a) : Loc nD τ sig) ↦{fullShare} fa') ∗ (((d, b) : Loc nD τ sig) ↦{fullShare} fb'))
              -∗ wp frame (wpE ((K (F := F)).defs (D (F := F))) 𝒱 (SparseCore.T d) none) Set.univ (k (op.fn fun x => W x.1)) Q)
          -∗ wp frame (wpE ((K (F := F)).defs (D (F := F))) 𝒱 (SparseCore.T d) none) Set.univ (hlo rfl op k) Q) := by
  iintro ⟨Hb, Ha, Hbb⟩ Hk
  iapply (wp_hlo_within 𝒱 (SparseCore.T d) none Set.univ (op := op) (S := {a, b}) hbufs (V := W) hfresh) $$ [Hb Ha Hbb]
  · isplitl [Hb]; · iexact Hb
    rw [held_pair d a b hab W fa fb ha hb]
    isplitl [Ha]; · iexact Ha
    iexact Hbb
  iintro ⟨Hb, Hh⟩
  ihave Hh' := (Entails.of_eq (held_pair d a b hab (op.result W) fa' fb' ha' hb')) $$ Hh
  icases Hh' with ⟨Ha, Hbb⟩
  iapply Hk
  isplitl [Hb]; · iexact Hb
  isplitl [Ha]; · iexact Ha
  iexact Hbb

/-! ## The valuations of the later host operations -/

/-- Before the first reshape after the call: the second result at the biases. -/
def W6 (d : Dev nD) : Valuation τ sig (Elt F) := Function.update (V0 m d) dV51 (hbVal (Cm m d).a0 (Cm m d).x4)
theorem W6_51 (d : Dev nD) : W6 m d dV51 = hbVal (Cm m d).a0 (Cm m d).x4 := Function.update_self _ _ _
theorem W6_6 (d : Dev nD) : W6 m d dV6 = m ((SparseCore.T d).loc main_v6) := Function.update_of_ne (show dV6 ≠ dV51 by decide) _ _

/-- Before the last transpose: the pipeline's result at g8. -/
def W9 (d : Dev nD) (g8 : Vec F S100000x1024 .f32) : Valuation τ sig (Elt F) := Function.update (V0 m d) dV8 g8
theorem W9_8 (d : Dev nD) (g8 : Vec F S100000x1024 .f32) : W9 m d g8 dV8 = g8 := Function.update_self _ _ _
theorem W9_9 (d : Dev nD) (g8 : Vec F S100000x1024 .f32) : W9 m d g8 dV9 = m ((SparseCore.T d).loc main_v9) :=
  Function.update_of_ne (show dV9 ≠ dV8 by decide) _ _

/-! ## The TensorCore's state after the one call, opened at what it owes -/

omit [FloatOps F] in
/-- With one call, every recorded pair sits at or below level 8. -/
theorem wbelow_any (d : Dev nD) (W : Waits sig (HIx 1)) : (K (F := F)).WBelow (SparseCore.T d) W (8 * 1) := by
  intro p _
  match p.2 with
  | none => simp
  | some q => have := (K (F := F)).lev_some_le (SparseCore.T d, p.1) q; have := q.isLt; omega

omit [FloatOps F] in
/-- After the one call the TensorCore owes nothing, whatever its waits recorded. -/
theorem tcSt1_split (d : Dev nD) : ∃ R : sProp 𝕄,
    ((K (F := F)).tcSt EH d 1 ⊢ iprop((∃ W, owes (SparseCore.T d) (0 : CellTallies nD τ sig (HIx 1)) W) ∗ R))
    ∧ (iprop((∃ W, owes (SparseCore.T d) (0 : CellTallies nD τ sig (HIx 1)) W) ∗ R) ⊢ (K (F := F)).tcSt EH d 1) := by
  unfold SparseCore.Cfg.tcSt
  rw [(K (F := F)).Otc_end d (le_refl 1)]
  exact ⟨_, sep_mono (by iintro ⟨%W, -, HO⟩; iexists W; iexact HO) .rfl,
    sep_mono (by
      iintro ⟨%W, HO⟩; iexists W
      isplitr; · ipureintro; exact wbelow_any d W
      iexact HO) .rfl⟩

set_option maxHeartbeats 2000000 in
set_option backward.isDefEq.respectTransparency.types false in
/-- @main on device d's TensorCore: the five host operations each over its two buffers; the call, handed each
    SparseCore's share of the five tables and the two results whole, handing back the shares and the results at the
    products and the biases; the two reshapes; the pipeline's region, entered owing nothing; the last transpose. -/
theorem hmain (κ : GSem nD τ sig → ℕ) (d : Dev nD) :
    iprop((K (F := F)).ctx EH (P (Cm m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [Pipeline.unscopedBufs_split (Ix := HIx 1) (Name := ℕ) (U := UU) (Lvl := ℕ) cfgs 0 winFacts1.arr_unscoped winFacts1.arr_inj d
      (fun b => m ((SparseCore.T d).loc b)), bigSep_W1, unscopedRest1_eq]
  simp only [main, wp_bind, wp_pure]
  iintro ⟨#Hctx, Hst, ⟨Hb, ⟨⟨Hv2, Hv50, Hv6, Hv7, Hv8⟩, Ha0, Ha1, Ha2, Ha3, Ha4, Ha5, Hv0, Hv1, Hv3, Hv4, Hv51, Hv9⟩, -, -⟩, HG⟩
  -- the five host operations
  iapply (hlo2 d (op0 (F := F)) dA0 dV0 (by decide) (Finset.Subset.refl _) rfl (V0 m d) _ _ rfl rfl
    (m ((SparseCore.T d).loc main_arg0)) ((Cm m d).a0)
    ((op0 (F := F)).result_of_not_mem (V0 m d) (b := dA0) (show dA0 ∉ ({dV0} : Finset (DevRef τ sig)) by decide))
    ((StableHlo.reshape_result _ _ _ _ _ _ (V0 m d)).trans rfl)) $$ [Hb Ha0 Hv0]
  · isplitl [Hb]; · iexact Hb
    isplitl [Ha0]; · iexact Ha0
    iexact Hv0
  iintro ⟨Hb, Ha0, Hv0⟩
  rw [wp_ret]; imodintro
  iapply (hlo2 d (op1 (F := F)) dA1 dV1 (by decide) (Finset.Subset.refl _) rfl (V0 m d) _ _ rfl rfl
    (m ((SparseCore.T d).loc main_arg1)) ((Cm m d).a1)
    ((op1 (F := F)).result_of_not_mem (V0 m d) (b := dA1) (show dA1 ∉ ({dV1} : Finset (DevRef τ sig)) by decide))
    ((StableHlo.reshape_result _ _ _ _ _ _ (V0 m d)).trans rfl)) $$ [Hb Ha1 Hv1]
  · isplitl [Hb]; · iexact Hb
    isplitl [Ha1]; · iexact Ha1
    iexact Hv1
  iintro ⟨Hb, Ha1, Hv1⟩
  rw [wp_ret]; imodintro
  iapply (hlo2 d (op2 (F := F)) dA2 dV2 (by decide) (Finset.Subset.refl _) rfl (V0 m d) _ _ rfl rfl
    (m ((SparseCore.T d).loc main_arg2)) ((Cm m d).x2)
    ((op2 (F := F)).result_of_not_mem (V0 m d) (b := dA2) (show dA2 ∉ ({dV2} : Finset (DevRef τ sig)) by decide))
    ((StableHlo.unary_result _ _ _ _ _ (V0 m d)).trans rfl)) $$ [Hb Ha2 Hv2]
  · isplitl [Hb]; · iexact Hb
    isplitl [Ha2]; · iexact Ha2
    iexact Hv2
  iintro ⟨Hb, Ha2, Hv2⟩
  rw [wp_ret]; imodintro
  iapply (hlo2 d (op3 (F := F)) dA3 dV3 (by decide) (Finset.Subset.refl _) rfl (V0 m d) _ _ rfl rfl
    (m ((SparseCore.T d).loc main_arg3)) ((Cm m d).x3)
    ((op3 (F := F)).result_of_not_mem (V0 m d) (b := dA3) (show dA3 ∉ ({dV3} : Finset (DevRef τ sig)) by decide))
    ((StableHlo.unary_result _ _ _ _ _ (V0 m d)).trans rfl)) $$ [Hb Ha3 Hv3]
  · isplitl [Hb]; · iexact Hb
    isplitl [Ha3]; · iexact Ha3
    iexact Hv3
  iintro ⟨Hb, Ha3, Hv3⟩
  rw [wp_ret]; imodintro
  iapply (hlo2 d (op4 (F := F)) dA4 dV4 (by decide) (Finset.Subset.refl _) rfl (V0 m d) _ _ rfl rfl
    (m ((SparseCore.T d).loc main_arg4)) ((Cm m d).x4)
    ((op4 (F := F)).result_of_not_mem (V0 m d) (b := dA4) (show dA4 ∉ ({dV4} : Finset (DevRef τ sig)) by decide))
    ((StableHlo.reshape_result _ _ _ _ _ _ (V0 m d)).trans rfl)) $$ [Hb Ha4 Hv4]
  · isplitl [Hb]; · iexact Hb
    isplitl [Ha4]; · iexact Ha4
    iexact Hv4
  iintro ⟨Hb, Ha4, Hv4⟩
  rw [wp_ret]; imodintro
  -- the call
  ihave S0 := (Transfers.pointsTo_toks_split fullShare 2) $$ Hv0
  ihave S1 := (Transfers.pointsTo_toks_split fullShare 2) $$ Hv1
  ihave S2 := (Transfers.pointsTo_toks_split fullShare 2) $$ Hv2
  ihave S3 := (Transfers.pointsTo_toks_split fullShare 2) $$ Hv3
  ihave S4 := (Transfers.pointsTo_toks_split fullShare 2) $$ Hv4
  icases S0 with ⟨D0, T0⟩
  icases S1 with ⟨D1, T1⟩
  icases S2 with ⟨D2, T2⟩
  icases S3 with ⟨D3, T3⟩
  icases S4 with ⟨D4, T4⟩
  iapply ((K (F := F)).wp_run (D (F := F)) 𝒱 (EH := EH) (P := P (Cm m)) κ d 0) $$ [Hst T0 T1 T2 T3 T4 Hv50 Hv51 Hb Ha0 Ha1 Ha2 Ha3 Ha4 Ha5 Hv6 Hv7 Hv8 Hv9 HG D0 D1 D2 D3 D4]
  isplitr; · iexact Hctx
  isplitl [Hst]; · iexact Hst
  isplitl [T0 T1 T2 T3 T4 Hv50 Hv51]
  · rw [st0_eq]
    isplitl [T0 T1 T2 T3 T4]
    · isplitl [T0]; · iexact T0
      isplitl [T1]; · iexact T1
      isplitl [T2]; · iexact T2
      isplitl [T3]; · iexact T3
      iexact T4
    isplitl [Hv50]; · iexact Hv50
    iexact Hv51
  iintro ⟨Hst, Hdn⟩
  ihave Hdn' := (Entails.of_eq (dn0_eq (Cm m) d)) $$ Hdn
  icases Hdn' with ⟨⟨T0, T1, T2, T3, T4⟩, Hv50, Hv51⟩

  -- the tables whole again (the first is the pipeline's operand)
  ihave Hv2 := (Transfers.pointsTo_toks_join fullShare 2) $$ [D2 T2]
  · isplitl [D2] <;> iassumption
  -- the two reshapes
  iapply (hlo2 d (op6 (F := F)) dV51 dV6 (by decide) (Finset.Subset.refl _) rfl (W6 m d) _ _ (W6_51 m d) (W6_6 m d)
    (hbVal (Cm m d).a0 (Cm m d).x4) (B6m m d)
    (((op6 (F := F)).result_of_not_mem (W6 m d) (b := dV51) (show dV51 ∉ ({dV6} : Finset (DevRef τ sig)) by decide)).trans (W6_51 m d))
    ((StableHlo.reshape_result _ _ _ _ _ _ (W6 m d)).trans
      (congrArg (fun v => shapeCast S1x1024 v shapeCasts_S1024_S1x1024) (W6_51 m d)))) $$ [Hb Hv51 Hv6]
  · isplitl [Hb]; · iexact Hb
    isplitl [Hv51]; · iexact Hv51
    iexact Hv6
  iintro ⟨Hb, Hv51, Hv6⟩
  rw [wp_ret]; imodintro
  iapply (hlo2 d (op7 (F := F)) dA5 dV7 (by decide) (Finset.Subset.refl _) rfl (V0 m d) _ _ rfl rfl
    (m ((SparseCore.T d).loc main_arg5)) (T7m m d)
    ((op7 (F := F)).result_of_not_mem (V0 m d) (b := dA5) (show dA5 ∉ ({dV7} : Finset (DevRef τ sig)) by decide))
    ((StableHlo.reshape_result _ _ _ _ _ _ (V0 m d)).trans rfl)) $$ [Hb Ha5 Hv7]
  · isplitl [Hb]; · iexact Hb
    isplitl [Ha5]; · iexact Ha5
    iexact Hv7
  iintro ⟨Hb, Ha5, Hv7⟩
  rw [wp_ret]; imodintro
  -- the region
  obtain ⟨R, hopen, hclose⟩ := tcSt1_split (F := F) d
  have e1 : ((K (F := F)).tcSt EH d ((0 : Fin 1).val + 1) : sProp 𝕄) = (K (F := F)).tcSt EH d 1 := rfl
  ihave Hst' := ((Entails.of_eq e1).trans hopen) $$ Hst
  icases Hst' with ⟨⟨%W, HO⟩, HR⟩
  ihave Hlev := (SparseCore.Cfg.ctx_levAts κ) $$ Hctx
  unfold G
  icases HG with ⟨HG1, HG2⟩
  iapply ((K (F := F)).wp_liftProg (D (F := F)) 𝒱 (SparseCore.T d) Set.univ none (.op (.customCall (Pipeline.entry 0) ()) .ret) _)
  iapply (Tc.region_wp (Ix := HIx 1) (Name := ℕ) (U := UU) (Lvl := ℕ) (Cm m d).x2 (hrtVal (Cm m d).a0 (Cm m d).a1 (Cm m d).x2 (Cm m d).x3)
    (B6m m d) (T7m m d) (m ((SparseCore.T d).loc main_v8)) (EP (F := F)) (K (F := F)).L (K (F := F)).lev none d none
    (fun _ h => absurd h (by simp)) .ret _ W)
  isplitl [HR Ha0 Ha1 Ha2 Ha3 Ha4 Ha5 Hv9]
  swap
  · isplitl [Hb]; · iexact Hb
    isplitl [Hv2 Hv50 Hv6 Hv7 Hv8 HO]
    · unfold Tc.TcPre
      isplitl [Hv2]; · iexact Hv2
      isplitl [Hv50]; · iexact Hv50
      isplitl [Hv6]; · iexact Hv6
      isplitl [Hv7]; · iexact Hv7
      isplitl [Hv8]; · iexact Hv8
      iexact HO
    isplitl [Hlev]; · iexact Hlev
    isplitl [HG1]; · iexact HG1
    iexact HG2
  iintro ⟨Hb, Hpost⟩
  unfold Tc.TcPost
  icases Hpost with ⟨Hv2, Hv50, Hv6, Hv7, ⟨%g8, %hg, Hv8⟩, ⟨%W', HO⟩⟩
  rw [wp_ret]; imodintro
  -- the last transpose
  iapply (hlo2 d (op9 (F := F)) dV8 dV9 (by decide) (Finset.Subset.refl _) rfl (W9 m d g8) _ _ (W9_8 m d g8) (W9_9 m d g8)
    g8 (transpose S1024x100000 [1, 0] g8 transposes_S100000x1024_S1024x100000_1_0)
    (((op9 (F := F)).result_of_not_mem (W9 m d g8) (b := dV8) (show dV8 ∉ ({dV9} : Finset (DevRef τ sig)) by decide)).trans (W9_8 m d g8))
    ((StableHlo.unary_result _ _ _ _ _ (W9 m d g8)).trans
      (congrArg (fun v => transpose S1024x100000 [1, 0] v transposes_S100000x1024_S1024x100000_1_0) (W9_8 m d g8)))) $$ [Hb Hv8 Hv9]
  · isplitl [Hb]; · iexact Hb
    isplitl [Hv8]; · iexact Hv8
    iexact Hv9
  iintro ⟨Hb, Hv8, Hv9⟩
  rw [wp_ret]; imodintro; imodintro
  isplitl [HO HR]
  · iapply hclose
    isplitl [HO]; · iexists W'; iexact HO
    iexact HR
  unfold FIN
  isplitl [Ha0]; · iexact Ha0
  isplitl [Ha1]; · iexact Ha1
  isplitl [Ha2]; · iexact Ha2
  isplitl [Ha3]; · iexact Ha3
  isplitl [Ha4]; · iexact Ha4
  isplitl [Ha5]; · iexact Ha5
  iexists g8
  isplitr; · ipureintro; exact hg
  iexact Hv9

end Cert.Kernel.Sc

end
-- ==== Proof.Bits.ScPre.lean ====
/-
  The certificate's precondition read back at the index words.

  The printed predicate is a conjunction: four tests that the float arrays are finite, and for each of the two index
  columns the conjunction over all its entries of "the word, read signed, is at least zero and at most the last row
  of its table" (99999 for the entity words, 1999 for the relation words). Where the predicate is all ones each
  conjunct is one; a conjunction over all entries that is one has a one at every entry; and a 32-bit word that is
  between zero and a bound below 2 ^ 31 when read signed is that number as an unsigned word. So every entity word is
  the number of a row of the 100000-row table and every relation word the number of a row of the 2000-row table.
  Nothing is asked of the floats; the statements hold for any float values.
-/
import proofs.«203358_g20435454394731_cont_8to1_1864_22_alg».proof.Proof.Bits.ScSetup
import proofs.«203358_g20435454394731_cont_8to1_1864_22_alg».proof.Proof.Gen.Pre_input_domain
import Idealize.ShloMosaic.Lib.ReduceAll
import Idealize.ShloMosaic.Lib.DynamicIndex
import Idealize.ShloMosaic.Lib.ValueIdx

namespace Cert.Kernel.Sc

open Idealize.ShloMosaic

variable {F : FTy → Type}

/-- The scalar shape has one index. -/
instance subsingleton_scalarIdx : Subsingleton Cert.Pre_input_domain.S_.Idx := ⟨fun _ _ => funext fun d => d.elim0⟩

/-- A 32-bit word that, read signed, is at least zero and at most `N` (below `2 ^ 31`) is at most `N` read unsigned. -/
theorem toNat_le_of_range (v : BitVec 32) (N : ℕ) (hN : N < 2 ^ 31)
    (e : IntOp.andi (IntOp.cmpi .sge v 0#32) (IntOp.cmpi .sle v (BitVec.ofNat 32 N)) = 1#1) : v.toNat ≤ N := by
  rw [IntOp.andi_eq_one, IntOp.cmpi_sge, IntOp.cmpi_sle, toInt_ofNat_of_lt hN] at e
  have h0 : (0#32 : BitVec 32).toInt = 0 := by decide
  rw [h0] at e
  have ht := BitVec.toInt_eq_toNat_cond v
  have hv := v.isLt
  split at ht <;> omega

/-- A 32-bit word is its unsigned value as a word. -/
theorem eq_ofNat_toNat (v : BitVec 32) : v = BitVec.ofNat 32 v.toNat :=
  BitVec.eq_of_toNat_eq (by rw [BitVec.toNat_ofNat]; exact (Nat.mod_eq_of_lt v.isLt).symm)

/-- Where the precondition is all ones, both range tests hold at every entry of the two index columns. -/
theorem ranges_of_pre [Cert.Pre_input_domain.Facts] [FloatOps F]
    (a0 a1 : IVec Cert.Pre_input_domain.S1024x1 32) (a2 : FVec F Cert.Pre_input_domain.S100000x64 .f32)
    (a3 : FVec F Cert.Pre_input_domain.S2000x64 .f32) (a4 a5 : FVec F Cert.Pre_input_domain.S100000x1 .f32)
    (h : Cert.Pre_input_domain.fn (F := F) a0 a1 a2 a3 a4 a5 = fun _ => 1#1) (i : Cert.Pre_input_domain.S1024x1.Idx) :
    IntOp.andi (IntOp.cmpi .sge (a0 i) 0#32) (IntOp.cmpi .sle (a0 i) 99999#32) = 1#1
      ∧ IntOp.andi (IntOp.cmpi .sge (a1 i) 0#32) (IntOp.cmpi .sle (a1 i) 1999#32) = 1#1 := by
  have e := congrFun h ValueIdx.ix0
  simp only [Cert.Pre_input_domain.fn, Cert.Pre_input_domain.fn_part1, andi] at e
  rw [IntOp.andi_eq_one] at e
  obtain ⟨e1, e31⟩ := e
  rw [IntOp.andi_eq_one] at e1
  obtain ⟨-, e24⟩ := e1
  exact ⟨Host.reduce_andi_all _ _ _ _ _ e24 i, Host.reduce_andi_all _ _ _ _ _ e31 i⟩

/-- Every entity word is the number of a row of the 100000-row table. -/
theorem src_of_pre [Cert.Pre_input_domain.Facts] [FloatOps F]
    (a0 a1 : IVec Cert.Pre_input_domain.S1024x1 32) (a2 : FVec F Cert.Pre_input_domain.S100000x64 .f32)
    (a3 : FVec F Cert.Pre_input_domain.S2000x64 .f32) (a4 a5 : FVec F Cert.Pre_input_domain.S100000x1 .f32)
    (h : Cert.Pre_input_domain.fn (F := F) a0 a1 a2 a3 a4 a5 = fun _ => 1#1) (b : Fin 1024) :
    ∃ s : Fin 100000, a0 (ValueIdx.ix2 b (0 : Fin 1)) = BitVec.ofNat 32 s.val := by
  have hle := toNat_le_of_range _ 99999 (by norm_num) (ranges_of_pre a0 a1 a2 a3 a4 a5 h (ValueIdx.ix2 b (0 : Fin 1))).1
  exact ⟨⟨(a0 (ValueIdx.ix2 b (0 : Fin 1))).toNat, by omega⟩, eq_ofNat_toNat _⟩

/-- Every relation word is the number of a row of the 2000-row table. -/
theorem rel_of_pre [Cert.Pre_input_domain.Facts] [FloatOps F]
    (a0 a1 : IVec Cert.Pre_input_domain.S1024x1 32) (a2 : FVec F Cert.Pre_input_domain.S100000x64 .f32)
    (a3 : FVec F Cert.Pre_input_domain.S2000x64 .f32) (a4 a5 : FVec F Cert.Pre_input_domain.S100000x1 .f32)
    (h : Cert.Pre_input_domain.fn (F := F) a0 a1 a2 a3 a4 a5 = fun _ => 1#1) (b : Fin 1024) :
    ∃ k : Fin 2000, a1 (ValueIdx.ix2 b (0 : Fin 1)) = BitVec.ofNat 32 k.val := by
  have hle := toNat_le_of_range _ 1999 (by norm_num) (ranges_of_pre a0 a1 a2 a3 a4 a5 h (ValueIdx.ix2 b (0 : Fin 1))).2
  exact ⟨⟨(a1 (ValueIdx.ix2 b (0 : Fin 1))).toNat, by omega⟩, eq_ofNat_toNat _⟩

end Cert.Kernel.Sc
-- ==== Proof.Bits.ScOk.lean ====
/-
  The index words the workers read are in range.

  The kernel program reshapes the two 1024 x 1 columns of index words to vectors of 1024 before the gather.  Entry j
  of a reshaped column is entry (j, 0) of the column: both sit at row-major position j.  Where the certificate's
  precondition is all ones every entity word, read signed, lies between 0 and 99999 and every relation word
  between 0 and 1999; such a word is the same number read unsigned.  So every reshaped entity word names a row of
  the 100000-row table and every reshaped relation word a row of the 2000-row table.
-/
import proofs.«203358_g20435454394731_cont_8to1_1864_22_alg».proof.Proof.Bits.ScPre

noncomputable section

namespace Cert.Kernel.Sc

open Cert.Kernel Cert.Kernel.Gen
open Idealize.ShloMosaic

variable {F : FTy → Type} [FloatOps F]

/-- Entry j of a 1024 x 1 column reshaped to a vector is the column's entry (j, 0). -/
theorem reshape_col (hc : S1024x1.ShapeCasts S1024) (j : S1024.Idx) :
    Shape.reshapeEquiv hc j = (ValueIdx.ix2 (j 0) (0 : Fin 1) : S1024x1.Idx) := by
  apply Shape.reshapeEquiv_eq_of_rowMajor
  rw [Shape.rowMajor_val_two, Shape.rowMajor_val_one]
  show (j 0).val * 1 + 0 = (j 0).val
  omega

/-- Under the precondition the reshaped entity words are below 100000 and the reshaped relation words below 2000. -/
theorem words_ok [Cert.Pre_input_domain.Facts] (a0 a1 : IVec S1024x1 32) (a2 : FVec F S100000x64 .f32) (a3 : FVec F S2000x64 .f32) (a4 a5 : FVec F S100000x1 .f32)
    (h : Cert.Pre_input_domain.fn (F := F) a0 a1 a2 a3 a4 a5 = fun _ => 1#1) (hc : S1024x1.ShapeCasts S1024) :
    ∀ j : S1024.Idx, (shapeCast S1024 a0 hc j).toNat < 100000 ∧ (shapeCast S1024 a1 hc j).toNat < 2000 := by
  intro j
  have r := ranges_of_pre a0 a1 a2 a3 a4 a5 h (ValueIdx.ix2 (j 0) (0 : Fin 1))
  have h0 := toNat_le_of_range _ 99999 (by norm_num) r.1
  have h1 := toNat_le_of_range _ 1999 (by norm_num) r.2
  constructor
  · show (a0 (Shape.reshapeEquiv hc j)).toNat < 100000
    rw [reshape_col hc j]
    omega
  · show (a1 (Shape.reshapeEquiv hc j)).toNat < 2000
    rw [reshape_col hc j]
    omega

/-- The same for the contents record whose two word lists are the reshaped columns. -/
theorem cts_ok_of (C : Cts F) [Cert.Pre_input_domain.Facts] (a0 a1 : IVec S1024x1 32) (a2 : FVec F S100000x64 .f32) (a3 : FVec F S2000x64 .f32) (a4 a5 : FVec F S100000x1 .f32)
    (h : Cert.Pre_input_domain.fn (F := F) a0 a1 a2 a3 a4 a5 = fun _ => 1#1) (hc : S1024x1.ShapeCasts S1024)
    (e0 : C.a0 = shapeCast S1024 a0 hc) (e1 : C.a1 = shapeCast S1024 a1 hc) : C.Ok := by
  intro j
  rw [e0, e1]
  exact words_ok a0 a1 a2 a3 a4 a5 h hc j

end Cert.Kernel.Sc

end
-- ==== Proof.Bits.ScLaunch.lean ====
/-
  The kernel program's run.  The launch theorem for SparseCore programs takes each worker's task (the body run at
  a symbolic worker), how a SparseCore's operands split among its sixteen workers, the launch element of the ghost
  state and @main on the TensorCore; it gives that every weakly fair execution of the thirty-five threads ends, nothing
  faulting, with the six arguments unchanged and the result the transpose of an array that meets the TensorCore
  region's specification over the products and biases the workers left.
-/
import proofs.«203358_g20435454394731_cont_8to1_1864_22_alg».proof.Proof.Bits.ScBody
import proofs.«203358_g20435454394731_cont_8to1_1864_22_alg».proof.Proof.Bits.ScMain
import proofs.«203358_g20435454394731_cont_8to1_1864_22_alg».proof.Proof.Bits.ScOk

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## A worker's task, as the launch theorem states it -/

theorem defs₀_vector (c : Fin τ.nSC) (s : Fin τ.nSub) :
    defs₀ (F := F) (.scVector c s) 0 ()
      = SparseCore.onTile hcore0 hsub0 (fun c s => cc0_sc_gather (coordsV c s)
          m0V (Memref.isWhole_whole _) m1V (Memref.isWhole_whole _) m2V (Memref.isWhole_whole _) m3V (Memref.isWhole_whole _)
          m4V (Memref.isWhole_whole _) o0V (Memref.isWhole_whole _) o1V (Memref.isWhole_whole _)
          s0V (Memref.isWhole_whole _) s1V (Memref.isWhole_whole _) s2V (Memref.isWhole_whole _) s3V (Memref.isWhole_whole _)
          s4V (Memref.isWhole_whole _) s5V (Memref.isWhole_whole _) cc0_scratch6 cc0_scratch7 cc0_scratch8 cc0_scoped0 cc0_scoped1 cc0_scoped2 cc0_scoped3) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (C : Dev nD → Cts F) (hC : ∀ d, (C d).Ok) (hF : (K (F := F)).Facts) : (K (F := F)).TileObl (D (F := F)) 𝒱 (P C) v₀ 0 := by
  intro d c i O W hO _ _
  -- this kernel owes nothing for a protocol of its own
  simp only [show (P C).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) (C d) hF (hC d) (tq (Fin.cast nCore_zero c) (Fin.cast nSub_zero i)) O W hO).trans
    (wp_mono frame _ _ fun _ => obl_post)

/-! ## The program's run -/

variable (m : (ℓ : Loc nD τ sig) → Buf (Elt F) ℓ) (ρ : Dev nD → PrngReg)

/-- Under the certificate's precondition the index words the call is made with are in range. -/
theorem cm_ok [Cert.Pre_input_domain.Facts] (d : Dev nD)
    (h : Cert.Pre_input_domain.fn (F := F) (m ((SparseCore.T d).loc main_arg0)) (m ((SparseCore.T d).loc main_arg1)) (m ((SparseCore.T d).loc main_arg2))
      (m ((SparseCore.T d).loc main_arg3)) (m ((SparseCore.T d).loc main_arg4)) (m ((SparseCore.T d).loc main_arg5)) = fun _ => 1#1) :
    (Cm m d).Ok :=
  cts_ok_of (Cm m d) _ _ _ _ _ _ h shapeCasts_S1024x1_S1024 (Cm_a0 m d) (Cm_a1 m d)

/-- What every final memory satisfies, on each device: the six arguments as launched, and the result the transpose of
    an array meeting the TensorCore region's specification over the workers' products and biases. -/
def QC : PUnit × MemSt nD τ sig (Elt F) → Prop := fun r => ∀ c : Dev nD,
  r.2.mem ((SparseCore.T c).loc main_arg0) = m ((SparseCore.T c).loc main_arg0)
  ∧ r.2.mem ((SparseCore.T c).loc main_arg1) = m ((SparseCore.T c).loc main_arg1)
  ∧ r.2.mem ((SparseCore.T c).loc main_arg2) = m ((SparseCore.T c).loc main_arg2)
  ∧ r.2.mem ((SparseCore.T c).loc main_arg3) = m ((SparseCore.T c).loc main_arg3)
  ∧ r.2.mem ((SparseCore.T c).loc main_arg4) = m ((SparseCore.T c).loc main_arg4)
  ∧ r.2.mem ((SparseCore.T c).loc main_arg5) = m ((SparseCore.T c).loc main_arg5)
  ∧ ∃ g8 : Vec F S100000x1024 .f32, Tc.TcSpec (Cm m c).x2 (hrtVal (Cm m c).a0 (Cm m c).a1 (Cm m c).x2 (Cm m c).x3) (B6m m c) (T7m m c) g8
      ∧ r.2.mem ((SparseCore.T c).loc main_v9) = transpose S1024x100000 [1, 0] g8 transposes_S100000x1024_S1024x100000_1_0

theorem run_main [∀ e, Nonempty (Elt F e)] (hok : ∀ d, (Cm m d).Ok) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P (Cm m)) facts v₀
    (fun q hq => match q with | 0 => nomatch hq)
    (fun q _ => match q with | 0 => tileObl (Cm m) hok facts)
    (fun q _ => match q with | 0 => SparseCore.Cfg.VecSplit.of_plain (vecSplit (Cm m)))
    m ρ main (G (F := F)) (FIN m) (u₀ (F := F)) (sep_elim_left.trans (hu₀ (Cm m))) (hmain m ρ) (fq m) (hfin m) (QC m) (fun _ h => h)

end Cert.Kernel.Sc

end
-- ==== Proof.RefOps.lean ====
/-
  The reference program's @main written as one straight line of its eighty host operations, the three calls of
  jnp.take's outlined function (and, inside each, the call of jnp.where's) replaced by the callee's operations over
  that call's own buffers: a call means its callee's body run on the operands, so the line and the printed @main are
  the same program once the bodies are substituted and sequencing is re-associated. A straight line of host
  operations from any launch memory terminates without a fault, and every buffer ends at the fold of the operations
  over the launch contents: each operation rewrites its result buffer to its function of its operands' contents and
  leaves every other buffer as it was.
-/
import proofs.«203358_g20435454394731_cont_8to1_1864_22_alg».proof.Proof.Gen.ReferenceIdeal
import Idealize.ShloMosaic.Lib.StableHlo.Run
import Idealize.ShloMosaic.Lib.Pipeline.Regions

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's eighty operations in order. Each take is twenty-three: the zero and its broadcast, the test for a negative
    index, the axis size and its broadcast, the index plus the size, the select between the two (jnp.where's one
    operation), the index array given a trailing unit axis, the upper bound and the lower bound, the two range tests,
    their conjunction, its reduction over the unit axis from the constant true, the gather, the mask broadcast along
    the gathered row, the fill constant and its broadcast, the select between the gathered value and the fill. Between
    and after them @main's own eleven: the second bias column flattened and given a leading unit axis, the first
    take's unit axis dropped, the product of the two gathered rows and its unit axis dropped, the table transposed,
    the contraction, and the two biases broadcast and added. -/
abbrev ops : List (HloOp τ sig (Elt F)) :=
  [ TRef.nullary main_call0.c (constantI S_ 32 0#32),
    TRef.unary main_call0.c main_call0.v0 (broadcastInDim S1024x1 ![] bcast_S_S1024x1),
    TRef.binary (.of main_arg0) main_call0.v0 main_call0.v1 (cmpi .slt),
    TRef.nullary main_call0.c_0 (constantI S_ 32 100000#32),
    TRef.unary main_call0.c_0 main_call0.v2 (broadcastInDim S1024x1 ![] bcast_S_S1024x1),
    TRef.binary (.of main_arg0) main_call0.v2 main_call0.v3 addi,
    TRef.ternary main_call0.v1 main_call0.v3 (.of main_arg0) main_call0.call0.v0 select,
    TRef.unary main_call0.call0.v0 main_call0.v5 (broadcastInDim S1024x1x1 ![0, 1] bcast_S1024x1_S1024x1x1_0_1),
    TRef.nullary main_call0.c_1 (constantI S1 32 99999#32),
    TRef.nullary main_call0.c_2 (constantI S_ 32 0#32),
    TRef.unary main_call0.c_2 main_call0.v6 (broadcastInDim S1024x1x1 ![] bcast_S_S1024x1x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S1024x1x1 ![0, 1, 2] bcast_S1x1x1_S1024x1x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S1024x1x1_S1024x1_d2 h_S_),
    TRef.binary (.of main_arg2) main_call0.v5 main_call0.v13 (fun x i => Host.gather gather_S100000x64_S1024x1x1_S1024x1x64_2_0_n_n_0_2_164 x i),
    TRef.unary main_call0.v12 main_call0.v14 (broadcastInDim S1024x1x64 ![0, 1] bcast_S1024x1_S1024x1x64_0_1),
    TRef.nullary main_call0.cst (constant S_ .f32 0x7FC00000#32),
    TRef.unary main_call0.cst main_call0.v15 (broadcastInDim S1024x1x64 ![] bcast_S_S1024x1x64),
    TRef.ternary main_call0.v14 main_call0.v13 main_call0.v15 main_call0.v16 select,
    reshape main_arg5 main_v1 rfl shapeCasts_S100000x1_S100000,
    unary main_v1 main_v2 (broadcastInDim S1x100000 ![1] bcast_S100000_S1x100000_1 : (⟨S100000, .f32⟩ : BufTy).Contents (Elt F) → (⟨S1x100000, .f32⟩ : BufTy).Contents (Elt F)),
    TRef.nullary main_call1.c (constantI S_ 32 0#32),
    TRef.unary main_call1.c main_call1.v0 (broadcastInDim S1024x1 ![] bcast_S_S1024x1),
    TRef.binary (.of main_arg0) main_call1.v0 main_call1.v1 (cmpi .slt),
    TRef.nullary main_call1.c_0 (constantI S_ 32 100000#32),
    TRef.unary main_call1.c_0 main_call1.v2 (broadcastInDim S1024x1 ![] bcast_S_S1024x1),
    TRef.binary (.of main_arg0) main_call1.v2 main_call1.v3 addi,
    TRef.ternary main_call1.v1 main_call1.v3 (.of main_arg0) main_call1.call0.v0 select,
    TRef.unary main_call1.call0.v0 main_call1.v5 (broadcastInDim S1024x1x1 ![0, 1] bcast_S1024x1_S1024x1x1_0_1),
    TRef.nullary main_call1.c_1 (constantI S1 32 99999#32),
    TRef.nullary main_call1.c_2 (constantI S_ 32 0#32),
    TRef.unary main_call1.c_2 main_call1.v6 (broadcastInDim S1024x1x1 ![] bcast_S_S1024x1x1),
    TRef.binary main_call1.v5 main_call1.v6 main_call1.v7 (cmpi .sge),
    TRef.unary main_call1.c_1 main_call1.v8 (broadcastInDim S1x1x1 ![2] bcast_S1_S1x1x1_2),
    TRef.unary main_call1.v8 main_call1.v9 (broadcastInDim S1024x1x1 ![0, 1, 2] bcast_S1x1x1_S1024x1x1_0_1_2),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S1024x1x1_S1024x1_d2 h_S_),
    TRef.binary (.of main_arg4) main_call1.v5 main_call1.v13 (fun x i => Host.gather gather_S100000x1_S1024x1x1_S1024x1x1_2_0_n_n_0_2_11 x i),
    TRef.unary main_call1.v12 main_call1.v14 (broadcastInDim S1024x1x1 ![0, 1] bcast_S1024x1_S1024x1x1_0_1),
    TRef.nullary main_call1.cst (constant S_ .f32 0x7FC00000#32),
    TRef.unary main_call1.cst main_call1.v15 (broadcastInDim S1024x1x1 ![] bcast_S_S1024x1x1),
    TRef.ternary main_call1.v14 main_call1.v13 main_call1.v15 main_call1.v16 select,
    reshape main_v3 main_v4 rfl shapeCasts_S1024x1x1_S1024x1,
    TRef.nullary main_call2.c (constantI S_ 32 0#32),
    TRef.unary main_call2.c main_call2.v0 (broadcastInDim S1024x1 ![] bcast_S_S1024x1),
    TRef.binary (.of main_arg1) main_call2.v0 main_call2.v1 (cmpi .slt),
    TRef.nullary main_call2.c_0 (constantI S_ 32 2000#32),
    TRef.unary main_call2.c_0 main_call2.v2 (broadcastInDim S1024x1 ![] bcast_S_S1024x1),
    TRef.binary (.of main_arg1) main_call2.v2 main_call2.v3 addi,
    TRef.ternary main_call2.v1 main_call2.v3 (.of main_arg1) main_call2.call0.v0 select,
    TRef.unary main_call2.call0.v0 main_call2.v5 (broadcastInDim S1024x1x1 ![0, 1] bcast_S1024x1_S1024x1x1_0_1),
    TRef.nullary main_call2.c_1 (constantI S1 32 1999#32),
    TRef.nullary main_call2.c_2 (constantI S_ 32 0#32),
    TRef.unary main_call2.c_2 main_call2.v6 (broadcastInDim S1024x1x1 ![] bcast_S_S1024x1x1),
    TRef.binary main_call2.v5 main_call2.v6 main_call2.v7 (cmpi .sge),
    TRef.unary main_call2.c_1 main_call2.v8 (broadcastInDim S1x1x1 ![2] bcast_S1_S1x1x1_2),
    TRef.unary main_call2.v8 main_call2.v9 (broadcastInDim S1024x1x1 ![0, 1, 2] bcast_S1x1x1_S1024x1x1_0_1_2),
    TRef.binary main_call2.v5 main_call2.v9 main_call2.v10 (cmpi .sle),
    TRef.binary main_call2.v7 main_call2.v10 main_call2.v11 andi,
    TRef.nullary main_call2.c_3 (constantI S_ 1 1#1),
    TRef.binary main_call2.v11 main_call2.c_3 main_call2.v12 (fun x v => Host.reduce IntOp.andi x v reducesTo_S1024x1x1_S1024x1_d2 h_S_),
    TRef.binary (.of main_arg3) main_call2.v5 main_call2.v13 (fun x i => Host.gather gather_S2000x64_S1024x1x1_S1024x1x64_2_0_n_n_0_2_164 x i),
    TRef.unary main_call2.v12 main_call2.v14 (broadcastInDim S1024x1x64 ![0, 1] bcast_S1024x1_S1024x1x64_0_1),
    TRef.nullary main_call2.cst (constant S_ .f32 0x7FC00000#32),
    TRef.unary main_call2.cst main_call2.v15 (broadcastInDim S1024x1x64 ![] bcast_S_S1024x1x64),
    TRef.ternary main_call2.v14 main_call2.v13 main_call2.v15 main_call2.v16 select,
    binary main_v0 main_v5 main_v6 (mulf : (⟨S1024x1x64, .f32⟩ : BufTy).Contents (Elt F) → (⟨S1024x1x64, .f32⟩ : BufTy).Contents (Elt F) → (⟨S1024x1x64, .f32⟩ : BufTy).Contents (Elt F)),
    reshape main_v6 main_v7 rfl shapeCasts_S1024x1x64_S1024x64,
    unary main_arg2 main_v8 ((transpose S64x100000 [1, 0] · transposes_S100000x64_S64x100000_1_0) : (⟨S100000x64, .f32⟩ : BufTy).Contents (Elt F) → (⟨S64x100000, .f32⟩ : BufTy).Contents (Elt F)),
    binary main_v7 main_v8 main_v9 ((fun l r => Host.dotGeneral dot_S1024x64_S64x100000_S1024x100000_1_0_0_1_n_n none l r) : (⟨S1024x64, .f32⟩ : BufTy).Contents (Elt F) → (⟨S64x100000, .f32⟩ : BufTy).Contents (Elt F) → (⟨S1024x100000, .f32⟩ : BufTy).Contents (Elt F)),
    unary main_v4 main_v10 (broadcastInDim S1024x100000 ![0, 1] bcast_S1024x1_S1024x100000_0_1 : (⟨S1024x1, .f32⟩ : BufTy).Contents (Elt F) → (⟨S1024x100000, .f32⟩ : BufTy).Contents (Elt F)),
    binary main_v9 main_v10 main_v11 (addf : (⟨S1024x100000, .f32⟩ : BufTy).Contents (Elt F) → (⟨S1024x100000, .f32⟩ : BufTy).Contents (Elt F) → (⟨S1024x100000, .f32⟩ : BufTy).Contents (Elt F)),
    unary main_v2 main_v12 (broadcastInDim S1024x100000 ![0, 1] bcast_S1x100000_S1024x100000_0_1 : (⟨S1x100000, .f32⟩ : BufTy).Contents (Elt F) → (⟨S1024x100000, .f32⟩ : BufTy).Contents (Elt F)),
    binary main_v11 main_v12 main_v13 (addf : (⟨S1024x100000, .f32⟩ : BufTy).Contents (Elt F) → (⟨S1024x100000, .f32⟩ : BufTy).Contents (Elt F) → (⟨S1024x100000, .f32⟩ : BufTy).Contents (Elt F)) ]

/-- @main is that straight line: with the callees' definitions unfolded at their calls and the calls' records at
    their fields, both sides compute to one chain of operation steps (sequencing after a step is the step with the
    rest appended to what follows it, and sequencing after the empty program is the rest). The equation holds by
    unfolding definitions alone. -/
theorem main_eq (c : Dev nD) : main (F := F) c = seq ops := by
  chain_rfl

/-- No buffer of the signature is scoped. -/
theorem scopedRefs_eq : (Finset.univ.filter fun b : Ref sig .tc => b.isScoped) = ∅ := by decide
/-- The signature has no semaphore. -/
theorem scopedSems_eq : (Finset.univ.filter fun sm : SemLoc sig => sm.isScoped .tc) = ∅ := by decide

/-- Every operation touches buffers of the device's own memory only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., reshape_bufs_sub ..,
    unary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    reshape_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    binary_bufs_sub .., reshape_bufs_sub .., unary_bufs_sub .., binary_bufs_sub .., unary_bufs_sub .., binary_bufs_sub ..,
    unary_bufs_sub .., binary_bufs_sub ..⟩

/-- From any memory with zero counters every weakly fair execution of @main terminates, and every buffer ends at the
    fold of the eighty operations over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (b : DevRef τ sig) :=
  run_seq scopedRefs_eq scopedSems_eq defs main (fun _ => ops) main_eq (fun _ => ops_sub) m ρ

end Cert.ReferenceIdeal.Hand

end
-- ==== Proof.RefRun.lean ====
/-
  The reference's result as one function of its six argument arrays, and its run.

  jnp.take of a table at an index column is, in the order the program computes it: the index with the axis size added
  where it is negative (`wrapIdx`, which also gives the column a trailing unit axis); the test that the wrapped index
  lies between zero and the last row, reduced by conjunction over the unit axis (`rowMask`); the gather of the rows
  at the wrapped index; and the select between the gathered entry, where the test holds, and a fill constant where it
  does not (`take0`, `take1`, `take2` for the three tables). The result (`refVal`) is the contraction of the product
  of the first and third takes with the transposed first table, plus the second take spread along the rows' entries,
  plus the last argument spread down the rows. Reading the eighty operations' fold at the result buffer gives exactly
  that composition of the launch contents of the six argument buffers, and no operation writes an argument buffer.
-/
import proofs.«203358_g20435454394731_cont_8to1_1864_22_alg».proof.Proof.RefOps
import Idealize.ShloMosaic.PureOps.Ideal

noncomputable section

namespace Cert.ReferenceIdeal.Hand

open Cert.ReferenceIdeal Cert.ReferenceIdeal.Gen Idealize.ShloMosaic Idealize.ShloMosaic.TcCoe Idealize.SL.Sem Idealize.ShloMosaic.StableHlo

/-- The index column with the axis size `n` added where the index is negative, given a trailing unit axis. -/
def wrapIdx (n : BitVec 32) (idx : IVec S1024x1 32) : IVec S1024x1x1 32 :=
  broadcastInDim S1024x1x1 ![0, 1] bcast_S1024x1_S1024x1x1_0_1
    (select (cmpi .slt idx (broadcastInDim S1024x1 ![] bcast_S_S1024x1 (constantI S_ 32 0#32)))
      (addi idx (broadcastInDim S1024x1 ![] bcast_S_S1024x1 (constantI S_ 32 n))) idx)

/-- Whether the wrapped index lies between zero and the last row `hi`: the two signed tests, their conjunction, and
    its reduction by conjunction over the unit axis from the constant true. -/
def rowMask (hi : BitVec 32) (i : IVec S1024x1x1 32) : IVec S1024x1 1 :=
  Host.reduce IntOp.andi
    (andi (cmpi .sge i (broadcastInDim S1024x1x1 ![] bcast_S_S1024x1x1 (constantI S_ 32 0#32)))
      (cmpi .sle i (broadcastInDim S1024x1x1 ![0, 1, 2] bcast_S1x1x1_S1024x1x1_0_1_2
        (broadcastInDim S1x1x1 ![2] bcast_S1_S1x1x1_2 (constantI S1 32 hi)))))
    (constantI S_ 1 1#1) reducesTo_S1024x1x1_S1024x1_d2 h_S_

/-- The rows of the 100000 × 64 table at the index column. -/
def take0 (tbl : FVec Ideal S100000x64 .f32) (idx : IVec S1024x1 32) : FVec Ideal S1024x1x64 .f32 :=
  select (broadcastInDim S1024x1x64 ![0, 1] bcast_S1024x1_S1024x1x64_0_1 (rowMask 99999#32 (wrapIdx 100000#32 idx)))
    (Host.gather gather_S100000x64_S1024x1x1_S1024x1x64_2_0_n_n_0_2_164 tbl (wrapIdx 100000#32 idx))
    (broadcastInDim S1024x1x64 ![] bcast_S_S1024x1x64 (constant S_ .f32 0x7FC00000#32))

/-- The entries of the 100000 × 1 column at the index column. -/
def take1 (tbl : FVec Ideal S100000x1 .f32) (idx : IVec S1024x1 32) : FVec Ideal S1024x1x1 .f32 :=
  select (broadcastInDim S1024x1x1 ![0, 1] bcast_S1024x1_S1024x1x1_0_1 (rowMask 99999#32 (wrapIdx 100000#32 idx)))
    (Host.gather gather_S100000x1_S1024x1x1_S1024x1x1_2_0_n_n_0_2_11 tbl (wrapIdx 100000#32 idx))
    (broadcastInDim S1024x1x1 ![] bcast_S_S1024x1x1 (constant S_ .f32 0x7FC00000#32))

/-- The rows of the 2000 × 64 table at the index column. -/
def take2 (tbl : FVec Ideal S2000x64 .f32) (idx : IVec S1024x1 32) : FVec Ideal S1024x1x64 .f32 :=
  select (broadcastInDim S1024x1x64 ![0, 1] bcast_S1024x1_S1024x1x64_0_1 (rowMask 1999#32 (wrapIdx 2000#32 idx)))
    (Host.gather gather_S2000x64_S1024x1x1_S1024x1x64_2_0_n_n_0_2_164 tbl (wrapIdx 2000#32 idx))
    (broadcastInDim S1024x1x64 ![] bcast_S_S1024x1x64 (constant S_ .f32 0x7FC00000#32))

/-- The reference's result as a function of its six arguments. -/
def refVal (a0 a1 : IVec S1024x1 32) (a2 : FVec Ideal S100000x64 .f32) (a3 : FVec Ideal S2000x64 .f32)
    (a4 a5 : FVec Ideal S100000x1 .f32) : FVec Ideal S1024x100000 .f32 :=
  addf
    (addf
      (Host.dotGeneral dot_S1024x64_S64x100000_S1024x100000_1_0_0_1_n_n none
        (shapeCast S1024x64 (mulf (take0 a2 a0) (take2 a3 a1)) shapeCasts_S1024x1x64_S1024x64)
        (transpose S64x100000 [1, 0] a2 transposes_S100000x64_S64x100000_1_0))
      (broadcastInDim S1024x100000 ![0, 1] bcast_S1024x1_S1024x100000_0_1
        (shapeCast S1024x1 (take1 a4 a0) shapeCasts_S1024x1x1_S1024x1)))
    (broadcastInDim S1024x100000 ![0, 1] bcast_S1x100000_S1024x100000_0_1
      (broadcastInDim S1x100000 ![1] bcast_S100000_S1x100000_1
        (shapeCast S100000 a5 shapeCasts_S100000x1_S100000)))

attribute [local irreducible] Host.reduce Host.gather in
set_option maxRecDepth 8192 in
set_option maxHeartbeats 1000000 in
/-- The fold of the eighty operations at the result buffer is `refVal` of the contents of the six argument buffers. -/
theorem out_eq (V : Valuation τ sig (Elt Ideal)) :
    after (ops (F := Ideal)) V (main_v13 : DevRef τ sig)
      = refVal (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  after_results_simp
  rfl

set_option maxRecDepth 8192 in
theorem arg0_eq (V : Valuation τ sig (Elt Ideal)) :
    after (ops (F := Ideal)) V (main_arg0 : DevRef τ sig) = V (main_arg0 : DevRef τ sig) := by after_results_simp
set_option maxRecDepth 8192 in
theorem arg1_eq (V : Valuation τ sig (Elt Ideal)) :
    after (ops (F := Ideal)) V (main_arg1 : DevRef τ sig) = V (main_arg1 : DevRef τ sig) := by after_results_simp
set_option maxRecDepth 8192 in
theorem arg2_eq (V : Valuation τ sig (Elt Ideal)) :
    after (ops (F := Ideal)) V (main_arg2 : DevRef τ sig) = V (main_arg2 : DevRef τ sig) := by after_results_simp
set_option maxRecDepth 8192 in
theorem arg3_eq (V : Valuation τ sig (Elt Ideal)) :
    after (ops (F := Ideal)) V (main_arg3 : DevRef τ sig) = V (main_arg3 : DevRef τ sig) := by after_results_simp
set_option maxRecDepth 8192 in
theorem arg4_eq (V : Valuation τ sig (Elt Ideal)) :
    after (ops (F := Ideal)) V (main_arg4 : DevRef τ sig) = V (main_arg4 : DevRef τ sig) := by after_results_simp
set_option maxRecDepth 8192 in
theorem arg5_eq (V : Valuation τ sig (Elt Ideal)) :
    after (ops (F := Ideal)) V (main_arg5 : DevRef τ sig) = V (main_arg5 : DevRef τ sig) := by after_results_simp

/-- From any memory with zero counters every weakly fair execution of @main terminates without a fault, with the
    result buffer at `refVal` of the launch contents of the argument buffers and the argument buffers unchanged. -/
theorem run (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => ∀ c : Dev Cert.ReferenceIdeal.nD,
        r.2.mem ((c.tc : Thread Cert.ReferenceIdeal.nD Cert.ReferenceIdeal.τ).loc Cert.ReferenceIdeal.main_v13)
            = refVal (m ((c.tc : Thread Cert.ReferenceIdeal.nD Cert.ReferenceIdeal.τ).loc Cert.ReferenceIdeal.main_arg0))
                (m ((c.tc : Thread Cert.ReferenceIdeal.nD Cert.ReferenceIdeal.τ).loc Cert.ReferenceIdeal.main_arg1))
                (m ((c.tc : Thread Cert.ReferenceIdeal.nD Cert.ReferenceIdeal.τ).loc Cert.ReferenceIdeal.main_arg2))
                (m ((c.tc : Thread Cert.ReferenceIdeal.nD Cert.ReferenceIdeal.τ).loc Cert.ReferenceIdeal.main_arg3))
                (m ((c.tc : Thread Cert.ReferenceIdeal.nD Cert.ReferenceIdeal.τ).loc Cert.ReferenceIdeal.main_arg4))
                (m ((c.tc : Thread Cert.ReferenceIdeal.nD Cert.ReferenceIdeal.τ).loc Cert.ReferenceIdeal.main_arg5))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)) :=
  (θ_run defs _ _).mono (fun _ h c => ⟨(h c main_v13).trans (out_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _)⟩)
    (run_after m g)

end Cert.ReferenceIdeal.Hand

end
-- ==== Proof.RefGather.lean ====
/-
  A gather of the rows of a table at a column of indices that carries a trailing unit axis, read at one index.

  The operand is `[N, H]`, the start indices are `[E, 1, 1]` with the index vector on the last axis, the result is
  `[E, 1, H]`: operand axis 0 is collapsed and named by the start index, operand axis 1 is kept whole as the result's
  last axis. Result element `(e, u, h)` is the operand at row `clamp(idx[e, u, 0])` and column `h`, the start index read
  as a signed integer and clamped into `[0, N − 1]`. Where the index word is a number below `N` (and `N` is at most
  `2 ^ 31`) the clamp is the identity. The extents are variables: nothing here is evaluated over them.
-/
import Idealize.ShloMosaic.PureOps.Ideal.Laws
import Idealize.ShloMosaic.Lib.ValueIdx
import Idealize.ShloMosaic.Lib.DynamicIndex

namespace Cert.ReferenceIdeal.Hand

open Idealize.ShloMosaic Idealize.ShloMosaic.ValueIdx

variable {E N H w : ℕ}

/-- The dimension numbers: the result's last axis is the offset axis, operand axis 0 is collapsed and named by the
    index's one component, the index vector is the start indices' last axis. -/
def gath3 (wf : GatherDims.WF ⟨2, ![N, H]⟩ ⟨3, ![E, 1, 1]⟩ ⟨3, ![E, 1, H]⟩ [2] [0] [] [0] [] 2 ![1, H]) :
    GatherDims ⟨2, ![N, H]⟩ ⟨3, ![E, 1, 1]⟩ ⟨3, ![E, 1, H]⟩ :=
  { offsetDims := [2], collapsedSliceDims := [0], operandBatchingDims := [], startIndicesBatchingDims := [],
    startIndexMap := [0], indexVectorDim := 2, sliceSizes := ![1, H], wf := wf }

/-- On operand axis 0 the gather reads the clamped signed start index. -/
theorem gath3_coord0 (wf : GatherDims.WF ⟨2, ![N, H]⟩ ⟨3, ![E, 1, 1]⟩ ⟨3, ![E, 1, H]⟩ [2] [0] [] [0] [] 2 ![1, H])
    (idx : IVec ⟨3, ![E, 1, 1]⟩ w) (j : (⟨3, ![E, 1, H]⟩ : Shape).Idx) :
    (gath3 wf).start j idx 0 + (gath3 wf).batchCoord j 0 + (gath3 wf).offCoord j 0
      = min (idx (ix3 (j 0) (j 1) (0 : Fin 1))).toInt.toNat (N - 1) := by
  have h0 : (0 : Fin 2) ∈ (gath3 wf).startIndexMap := List.mem_singleton.mpr rfl
  rw [GatherDims.batchCoord_eq_zero _ _ _ List.not_mem_nil, Nat.add_zero,
    GatherDims.offCoord_eq_zero _ _ _ (fun h => ((GatherDims.mem_sKept _ _).mp h).1 (List.mem_singleton.mpr rfl)),
    Nat.add_zero]
  unfold GatherDims.start
  rw [dif_pos h0]
  have hsi : (gath3 wf).siIdx j ⟨List.idxOf (0 : Fin 2) (gath3 wf).startIndexMap,
      List.idxOf_lt_length_iff.2 h0⟩ = ix3 (j 0) (j 1) (0 : Fin 1) := by
    funext b; refine Fin.ext ?_
    match b with
    | ⟨0, _⟩ => rfl
    | ⟨1, _⟩ => rfl
    | ⟨2, _⟩ => rfl
  rw [hsi]
  rfl

/-- On operand axis 1 the gather reads the result's offset coordinate. -/
theorem gath3_coord1 (wf : GatherDims.WF ⟨2, ![N, H]⟩ ⟨3, ![E, 1, 1]⟩ ⟨3, ![E, 1, H]⟩ [2] [0] [] [0] [] 2 ![1, H])
    (idx : IVec ⟨3, ![E, 1, 1]⟩ w) (j : (⟨3, ![E, 1, H]⟩ : Shape).Idx) :
    (gath3 wf).start j idx 1 + (gath3 wf).batchCoord j 1 + (gath3 wf).offCoord j 1 = (j 2).val := by
  have h1 : (1 : Fin 2) ∉ (gath3 wf).startIndexMap := fun h =>
    Nat.one_ne_zero (congrArg Fin.val (List.mem_singleton.mp h))
  have hk : (1 : Fin 2) ∈ (gath3 wf).sKept :=
    (GatherDims.mem_sKept _ _).mpr ⟨fun h => Nat.one_ne_zero (congrArg Fin.val (List.mem_singleton.mp h)),
      List.not_mem_nil⟩
  have hst : (gath3 wf).start j idx 1 = 0 := by unfold GatherDims.start; rw [dif_neg h1]
  have hoff : (gath3 wf).offCoord j 1 = (j 2).val := by
    unfold GatherDims.offCoord; rw [dif_pos hk]; rfl
  rw [GatherDims.batchCoord_eq_zero _ _ _ List.not_mem_nil, hst, hoff]
  omega

/-- Result element `(e, u, h)` is the operand at row `idx[e, u, 0]` (read signed, clamped into `[0, N − 1]`),
    column `h`. -/
theorem gath3_apply {α : Type} (hN : 0 < N)
    (wf : GatherDims.WF ⟨2, ![N, H]⟩ ⟨3, ![E, 1, 1]⟩ ⟨3, ![E, 1, H]⟩ [2] [0] [] [0] [] 2 ![1, H])
    (x : (⟨2, ![N, H]⟩ : Shape).Idx → α) (idx : IVec ⟨3, ![E, 1, 1]⟩ w) (j : (⟨3, ![E, 1, H]⟩ : Shape).Idx) :
    Host.gather (gath3 wf) x idx j
      = x (ix2 ⟨min (idx (ix3 (j 0) (j 1) (0 : Fin 1))).toInt.toNat (N - 1), by omega⟩ (j 2)) := by
  unfold Host.gather
  congr 1
  funext a
  refine Fin.ext ?_
  match a with
  | ⟨0, _⟩ => exact gath3_coord0 wf idx j
  | ⟨1, _⟩ => exact gath3_coord1 wf idx j

/-- Where the 32-bit index word is a row number `r` of the table (at most `2 ^ 31` rows), the clamp is the identity:
    result element `(e, u, h)` is the operand at `(r, h)`. -/
theorem gath3_apply_of_row {α : Type} (hN : N ≤ 2 ^ 31)
    (wf : GatherDims.WF ⟨2, ![N, H]⟩ ⟨3, ![E, 1, 1]⟩ ⟨3, ![E, 1, H]⟩ [2] [0] [] [0] [] 2 ![1, H])
    (x : (⟨2, ![N, H]⟩ : Shape).Idx → α) (idx : IVec ⟨3, ![E, 1, 1]⟩ 32) (j : (⟨3, ![E, 1, H]⟩ : Shape).Idx)
    (r : Fin N) (hr : idx (ix3 (j 0) (j 1) (0 : Fin 1)) = BitVec.ofNat 32 r.val) :
    Host.gather (gath3 wf) x idx j = x (ix2 r (j 2)) := by
  have hrlt := r.isLt
  rw [gath3_apply (by omega) wf x idx j]
  congr 1
  have hi : (idx (ix3 (j 0) (j 1) (0 : Fin 1))).toInt = (r.val : ℤ) := by
    rw [hr]; exact toInt_ofNat_of_lt (by omega)
  have hv : min (idx (ix3 (j 0) (j 1) (0 : Fin 1))).toInt.toNat (N - 1) = r.val := by
    rw [hi]; omega
  funext a
  refine Fin.ext ?_
  match a with
  | ⟨0, _⟩ => exact hv
  | ⟨1, _⟩ => rfl

end Cert.ReferenceIdeal.Hand
-- ==== Proof.LibMatmulPlain.lean ====
/-
  A plain matrix product read at an index, over the extended reals.

  For the dimension numbers of an M×K by K×N product (contract the left operand's axis 1 with the right
  operand's axis 0, no batch axes), the product accumulated into the zero matrix has, at row `p` and column `q`,
  the entry  Σ_{k < K} lhs(p, k) · rhs(k, q):  the contraction index of the dimension numbers is its one coordinate,
  the left index keeps the row and takes the contraction coordinate as its column, and the right index takes the
  contraction coordinate as its row and keeps the column. Generic in M, K, N and in the operands' formats.
-/
import Idealize.ShloMosaic.PureOps.Ideal.Laws
import Idealize.ShloMosaic.Lib.ValueIdx

noncomputable section

open scoped BigOperators

namespace Cert.LibMatmulPlain

open Idealize.ShloMosaic Idealize.ShloMosaic.ValueIdx

variable {M K N : Nat}

/-- The left index keeps the output's row. -/
theorem plain_lhs_row (j : (⟨2, ![M, N]⟩ : Shape).Idx) (k : (DotDims.plain M K N).contr.Idx) :
    ((DotDims.plain M K N).lhsIdx j k 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton_self _)]
  rfl

/-- The left index's column is the contraction coordinate. -/
theorem plain_lhs_col (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k

/-- The right index's row is the contraction coordinate. -/
theorem plain_rhs_row (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k

/-- The right index keeps the output's column. -/
theorem plain_rhs_col (j : (⟨2, ![M, N]⟩ : Shape).Idx) (k : (DotDims.plain M K N).contr.Idx) :
    ((DotDims.plain M K N).rhsIdx j k 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton_self _)]
  rfl

/-- THE PRODUCT AT AN ENTRY: a matrix product with plain dimension numbers, accumulated into the zero matrix, is at
    `(p, q)` the sum over the contracted axis of the operands' products. The dimension numbers are passed as any record
    equal to `DotDims.plain M K N` (a printed record with the same six lists is, by `rfl`). -/
theorem matmul_plain_zero_apply {φ₁ φ₂ : FTy} (D : DotDims ⟨2, ![M, K]⟩ ⟨2, ![K, N]⟩ ⟨2, ![M, N]⟩)
    (hD : D = DotDims.plain M K N) (prec : Option ContractPrecision)
    (lhs : FVec Ideal ⟨2, ![M, K]⟩ φ₁) (rhs : FVec Ideal ⟨2, ![K, N]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_row _ _
      | ⟨1, _⟩ => exact (plain_lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_row _ _).trans hk
      | ⟨1, _⟩ => exact plain_rhs_col _ _)
  rw [el, er]

end Cert.LibMatmulPlain

end
-- ==== Proof.LibDotGeneralPlain.lean ====
/-
  The host's matrix product read at an index, over the extended reals, and the product as one function.

  `matProd x w` is the M×N matrix whose entry (p, q) is  Σ_{k < K} x(p, k) · w(k, q).  For the dimension numbers of a
  plain M×K by K×N product, the host's `dot_general` (which accumulates onto zero) is `matProd` of its operands, entry
  by entry; together with the same reading of a kernel's matrix product into the zero accumulator
  (LibMatmulPlain) this is what lets a product computed row block by row block be compared with one whole product.
  Generic in M, K, N and in the operands' formats.
-/
import proofs.«203358_g20435454394731_cont_8to1_1864_22_alg».proof.Proof.LibMatmulPlain

noncomputable section

open scoped BigOperators

namespace Cert.LibDotGeneralPlain

open Idealize.ShloMosaic Idealize.ShloMosaic.ValueIdx Cert.LibMatmulPlain

variable {M K N : Nat}

/-- The M×K by K×N matrix product over the extended reals: entry (p, q) is the sum over k of x(p, k) · w(k, q). -/
def matProd (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

theorem matProd_apply (x : (⟨2, ![M, K]⟩ : Shape).Idx → EReal) (w : (⟨2, ![K, N]⟩ : Shape).Idx → EReal) (p : Fin M) (q : Fin N) :
    matProd x w (ix2 p q) = ∑ k : Fin K, x (ix2 p k) * w (ix2 k q) := rfl

/-- THE HOST'S PRODUCT AT AN ENTRY: `dot_general` with plain dimension numbers is at `(p, q)` the sum over the
    contracted axis of the operands' products, whatever the precision and the schedule key. -/
theorem dotGeneral_plain_apply {φ₁ φ₂ : FTy} (D : DotDims ⟨2, ![M, K]⟩ ⟨2, ![K, N]⟩ ⟨2, ![M, N]⟩)
    (hD : D = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral D prec sched lhs rhs (ix2 p q) = ∑ k : Fin K, lhs (ix2 p k) * rhs (ix2 k q) := by
  subst hD
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_row _ _
      | ⟨1, _⟩ => exact (plain_lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_row _ _).trans hk
      | ⟨1, _⟩ => exact plain_rhs_col _ _)
  rw [el, er]

/-- The host's whole product is `matProd` of its operands. -/
theorem dotGeneral_plain_eq {φ₁ φ₂ : FTy} (D : DotDims ⟨2, ![M, K]⟩ ⟨2, ![K, N]⟩ ⟨2, ![M, N]⟩)
    (hD : D = DotDims.plain M K N) (prec : Option ContractPrecision) (sched : HostSchedule)
    (lhs : FVec Ideal ⟨2, ![M, K]⟩ φ₁) (rhs : FVec Ideal ⟨2, ![K, N]⟩ φ₂) :
    FloatOps.dotGeneral D prec sched lhs rhs = matProd lhs rhs := by
  funext i
  obtain ⟨p, q, rfl⟩ : ∃ (p : Fin M) (q : Fin N), i = ix2 p q := ⟨i 0, i 1, eq_ix2 i⟩
  rw [dotGeneral_plain_apply D hD, matProd_apply]

end Cert.LibDotGeneralPlain

end
-- ==== Proof.LibHostBroadcast.lean ====
/-
  Host broadcasts of a column, of a row and of a scalar, read at an index given by coordinates.

  `broadcast_in_dim` moves no data. A column [a, 1] broadcast over b columns has, at (p, c), the column's entry (p, 0);
  a row [1, b] broadcast over a rows has, at (p, c), the row's entry (0, c); a vector [b] placed as the row [1, b] has,
  at (u, c), the vector's entry c; a scalar broadcast to any shape has the scalar everywhere. Composed: a vector [a]
  kept as a column and spread over the columns reads its entry p at (p, c), a vector [b] placed as a row and spread
  over the rows reads its entry c. Generic in the extents; the axis maps are passed with their values.
-/
import Idealize.ShloMosaic.Lib.Pipeline.Value
import Idealize.ShloMosaic.Lib.ValueIdx

namespace Cert.LibHostBroadcast

open Idealize.ShloMosaic Idealize.ShloMosaic.ValueIdx

variable {α : Type}

/-- An [a, 1] column broadcast (axes kept in place) over b columns reads, at (p, c), the column at (p, 0). -/
theorem bcast_a1_ab_apply {a b : ℕ} (dims : Fin (⟨2, ![a, 1]⟩ : Shape).rank → Fin (⟨2, ![a, b]⟩ : Shape).rank)
    (hd0 : dims ⟨0, Nat.succ_pos 1⟩ = ⟨0, Nat.succ_pos 1⟩)
    (h : (⟨2, ![a, 1]⟩ : Shape).BroadcastsInDim ⟨2, ![a, b]⟩ dims) (x : (⟨2, ![a, 1]⟩ : Shape).Idx → α)
    (p : Fin a) (c : Fin b) : broadcastInDim ⟨2, ![a, b]⟩ dims h x (ix2 p c) = x (ix2 p (0 : Fin 1)) := by
  refine broadcastInDim_apply dims h x (ix2 p c) (ix2 p (0 : Fin 1)) fun ax => ?_
  match ax with
  | ⟨0, _⟩ =>
    show p.val = if a = 1 then 0 else (ix2 p c (dims ⟨0, Nat.succ_pos 1⟩)).val
    rw [hd0]
    show p.val = if a = 1 then 0 else p.val
    split
    · have := p.isLt; omega
    · rfl
  | ⟨1, _⟩ => rfl

/-- A [1, b] row broadcast (axes kept in place) over a rows reads, at (p, c), the row at (0, c). -/
theorem bcast_1b_ab_apply {a b : ℕ} (dims : Fin (⟨2, ![1, b]⟩ : Shape).rank → Fin (⟨2, ![a, b]⟩ : Shape).rank)
    (hd1 : dims ⟨1, Nat.lt_succ_self 1⟩ = ⟨1, Nat.lt_succ_self 1⟩)
    (h : (⟨2, ![1, b]⟩ : Shape).BroadcastsInDim ⟨2, ![a, b]⟩ dims) (x : (⟨2, ![1, b]⟩ : Shape).Idx → α)
    (p : Fin a) (c : Fin b) : broadcastInDim ⟨2, ![a, b]⟩ dims h x (ix2 p c) = x (ix2 (0 : Fin 1) c) := by
  refine broadcastInDim_apply dims h x (ix2 p c) (ix2 (0 : Fin 1) c) fun ax => ?_
  match ax with
  | ⟨0, _⟩ => rfl
  | ⟨1, _⟩ =>
    show c.val = if b = 1 then 0 else (ix2 p c (dims ⟨1, Nat.lt_succ_self 1⟩)).val
    rw [hd1]
    show c.val = if b = 1 then 0 else c.val
    split
    · have := c.isLt; omega
    · rfl

/-- A vector [b] placed along axis 1 of a [1, b] row reads, at (u, c), the vector at c. -/
theorem bcast_b_1b_apply {b : ℕ} (dims : Fin (⟨1, ![b]⟩ : Shape).rank → Fin (⟨2, ![1, b]⟩ : Shape).rank)
    (hd : dims ⟨0, Nat.one_pos⟩ = ⟨1, Nat.lt_succ_self 1⟩)
    (h : (⟨1, ![b]⟩ : Shape).BroadcastsInDim ⟨2, ![1, b]⟩ dims) (x : (⟨1, ![b]⟩ : Shape).Idx → α)
    (u : Fin 1) (c : Fin b) : broadcastInDim ⟨2, ![1, b]⟩ dims h x (ix2 u c) = x (ix1 c) := by
  refine broadcastInDim_apply dims h x (ix2 u c) (ix1 c) fun ax => ?_
  match ax with
  | ⟨0, _⟩ =>
    show c.val = if b = 1 then 0 else (ix2 u c (dims ⟨0, Nat.one_pos⟩)).val
    rw [hd]
    show c.val = if b = 1 then 0 else c.val
    split
    · have := c.isLt; omega
    · rfl

/-- A vector [a] placed along axis 0 of an [a, 1] column reads, at (p, u), the vector at p. -/
theorem bcast_a_a1_apply {a : ℕ} (dims : Fin (⟨1, ![a]⟩ : Shape).rank → Fin (⟨2, ![a, 1]⟩ : Shape).rank)
    (hd : dims ⟨0, Nat.one_pos⟩ = ⟨0, Nat.succ_pos 1⟩)
    (h : (⟨1, ![a]⟩ : Shape).BroadcastsInDim ⟨2, ![a, 1]⟩ dims) (x : (⟨1, ![a]⟩ : Shape).Idx → α)
    (p : Fin a) (u : Fin 1) : broadcastInDim ⟨2, ![a, 1]⟩ dims h x (ix2 p u) = x (ix1 p) := by
  refine broadcastInDim_apply dims h x (ix2 p u) (ix1 p) fun ax => ?_
  match ax with
  | ⟨0, _⟩ =>
    show p.val = if a = 1 then 0 else (ix2 p u (dims ⟨0, Nat.one_pos⟩)).val
    rw [hd]
    show p.val = if a = 1 then 0 else p.val
    split
    · have := p.isLt; omega
    · rfl

/-- A scalar broadcast to any shape is the scalar at every index. -/
theorem bcast_scalar_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 fun ax => ax.elim0

end Cert.LibHostBroadcast
-- ==== Proof.RefRead.lean ====
/-
  The reference's result read at one index, for index words that are row numbers of their tables.

  Where the index word of row `b` is the number `s` of a row of the first table (and of the bias column) and the
  relation word is the number `k` of a row of the second table, jnp.take neither wraps (the word read signed is not
  negative) nor masks (it lies between zero and the last row), and its gather's clamp is the identity: the three takes
  read row `s`, entry `s` and row `k`. The contraction over the 64 columns of the product of the two rows with row
  `n` of the first table, plus the bias entry `s`, plus the second bias entry `n`, is the result at `(b, n)`:

    refVal … (b, n) = ((Σ_d (ent(s, d) · rel(k, d)) · ent(n, d)) + head(s, 0)) + tail(n, 0)

  over the extended reals. Each layout operation (a unit axis dropped or added, a transpose, a broadcast) moves no
  data and is read at the index it reads.
-/
import proofs.«203358_g20435454394731_cont_8to1_1864_22_alg».proof.Proof.RefRun
import proofs.«203358_g20435454394731_cont_8to1_1864_22_alg».proof.Proof.RefGather
import proofs.«203358_g20435454394731_cont_8to1_1864_22_alg».proof.Proof.LibDotGeneralPlain
import proofs.«203358_g20435454394731_cont_8to1_1864_22_alg».proof.Proof.LibHostBroadcast
import Idealize.ShloMosaic.Lib.ValueLayout
import Idealize.ShloMosaic.Lib.Affine
import Idealize.ShloMosaic.PureOps.Reduce

noncomputable section

open scoped BigOperators

namespace Cert.ReferenceIdeal.Hand

open Cert.ReferenceIdeal Cert.ReferenceIdeal.Gen Idealize.ShloMosaic Idealize.ShloMosaic.ValueIdx

/-! ## Unit axes dropped by a shape cast -/

section Layout
variable {α : Type}

/-- An `[a, 1, c]` array cast to `[a, c]` reads, at `(i, j)`, the operand at `(i, 0, j)`. -/
theorem shapeCast_a1c_ac_apply {a c : ℕ} (x : (⟨3, ![a, 1, c]⟩ : Shape).Idx → α)
    (h : (⟨3, ![a, 1, c]⟩ : Shape).ShapeCasts ⟨2, ![a, c]⟩) (i : Fin a) (j : Fin c) :
    shapeCast ⟨2, ![a, c]⟩ x h (ix2 i j) = x (ix3 i (0 : Fin 1) j) :=
  shapeCast_apply x h _ _ (by
    rw [Shape.rowMajor_val_three, Shape.rowMajor_val_two]
    show (i.val * 1 + 0) * c + j.val = i.val * c + j.val
    rw [Nat.mul_one, Nat.add_zero])

/-- An `[a, 1]` column cast to the vector `[a]` reads, at `i`, the column at `(i, 0)`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` array broadcast (axes kept in place) to `[a, 1, c]` reads, at `(i, u, j)`, the operand at `(i, u)`. -/
theorem bcast_a1_a1c_apply {a c : ℕ} (dims : Fin (⟨2, ![a, 1]⟩ : Shape).rank → Fin (⟨3, ![a, 1, c]⟩ : Shape).rank)
    (hd0 : dims ⟨0, Nat.succ_pos 1⟩ = ⟨0, Nat.succ_pos 2⟩)
    (h : (⟨2, ![a, 1]⟩ : Shape).BroadcastsInDim ⟨3, ![a, 1, c]⟩ dims) (x : (⟨2, ![a, 1]⟩ : Shape).Idx → α)
    (i : Fin a) (u : Fin 1) (j : Fin c) :
    broadcastInDim ⟨3, ![a, 1, c]⟩ dims h x (ix3 i u j) = x (ix2 i (0 : Fin 1)) := by
  refine broadcastInDim_apply dims h x (ix3 i u j) (ix2 i (0 : Fin 1)) fun ax => ?_
  match ax with
  | ⟨0, _⟩ =>
    show i.val = if a = 1 then 0 else (ix3 i u j (dims ⟨0, Nat.succ_pos 1⟩)).val
    rw [hd0]
    show i.val = if a = 1 then 0 else i.val
    split
    · have := i.isLt; omega
    · rfl
  | ⟨1, _⟩ => rfl

end Layout

/-! ## The index words -/

/-- The word `0` read signed is zero. -/
theorem toInt_zero32 : (0#32 : BitVec 32).toInt = 0 := by decide

/-- A take's wrapped index, where the index word is a number below `2 ^ 31`, is that word: it is not negative read
    signed, so the select keeps it. -/
theorem wrapIdx_apply (n : BitVec 32) (idx : IVec S1024x1 32) (b : Fin 1024) (r : ℕ) (hr : r < 2 ^ 31)
    (h : idx (ix2 b (0 : Fin 1)) = BitVec.ofNat 32 r) :
    wrapIdx n idx (ix3 b (0 : Fin 1) (0 : Fin 1)) = BitVec.ofNat 32 r := by
  unfold wrapIdx
  refine (bcast_a1_a1c_apply _ rfl _ _ b (0 : Fin 1) (0 : Fin 1)).trans ?_
  show Scalar.select (IntOp.cmpi .slt (idx (ix2 b (0 : Fin 1))) 0#32) (IntOp.addi (idx (ix2 b (0 : Fin 1))) n)
    (idx (ix2 b (0 : Fin 1))) = _
  rw [h]
  have hc : IntOp.cmpi .slt (BitVec.ofNat 32 r) 0#32 = 0#1 := by
    refine eq_zero_of_ne_one fun hc => ?_
    rw [IntOp.cmpi_slt, toInt_ofNat_of_lt hr, toInt_zero32] at hc
    omega
  rw [hc, select_zero]

/-- The range test of a take, where the wrapped index word is a number `r` below `2 ^ 31` that is at most the last
    row `hi` read signed, holds: both signed comparisons hold, and the conjunction over the unit axis is of that one
    element with the constant true. -/
theorem rowMask_apply (hi : BitVec 32) (i : IVec S1024x1x1 32) (b : Fin 1024) (r : ℕ) (hr : r < 2 ^ 31)
    (hhi : (r : ℤ) ≤ hi.toInt) (h : i (ix3 b (0 : Fin 1) (0 : Fin 1)) = BitVec.ofNat 32 r) :
    rowMask hi i (ix2 b (0 : Fin 1)) = 1#1 := by
  unfold rowMask
  have hR : S1024x1x1.Reduces [2] S1024x1 := by decide
  rw [Host.reduce_eq_fold_single IntOp.andi _ _ reducesTo_S1024x1x1_S1024x1_d2 hR h_S_ (ix2 b (0 : Fin 1))]
  have hu : (Finset.univ : Finset (Fin (S1024x1x1.size 2))) = {(⟨0, Nat.one_pos⟩ : Fin (S1024x1x1.size 2))} := by
    ext x
    simp only [Finset.mem_univ, Finset.mem_singleton, true_iff]
    have hx : x.val < 1 := x.isLt
    exact Fin.ext (by show x.val = 0; omega)
  rw [hu, Finset.fold_singleton, IntOp.andi_eq_one]
  refine ⟨?_, rfl⟩
  have hl : hR.lift (ix2 b (0 : Fin 1)) (⟨0, Nat.one_pos⟩ : Fin (S1024x1x1.size 2)) = ix3 b (0 : Fin 1) (0 : Fin 1) := by
    funext c; refine Fin.ext ?_
    match c with
    | ⟨0, _⟩ => rfl
    | ⟨1, _⟩ => rfl
    | ⟨2, _⟩ => rfl
  show andi _ _ (hR.lift (ix2 b (0 : Fin 1)) (⟨0, Nat.one_pos⟩ : Fin (S1024x1x1.size 2))) = 1#1
  rw [hl]
  show IntOp.andi (IntOp.cmpi .sge (i (ix3 b (0 : Fin 1) (0 : Fin 1))) 0#32)
    (IntOp.cmpi .sle (i (ix3 b (0 : Fin 1) (0 : Fin 1))) hi) = 1#1
  rw [h, IntOp.andi_eq_one, IntOp.cmpi_sge, IntOp.cmpi_sle, toInt_ofNat_of_lt hr, toInt_zero32]
  exact ⟨by omega, hhi⟩

/-! ## The three takes -/

theorem toInt_99999 : (99999#32 : BitVec 32).toInt = 99999 := by decide
theorem toInt_1999 : (1999#32 : BitVec 32).toInt = 1999 := by decide

/-- Rows of the first table: at an index word that is the row number `s`, the take reads row `s`. -/
theorem take0_apply (tbl : FVec Ideal S100000x64 .f32) (idx : IVec S1024x1 32) (b : Fin 1024) (d : Fin 64)
    (s : Fin 100000) (hs : idx (ix2 b (0 : Fin 1)) = BitVec.ofNat 32 s.val) :
    take0 tbl idx (ix3 b (0 : Fin 1) d) = tbl (ix2 s d) := by
  have hslt := s.isLt
  have hi := wrapIdx_apply 100000#32 idx b s.val (by omega) hs
  have hm := rowMask_apply 99999#32 (wrapIdx 100000#32 idx) b s.val (by omega) (by rw [toInt_99999]; omega) hi
  unfold take0
  show Scalar.select
      (broadcastInDim S1024x1x64 ![0, 1] bcast_S1024x1_S1024x1x64_0_1 (rowMask 99999#32 (wrapIdx 100000#32 idx)) (ix3 b (0 : Fin 1) d))
      (Host.gather gather_S100000x64_S1024x1x1_S1024x1x64_2_0_n_n_0_2_164 tbl (wrapIdx 100000#32 idx) (ix3 b (0 : Fin 1) d)) _ = _
  rw [bcast_a1_a1c_apply _ rfl _ _ b (0 : Fin 1) d, hm, select_one]
  exact gath3_apply_of_row (by norm_num) gather_S100000x64_S1024x1x1_S1024x1x64_2_0_n_n_0_2_164_wf tbl
    (wrapIdx 100000#32 idx) (ix3 b (0 : Fin 1) d) s hi

/-- Entries of the bias column: at an index word that is the row number `s`, the take reads entry `s`. -/
theorem take1_apply (tbl : FVec Ideal S100000x1 .f32) (idx : IVec S1024x1 32) (b : Fin 1024)
    (s : Fin 100000) (hs : idx (ix2 b (0 : Fin 1)) = BitVec.ofNat 32 s.val) :
    take1 tbl idx (ix3 b (0 : Fin 1) (0 : Fin 1)) = tbl (ix2 s (0 : Fin 1)) := by
  have hslt := s.isLt
  have hi := wrapIdx_apply 100000#32 idx b s.val (by omega) hs
  have hm := rowMask_apply 99999#32 (wrapIdx 100000#32 idx) b s.val (by omega) (by rw [toInt_99999]; omega) hi
  unfold take1
  show Scalar.select
      (broadcastInDim S1024x1x1 ![0, 1] bcast_S1024x1_S1024x1x1_0_1 (rowMask 99999#32 (wrapIdx 100000#32 idx)) (ix3 b (0 : Fin 1) (0 : Fin 1)))
      (Host.gather gather_S100000x1_S1024x1x1_S1024x1x1_2_0_n_n_0_2_11 tbl (wrapIdx 100000#32 idx) (ix3 b (0 : Fin 1) (0 : Fin 1))) _ = _
  rw [bcast_a1_a1c_apply _ rfl _ _ b (0 : Fin 1) (0 : Fin 1), hm, select_one]
  exact gath3_apply_of_row (by norm_num) gather_S100000x1_S1024x1x1_S1024x1x1_2_0_n_n_0_2_11_wf tbl
    (wrapIdx 100000#32 idx) (ix3 b (0 : Fin 1) (0 : Fin 1)) s hi

/-- Rows of the second table: at an index word that is the row number `k`, the take reads row `k`. -/
theorem take2_apply (tbl : FVec Ideal S2000x64 .f32) (idx : IVec S1024x1 32) (b : Fin 1024) (d : Fin 64)
    (k : Fin 2000) (hk : idx (ix2 b (0 : Fin 1)) = BitVec.ofNat 32 k.val) :
    take2 tbl idx (ix3 b (0 : Fin 1) d) = tbl (ix2 k d) := by
  have hklt := k.isLt
  have hi := wrapIdx_apply 2000#32 idx b k.val (by omega) hk
  have hm := rowMask_apply 1999#32 (wrapIdx 2000#32 idx) b k.val (by omega) (by rw [toInt_1999]; omega) hi
  unfold take2
  show Scalar.select
      (broadcastInDim S1024x1x64 ![0, 1] bcast_S1024x1_S1024x1x64_0_1 (rowMask 1999#32 (wrapIdx 2000#32 idx)) (ix3 b (0 : Fin 1) d))
      (Host.gather gather_S2000x64_S1024x1x1_S1024x1x64_2_0_n_n_0_2_164 tbl (wrapIdx 2000#32 idx) (ix3 b (0 : Fin 1) d)) _ = _
  rw [bcast_a1_a1c_apply _ rfl _ _ b (0 : Fin 1) d, hm, select_one]
  exact gath3_apply_of_row (by norm_num) gather_S2000x64_S1024x1x1_S1024x1x64_2_0_n_n_0_2_164_wf tbl
    (wrapIdx 2000#32 idx) (ix3 b (0 : Fin 1) d) k hi

/-! ## The result at an index -/

/-- THE RESULT AT `(b, n)`, where row `b`'s index word is the row number `s` and its relation word the row number `k`:
    the contraction over the 64 columns of (row `s` of the first table times row `k` of the second) with row `n` of
    the first table, plus entry `s` of the first bias column, plus entry `n` of the second. -/
theorem refVal_apply (a0 a1 : IVec S1024x1 32) (a2 : FVec Ideal S100000x64 .f32) (a3 : FVec Ideal S2000x64 .f32)
    (a4 a5 : FVec Ideal S100000x1 .f32) (b : Fin 1024) (n : Fin 100000) (s : Fin 100000) (k : Fin 2000)
    (hs : a0 (ix2 b (0 : Fin 1)) = BitVec.ofNat 32 s.val) (hk : a1 (ix2 b (0 : Fin 1)) = BitVec.ofNat 32 k.val) :
    refVal a0 a1 a2 a3 a4 a5 (ix2 b n)
      = ((∑ d : Fin 64, (a2 (ix2 s d) * a3 (ix2 k d)) * a2 (ix2 n d)) + a4 (ix2 s (0 : Fin 1))) + a5 (ix2 n (0 : Fin 1)) := by
  unfold refVal
  rw [addf_apply, addf_apply]
  have hdot : Host.dotGeneral dot_S1024x64_S64x100000_S1024x100000_1_0_0_1_n_n none
        (shapeCast S1024x64 (mulf (take0 a2 a0) (take2 a3 a1)) shapeCasts_S1024x1x64_S1024x64)
        (transpose S64x100000 [1, 0] a2 transposes_S100000x64_S64x100000_1_0) (ix2 b n)
      = ∑ d : Fin 64, (a2 (ix2 s d) * a3 (ix2 k d)) * a2 (ix2 n d) := by
    refine (Cert.LibDotGeneralPlain.dotGeneral_plain_apply _ rfl none .single _ _ b n).trans ?_
    refine Finset.sum_congr rfl fun d _ => ?_
    rw [shapeCast_a1c_ac_apply _ _ b d, mulf_apply, take0_apply a2 a0 b d s hs, take2_apply a3 a1 b d k hk,
      transpose_ix2_apply a2 _ d n]
  have hhead : broadcastInDim S1024x100000 ![0, 1] bcast_S1024x1_S1024x100000_0_1
        (shapeCast S1024x1 (take1 a4 a0) shapeCasts_S1024x1x1_S1024x1) (ix2 b n) = a4 (ix2 s (0 : Fin 1)) := by
    rw [Cert.LibHostBroadcast.bcast_a1_ab_apply _ rfl _ _ b n, shapeCast_a1c_ac_apply _ _ b (0 : Fin 1),
      take1_apply a4 a0 b s hs]
  have htail : broadcastInDim S1024x100000 ![0, 1] bcast_S1x100000_S1024x100000_0_1
        (broadcastInDim S1x100000 ![1] bcast_S100000_S1x100000_1 (shapeCast S100000 a5 shapeCasts_S100000x1_S100000))
        (ix2 b n) = a5 (ix2 n (0 : Fin 1)) := by
    rw [Cert.LibHostBroadcast.bcast_1b_ab_apply _ rfl _ _ b n, Cert.LibHostBroadcast.bcast_b_1b_apply _ rfl _ _ (0 : Fin 1) n,
      shapeCast_a1_a_apply _ _ n]
  rw [hdot, hhead, htail]

end Cert.ReferenceIdeal.Hand

end
-- ==== Proof.TcPayload.lean ====
/-
  The payload of the one TensorCore kernel read at an index, over the extended reals.

  Both matrix products contract the operands' axis 0 (the left operand enters transposed): at row r and column b
  the product accumulated into the zero matrix is the sum over the contracted axis d of lhs(d, r) · rhs(d, b). The
  contraction index of the dimension numbers is its one coordinate; the left index takes it as its row and keeps the
  output's row as its column; the right index takes it as its row and keeps the output's column. The second product's
  right operand is the all-ones row, its contracted axis has one position; the bias row is broadcast along the rows.
-/
import proofs.«203358_g20435454394731_cont_8to1_1864_22_alg».proof.Proof.Gen.KernelIdeal.Skeleton
import Idealize.ShloMosaic.PureOps.Ideal.Laws
import Idealize.ShloMosaic.Lib.ValueIdx
import Idealize.ShloMosaic.Lib.Pipeline.Value

set_option maxRecDepth 16384

noncomputable section

open scoped BigOperators

namespace Cert.KernelIdeal.Tc

open Cert.KernelIdeal Cert.KernelIdeal.Gen
open Idealize.ShloMosaic Idealize.ShloMosaic.ValueIdx

/-- The word of 1.0 is one. -/
theorem ofBits_one_f32 : Ideal.ofBits .f32 0x3F800000#32 = 1 := by
  simp [Ideal.ofBits, Ideal.ieee, -EReal.coe_mul]; norm_num

/-- The first product at an entry. -/
theorem mm1_apply (l : FVec Ideal S64x4096 .f32) (rr : FVec Ideal S64x1024 .f32) (r : Fin 4096) (b : Fin 1024) :
    FloatOps.matmul dot_S64x4096_S64x1024_S4096x1024_0_0_1_1_n_n none l rr (constant (F := Ideal) S4096x1024 .f32 0x00000000#32) (ix2 r b)
      = ∑ d : Fin 64, l (ix2 d r) * rr (ix2 d b) := by
  rw [Ideal.matmul_constant_zero_apply,
    ← Equiv.sum_comp (contrEquiv1 dot_S64x4096_S64x1024_S4096x1024_0_0_1_1_n_n 64 rfl rfl).symm]
  refine Finset.sum_congr rfl fun k _ => ?_
  have hk := contrEquiv1_symm_val dot_S64x4096_S64x1024_S4096x1024_0_0_1_1_n_n 64 rfl rfl k
  have el : dot_S64x4096_S64x1024_S4096x1024_0_0_1_1_n_n.lhsIdx (ix2 r b)
      ((contrEquiv1 dot_S64x4096_S64x1024_S4096x1024_0_0_1_1_n_n 64 rfl rfl).symm k) = ix2 k r :=
    funext fun a => Fin.ext (by
      match a with
      | ⟨0, _⟩ => exact (dot_S64x4096_S64x1024_S4096x1024_0_0_1_1_n_n.lhsIdx_val_of_single rfl _ _).trans hk
      | ⟨1, _⟩ =>
        unfold DotDims.lhsIdx
        rw [dif_neg (show ¬(⟨1, by decide⟩ : Fin S64x4096.rank) ∈ dot_S64x4096_S64x1024_S4096x1024_0_0_1_1_n_n.lhsBatch from List.not_mem_nil),
          dif_pos (show (⟨1, by decide⟩ : Fin S64x4096.rank) ∈ dot_S64x4096_S64x1024_S4096x1024_0_0_1_1_n_n.lhsNonContracting from List.mem_singleton_self _)]
        rfl)
  have er : dot_S64x4096_S64x1024_S4096x1024_0_0_1_1_n_n.rhsIdx (ix2 r b)
      ((contrEquiv1 dot_S64x4096_S64x1024_S4096x1024_0_0_1_1_n_n 64 rfl rfl).symm k) = ix2 k b :=
    funext fun a => Fin.ext (by
      match a with
      | ⟨0, _⟩ => exact (dot_S64x4096_S64x1024_S4096x1024_0_0_1_1_n_n.rhsIdx_val_of_single rfl _ _).trans hk
      | ⟨1, _⟩ =>
        unfold DotDims.rhsIdx
        rw [dif_neg (show ¬(⟨1, by decide⟩ : Fin S64x1024.rank) ∈ dot_S64x4096_S64x1024_S4096x1024_0_0_1_1_n_n.rhsBatch from List.not_mem_nil),
          dif_pos (show (⟨1, by decide⟩ : Fin S64x1024.rank) ∈ dot_S64x4096_S64x1024_S4096x1024_0_0_1_1_n_n.rhsNonContracting from List.mem_singleton_self _)]
        rfl)
  rw [el, er]

/-- The second product at an entry. -/
theorem mm2_apply (l : FVec Ideal S1x4096 .f32) (rr : FVec Ideal S1x1024 .f32) (r : Fin 4096) (b : Fin 1024) :
    FloatOps.matmul dot_S1x4096_S1x1024_S4096x1024_0_0_1_1_n_n none l rr (constant (F := Ideal) S4096x1024 .f32 0x00000000#32) (ix2 r b)
      = ∑ d : Fin 1, l (ix2 d r) * rr (ix2 d b) := by
  rw [Ideal.matmul_constant_zero_apply,
    ← Equiv.sum_comp (contrEquiv1 dot_S1x4096_S1x1024_S4096x1024_0_0_1_1_n_n 1 rfl rfl).symm]
  refine Finset.sum_congr rfl fun k _ => ?_
  have hk := contrEquiv1_symm_val dot_S1x4096_S1x1024_S4096x1024_0_0_1_1_n_n 1 rfl rfl k
  have el : dot_S1x4096_S1x1024_S4096x1024_0_0_1_1_n_n.lhsIdx (ix2 r b)
      ((contrEquiv1 dot_S1x4096_S1x1024_S4096x1024_0_0_1_1_n_n 1 rfl rfl).symm k) = ix2 k r :=
    funext fun a => Fin.ext (by
      match a with
      | ⟨0, _⟩ => exact (dot_S1x4096_S1x1024_S4096x1024_0_0_1_1_n_n.lhsIdx_val_of_single rfl _ _).trans hk
      | ⟨1, _⟩ =>
        unfold DotDims.lhsIdx
        rw [dif_neg (show ¬(⟨1, by decide⟩ : Fin S1x4096.rank) ∈ dot_S1x4096_S1x1024_S4096x1024_0_0_1_1_n_n.lhsBatch from List.not_mem_nil),
          dif_pos (show (⟨1, by decide⟩ : Fin S1x4096.rank) ∈ dot_S1x4096_S1x1024_S4096x1024_0_0_1_1_n_n.lhsNonContracting from List.mem_singleton_self _)]
        rfl)
  have er : dot_S1x4096_S1x1024_S4096x1024_0_0_1_1_n_n.rhsIdx (ix2 r b)
      ((contrEquiv1 dot_S1x4096_S1x1024_S4096x1024_0_0_1_1_n_n 1 rfl rfl).symm k) = ix2 k b :=
    funext fun a => Fin.ext (by
      match a with
      | ⟨0, _⟩ => exact (dot_S1x4096_S1x1024_S4096x1024_0_0_1_1_n_n.rhsIdx_val_of_single rfl _ _).trans hk
      | ⟨1, _⟩ =>
        unfold DotDims.rhsIdx
        rw [dif_neg (show ¬(⟨1, by decide⟩ : Fin S1x1024.rank) ∈ dot_S1x4096_S1x1024_S4096x1024_0_0_1_1_n_n.rhsBatch from List.not_mem_nil),
          dif_pos (show (⟨1, by decide⟩ : Fin S1x1024.rank) ∈ dot_S1x4096_S1x1024_S4096x1024_0_0_1_1_n_n.rhsNonContracting from List.mem_singleton_self _)]
        rfl)
  rw [el, er]

/-- THE PAYLOAD AT AN ENTRY. -/
theorem k1_pay1_apply (xb : Vec Ideal S64x4096 .f32) (H : Vec Ideal S64x1024 .f32) (tb : Vec Ideal S1x4096 .f32)
    (B6 : Vec Ideal S1x1024 .f32) (r : Fin 4096) (b : Fin 1024) :
    k1_pay1 (F := Ideal) xb H tb B6 (ix2 r b)
      = ((∑ d : Fin 64, xb (ix2 d r) * H (ix2 d b)) + tb (ix2 0 r) * 1) + B6 (ix2 0 b) := by
  unfold k1_pay1
  simp only [shapeCast_self]
  rw [addf_apply, addf_apply]
  refine congrArg₂ (· + ·) (congrArg₂ (· + ·) (mm1_apply xb H r b) ?_) ?_
  · refine (mm2_apply tb _ r b).trans ?_
    rw [Fin.sum_univ_one, broadcast_apply]
    exact congrArg (tb (ix2 0 r) * ·) ofBits_one_f32
  · exact broadcastTo_apply B6 _ (ix2 r b) (ix2 0 b) (fun a => by
      match a with
      | ⟨0, _⟩ => rfl
      | ⟨1, _⟩ => rfl)

end Cert.KernelIdeal.Tc

end
-- ==== Proof.Bridge.lean ====
/-
  The kernel program's result and the reference's result are one array.

  Before its two kernels the kernel program flattens the two index columns (`kA0`, `kA1`), transposes the two tables
  (`kX2`, `kX3`) and flattens the first bias column (`kX4`). The first kernel leaves H(d, b) = X2(d, src b) ·
  X3(d, rel b) and HB(b) = X4(src b); the program lays HB out as a row (`kB6`) and the second bias column as a row
  (`kT7`). The second kernel leaves, on every block of 4096 rows, g(n, b) = (Σ_d xb(d, r) · H(d, b)) + tb(0, r) · 1 +
  B6(0, b) with xb, tb the block's columns of X2 and T7; the result is g transposed.

  At row b and column n, with n = 4096 t + r: under the precondition the index word of b is the number s of a row of
  the entity table and the relation word the number k of a row of the relation table, so X2(d, n) = ent(n, d),
  H(d, b) = ent(s, d) · rel(k, d), T7(0, n) = tail(n, 0), B6(0, b) = head(s, 0), and the kernel's entry is

      (Σ_d ent(n, d) · (ent(s, d) · rel(k, d))) + tail(n, 0) · 1 + head(s, 0),

  which is the reference's  (Σ_d (ent(s, d) · rel(k, d)) · ent(n, d)) + head(s, 0) + tail(n, 0)  by commutativity of
  the product under the sum, x · 1 = x, and commutativity of the sum; all of it holds on the extended reals, so no
  finiteness is asked.
-/
import proofs.«203358_g20435454394731_cont_8to1_1864_22_alg».proof.Proof.RefRead
import proofs.«203358_g20435454394731_cont_8to1_1864_22_alg».proof.Proof.ScPre
import proofs.«203358_g20435454394731_cont_8to1_1864_22_alg».proof.Proof.ScSetup
import proofs.«203358_g20435454394731_cont_8to1_1864_22_alg».proof.Proof.TcValue
import proofs.«203358_g20435454394731_cont_8to1_1864_22_alg».proof.Proof.TcPayload
import Idealize.ShloMosaic.Lib.ValueLayout

noncomputable section

open scoped BigOperators

namespace Cert.Bridge

open Cert.KernelIdeal Cert.KernelIdeal.Facts₀ Cert.KernelIdeal.Sc
open Idealize.ShloMosaic Idealize.ShloMosaic.ValueIdx

variable [Cert.KernelIdeal.Facts]

/-! ## What the kernel program computes before and between its kernels -/

section Terms
variable {F : FTy → Type}

/-- The entity words as a vector. -/
abbrev kA0 (a0 : IVec S1024x1 32) : IVec S1024 32 := shapeCast S1024 a0 shapeCasts_S1024x1_S1024
/-- The relation words as a vector. -/
abbrev kA1 (a1 : IVec S1024x1 32) : IVec S1024 32 := shapeCast S1024 a1 shapeCasts_S1024x1_S1024
/-- The entity table transposed. -/
abbrev kX2 (a2 : FVec F S100000x64 .f32) : FVec F S64x100000 .f32 := transpose S64x100000 [1, 0] a2 transposes_S100000x64_S64x100000_1_0
/-- The relation table transposed. -/
abbrev kX3 (a3 : FVec F S2000x64 .f32) : FVec F S64x2000 .f32 := transpose S64x2000 [1, 0] a3 transposes_S2000x64_S64x2000_1_0
/-- The first bias column as a vector. -/
abbrev kX4 (a4 : FVec F S100000x1 .f32) : FVec F S100000 .f32 := shapeCast S100000 a4 shapeCasts_S100000x1_S100000
/-- The gathered biases as a row. -/
abbrev kB6 (hb : FVec F S1024 .f32) : FVec F S1x1024 .f32 := shapeCast S1x1024 hb shapeCasts_S1024_S1x1024
/-- The second bias column as a row. -/
abbrev kT7 (a5 : FVec F S100000x1 .f32) : FVec F S1x100000 .f32 := shapeCast S1x100000 a5 shapeCasts_S100000x1_S1x100000

end Terms

/-! ## Layout operations read at an index -/

section Layout
variable {α : Type}

/-- An `[a, 1]` column cast to the row `[1, a]` reads, at `(0, i)`, the column at `(i, 0)`. -/
theorem shapeCast_a1_1a_apply {a : ℕ} (x : (⟨2, ![a, 1]⟩ : Shape).Idx → α)
    (h : (⟨2, ![a, 1]⟩ : Shape).ShapeCasts ⟨2, ![1, a]⟩) (i : Fin a) :
    shapeCast ⟨2, ![1, a]⟩ x h (ix2 (0 : Fin 1) i) = x (ix2 i (0 : Fin 1)) :=
  shapeCast_apply x h _ _ (by
    rw [Shape.rowMajor_val_two, Shape.rowMajor_val_two]
    show i.val * 1 + 0 = 0 * a + i.val
    rw [Nat.mul_one, Nat.add_zero, Nat.zero_mul, Nat.zero_add])

end Layout

/-! ## The index words as rows -/

/-- The row a word names, where the word is a row number. -/
theorem rowOf_ofNat {n : ℕ} [NeZero n] (hn : n ≤ 2 ^ 31) (r : Fin n) : rowOf n (BitVec.ofNat 32 r.val) = r := by
  have hr := r.isLt
  have ht : (BitVec.ofNat 32 r.val).toNat = r.val := by
    rw [BitVec.toNat_ofNat]; exact Nat.mod_eq_of_lt (by omega)
  rw [rowOf_of_lt (by rw [ht]; exact hr)]
  exact Fin.ext ht

/-! ## One entry of the second kernel's result -/

/-- The block specification at row `n`: the block's columns of the two streamed operands at `n`'s place in its block
    are the operands' columns `n`, and the result's row `n` is the payload's row there. -/
theorem tcSpec_apply {F : FTy → Type} [FloatOps F] {X2 : Vec F S64x100000 .f32} {H : Vec F S64x1024 .f32}
    {B6 : Vec F S1x1024 .f32} {T7 : Vec F S1x100000 .f32} {g8 : Vec F S100000x1024 .f32}
    (hg : Cert.KernelIdeal.Tc.TcSpec X2 H B6 T7 g8) (n : Fin 100000) (b : Fin 1024) :
    ∃ (xb : Vec F S64x4096 .f32) (tb : Vec F S1x4096 .f32) (r : Fin 4096),
      (∀ d : Fin 64, xb (ix2 d r) = X2 (ix2 d n)) ∧ tb (ix2 (0 : Fin 1) r) = T7 (ix2 (0 : Fin 1) n)
        ∧ g8 (ix2 n b) = Cert.KernelIdeal.Gen.k1_pay1 xb H tb B6 (ix2 r b) := by
  have hn := n.isLt
  have hdm := Nat.div_add_mod n.val 4096
  obtain ⟨xb, tb, hx, ht, hgv⟩ := hg ⟨n.val / 4096, by omega⟩
  have hlt : 4096 * (n.val / 4096) + n.val % 4096 < 100000 := by omega
  have hN : (⟨4096 * (n.val / 4096) + n.val % 4096, hlt⟩ : Fin 100000) = n := Fin.ext hdm
  refine ⟨xb, tb, ⟨n.val % 4096, Nat.mod_lt _ (by decide)⟩, fun d => ?_, ?_, ?_⟩
  · exact (hx d ⟨n.val % 4096, Nat.mod_lt _ (by decide)⟩ hlt).trans (congrArg (fun m => X2 (ix2 d m)) hN)
  · exact (ht ⟨n.val % 4096, Nat.mod_lt _ (by decide)⟩ hlt).trans (congrArg (fun m => T7 (ix2 (0 : Fin 1) m)) hN)
  · exact (congrArg (fun m => g8 (ix2 m b)) hN).symm.trans (hgv ⟨n.val % 4096, Nat.mod_lt _ (by decide)⟩ b hlt)

/-! ## The bridge -/

/-- THE KERNEL PROGRAM'S RESULT IS THE REFERENCE'S: under the precondition, whatever the second kernel leaves that meets
    its block specification over the first kernel's results, transposed, is `refVal` of the six arguments. -/
theorem bridge [Cert.Pre_input_domain.Facts] (a0 a1 : IVec S1024x1 32) (a2 : FVec Ideal S100000x64 .f32)
    (a3 : FVec Ideal S2000x64 .f32) (a4 a5 : FVec Ideal S100000x1 .f32)
    (hpre : Cert.Pre_input_domain.fn (F := Ideal) a0 a1 a2 a3 a4 a5 = fun _ => 1#1) (g8 : Vec Ideal S100000x1024 .f32)
    (hg : Cert.KernelIdeal.Tc.TcSpec (F := Ideal) (kX2 a2) (hrtVal (kA0 a0) (kA1 a1) (kX2 a2) (kX3 a3))
      (kB6 (hbVal (kA0 a0) (kX4 a4))) (kT7 a5) g8) :
    transpose S1024x100000 [1, 0] g8 transposes_S100000x1024_S1024x100000_1_0
      = Cert.ReferenceIdeal.Hand.refVal a0 a1 a2 a3 a4 a5 := by
  funext j
  obtain ⟨b, n, rfl⟩ : ∃ (b : Fin 1024) (n : Fin 100000), j = ix2 b n := ⟨j 0, j 1, eq_ix2 j⟩
  obtain ⟨s, hs⟩ := src_of_pre a0 a1 a2 a3 a4 a5 hpre b
  obtain ⟨k, hk⟩ := rel_of_pre a0 a1 a2 a3 a4 a5 hpre b
  obtain ⟨xb, tb, r, hx, ht, hgv⟩ := tcSpec_apply hg n b
  -- the index words of row b as rows of their tables
  have hA0 : kA0 a0 (ix1 b) = BitVec.ofNat 32 s.val :=
    (Cert.ReferenceIdeal.Hand.shapeCast_a1_a_apply a0 _ b).trans hs
  have hA1 : kA1 a1 (ix1 b) = BitVec.ofNat 32 k.val :=
    (Cert.ReferenceIdeal.Hand.shapeCast_a1_a_apply a1 _ b).trans hk
  have hrs : rowOf 100000 (kA0 a0 (ix1 b)) = s := by rw [hA0]; exact rowOf_ofNat (by norm_num) s
  have hrk : rowOf 2000 (kA1 a1 (ix1 b)) = k := by rw [hA1]; exact rowOf_ofNat (by norm_num) k
  -- the operands of the second kernel at the entries it reads
  have hX : ∀ d : Fin 64, xb (ix2 d r) = a2 (ix2 n d) := fun d =>
    (hx d).trans (transpose_ix2_apply a2 _ d n)
  have hT : tb (ix2 (0 : Fin 1) r) = a5 (ix2 n (0 : Fin 1)) := ht.trans (shapeCast_a1_1a_apply a5 _ n)
  have hH : ∀ d : Fin 64, hrtVal (kA0 a0) (kA1 a1) (kX2 a2) (kX3 a3) (ix2 d b) = a2 (ix2 s d) * a3 (ix2 k d) := fun d => by
    show FloatOps.mulf (kX2 a2 (ix2 d (rowOf 100000 (kA0 a0 (ix1 b))))) (kX3 a3 (ix2 d (rowOf 2000 (kA1 a1 (ix1 b))))) = _
    rw [hrs, hrk, Ideal.mulf_def]
    exact congrArg₂ (· * ·) (transpose_ix2_apply a2 _ d s) (transpose_ix2_apply a3 _ d k)
  have hB : kB6 (hbVal (kA0 a0) (kX4 a4)) (ix2 (0 : Fin 1) b) = a4 (ix2 s (0 : Fin 1)) := by
    refine (shapeCast_a_1a_apply _ _ (0 : Fin 1) b).trans ?_
    show kX4 a4 (ix1 (rowOf 100000 (kA0 a0 (ix1 b)))) = _
    rw [hrs]
    exact Cert.ReferenceIdeal.Hand.shapeCast_a1_a_apply a4 _ s
  rw [Cert.ReferenceIdeal.Hand.refVal_apply a0 a1 a2 a3 a4 a5 b n s k hs hk, transpose_ix2_apply g8 _ b n, hgv,
    Cert.KernelIdeal.Tc.k1_pay1_apply, hT, hB, mul_one, add_right_comm]
  refine congrArg (fun x => x + a4 (ix2 s (0 : Fin 1)) + a5 (ix2 n (0 : Fin 1))) (Finset.sum_congr rfl fun d _ => ?_)
  rw [hX d, hH d, mul_comm]

end Cert.Bridge

end
-- ==== Proof.Claims.lean ====
/-
  The five conjuncts.  Both printed copies of the kernel program run to the end with their arguments unchanged: the
  program's run (the SparseCore launch theorem over the workers' tasks and @main) with its value forgotten, the index
  words in range by the precondition.  The reference runs by its own host operations.  The ideal pass rewrote nothing,
  so there is nothing to preserve.  On the extended reals the kernel's result, the transpose of the TensorCore region's
  array over the workers' products and biases, is the reference's: entry (b, n) is on both sides
  sum_d ent[n,d] (ent[src b,d] rel[rel b,d]) + tail[n] + head[src b], the two sides differing only in the order of
  commutative sums and products.
-/
import proofs.«203358_g20435454394731_cont_8to1_1864_22_alg».proof.Defs
import proofs.«203358_g20435454394731_cont_8to1_1864_22_alg».proof.Proof.ScLaunch
import proofs.«203358_g20435454394731_cont_8to1_1864_22_alg».proof.Proof.Bits.ScLaunch
import proofs.«203358_g20435454394731_cont_8to1_1864_22_alg».proof.Proof.ScOk
import proofs.«203358_g20435454394731_cont_8to1_1864_22_alg».proof.Proof.Bits.ScOk
import proofs.«203358_g20435454394731_cont_8to1_1864_22_alg».proof.Proof.RefRun
import proofs.«203358_g20435454394731_cont_8to1_1864_22_alg».proof.Proof.Bridge

noncomputable section

namespace Cert.Proof.Claims

open Idealize.ShloMosaic Idealize.ShloMosaic.TcCoe Idealize.SL.Sem

theorem frame_k : Cert.frame_Kernel (hKernel := Cert.Kernel.Gen.facts) (hPre_input_domain := Cert.Pre_input_domain.Gen.facts) :=
  fun m g hpre =>
    (θ_run (Cert.Kernel.defs (F := Bits)) _ _).mono (fun _ h c => ⟨(h c).1, (h c).2.1, (h c).2.2.1, (h c).2.2.2.1, (h c).2.2.2.2.1, (h c).2.2.2.2.2.1⟩)
      (Cert.Kernel.Sc.run_main (F := Bits) m g (fun d => Cert.Kernel.Sc.cm_ok m d (hpre d)))

theorem frame_ki : Cert.frame_KernelIdeal (hKernelIdeal := Cert.KernelIdeal.Gen.facts) (hPre_input_domain := Cert.Pre_input_domain.Gen.facts) :=
  fun m g hpre =>
    (θ_run (Cert.KernelIdeal.defs (F := Ideal)) _ _).mono (fun _ h c => ⟨(h c).1, (h c).2.1, (h c).2.2.1, (h c).2.2.2.1, (h c).2.2.2.2.1, (h c).2.2.2.2.2.1⟩)
      (Cert.KernelIdeal.Sc.run_main (F := Ideal) m g (fun d => Cert.KernelIdeal.Sc.cm_ok m d (hpre d)))

theorem frame_ri : Cert.frame_ReferenceIdeal (hReferenceIdeal := Cert.ReferenceIdeal.Gen.facts) (hPre_input_domain := Cert.Pre_input_domain.Gen.facts) :=
  fun m g _ =>
    (θ_run (Cert.ReferenceIdeal.defs (F := Ideal)) _ _).mono (fun _ h c => (h c).2) (Cert.ReferenceIdeal.Hand.run m g)

theorem preserves : Cert.preserves_Kernel_KernelIdeal := trivial

theorem algebraic : Cert.algebraic_KernelIdeal_ReferenceIdeal (hKernelIdeal := Cert.KernelIdeal.Gen.facts)
    (hReferenceIdeal := Cert.ReferenceIdeal.Gen.facts) (hPre_input_domain := Cert.Pre_input_domain.Gen.facts) := by
  intro m g m' g' hpre hagree
  refine ⟨fun c => Cert.ReferenceIdeal.Hand.refVal
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5)), ?_, ?_⟩
  · refine (θ_run (Cert.KernelIdeal.defs (F := Ideal)) _ _).mono (fun r h c => ?_)
      (Cert.KernelIdeal.Sc.run_main (F := Ideal) m g (fun d => Cert.KernelIdeal.Sc.cm_ok m d (hpre d)))
    obtain ⟨h0, h1, h2, h3, h4, h5, g8, hspec, hv9⟩ := h c
    refine ⟨?_, h0, h1, h2, h3, h4, h5⟩
    rw [hv9]
    exact Cert.Bridge.bridge _ _ _ _ _ _ (hpre c) g8 hspec
  · refine (θ_run (Cert.ReferenceIdeal.defs (F := Ideal)) _ _).mono (fun r h c => ?_) (Cert.ReferenceIdeal.Hand.run m' g')
    obtain ⟨hv, hargs⟩ := h c
    refine ⟨?_, hargs⟩
    rw [hv, (hagree c).1, (hagree c).2.1, (hagree c).2.2.1, (hagree c).2.2.2.1, (hagree c).2.2.2.2.1, (hagree c).2.2.2.2.2]

end Cert.Proof.Claims

end
-- ==== Proof.lean ====
/-
  The certificate's claim: the two printed copies of the kernel program and the reference run to the end with their
  arguments unchanged, the ideal pass rewrote nothing, and on the extended reals the kernel's result is the
  reference's.  The kernel is a SparseCore gather (thirty-two workers form the products
  ent^T[d, src b] * rel^T[d, rel b] and gather head_bias[src b]) followed by a TensorCore matmul over blocks of 4096
  entities that adds the tail bias column and the head bias row; the reference is
  (ent[src] * rel_embed[rel]) @ ent^T + head_bias[src] + tail_bias^T.  The conjuncts are proved in Proof/Claims.lean;
  here they are put together under the programs' stated side conditions.
-/
import proofs.«203358_g20435454394731_cont_8to1_1864_22_alg».proof.Defs
import proofs.«203358_g20435454394731_cont_8to1_1864_22_alg».proof.Proof.Claims
import proofs.«203358_g20435454394731_cont_8to1_1864_22_alg».proof.Proof.Gen.Kernel
import proofs.«203358_g20435454394731_cont_8to1_1864_22_alg».proof.Proof.Gen.KernelIdeal
import proofs.«203358_g20435454394731_cont_8to1_1864_22_alg».proof.Proof.Gen.ReferenceIdeal
import proofs.«203358_g20435454394731_cont_8to1_1864_22_alg».proof.Proof.Gen.Pre_input_domain

noncomputable section

namespace Cert.Proof

theorem claim : Cert.Claim :=
  ⟨Cert.Kernel.Gen.facts, Cert.KernelIdeal.Gen.facts, Cert.ReferenceIdeal.Gen.facts, Cert.Pre_input_domain.Gen.facts,
    Claims.frame_k, Claims.frame_ki, Claims.frame_ri, Claims.preserves, Claims.algebraic⟩

end Cert.Proof

end
